-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x1024x3 : Shape := ⟨4, ![64, 128, 1024, 3]⟩
abbrev S64 : Shape := ⟨1, ![64]⟩
abbrev S_ : Shape := ⟨0, ![]⟩

class Facts : Prop where
  bcast_S_S64x128x1024x3 : S_.BroadcastsInDim S64x128x1024x3 (![] : Fin 0 → Fin S64x128x1024x3.rank)
  reducesTo_S64x128x1024x3_S_d0_1_2_3 : S64x128x1024x3.ReducesTo [0, 1, 2, 3] S_
  h_S_ : 0 < S_.numel
  bcast_S_S64 : S_.BroadcastsInDim S64 (![] : Fin 0 → Fin S64.rank)
  reducesTo_S64_S_d0 : S64.ReducesTo [0] S_
  reducesTo_S_S_d : S_.ReducesTo [] S_

variable [Facts]

def fn {F : FTy → Type} [FloatOps F] (main_arg0 : FVec F S64x128x1024x3 .f32) (main_arg1 : FVec F S64 .f32) (main_arg2 : FVec F S_ .f32) : IVec S_ 1 :=
  let main_v0 : FVec F S64x128x1024x3 .f32 := Host.absf main_arg0
  let main_cst : FVec F S_ .f32 := constant S_ .f32 0x7F800000#32
  let main_v1 : FVec F S64x128x1024x3 .f32 := broadcastInDim S64x128x1024x3 ![] bcast_S_S64x128x1024x3 main_cst
  let main_v2 : IVec S64x128x1024x3 1 := cmpf .olt main_v0 main_v1
  let main_c : IVec S_ 1 := constantI S_ 1 1#1
  let main_v3 : IVec S_ 1 := (fun x v => Host.reduce IntOp.andi x v reducesTo_S64x128x1024x3_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S64x128x1024x3 : Shape := ⟨4, ![64, 128, 1024, 3]⟩
abbrev S64 : Shape := ⟨1, ![64]⟩
abbrev S_ : Shape := ⟨0, ![]⟩
abbrev S64x3x128x1024 : Shape := ⟨4, ![64, 3, 128, 1024]⟩
abbrev S32x16 : Shape := ⟨2, ![32, 16]⟩
abbrev S8x1024 : Shape := ⟨2, ![8, 1024]⟩
abbrev S16 : Shape := ⟨1, ![16]⟩
abbrev S1x1x8x1024 : Shape := ⟨4, ![1, 1, 8, 1024]⟩
abbrev S1x16 : Shape := ⟨2, ![1, 16]⟩
abbrev S32 : Shape := ⟨1, ![32]⟩
abbrev S1x3x128x1024 : Shape := ⟨4, ![1, 3, 128, 1024]⟩
abbrev S1x1x128x1024 : Shape := ⟨4, ![1, 1, 128, 1024]⟩
abbrev S128x1024 : Shape := ⟨2, ![128, 1024]⟩
abbrev S1 : Shape := ⟨1, ![1]⟩
abbrev S1x128x1024 : Shape := ⟨3, ![1, 128, 1024]⟩
abbrev S1x1x1 : Shape := ⟨3, ![1, 1, 1]⟩

abbrev nBuf : Table → Nat
  | .hbm => 11
  | .local .tc .vmem => 9
  | .local .tc .smem => 3
  | .local .scVector .vmem => 11
  | _ => 0

abbrev bufTy : (tb : Table) → Fin (nBuf tb) → BufTy
  | .hbm, ⟨0, _⟩ => ⟨S64x128x1024x3, .f32⟩
  | .hbm, ⟨1, _⟩ => ⟨S64, .f32⟩
  | .hbm, ⟨2, _⟩ => ⟨S_, .f32⟩
  | .hbm, ⟨3, _⟩ => ⟨S64x3x128x1024, .f32⟩
  | .hbm, ⟨4, _⟩ => ⟨S32x16, .f32⟩
  | .hbm, ⟨5, _⟩ => ⟨S32, .f32⟩
  | .hbm, ⟨6, _⟩ => ⟨S1, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .local .tc .vmem, ⟨0, _⟩ => ⟨S1x3x128x1024, .f32⟩
  | .local .tc .vmem, ⟨1, _⟩ => ⟨S1x3x128x1024, .f32⟩
  | .local .tc .vmem, ⟨2, _⟩ => ⟨S32x16, .f32⟩
  | .local .tc .vmem, ⟨3, _⟩ => ⟨S32, .f32⟩
  | .local .tc .vmem, ⟨4, _⟩ => ⟨S64, .f32⟩
  | .local .tc .vmem, ⟨5, _⟩ => ⟨S64, .f32⟩
  | .local .tc .vmem, ⟨6, _⟩ => ⟨S64, .f32⟩
  | .local .tc .vmem, ⟨7, _⟩ => ⟨S64, .f32⟩
  | .local .tc .vmem, ⟨8, _⟩ => ⟨S64, .f32⟩
  | .local .tc .smem, ⟨0, _⟩ => ⟨S64, .f32⟩
  | .local .tc .smem, ⟨1, _⟩ => ⟨S32, .f32⟩
  | .local .tc .smem, ⟨2, _⟩ => ⟨S1, .f32⟩
  | .local .scVector .vmem, ⟨0, _⟩ => ⟨S64, .f32⟩
  | .local .scVector .vmem, ⟨1, _⟩ => ⟨S8x1024, .f32⟩
  | .local .scVector .vmem, ⟨2, _⟩ => ⟨S8x1024, .f32⟩
  | .local .scVector .vmem, ⟨3, _⟩ => ⟨S8x1024, .f32⟩
  | .local .scVector .vmem, ⟨4, _⟩ => ⟨S8x1024, .f32⟩
  | .local .scVector .vmem, ⟨5, _⟩ => ⟨S8x1024, .f32⟩
  | .local .scVector .vmem, ⟨6, _⟩ => ⟨S8x1024, .f32⟩
  | .local .scVector .vmem, ⟨7, _⟩ => ⟨S8x1024, .f32⟩
  | .local .scVector .vmem, ⟨8, _⟩ => ⟨S8x1024, .f32⟩
  | .local .scVector .vmem, ⟨9, _⟩ => ⟨S8x1024, .f32⟩
  | .local .scVector .vmem, ⟨10, _⟩ => ⟨S16, .f32⟩
  | _, _ => ⟨S64x128x1024x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v0_scv : Ref sig .scVector := ⟨.hbm, 3, rfl⟩
abbrev main_arg1_scv : Ref sig .scVector := ⟨.hbm, 1, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc2_stg0_0 : Ref sig .tc := ⟨.vmem, 2, rfl⟩
abbrev cc2_stg1_0 : Ref sig .tc := ⟨.vmem, 3, rfl⟩
abbrev cc2_stg2_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg6_0 : Ref sig .tc := ⟨.vmem, 7, rfl⟩
abbrev cc2_stg7_0 : Ref sig .tc := ⟨.vmem, 8, rfl⟩
abbrev cc1_stg1_0 : Ref sig .tc := ⟨.smem, 0, rfl⟩
abbrev cc1_stg2_0 : Ref sig .tc := ⟨.smem, 1, rfl⟩
abbrev cc2_stg3_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev cc2_sem5_0 : DmaSem sig := 14
abbrev cc2_sem6_0 : DmaSem sig := 15
abbrev cc2_sem7_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v2 : IVec S16 32) : Prop :=
  (∀ a x, ((![v2] : Fin 1 → IVec S16 32) a x).toNat < S64.size a)
instance k0_chk1.dec : ∀ (v2 : IVec S16 32), Decidable (k0_chk1 v2) := fun v2 => decidable_of_iff' _ (Iff.of_eq (k0_chk1.eq_1 v2))
theorem k0_idx1_inb : ∀ (v2 : IVec S16 32) (k0_hw1 : k0_chk1 v2), ∀ a x, ((![v2] : Fin 1 → IVec S16 32) a x).toNat < S64.size a := fun v2 k0_hw1 => k0_hw1
def k0_off1 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_4 : BitVec 32 := 0#32
  let c0_i32_5 : BitVec 32 := 0#32
  ![v1.toNat, 0, 0, 0]
def k0_off2 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32 : BitVec 32 := 1#32
  let c0_i32_8 : BitVec 32 := 0#32
  let c0_i32_9 : BitVec 32 := 0#32
  ![v1.toNat, 1, 0, 0]
def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_13 : BitVec 32 := 0#32
  let c0_i32_14 : BitVec 32 := 0#32
  ![v1.toNat, 2, 0, 0]
def k0_off4 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_17 : BitVec 32 := 0#32
  let c8_i32 : BitVec 32 := 8#32
  let c0_i32_18 : BitVec 32 := 0#32
  ![v1.toNat, 0, 8, 0]
def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_21 : BitVec 32 := 1#32
  let c8_i32_22 : BitVec 32 := 8#32
  let c0_i32_23 : BitVec 32 := 0#32
  ![v1.toNat, 1, 8, 0]
def k0_off6 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_26 : BitVec 32 := 2#32
  let c8_i32_27 : BitVec 32 := 8#32
  let c0_i32_28 : BitVec 32 := 0#32
  ![v1.toNat, 2, 8, 0]
def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_31 : BitVec 32 := 0#32
  let c16_i32 : BitVec 32 := 16#32
  let c0_i32_32 : BitVec 32 := 0#32
  ![v1.toNat, 0, 16, 0]
def k0_off8 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_35 : BitVec 32 := 1#32
  let c16_i32_36 : BitVec 32 := 16#32
  let c0_i32_37 : BitVec 32 := 0#32
  ![v1.toNat, 1, 16, 0]
def k0_off9 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_40 : BitVec 32 := 2#32
  let c16_i32_41 : BitVec 32 := 16#32
  let c0_i32_42 : BitVec 32 := 0#32
  ![v1.toNat, 2, 16, 0]
@[reducible] def k0_t1_loop : Scf.Loop 32 :=
  let c0_i32_60 : BitVec 32 := 0#32
  let c8_i32_61 : BitVec 32 := 8#32
  let v59 : BitVec 32 := Scalar.addi c0_i32_60 c8_i32_61
  let c1_i32_62 : BitVec 32 := 1#32
  ⟨c0_i32_60, v59, c1_i32_62⟩
@[reducible] def k0_t2_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off10 (k0_t1 : Fin k0_t1_loop.trips) (k0_t2 : Fin k0_t2_loop.trips) (c0_i32_535 : BitVec 32) : Fin 2 → Nat :=
  let c0_i32_60 : BitVec 32 := 0#32
  let c1_i32_62 : BitVec 32 := 1#32
  let arg19 : BitVec 32 := Scf.iv c0_i32_60 c1_i32_62 k0_t1
  let v435 : Index := Scalar.indexCast arg19
  let c0_i32_531 : BitVec 32 := 0#32
  let c1_i32_533 : BitVec 32 := 1#32
  let arg24 : BitVec 32 := Scf.iv c0_i32_531 c1_i32_533 k0_t2
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off11 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_64 : BitVec 32 := 0#32
  let c24_i32 : BitVec 32 := 24#32
  let c0_i32_65 : BitVec 32 := 0#32
  ![v1.toNat, 0, 24, 0]
def k0_off12 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_68 : BitVec 32 := 1#32
  let c24_i32_69 : BitVec 32 := 24#32
  let c0_i32_70 : BitVec 32 := 0#32
  ![v1.toNat, 1, 24, 0]
def k0_off13 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_73 : BitVec 32 := 2#32
  let c24_i32_74 : BitVec 32 := 24#32
  let c0_i32_75 : BitVec 32 := 0#32
  ![v1.toNat, 2, 24, 0]
@[reducible] def k0_t3_loop : Scf.Loop 32 :=
  let c0_i32_93 : BitVec 32 := 0#32
  let c8_i32_94 : BitVec 32 := 8#32
  let v85 : BitVec 32 := Scalar.addi c0_i32_93 c8_i32_94
  let c1_i32_95 : BitVec 32 := 1#32
  ⟨c0_i32_93, v85, c1_i32_95⟩
@[reducible] def k0_t4_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off14 (k0_t3 : Fin k0_t3_loop.trips) (k0_t4 : Fin k0_t4_loop.trips) (c0_i32_535 : BitVec 32) : Fin 2 → Nat :=
  let c0_i32_93 : BitVec 32 := 0#32
  let c1_i32_95 : BitVec 32 := 1#32
  let arg19 : BitVec 32 := Scf.iv c0_i32_93 c1_i32_95 k0_t3
  let v435 : Index := Scalar.indexCast arg19
  let c0_i32_531 : BitVec 32 := 0#32
  let c1_i32_533 : BitVec 32 := 1#32
  let arg24 : BitVec 32 := Scf.iv c0_i32_531 c1_i32_533 k0_t4
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off15 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_97 : BitVec 32 := 0#32
  let c32_i32 : BitVec 32 := 32#32
  let c0_i32_98 : BitVec 32 := 0#32
  ![v1.toNat, 0, 32, 0]
def k0_off16 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_101 : BitVec 32 := 1#32
  let c32_i32_102 : BitVec 32 := 32#32
  let c0_i32_103 : BitVec 32 := 0#32
  ![v1.toNat, 1, 32, 0]
def k0_off17 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_106 : BitVec 32 := 2#32
  let c32_i32_107 : BitVec 32 := 32#32
  let c0_i32_108 : BitVec 32 := 0#32
  ![v1.toNat, 2, 32, 0]
@[reducible] def k0_t5_loop : Scf.Loop 32 :=
  let c0_i32_126 : BitVec 32 := 0#32
  let c8_i32_127 : BitVec 32 := 8#32
  let v111 : BitVec 32 := Scalar.addi c0_i32_126 c8_i32_127
  let c1_i32_128 : BitVec 32 := 1#32
  ⟨c0_i32_126, v111, c1_i32_128⟩
@[reducible] def k0_t6_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off18 (k0_t5 : Fin k0_t5_loop.trips) (k0_t6 : Fin k0_t6_loop.trips) (c0_i32_535 : BitVec 32) : Fin 2 → Nat :=
  let c0_i32_126 : BitVec 32 := 0#32
  let c1_i32_128 : BitVec 32 := 1#32
  let arg19 : BitVec 32 := Scf.iv c0_i32_126 c1_i32_128 k0_t5
  let v435 : Index := Scalar.indexCast arg19
  let c0_i32_531 : BitVec 32 := 0#32
  let c1_i32_533 : BitVec 32 := 1#32
  let arg24 : BitVec 32 := Scf.iv c0_i32_531 c1_i32_533 k0_t6
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off19 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_130 : BitVec 32 := 0#32
  let c40_i32 : BitVec 32 := 40#32
  let c0_i32_131 : BitVec 32 := 0#32
  ![v1.toNat, 0, 40, 0]
def k0_off20 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_134 : BitVec 32 := 1#32
  let c40_i32_135 : BitVec 32 := 40#32
  let c0_i32_136 : BitVec 32 := 0#32
  ![v1.toNat, 1, 40, 0]
def k0_off21 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_139 : BitVec 32 := 2#32
  let c40_i32_140 : BitVec 32 := 40#32
  let c0_i32_141 : BitVec 32 := 0#32
  ![v1.toNat, 2, 40, 0]
@[reducible] def k0_t7_loop : Scf.Loop 32 :=
  let c0_i32_159 : BitVec 32 := 0#32
  let c8_i32_160 : BitVec 32 := 8#32
  let v137 : BitVec 32 := Scalar.addi c0_i32_159 c8_i32_160
  let c1_i32_161 : BitVec 32 := 1#32
  ⟨c0_i32_159, v137, c1_i32_161⟩
@[reducible] def k0_t8_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off22 (k0_t7 : Fin k0_t7_loop.trips) (k0_t8 : Fin k0_t8_loop.trips) (c0_i32_535 : BitVec 32) : Fin 2 → Nat :=
  let c0_i32_159 : BitVec 32 := 0#32
  let c1_i32_161 : BitVec 32 := 1#32
  let arg19 : BitVec 32 := Scf.iv c0_i32_159 c1_i32_161 k0_t7
  let v435 : Index := Scalar.indexCast arg19
  let c0_i32_531 : BitVec 32 := 0#32
  let c1_i32_533 : BitVec 32 := 1#32
  let arg24 : BitVec 32 := Scf.iv c0_i32_531 c1_i32_533 k0_t8
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off23 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_163 : BitVec 32 := 0#32
  let c48_i32 : BitVec 32 := 48#32
  let c0_i32_164 : BitVec 32 := 0#32
  ![v1.toNat, 0, 48, 0]
def k0_off24 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_167 : BitVec 32 := 1#32
  let c48_i32_168 : BitVec 32 := 48#32
  let c0_i32_169 : BitVec 32 := 0#32
  ![v1.toNat, 1, 48, 0]
def k0_off25 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_172 : BitVec 32 := 2#32
  let c48_i32_173 : BitVec 32 := 48#32
  let c0_i32_174 : BitVec 32 := 0#32
  ![v1.toNat, 2, 48, 0]
@[reducible] def k0_t9_loop : Scf.Loop 32 :=
  let c0_i32_192 : BitVec 32 := 0#32
  let c8_i32_193 : BitVec 32 := 8#32
  let v163 : BitVec 32 := Scalar.addi c0_i32_192 c8_i32_193
  let c1_i32_194 : BitVec 32 := 1#32
  ⟨c0_i32_192, v163, c1_i32_194⟩
@[reducible] def k0_t10_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off26 (k0_t9 : Fin k0_t9_loop.trips) (k0_t10 : Fin k0_t10_loop.trips) (c0_i32_535 : BitVec 32) : Fin 2 → Nat :=
  let c0_i32_192 : BitVec 32 := 0#32
  let c1_i32_194 : BitVec 32 := 1#32
  let arg19 : BitVec 32 := Scf.iv c0_i32_192 c1_i32_194 k0_t9
  let v435 : Index := Scalar.indexCast arg19
  let c0_i32_531 : BitVec 32 := 0#32
  let c1_i32_533 : BitVec 32 := 1#32
  let arg24 : BitVec 32 := Scf.iv c0_i32_531 c1_i32_533 k0_t10
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off27 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_196 : BitVec 32 := 0#32
  let c56_i32 : BitVec 32 := 56#32
  let c0_i32_197 : BitVec 32 := 0#32
  ![v1.toNat, 0, 56, 0]
def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_200 : BitVec 32 := 1#32
  let c56_i32_201 : BitVec 32 := 56#32
  let c0_i32_202 : BitVec 32 := 0#32
  ![v1.toNat, 1, 56, 0]
def k0_off29 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_205 : BitVec 32 := 2#32
  let c56_i32_206 : BitVec 32 := 56#32
  let c0_i32_207 : BitVec 32 := 0#32
  ![v1.toNat, 2, 56, 0]
@[reducible] def k0_t11_loop : Scf.Loop 32 :=
  let c0_i32_225 : BitVec 32 := 0#32
  let c8_i32_226 : BitVec 32 := 8#32
  let v189 : BitVec 32 := Scalar.addi c0_i32_225 c8_i32_226
  let c1_i32_227 : BitVec 32 := 1#32
  ⟨c0_i32_225, v189, c1_i32_227⟩
@[reducible] def k0_t12_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off30 (k0_t11 : Fin k0_t11_loop.trips) (k0_t12 : Fin k0_t12_loop.trips) (c0_i32_535 : BitVec 32) : Fin 2 → Nat :=
  let c0_i32_225 : BitVec 32 := 0#32
  let c1_i32_227 : BitVec 32 := 1#32
  let arg19 : BitVec 32 := Scf.iv c0_i32_225 c1_i32_227 k0_t11
  let v435 : Index := Scalar.indexCast arg19
  let c0_i32_531 : BitVec 32 := 0#32
  let c1_i32_533 : BitVec 32 := 1#32
  let arg24 : BitVec 32 := Scf.iv c0_i32_531 c1_i32_533 k0_t12
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off31 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_229 : BitVec 32 := 0#32
  let c64_i32 : BitVec 32 := 64#32
  let c0_i32_230 : BitVec 32 := 0#32
  ![v1.toNat, 0, 64, 0]
def k0_off32 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_233 : BitVec 32 := 1#32
  let c64_i32_234 : BitVec 32 := 64#32
  let c0_i32_235 : BitVec 32 := 0#32
  ![v1.toNat, 1, 64, 0]
def k0_off33 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_238 : BitVec 32 := 2#32
  let c64_i32_239 : BitVec 32 := 64#32
  let c0_i32_240 : BitVec 32 := 0#32
  ![v1.toNat, 2, 64, 0]
@[reducible] def k0_t13_loop : Scf.Loop 32 :=
  let c0_i32_258 : BitVec 32 := 0#32
  let c8_i32_259 : BitVec 32 := 8#32
  let v215 : BitVec 32 := Scalar.addi c0_i32_258 c8_i32_259
  let c1_i32_260 : BitVec 32 := 1#32
  ⟨c0_i32_258, v215, c1_i32_260⟩
@[reducible] def k0_t14_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off34 (k0_t13 : Fin k0_t13_loop.trips) (k0_t14 : Fin k0_t14_loop.trips) (c0_i32_535 : BitVec 32) : Fin 2 → Nat :=
  let c0_i32_258 : BitVec 32 := 0#32
  let c1_i32_260 : BitVec 32 := 1#32
  let arg19 : BitVec 32 := Scf.iv c0_i32_258 c1_i32_260 k0_t13
  let v435 : Index := Scalar.indexCast arg19
  let c0_i32_531 : BitVec 32 := 0#32
  let c1_i32_533 : BitVec 32 := 1#32
  let arg24 : BitVec 32 := Scf.iv c0_i32_531 c1_i32_533 k0_t14
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off35 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_262 : BitVec 32 := 0#32
  let c72_i32 : BitVec 32 := 72#32
  let c0_i32_263 : BitVec 32 := 0#32
  ![v1.toNat, 0, 72, 0]
def k0_off36 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_266 : BitVec 32 := 1#32
  let c72_i32_267 : BitVec 32 := 72#32
  let c0_i32_268 : BitVec 32 := 0#32
  ![v1.toNat, 1, 72, 0]
def k0_off37 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_271 : BitVec 32 := 2#32
  let c72_i32_272 : BitVec 32 := 72#32
  let c0_i32_273 : BitVec 32 := 0#32
  ![v1.toNat, 2, 72, 0]
@[reducible] def k0_t15_loop : Scf.Loop 32 :=
  let c0_i32_291 : BitVec 32 := 0#32
  let c8_i32_292 : BitVec 32 := 8#32
  let v241 : BitVec 32 := Scalar.addi c0_i32_291 c8_i32_292
  let c1_i32_293 : BitVec 32 := 1#32
  ⟨c0_i32_291, v241, c1_i32_293⟩
@[reducible] def k0_t16_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off38 (k0_t15 : Fin k0_t15_loop.trips) (k0_t16 : Fin k0_t16_loop.trips) (c0_i32_535 : BitVec 32) : Fin 2 → Nat :=
  let c0_i32_291 : BitVec 32 := 0#32
  let c1_i32_293 : BitVec 32 := 1#32
  let arg19 : BitVec 32 := Scf.iv c0_i32_291 c1_i32_293 k0_t15
  let v435 : Index := Scalar.indexCast arg19
  let c0_i32_531 : BitVec 32 := 0#32
  let c1_i32_533 : BitVec 32 := 1#32
  let arg24 : BitVec 32 := Scf.iv c0_i32_531 c1_i32_533 k0_t16
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off39 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_295 : BitVec 32 := 0#32
  let c80_i32 : BitVec 32 := 80#32
  let c0_i32_296 : BitVec 32 := 0#32
  ![v1.toNat, 0, 80, 0]
def k0_off40 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_299 : BitVec 32 := 1#32
  let c80_i32_300 : BitVec 32 := 80#32
  let c0_i32_301 : BitVec 32 := 0#32
  ![v1.toNat, 1, 80, 0]
def k0_off41 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_304 : BitVec 32 := 2#32
  let c80_i32_305 : BitVec 32 := 80#32
  let c0_i32_306 : BitVec 32 := 0#32
  ![v1.toNat, 2, 80, 0]
@[reducible] def k0_t17_loop : Scf.Loop 32 :=
  let c0_i32_324 : BitVec 32 := 0#32
  let c8_i32_325 : BitVec 32 := 8#32
  let v267 : BitVec 32 := Scalar.addi c0_i32_324 c8_i32_325
  let c1_i32_326 : BitVec 32 := 1#32
  ⟨c0_i32_324, v267, c1_i32_326⟩
@[reducible] def k0_t18_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off42 (k0_t17 : Fin k0_t17_loop.trips) (k0_t18 : Fin k0_t18_loop.trips) (c0_i32_535 : BitVec 32) : Fin 2 → Nat :=
  let c0_i32_324 : BitVec 32 := 0#32
  let c1_i32_326 : BitVec 32 := 1#32
  let arg19 : BitVec 32 := Scf.iv c0_i32_324 c1_i32_326 k0_t17
  let v435 : Index := Scalar.indexCast arg19
  let c0_i32_531 : BitVec 32 := 0#32
  let c1_i32_533 : BitVec 32 := 1#32
  let arg24 : BitVec 32 := Scf.iv c0_i32_531 c1_i32_533 k0_t18
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off43 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_328 : BitVec 32 := 0#32
  let c88_i32 : BitVec 32 := 88#32
  let c0_i32_329 : BitVec 32 := 0#32
  ![v1.toNat, 0, 88, 0]
def k0_off44 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_332 : BitVec 32 := 1#32
  let c88_i32_333 : BitVec 32 := 88#32
  let c0_i32_334 : BitVec 32 := 0#32
  ![v1.toNat, 1, 88, 0]
def k0_off45 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_337 : BitVec 32 := 2#32
  let c88_i32_338 : BitVec 32 := 88#32
  let c0_i32_339 : BitVec 32 := 0#32
  ![v1.toNat, 2, 88, 0]
@[reducible] def k0_t19_loop : Scf.Loop 32 :=
  let c0_i32_357 : BitVec 32 := 0#32
  let c8_i32_358 : BitVec 32 := 8#32
  let v293 : BitVec 32 := Scalar.addi c0_i32_357 c8_i32_358
  let c1_i32_359 : BitVec 32 := 1#32
  ⟨c0_i32_357, v293, c1_i32_359⟩
@[reducible] def k0_t20_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off46 (k0_t19 : Fin k0_t19_loop.trips) (k0_t20 : Fin k0_t20_loop.trips) (c0_i32_535 : BitVec 32) : Fin 2 → Nat :=
  let c0_i32_357 : BitVec 32 := 0#32
  let c1_i32_359 : BitVec 32 := 1#32
  let arg19 : BitVec 32 := Scf.iv c0_i32_357 c1_i32_359 k0_t19
  let v435 : Index := Scalar.indexCast arg19
  let c0_i32_531 : BitVec 32 := 0#32
  let c1_i32_533 : BitVec 32 := 1#32
  let arg24 : BitVec 32 := Scf.iv c0_i32_531 c1_i32_533 k0_t20
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off47 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_361 : BitVec 32 := 0#32
  let c96_i32 : BitVec 32 := 96#32
  let c0_i32_362 : BitVec 32 := 0#32
  ![v1.toNat, 0, 96, 0]
def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_365 : BitVec 32 := 1#32
  let c96_i32_366 : BitVec 32 := 96#32
  let c0_i32_367 : BitVec 32 := 0#32
  ![v1.toNat, 1, 96, 0]
def k0_off49 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_370 : BitVec 32 := 2#32
  let c96_i32_371 : BitVec 32 := 96#32
  let c0_i32_372 : BitVec 32 := 0#32
  ![v1.toNat, 2, 96, 0]
@[reducible] def k0_t21_loop : Scf.Loop 32 :=
  let c0_i32_390 : BitVec 32 := 0#32
  let c8_i32_391 : BitVec 32 := 8#32
  let v319 : BitVec 32 := Scalar.addi c0_i32_390 c8_i32_391
  let c1_i32_392 : BitVec 32 := 1#32
  ⟨c0_i32_390, v319, c1_i32_392⟩
@[reducible] def k0_t22_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off50 (k0_t21 : Fin k0_t21_loop.trips) (k0_t22 : Fin k0_t22_loop.trips) (c0_i32_535 : BitVec 32) : Fin 2 → Nat :=
  let c0_i32_390 : BitVec 32 := 0#32
  let c1_i32_392 : BitVec 32 := 1#32
  let arg19 : BitVec 32 := Scf.iv c0_i32_390 c1_i32_392 k0_t21
  let v435 : Index := Scalar.indexCast arg19
  let c0_i32_531 : BitVec 32 := 0#32
  let c1_i32_533 : BitVec 32 := 1#32
  let arg24 : BitVec 32 := Scf.iv c0_i32_531 c1_i32_533 k0_t22
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off51 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_394 : BitVec 32 := 0#32
  let c104_i32 : BitVec 32 := 104#32
  let c0_i32_395 : BitVec 32 := 0#32
  ![v1.toNat, 0, 104, 0]
def k0_off52 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_398 : BitVec 32 := 1#32
  let c104_i32_399 : BitVec 32 := 104#32
  let c0_i32_400 : BitVec 32 := 0#32
  ![v1.toNat, 1, 104, 0]
def k0_off53 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_403 : BitVec 32 := 2#32
  let c104_i32_404 : BitVec 32 := 104#32
  let c0_i32_405 : BitVec 32 := 0#32
  ![v1.toNat, 2, 104, 0]
@[reducible] def k0_t23_loop : Scf.Loop 32 :=
  let c0_i32_423 : BitVec 32 := 0#32
  let c8_i32_424 : BitVec 32 := 8#32
  let v345 : BitVec 32 := Scalar.addi c0_i32_423 c8_i32_424
  let c1_i32_425 : BitVec 32 := 1#32
  ⟨c0_i32_423, v345, c1_i32_425⟩
@[reducible] def k0_t24_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off54 (k0_t23 : Fin k0_t23_loop.trips) (k0_t24 : Fin k0_t24_loop.trips) (c0_i32_535 : BitVec 32) : Fin 2 → Nat :=
  let c0_i32_423 : BitVec 32 := 0#32
  let c1_i32_425 : BitVec 32 := 1#32
  let arg19 : BitVec 32 := Scf.iv c0_i32_423 c1_i32_425 k0_t23
  let v435 : Index := Scalar.indexCast arg19
  let c0_i32_531 : BitVec 32 := 0#32
  let c1_i32_533 : BitVec 32 := 1#32
  let arg24 : BitVec 32 := Scf.iv c0_i32_531 c1_i32_533 k0_t24
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off55 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_427 : BitVec 32 := 0#32
  let c112_i32 : BitVec 32 := 112#32
  let c0_i32_428 : BitVec 32 := 0#32
  ![v1.toNat, 0, 112, 0]
def k0_off56 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_431 : BitVec 32 := 1#32
  let c112_i32_432 : BitVec 32 := 112#32
  let c0_i32_433 : BitVec 32 := 0#32
  ![v1.toNat, 1, 112, 0]
def k0_off57 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_436 : BitVec 32 := 2#32
  let c112_i32_437 : BitVec 32 := 112#32
  let c0_i32_438 : BitVec 32 := 0#32
  ![v1.toNat, 2, 112, 0]
@[reducible] def k0_t25_loop : Scf.Loop 32 :=
  let c0_i32_456 : BitVec 32 := 0#32
  let c8_i32_457 : BitVec 32 := 8#32
  let v371 : BitVec 32 := Scalar.addi c0_i32_456 c8_i32_457
  let c1_i32_458 : BitVec 32 := 1#32
  ⟨c0_i32_456, v371, c1_i32_458⟩
@[reducible] def k0_t26_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off58 (k0_t25 : Fin k0_t25_loop.trips) (k0_t26 : Fin k0_t26_loop.trips) (c0_i32_535 : BitVec 32) : Fin 2 → Nat :=
  let c0_i32_456 : BitVec 32 := 0#32
  let c1_i32_458 : BitVec 32 := 1#32
  let arg19 : BitVec 32 := Scf.iv c0_i32_456 c1_i32_458 k0_t25
  let v435 : Index := Scalar.indexCast arg19
  let c0_i32_531 : BitVec 32 := 0#32
  let c1_i32_533 : BitVec 32 := 1#32
  let arg24 : BitVec 32 := Scf.iv c0_i32_531 c1_i32_533 k0_t26
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off59 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_460 : BitVec 32 := 0#32
  let c120_i32 : BitVec 32 := 120#32
  let c0_i32_461 : BitVec 32 := 0#32
  ![v1.toNat, 0, 120, 0]
def k0_off60 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_464 : BitVec 32 := 1#32
  let c120_i32_465 : BitVec 32 := 120#32
  let c0_i32_466 : BitVec 32 := 0#32
  ![v1.toNat, 1, 120, 0]
def k0_off61 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_469 : BitVec 32 := 2#32
  let c120_i32_470 : BitVec 32 := 120#32
  let c0_i32_471 : BitVec 32 := 0#32
  ![v1.toNat, 2, 120, 0]
@[reducible] def k0_t27_loop : Scf.Loop 32 :=
  let c0_i32_489 : BitVec 32 := 0#32
  let c8_i32_490 : BitVec 32 := 8#32
  let v397 : BitVec 32 := Scalar.addi c0_i32_489 c8_i32_490
  let c1_i32_491 : BitVec 32 := 1#32
  ⟨c0_i32_489, v397, c1_i32_491⟩
@[reducible] def k0_t28_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off62 (k0_t27 : Fin k0_t27_loop.trips) (k0_t28 : Fin k0_t28_loop.trips) (c0_i32_535 : BitVec 32) : Fin 2 → Nat :=
  let c0_i32_489 : BitVec 32 := 0#32
  let c1_i32_491 : BitVec 32 := 1#32
  let arg19 : BitVec 32 := Scf.iv c0_i32_489 c1_i32_491 k0_t27
  let v435 : Index := Scalar.indexCast arg19
  let c0_i32_531 : BitVec 32 := 0#32
  let c1_i32_533 : BitVec 32 := 1#32
  let arg24 : BitVec 32 := Scf.iv c0_i32_531 c1_i32_533 k0_t28
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
@[reducible] def k0_t29_loop : Scf.Loop 32 :=
  let c0_i32_508 : BitVec 32 := 0#32
  let c8_i32_509 : BitVec 32 := 8#32
  let v411 : BitVec 32 := Scalar.addi c0_i32_508 c8_i32_509
  let c1_i32_510 : BitVec 32 := 1#32
  ⟨c0_i32_508, v411, c1_i32_510⟩
@[reducible] def k0_t30_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off63 (k0_t29 : Fin k0_t29_loop.trips) (k0_t30 : Fin k0_t30_loop.trips) (c0_i32_535 : BitVec 32) : Fin 2 → Nat :=
  let c0_i32_508 : BitVec 32 := 0#32
  let c1_i32_510 : BitVec 32 := 1#32
  let arg19 : BitVec 32 := Scf.iv c0_i32_508 c1_i32_510 k0_t29
  let v435 : Index := Scalar.indexCast arg19
  let c0_i32_531 : BitVec 32 := 0#32
  let c1_i32_533 : BitVec 32 := 1#32
  let arg24 : BitVec 32 := Scf.iv c0_i32_531 c1_i32_533 k0_t30
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
@[reducible] def k0_t31_loop : Scf.Loop 32 :=
  let c0_i32_527 : BitVec 32 := 0#32
  let c8_i32_528 : BitVec 32 := 8#32
  let v425 : BitVec 32 := Scalar.addi c0_i32_527 c8_i32_528
  let c1_i32_529 : BitVec 32 := 1#32
  ⟨c0_i32_527, v425, c1_i32_529⟩
@[reducible] def k0_t32_loop : Scf.Loop 32 :=
  let c0_i32_531 : BitVec 32 := 0#32
  let c8_i32_532 : BitVec 32 := 8#32
  let v431 : BitVec 32 := Scalar.addi c0_i32_531 c8_i32_532
  let c1_i32_533 : BitVec 32 := 1#32
  ⟨c0_i32_531, v431, c1_i32_533⟩
def k0_off64 (k0_t31 : Fin k0_t31_loop.trips) (k0_t32 : Fin k0_t32_loop.trips) (c0_i32_535 : BitVec 32) : Fin 2 → Nat :=
  let c0_i32_527 : BitVec 32 := 0#32
  let c1_i32_529 : BitVec 32 := 1#32
  let arg19 : BitVec 32 := Scf.iv c0_i32_527 c1_i32_529 k0_t31
  let v435 : Index := Scalar.indexCast arg19
  let c0_i32_531 : BitVec 32 := 0#32
  let c1_i32_533 : BitVec 32 := 1#32
  let arg24 : BitVec 32 := Scf.iv c0_i32_531 c1_i32_533 k0_t32
  let c128_i32 : BitVec 32 := 128#32
  let v433 : BitVec 32 := Scalar.muli arg24 c128_i32
  let v434 : BitVec 32 := Scalar.addi v433 c0_i32_535
  let v436 : Index := Scalar.indexCast v434
  ![v435.toNat, v436.toNat]
def k0_off65 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_531_r1 : BitVec 32 := 0#32
  ![v1.toNat, 0]
abbrev grid1 : Pipeline.Grid := ⟨1, ![32], ![false]⟩

def k1_off1 (i : grid1.Coords) : Fin 1 → Nat :=
  let arg0 : BitVec 32 := BitVec.ofNat 32 (i 0).val
  let c32_i32 : BitVec 32 := 32#32
  let v11 : BitVec 32 := Scalar.addi arg0 c32_i32
  let v12 : Index := Scalar.indexCast v11
  ![v12.toNat]
def k1_off2 (i : grid1.Coords) : Fin 1 → Nat :=
  let arg0 : BitVec 32 := BitVec.ofNat 32 (i 0).val
  let v27 : Index := Scalar.indexCast arg0
  ![v27.toNat]
def cc1_transform_0 (i : grid1.Coords) : Fin 4 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1x3x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .smem S1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S64x128x1024x3_S64x3x128x1024_0_3_1_2 : S64x128x1024x3.Transposes [0, 3, 1, 2] S64x3x128x1024
  h_S64 : 0 < S64.numel
  squeezes_S1x1x8x1024_S8x1024 : S1x1x8x1024.Squeezes S8x1024
  h_S1x16 : 0 < S1x16.numel
  shapeCasts_S1x16_S16 : S1x16.ShapeCasts S16
  inb_S16_S16_0 : ∀ a, (![0] : Fin 1 → Nat) a + S16.size a ≤ S16.size a
  h_S16 : 0 < S16.numel
  squeezes_S1x16_S16 : S1x16.Squeezes S16
  inb_S1x3x128x1024_S1x1x128x1024_0_0_0_0 : ∀ a, (![0, 0, 0, 0] : Fin 4 → Nat) a + S1x1x128x1024.size a ≤ S1x3x128x1024.size a
  h_S1x1x128x1024 : 0 < S1x1x128x1024.numel
  shapeCasts_S1x1x128x1024_S128x1024 : S1x1x128x1024.ShapeCasts S128x1024
  inb_S1x3x128x1024_S1x1x128x1024_0_1_0_0 : ∀ a, (![0, 1, 0, 0] : Fin 4 → Nat) a + S1x1x128x1024.size a ≤ S1x3x128x1024.size a
  inb_S1x3x128x1024_S1x1x128x1024_0_2_0_0 : ∀ a, (![0, 2, 0, 0] : Fin 4 → Nat) a + S1x1x128x1024.size a ≤ S1x3x128x1024.size a
  numel1_S1 : S1.numel = 1
  shapeCasts_S128x1024_S1x128x1024 : S128x1024.ShapeCasts S1x128x1024
  reduces_S1x128x1024_S1 : S1x128x1024.Reduces [1, 2] S1
  shapeCasts_S1_S1x1x1 : S1.ShapeCasts S1x1x1
  inpos_S1x1x1_p0_0_0 : ∀ a, (![0, 0, 0] : Fin 3 → Nat) a < S1x1x1.size a
  shapeCasts_S_S1 : S_.ShapeCasts S1
  inb_S32x16_S32x16_0_0 : ∀ a, (![0, 0] : Fin 2 → Nat) a + S32x16.size a ≤ S32x16.size a
  h_S32x16 : 0 < S32x16.numel
  shapeCasts_S32x16_S32x16 : S32x16.ShapeCasts S32x16
  reduces_S32x16_S32 : S32x16.Reduces [1] S32
  inb_S32_S32_0 : ∀ a, (![0] : Fin 1 → Nat) a + S32.size a ≤ S32.size a
  h_S32 : 0 < S32.numel
  shapeCasts_S32_S32 : S32.ShapeCasts S32
  concatenates_S32_S32_S64_d0 : Shape.Concatenates [S32, S32] S64 0
  inb_S64_S64_0 : ∀ a, (![0] : Fin 1 → Nat) a + S64.size a ≤ S64.size a
  inb_S1_S1_0 : ∀ a, (![0] : Fin 1 → Nat) a + S1.size a ≤ S1.size a
  hcc0_scratch11 : 0 + S_.numel ≤ 17
  hcc0_scratch12 : 1 + S_.numel ≤ 17
  hcc0_scratch13 : 2 + S_.numel ≤ 17
  hcc0_scoped0 : 3 + S_.numel ≤ 17
  hcc0_scoped1 : 4 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x8x1024.size a ≤ S64x3x128x1024.size a
  k0_off2_inb : ∀ i : grid0.Coords, ∀ a, (k0_off2 i) a + S1x1x8x1024.size a ≤ S64x3x128x1024.size a
  k0_off3_inb : ∀ i : grid0.Coords, ∀ a, (k0_off3 i) a + S1x1x8x1024.size a ≤ S64x3x128x1024.size a
  k0_off4_inb : ∀ i : grid0.Coords, ∀ a, (k0_off4 i) a + S1x1x8x1024.size a ≤ S64x3x128x1024.size a
  k0_off5_inb : ∀ i : grid0.Coords, ∀ a, (k0_off5 i) a + S1x1x8x1024.size a ≤ S64x3x128x1024.size a
  k0_off6_inb : ∀ i : grid0.Coords, ∀ a, (k0_off6 i) a + S1x1x8x1024.size a ≤ S64x3x128x1024.size a
  k0_off7_inb : ∀ i : grid0.Coords, ∀ a, (k0_off7 i) a + S1x1x8x1024.size a ≤ S64x3x128x1024.size a
  k0_off8_inb : ∀ i : grid0.Coords, ∀ a, (k0_off8 i) a + S1x1x8x1024.size a ≤ S64x3x128x1024.size a
  k0_off9_inb : ∀ i : grid0.Coords, ∀ a, (k0_off9 i) a + S1x1x8x1024.size a ≤ S64x3x128x1024.size a
  k0_t1_ok : k0_t1_loop.OK
  k0_t2_ok : k0_t2_loop.OK
  k0_off10_inb : ∀ (k0_t1 : Fin k0_t1_loop.trips) (k0_t2 : Fin k0_t2_loop.trips), ∀ (r : Fin 8), ∀ a, (k0_off10 k0_t1 k0_t2 (BitVec.ofNat 32 (16 * r.val))) a + S1x16.size a ≤ S8x1024.size a
  k0_off11_inb : ∀ i : grid0.Coords, ∀ a, (k0_off11 i) a + S1x1x8x1024.size a ≤ S64x3x128x1024.size a
  k0_off12_inb : ∀ i : grid0.Coords, ∀ a, (k0_off12 i) a + S1x1x8x1024.size a ≤ S64x3x128x1024.size a
  k0_off13_inb : ∀ i : grid0.Coords, ∀ a, (k0_off13 i) a + S1x1x8x1024.size a ≤ S64x3x128x1024.size a
  k0_t3_ok : k0_t3_loop.OK
  k0_t4_ok : k0_t4_loop.OK
  k0_off14_inb : ∀ (k0_t3 : Fin k0_t3_loop.trips) (k0_t4 : Fin k0_t4_loop.trips), ∀ (r : Fin 8), ∀ a, (k0_off14 k0_t3 k0_t4 (BitVec.ofNat 32 (16 * r.val))) a + S1x16.size a ≤ S8x1024.size a
  k0_off15_inb : ∀ i : grid0.Coords, ∀ a, (k0_off15 i) a + S1x1x8x1024.size a ≤ S64x3x128x1024.size a
  k0_off16_inb : ∀ i : grid0.Coords, ∀ a, (k0_off16 i) a + S1x1x8x1024.size a ≤ S64x3x128x1024.size a
  k0_off17_inb : ∀ i : grid0.Coords, ∀ a, (k0_off17 i) a + S1x1x8x1024.size a ≤ S64x3x128x1024.size a
  k0_t5_ok : k0_t5_loop.OK
  k0_t6_ok : k0_t6_loop.OK
  k0_off18_inb : ∀ (k0_t5 : Fin k0_t5_loop.trips) (k0_t6 : Fin k0_t6_loop.trips), ∀ (r : Fin 8), ∀ a, (k0_off18 k0_t5 k0_t6 (BitVec.ofNat 32 (16 * r.val))) a + S1x16.size a ≤ S8x1024.size a
  k0_off19_inb : ∀ i : grid0.Coords, ∀ a, (k0_off19 i) a + S1x1x8x1024.size a ≤ S64x3x128x1024.size a
  k0_off20_inb : ∀ i : grid0.Coords, ∀ a, (k0_off20 i) a + S1x1x8x1024.size a ≤ S64x3x128x1024.size a
  k0_off21_inb : ∀ i : grid0.Coords, ∀ a, (k0_off21 i) a + S1x1x8x1024.size a ≤ S64x3x128x1024.size a
  k0_t7_ok : k0_t7_loop.OK
  k0_t8_ok : k0_t8_loop.OK
  k0_off22_inb : ∀ (k0_t7 : Fin k0_t7_loop.trips) (k0_t8 : Fin k0_t8_loop.trips), ∀ (r : Fin 8), ∀ a, (k0_off22 k0_t7 k0_t8 (BitVec.ofNat 32 (16 * r.val))) a + S1x16.size a ≤ S8x1024.size a
  k0_off23_inb : ∀ i : grid0.Coords, ∀ a, (k0_off23 i) a + S1x1x8x1024.size a ≤ S64x3x128x1024.size a
  k0_off24_inb : ∀ i : grid0.Coords, ∀ a, (k0_off24 i) a + S1x1x8x1024.size a ≤ S64x3x128x1024.size a
  k0_off25_inb : ∀ i : grid0.Coords, ∀ a, (k0_off25 i) a + S1x1x8x1024.size a ≤ S64x3x128x1024.size a
  k0_t9_ok : k0_t9_loop.OK
  k0_t10_ok : k0_t10_loop.OK
  k0_off26_inb : ∀ (k0_t9 : Fin k0_t9_loop.trips) (k0_t10 : Fin k0_t10_loop.trips), ∀ (r : Fin 8), ∀ a, (k0_off26 k0_t9 k0_t10 (BitVec.ofNat 32 (16 * r.val))) a + S1x16.size a ≤ S8x1024.size a
  k0_off27_inb : ∀ i : grid0.Coords, ∀ a, (k0_off27 i) a + S1x1x8x1024.size a ≤ S64x3x128x1024.size a
  k0_off28_inb : ∀ i : grid0.Coords, ∀ a, (k0_off28 i) a + S1x1x8x1024.size a ≤ S64x3x128x1024.size a
  k0_off29_inb : ∀ i : grid0.Coords, ∀ a, (k0_off29 i) a + S1x1x8x1024.size a ≤ S64x3x128x1024.size a
  k0_t11_ok : k0_t11_loop.OK
  k0_t12_ok : k0_t12_loop.OK
  k0_off30_inb : ∀ (k0_t11 : Fin k0_t11_loop.trips) (k0_t12 : Fin k0_t12_loop.trips), ∀ (r : Fin 8), ∀ a, (k0_off30 k0_t11 k0_t12 (BitVec.ofNat 32 (16 * r.val))) a + S1x16.size a ≤ S8x1024.size a
  k0_off31_inb : ∀ i : grid0.Coords, ∀ a, (k0_off31 i) a + S1x1x8x1024.size a ≤ S64x3x128x1024.size a
  k0_off32_inb : ∀ i : grid0.Coords, ∀ a, (k0_off32 i) a + S1x1x8x1024.size a ≤ S64x3x128x1024.size a
  k0_off33_inb : ∀ i : grid0.Coords, ∀ a, (k0_off33 i) a + S1x1x8x1024.size a ≤ S64x3x128x1024.size a
  k0_t13_ok : k0_t13_loop.OK
  k0_t14_ok : k0_t14_loop.OK
  k0_off34_inb : ∀ (k0_t13 : Fin k0_t13_loop.trips) (k0_t14 : Fin k0_t14_loop.trips), ∀ (r : Fin 8), ∀ a, (k0_off34 k0_t13 k0_t14 (BitVec.ofNat 32 (16 * r.val))) a + S1x16.size a ≤ S8x1024.size a
  k0_off35_inb : ∀ i : grid0.Coords, ∀ a, (k0_off35 i) a + S1x1x8x1024.size a ≤ S64x3x128x1024.size a
  k0_off36_inb : ∀ i : grid0.Coords, ∀ a, (k0_off36 i) a + S1x1x8x1024.size a ≤ S64x3x128x1024.size a
  k0_off37_inb : ∀ i : grid0.Coords, ∀ a, (k0_off37 i) a + S1x1x8x1024.size a ≤ S64x3x128x1024.size a
  k0_t15_ok : k0_t15_loop.OK
  k0_t16_ok : k0_t16_loop.OK
  k0_off38_inb : ∀ (k0_t15 : Fin k0_t15_loop.trips) (k0_t16 : Fin k0_t16_loop.trips), ∀ (r : Fin 8), ∀ a, (k0_off38 k0_t15 k0_t16 (BitVec.ofNat 32 (16 * r.val))) a + S1x16.size a ≤ S8x1024.size a
  k0_off39_inb : ∀ i : grid0.Coords, ∀ a, (k0_off39 i) a + S1x1x8x1024.size a ≤ S64x3x128x1024.size a
  k0_off40_inb : ∀ i : grid0.Coords, ∀ a, (k0_off40 i) a + S1x1x8x1024.size a ≤ S64x3x128x1024.size a
  k0_off41_inb : ∀ i : grid0.Coords, ∀ a, (k0_off41 i) a + S1x1x8x1024.size a ≤ S64x3x128x1024.size a
  k0_t17_ok : k0_t17_loop.OK
  k0_t18_ok : k0_t18_loop.OK
  k0_off42_inb : ∀ (k0_t17 : Fin k0_t17_loop.trips) (k0_t18 : Fin k0_t18_loop.trips), ∀ (r : Fin 8), ∀ a, (k0_off42 k0_t17 k0_t18 (BitVec.ofNat 32 (16 * r.val))) a + S1x16.size a ≤ S8x1024.size a
  k0_off43_inb : ∀ i : grid0.Coords, ∀ a, (k0_off43 i) a + S1x1x8x1024.size a ≤ S64x3x128x1024.size a
  k0_off44_inb : ∀ i : grid0.Coords, ∀ a, (k0_off44 i) a + S1x1x8x1024.size a ≤ S64x3x128x1024.size a
  k0_off45_inb : ∀ i : grid0.Coords, ∀ a, (k0_off45 i) a + S1x1x8x1024.size a ≤ S64x3x128x1024.size a
  k0_t19_ok : k0_t19_loop.OK
  k0_t20_ok : k0_t20_loop.OK
  k0_off46_inb : ∀ (k0_t19 : Fin k0_t19_loop.trips) (k0_t20 : Fin k0_t20_loop.trips), ∀ (r : Fin 8), ∀ a, (k0_off46 k0_t19 k0_t20 (BitVec.ofNat 32 (16 * r.val))) a + S1x16.size a ≤ S8x1024.size a
  k0_off47_inb : ∀ i : grid0.Coords, ∀ a, (k0_off47 i) a + S1x1x8x1024.size a ≤ S64x3x128x1024.size a
  k0_off48_inb : ∀ i : grid0.Coords, ∀ a, (k0_off48 i) a + S1x1x8x1024.size a ≤ S64x3x128x1024.size a
  k0_off49_inb : ∀ i : grid0.Coords, ∀ a, (k0_off49 i) a + S1x1x8x1024.size a ≤ S64x3x128x1024.size a
  k0_t21_ok : k0_t21_loop.OK
  k0_t22_ok : k0_t22_loop.OK
  k0_off50_inb : ∀ (k0_t21 : Fin k0_t21_loop.trips) (k0_t22 : Fin k0_t22_loop.trips), ∀ (r : Fin 8), ∀ a, (k0_off50 k0_t21 k0_t22 (BitVec.ofNat 32 (16 * r.val))) a + S1x16.size a ≤ S8x1024.size a
  k0_off51_inb : ∀ i : grid0.Coords, ∀ a, (k0_off51 i) a + S1x1x8x1024.size a ≤ S64x3x128x1024.size a
  k0_off52_inb : ∀ i : grid0.Coords, ∀ a, (k0_off52 i) a + S1x1x8x1024.size a ≤ S64x3x128x1024.size a
  k0_off53_inb : ∀ i : grid0.Coords, ∀ a, (k0_off53 i) a + S1x1x8x1024.size a ≤ S64x3x128x1024.size a
  k0_t23_ok : k0_t23_loop.OK
  k0_t24_ok : k0_t24_loop.OK
  k0_off54_inb : ∀ (k0_t23 : Fin k0_t23_loop.trips) (k0_t24 : Fin k0_t24_loop.trips), ∀ (r : Fin 8), ∀ a, (k0_off54 k0_t23 k0_t24 (BitVec.ofNat 32 (16 * r.val))) a + S1x16.size a ≤ S8x1024.size a
  k0_off55_inb : ∀ i : grid0.Coords, ∀ a, (k0_off55 i) a + S1x1x8x1024.size a ≤ S64x3x128x1024.size a
  k0_off56_inb : ∀ i : grid0.Coords, ∀ a, (k0_off56 i) a + S1x1x8x1024.size a ≤ S64x3x128x1024.size a
  k0_off57_inb : ∀ i : grid0.Coords, ∀ a, (k0_off57 i) a + S1x1x8x1024.size a ≤ S64x3x128x1024.size a
  k0_t25_ok : k0_t25_loop.OK
  k0_t26_ok : k0_t26_loop.OK
  k0_off58_inb : ∀ (k0_t25 : Fin k0_t25_loop.trips) (k0_t26 : Fin k0_t26_loop.trips), ∀ (r : Fin 8), ∀ a, (k0_off58 k0_t25 k0_t26 (BitVec.ofNat 32 (16 * r.val))) a + S1x16.size a ≤ S8x1024.size a
  k0_off59_inb : ∀ i : grid0.Coords, ∀ a, (k0_off59 i) a + S1x1x8x1024.size a ≤ S64x3x128x1024.size a
  k0_off60_inb : ∀ i : grid0.Coords, ∀ a, (k0_off60 i) a + S1x1x8x1024.size a ≤ S64x3x128x1024.size a
  k0_off61_inb : ∀ i : grid0.Coords, ∀ a, (k0_off61 i) a + S1x1x8x1024.size a ≤ S64x3x128x1024.size a
  k0_t27_ok : k0_t27_loop.OK
  k0_t28_ok : k0_t28_loop.OK
  k0_off62_inb : ∀ (k0_t27 : Fin k0_t27_loop.trips) (k0_t28 : Fin k0_t28_loop.trips), ∀ (r : Fin 8), ∀ a, (k0_off62 k0_t27 k0_t28 (BitVec.ofNat 32 (16 * r.val))) a + S1x16.size a ≤ S8x1024.size a
  k0_t29_ok : k0_t29_loop.OK
  k0_t30_ok : k0_t30_loop.OK
  k0_off63_inb : ∀ (k0_t29 : Fin k0_t29_loop.trips) (k0_t30 : Fin k0_t30_loop.trips), ∀ (r : Fin 8), ∀ a, (k0_off63 k0_t29 k0_t30 (BitVec.ofNat 32 (16 * r.val))) a + S1x16.size a ≤ S8x1024.size a
  k0_t31_ok : k0_t31_loop.OK
  k0_t32_ok : k0_t32_loop.OK
  k0_off64_inb : ∀ (k0_t31 : Fin k0_t31_loop.trips) (k0_t32 : Fin k0_t32_loop.trips), ∀ (r : Fin 8), ∀ a, (k0_off64 k0_t31 k0_t32 (BitVec.ofNat 32 (16 * r.val))) a + S1x16.size a ≤ S8x1024.size a
  k0_off65_inb : ∀ i : grid0.Coords, ∀ a, (k0_off65 i) a + S1x16.size a ≤ S32x16.size a
  hrank1 : 0 < grid1.rank
  k1_off1_inb : ∀ i : grid1.Coords, ∀ a, (k1_off1 i) a + S1.size a ≤ S64.size a
  k1_off2_inb : ∀ i : grid1.Coords, ∀ a, (k1_off2 i) a + S1.size a ≤ S32.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x128x1024.size a ≤ S64x3x128x1024.size a
  hwx1_0 : ∀ i : grid1.Coords, EltTy.bits .f32 = 32 ∨ (Rect.block (s := S64x3x128x1024) S1x3x128x1024.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole

variable [Facts₀]

abbrev cc0_scratch11 : DmaSems sig S_ := SemArray.consecutive 0 S_ hcc0_scratch11
abbrev cc0_scratch12 : DmaSems sig S_ := SemArray.consecutive 1 S_ hcc0_scratch12
abbrev cc0_scratch13 : DmaSems sig S_ := SemArray.consecutive 2 S_ hcc0_scratch13
abbrev cc0_scoped0 : DmaSems sig S_ := SemArray.consecutive 3 S_ hcc0_scoped0
abbrev cc0_scoped1 : DmaSems sig S_ := SemArray.consecutive 4 S_ hcc0_scoped1

abbrev win1_0 : Pipeline.Window sig grid1 :=
  Pipeline.Window.ofSpec (Memref.whole main_v0) S1x3x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S32.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v1) false false (stage2_0 0) (sem2_0 0) (Memref.isWhole_whole _) (hstage2_0 0)

abbrev win2_1 : Pipeline.Window sig grid2 :=
  Pipeline.Window.whole (Memref.whole main_v2) false false (stage2_1 0) (sem2_1 0) (Memref.isWhole_whole _) (hstage2_1 0)

abbrev win2_2 : Pipeline.Window sig grid2 :=
  Pipeline.Window.whole (Memref.whole main_arg1) false false (stage2_2 0) (sem2_2 0) (Memref.isWhole_whole _) (hstage2_2 0)

abbrev win2_3 : Pipeline.Window sig grid2 :=
  Pipeline.Window.whole (Memref.whole main_v3) false false (stage2_3 0) (sem2_3 0) (Memref.isWhole_whole _) (hstage2_3 0)

abbrev win2_4 : Pipeline.Window sig grid2 :=
  Pipeline.Window.whole (Memref.whole main_v4_0) true false (stage2_4 0) (sem2_4 0) (Memref.isWhole_whole _) (hstage2_4 0)

abbrev win2_5 : Pipeline.Window sig grid2 :=
  Pipeline.Window.whole (Memref.whole main_v4_1) true false (stage2_5 0) (sem2_5 0) (Memref.isWhole_whole _) (hstage2_5 0)

abbrev win2_6 : Pipeline.Window sig grid2 :=
  Pipeline.Window.whole (Memref.whole main_v4_2) true false (stage2_6 0) (sem2_6 0) (Memref.isWhole_whole _) (hstage2_6 0)

abbrev win2_7 : Pipeline.Window sig grid2 :=
  Pipeline.Window.whole (Memref.whole main_v4_3) true false (stage2_7 0) (sem2_7 0) (Memref.isWhole_whole _) (hstage2_7 0)

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S64x128x1024x3 : Shape := ⟨4, ![64, 128, 1024, 3]⟩
abbrev S64 : Shape := ⟨1, ![64]⟩
abbrev S_ : Shape := ⟨0, ![]⟩
abbrev S64x1x1 : Shape := ⟨3, ![64, 1, 1]⟩
abbrev S64x128x1024 : Shape := ⟨3, ![64, 128, 1024]⟩

abbrev nBuf : Space → Nat
  | .hbm => 63
  | .vmem => 0
  | .smem => 0
  | _ => 0

abbrev bufTy : (tb : Table) → Fin (tcTables nBuf tb) → BufTy
  | .hbm, ⟨0, _⟩ => ⟨S64x128x1024x3, .f32⟩
  | .hbm, ⟨1, _⟩ => ⟨S64, .f32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64x1x1, .f32⟩
  | .hbm, ⟨11, _⟩ => ⟨S64x128x1024x3, .f32⟩
  | .hbm, ⟨12, _⟩ => ⟨S_, .f32⟩
  | .hbm, ⟨13, _⟩ => ⟨S64x128x1024, .f32⟩
  | .hbm, ⟨14, _⟩ => ⟨S64x128x1024, .f32⟩
  | .hbm, ⟨15, _⟩ => ⟨S64x128x1024, .f32⟩
  | .hbm, ⟨16, _⟩ => ⟨S_, .f32⟩
  | .hbm, ⟨17, _⟩ => ⟨S64x128x1024, .f32⟩
  | .hbm, ⟨18, _⟩ => ⟨S64x128x1024, .i1⟩
  | .hbm, ⟨19, _⟩ => ⟨S64x128x1024, .f32⟩
  | .hbm, ⟨20, _⟩ => ⟨S_, .f32⟩
  | .hbm, ⟨21, _⟩ => ⟨S64x128x1024, .f32⟩
  | .hbm, ⟨22, _⟩ => ⟨S64x128x1024, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | _, _ => ⟨S64x128x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S_S64 : S_.BroadcastsInDim S64 (![] : Fin 0 → Fin S64.rank)
  shapeCasts_S64_S64x1x1 : S64.ShapeCasts S64x1x1
  reducesTo_S64x128x1024x3_S64x128x1024_d3 : S64x128x1024x3.ReducesTo [3] S64x128x1024
  h_S_ : 0 < S_.numel
  bcast_S64x1x1_S64x128x1024_0_1_2 : S64x1x1.BroadcastsInDim S64x128x1024 (![0, 1, 2] : Fin 3 → Fin S64x128x1024.rank)
  bcast_S_S64x128x1024 : S_.BroadcastsInDim S64x128x1024 (![] : Fin 0 → Fin S64x128x1024.rank)
  reducesTo_S64x128x1024_S64_d1_2 : S64x128x1024.ReducesTo [1, 2] S64

variable [Facts₀]

class Facts : Prop extends Facts₀ where

variable [Facts]
-- ==== Proof.Score.lean ====
/-
  The score's four results as functions of the argument arrays, index by index, on the extended reals.

  For a batch entry b with radius R_b, points z_{b,p,q} in three coordinates and a background count n:
    A_b      = 1 / (R_b · R_b)                        the inverse squared radius
    s_{bpq}  = 0 + Σ_k z_{bpqk}²                      the squared norm of a point
    w_{bpq}  = exp((-1/2 · A_b) · s_{bpq})  if s_{bpq} < T, else 0   (T the squared chord threshold)
    raw_b    = 0 + Σ_p Σ_q w_{bpq}
    lam_b    = (1/2 · A_b) · T
    muPer_b  = (1 - exp(-lam_b)) / lam_b
    e2_b     = (1 - exp(-2 · lam_b)) / (2 · lam_b)
    sig_b    = e2_b - muPer_b²
    mu_b     = n · muPer_b ,  sigma2_b = n · sig_b
    obj_b    = ((raw_b - 1 · mu_b) - 1) + √ sigma2_b
  Every constant is the extended real its 32-bit pattern denotes, kept as the pattern; quotients are the
  ideal quotient (total: by zero it is the infinity of the numerator's sign).
-/
import Idealize.ShloMosaic.PureOps.Ideal
import Idealize.ShloMosaic.Lib.ValueIdx

noncomputable section

namespace Cert.Score

open Idealize.ShloMosaic Idealize.ShloMosaic.ValueIdx
open scoped BigOperators

abbrev S64x128x1024x3 : Shape := ⟨4, ![64, 128, 1024, 3]⟩
abbrev S64 : Shape := ⟨1, ![64]⟩
abbrev S_ : Shape := ⟨0, ![]⟩

/-- The points: 64 batch entries, 128 × 1024 points each, three coordinates. -/
abbrev Points : Type := (⟨S64x128x1024x3, .f32⟩ : BufTy).Contents (Elt Ideal)
/-- One value per batch entry. -/
abbrev PerBatch : Type := (⟨S64, .f32⟩ : BufTy).Contents (Elt Ideal)
/-- A single value. -/
abbrev Single : Type := (⟨S_, .f32⟩ : BufTy).Contents (Elt Ideal)

/-! ## The constants, as the patterns denote them -/

/-- `0`. -/
abbrev cZero : EReal := Ideal.ofBits .f32 0x00000000#32
/-- `1`. -/
abbrev cOne : EReal := Ideal.ofBits .f32 0x3F800000#32
/-- `1/2`. -/
abbrev cHalf : EReal := Ideal.ofBits .f32 0x3F000000#32
/-- `-1/2`. -/
abbrev cNegHalf : EReal := Ideal.ofBits .f32 0xBF000000#32
/-- `2`. -/
abbrev cTwo : EReal := Ideal.ofBits .f32 0x40000000#32
/-- `-2`. -/
abbrev cNegTwo : EReal := Ideal.ofBits .f32 0xC0000000#32
/-- The squared chord threshold `T`. -/
abbrev cThr : EReal := Ideal.ofBits .f32 0x3A9FB0E8#32

/-! ## The pieces -/

/-- `A_b = 1 / (R_b · R_b)`. -/
def invSq (r : PerBatch) (b : Fin 64) : EReal := Ideal.div cOne (r (ix1 b) * r (ix1 b))

/-- `s_{bpq} = 0 + Σ_k z_{bpqk}²`. -/
def sqNorm (z : Points) (b : Fin 64) (p : Fin 128) (q : Fin 1024) : EReal :=
  cZero + ∑ k : Fin 3, z (ix4 b p q k) * z (ix4 b p q k)

/-- The weight of one point: the Gaussian of its squared norm inside the chord threshold, zero outside. -/
def weight (z : Points) (r : PerBatch) (b : Fin 64) (p : Fin 128) (q : Fin 1024) : EReal :=
  if sqNorm z b p q < cThr then Ideal.exp ((cNegHalf * invSq r b) * sqNorm z b p q) else cZero

/-- `raw_b = 0 + Σ_p Σ_q w_{bpq}`. -/
def rawAt (z : Points) (r : PerBatch) (b : Fin 64) : EReal :=
  cZero + ∑ p : Fin 128, ∑ q : Fin 1024, weight z r b p q

/-- `lam_b = (1/2 · A_b) · T`. -/
def lam (r : PerBatch) (b : Fin 64) : EReal := (cHalf * invSq r b) * cThr

/-- `muPer_b = (1 - exp(-lam_b)) / lam_b`. -/
def muPer (r : PerBatch) (b : Fin 64) : EReal := Ideal.div (cOne - Ideal.exp (-(lam r b))) (lam r b)

/-- `e2_b = (1 - exp(-2 · lam_b)) / (2 · lam_b)`. -/
def e2 (r : PerBatch) (b : Fin 64) : EReal := Ideal.div (cOne - Ideal.exp (cNegTwo * lam r b)) (cTwo * lam r b)

/-- `sig_b = e2_b - muPer_b²`. -/
def sig (r : PerBatch) (b : Fin 64) : EReal := e2 r b - muPer r b * muPer r b

/-- `mu_b = n · muPer_b`. -/
def muAt (r : PerBatch) (n : Single) (b : Fin 64) : EReal := n ix0 * muPer r b

/-- `sigma2_b = n · sig_b`. -/
def sigma2At (r : PerBatch) (n : Single) (b : Fin 64) : EReal := n ix0 * sig r b

/-- `obj_b = ((raw_b - 1 · mu_b) - 1) + √ sigma2_b`. -/
def objAt (z : Points) (r : PerBatch) (n : Single) (b : Fin 64) : EReal :=
  ((rawAt z r b - cOne * muAt r n b) - cOne) + Ideal.sqrt (sigma2At r n b)

/-! ## The four results -/

/-- The raw score of every batch entry. -/
def raw (z : Points) (r : PerBatch) : PerBatch := fun i => rawAt z r (i 0)
/-- The expected background score. -/
def mu (r : PerBatch) (n : Single) : PerBatch := fun i => muAt r n (i 0)
/-- The background variance. -/
def sigma2 (r : PerBatch) (n : Single) : PerBatch := fun i => sigma2At r n (i 0)
/-- The objective. -/
def obj (z : Points) (r : PerBatch) (n : Single) : PerBatch := fun i => objAt z r n (i 0)

theorem raw_apply (z : Points) (r : PerBatch) (b : Fin 64) : raw z r (ix1 b) = rawAt z r b := rfl
theorem mu_apply (r : PerBatch) (n : Single) (b : Fin 64) : mu r n (ix1 b) = muAt r n b := rfl
theorem sigma2_apply (r : PerBatch) (n : Single) (b : Fin 64) : sigma2 r n (ix1 b) = sigma2At r n b := rfl
theorem obj_apply (z : Points) (r : PerBatch) (n : Single) (b : Fin 64) : obj z r n (ix1 b) = objAt z r n b := rfl

end Cert.Score

end
-- ==== Proof.SumTwoAxes.lean ====
/-
  The host's sum of a [64, 128, 1024] array over its last two axes, read at a batch entry on the extended
  reals: the initial value plus the double sum over the two reduced coordinates.
-/
import Idealize.ShloMosaic.PureOps.Ideal.Laws
import Idealize.ShloMosaic.Lib.ValueIdx

noncomputable section

namespace Cert.SumTwoAxes

open Idealize.ShloMosaic Idealize.ShloMosaic.ValueIdx
open scoped BigOperators

/-- An index of the [64, 128, 1024] array drops to the batch entry `b` exactly when its first coordinate is `b`. -/
theorem drop_eq_iff (h : (⟨3, ![64, 128, 1024]⟩ : Shape).ReducesTo [1, 2] ⟨1, ![64]⟩)
    (i : (⟨3, ![64, 128, 1024]⟩ : Shape).Idx) (b : Fin 64) :
    h.drop i = ix1 b ↔ (i 0).val = b.val := by
  have h0 : ((h.drop i) (0 : Fin 1) : Nat) = (i 0).val :=
    Shape.ReducesTo.drop_apply_val_of_eq h i 0 0
  constructor
  · intro e
    rw [← h0, e]
  · intro e
    funext a
    match a with
    | ⟨0, _⟩ => exact Fin.ext (h0.trans e)

/-- The host's sum over the last two axes at the batch entry `b`: the initial value plus the double sum. -/
theorem hostReduceAdd_last2 (h : (⟨3, ![64, 128, 1024]⟩ : Shape).ReducesTo [1, 2] ⟨1, ![64]⟩)
    (x : (⟨3, ![64, 128, 1024]⟩ : Shape).Idx → EReal) (init : EReal) (b : Fin 64) :
    Ideal.hostReduceAdd h x init (ix1 b) = init + ∑ p : Fin 128, ∑ q : Fin 1024, x (ix3 b p q) := by
  unfold Ideal.hostReduceAdd
  refine congrArg (init + ·) ?_
  rw [← Fintype.sum_prod_type' (fun (p : Fin 128) (q : Fin 1024) => x (ix3 b p q))]
  have hfix : ∀ i : (⟨3, ![64, 128, 1024]⟩ : Shape).Idx, (i 0).val = b.val → ix3 b (i 1) (i 2) = i := by
    intro i e
    funext a
    match a with
    | ⟨0, _⟩ => exact Fin.ext e.symm
    | ⟨1, _⟩ => rfl
    | ⟨2, _⟩ => rfl
  refine Finset.sum_nbij' (fun i => ((i 1, i 2) : Fin 128 × Fin 1024)) (fun pq => ix3 b pq.1 pq.2)
    (fun _ _ => Finset.mem_univ _) ?_ ?_ (fun _ _ => rfl) ?_
  · intro pq _
    rw [Finset.mem_filter]
    exact ⟨Finset.mem_univ _, (drop_eq_iff h _ b).mpr rfl⟩
  · intro i hi
    rw [Finset.mem_filter] at hi
    exact hfix i ((drop_eq_iff h i b).mp hi.2)
  · intro i hi
    rw [Finset.mem_filter] at hi
    exact congrArg x (hfix i ((drop_eq_iff h i b).mp hi.2)).symm

end Cert.SumTwoAxes

end
-- ==== Proof.RefScore.lean ====
/-
  The reference program's four results are the score's specification: each of the reference program's result terms,
  read index by index on the extended reals, is the corresponding function of the argument arrays.
-/
import proofs.«217460_g7679401525743_retrytranche1_990_34_alg».proof.Proof.Gen.ReferenceIdeal.Read
import proofs.«217460_g7679401525743_retrytranche1_990_34_alg».proof.Proof.Score
import proofs.«217460_g7679401525743_retrytranche1_990_34_alg».proof.Proof.SumTwoAxes
import Idealize.ShloMosaic.Lib.IdealHost

noncomputable section

namespace Cert.RefScore

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The per-batch pieces -/

/-- The reference's inverse squared radius. -/
theorem invSq_eq (x1 : Cert.Score.PerBatch) (b : Fin 64) :
    val_main_v2 (F := Ideal) x1 (ix1 b) = Cert.Score.invSq x1 b := by
  rw [val_main_v2_apply, val_main_v1_apply, val_main_cst_apply, val_main_v0_apply]
  simp only [Ideal.hostDivf_def, Ideal.mulf_def, Ideal.ofBits_def]
  rfl

/-- The reference's `lam`. -/
theorem lam_eq (x1 : Cert.Score.PerBatch) (b : Fin 64) :
    val_main_v19 (F := Ideal) x1 (ix1 b) = Cert.Score.lam x1 b := by
  rw [val_main_v19_apply, val_main_v17_apply, val_main_v16_apply, val_main_cst_5_apply, val_main_v18_apply,
    val_main_cst_6_apply, invSq_eq]
  simp only [Ideal.mulf_def, Ideal.ofBits_def]
  rfl

/-- The reference's `muPer`. -/
theorem muPer_eq (x1 : Cert.Score.PerBatch) (b : Fin 64) :
    val_main_v24 (F := Ideal) x1 (ix1 b) = Cert.Score.muPer x1 b := by
  rw [val_main_v24_apply, val_main_v23_apply, val_main_v22_apply, val_main_cst_7_apply, val_main_v21_apply,
    val_main_v20_apply, lam_eq]
  simp only [Ideal.hostDivf_def, Ideal.subf_def, Ideal.hostUnary_exp_def, Ideal.hostNegf_def, Ideal.negf_def,
    Ideal.ofBits_def]
  rfl

/-- The reference's `e2`. -/
theorem e2_eq (x1 : Cert.Score.PerBatch) (b : Fin 64) :
    val_main_v32 (F := Ideal) x1 (ix1 b) = Cert.Score.e2 x1 b := by
  rw [val_main_v32_apply, val_main_v29_apply, val_main_v28_apply, val_main_cst_9_apply, val_main_v27_apply,
    val_main_v26_apply, val_main_v25_apply, val_main_cst_8_apply, val_main_v31_apply, val_main_v30_apply,
    val_main_cst_10_apply, lam_eq]
  simp only [Ideal.hostDivf_def, Ideal.subf_def, Ideal.mulf_def, Ideal.hostUnary_exp_def, Ideal.ofBits_def]
  rfl

/-- The reference's `sig`. -/
theorem sig_eq (x1 : Cert.Score.PerBatch) (b : Fin 64) :
    val_main_v34 (F := Ideal) x1 (ix1 b) = Cert.Score.sig x1 b := by
  rw [val_main_v34_apply, val_main_v33_apply, e2_eq, muPer_eq]
  simp only [Ideal.subf_def, Ideal.mulf_def]
  rfl

/-! ## The expected background score and the variance -/

theorem mu_eq (x1 : Cert.Score.PerBatch) (x2 : Cert.Score.Single) :
    val_main_v36 (F := Ideal) x1 x2 = Cert.Score.mu x1 x2 := by
  funext i
  obtain ⟨b, rfl⟩ : ∃ b : Fin 64, i = ix1 b := ⟨i 0, eq_ix1 i⟩
  rw [Cert.Score.mu_apply, val_main_v36_apply, val_main_v35_apply, muPer_eq]
  simp only [Ideal.mulf_def]
  rfl

theorem sigma2_eq (x1 : Cert.Score.PerBatch) (x2 : Cert.Score.Single) :
    val_main_v38 (F := Ideal) x1 x2 = Cert.Score.sigma2 x1 x2 := by
  funext i
  obtain ⟨b, rfl⟩ : ∃ b : Fin 64, i = ix1 b := ⟨i 0, eq_ix1 i⟩
  rw [Cert.Score.sigma2_apply, val_main_v38_apply, val_main_v37_apply, sig_eq]
  simp only [Ideal.mulf_def]
  rfl

/-! ## The raw score -/

/-- The reference's squared norm of a point. -/
theorem sqNorm_eq (x0 : Cert.Score.Points) (b : Fin 64) (p : Fin 128) (q : Fin 1024) :
    val_main_v7 (F := Ideal) x0 (ix3 b p q) = Cert.Score.sqNorm x0 b p q := by
  rw [val_main_v7_apply, val_main_cst_1_apply]
  unfold Cert.Score.sqNorm
  refine congrArg₂ (· + ·) rfl (Finset.sum_congr rfl fun k _ => ?_)
  rw [val_main_v6_apply]
  have e : idx_main_v7 (ix3 b p q) k = ix4 b p q k := by
    funext a
    match a with
    | ⟨0, _⟩ => rfl
    | ⟨1, _⟩ => rfl
    | ⟨2, _⟩ => rfl
    | ⟨3, _⟩ => rfl
  rw [e]
  rfl

/-- The reference's Gaussian factor, broadcast from the batch entry. -/
theorem factor_eq (x1 : Cert.Score.PerBatch) (b : Fin 64) (p : Fin 128) (q : Fin 1024) :
    val_main_v8 (F := Ideal) x1 (ix3 b p q)
      = Cert.Score.cNegHalf * Cert.Score.invSq x1 b := by
  have e : idx_main_v5 (idx_main_v8 (ix3 b p q)) = ix1 b := by
    funext a
    match a with
    | ⟨0, _⟩ => exact Fin.ext (by show (b.val * 1 + 0) * 1 + 0 = b.val; omega)
  rw [val_main_v8_apply, val_main_v5_apply, e, val_main_v4_apply, val_main_v3_apply, val_main_cst_0_apply, invSq_eq]
  simp only [Ideal.mulf_def, Ideal.ofBits_def]

/-- The reference's weight of a point. -/
theorem weight_eq (x0 : Cert.Score.Points) (x1 : Cert.Score.PerBatch) (b : Fin 64) (p : Fin 128) (q : Fin 1024) :
    val_main_v14 (F := Ideal) x0 x1 (ix3 b p q) = Cert.Score.weight x0 x1 b p q := by
  rw [val_main_v14_apply, val_main_v11_apply, val_main_v12_apply, val_main_v9_apply, val_main_v13_apply,
    val_main_cst_3_apply, val_main_v10_apply, val_main_cst_2_apply, sqNorm_eq, factor_eq]
  unfold Cert.Score.weight
  simp only [Ideal.cmpf_def, Ideal.mulf_def, Ideal.hostUnary_exp_def, Ideal.ofBits_def]
  unfold Scalar.select Ideal.cmp
  by_cases h : Cert.Score.sqNorm x0 b p q < Cert.Score.cThr
  · simp [h]
  · simp [h]

theorem raw_eq (x0 : Cert.Score.Points) (x1 : Cert.Score.PerBatch) :
    val_main_v15 (F := Ideal) x0 x1 = Cert.Score.raw x0 x1 := by
  funext i
  obtain ⟨b, rfl⟩ : ∃ b : Fin 64, i = ix1 b := ⟨i 0, eq_ix1 i⟩
  rw [Cert.Score.raw_apply]
  unfold val_main_v15 Cert.Score.rawAt
  rw [hostReduceAdd_apply, Cert.SumTwoAxes.hostReduceAdd_last2]
  refine congrArg₂ (· + ·) rfl (Finset.sum_congr rfl fun p _ => Finset.sum_congr rfl fun q _ => ?_)
  exact weight_eq x0 x1 b p q

/-! ## The objective -/

theorem obj_eq (x0 : Cert.Score.Points) (x1 : Cert.Score.PerBatch) (x2 : Cert.Score.Single) :
    val_main_v45 (F := Ideal) x0 x1 x2 = Cert.Score.obj x0 x1 x2 := by
  funext i
  obtain ⟨b, rfl⟩ : ∃ b : Fin 64, i = ix1 b := ⟨i 0, eq_ix1 i⟩
  rw [Cert.Score.obj_apply, val_main_v45_apply, val_main_v44_apply, val_main_v42_apply, val_main_v43_apply,
    val_main_cst_12_apply, val_main_v41_apply, val_main_v40_apply, val_main_cst_11_apply, val_main_v39_apply,
    raw_eq, mu_eq, sigma2_eq, Cert.Score.raw_apply, Cert.Score.mu_apply, Cert.Score.sigma2_apply]
  simp only [Ideal.addf_def, Ideal.subf_def, Ideal.mulf_def, Ideal.hostUnary_sqrt_def, Ideal.ofBits_def]
  rfl

/-! ## The reference program ends at the specification -/

/-- On every device, from any memory with zero counters, every weakly fair execution of the reference terminates with
    its four results at the score's four functions of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = Cert.Score.raw (m ((c.tc : Thread nD τ).loc main_arg0)) (m ((c.tc : Thread nD τ).loc main_arg1))
      ∧ r.2.mem ((c.tc : Thread nD τ).loc main_v36)
          = Cert.Score.mu (m ((c.tc : Thread nD τ).loc main_arg1)) (m ((c.tc : Thread nD τ).loc main_arg2))
      ∧ r.2.mem ((c.tc : Thread nD τ).loc main_v38)
          = Cert.Score.sigma2 (m ((c.tc : Thread nD τ).loc main_arg1)) (m ((c.tc : Thread nD τ).loc main_arg2))
      ∧ r.2.mem ((c.tc : Thread nD τ).loc main_v45)
          = Cert.Score.obj (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v15_eq (F := Ideal) _ _).trans (raw_eq _ _)),
       (h c).2.1.trans ((val_main_v36_eq (F := Ideal) _ _).trans (mu_eq _ _)),
       (h c).2.2.1.trans ((val_main_v38_eq (F := Ideal) _ _).trans (sigma2_eq _ _)),
       (h c).2.2.2.1.trans ((val_main_v45_eq (F := Ideal) m c).trans (obj_eq _ _ _)),
       (h c).2.2.2.2⟩)
    (Cert.ReferenceIdeal.Value.run (F := Ideal) m ρ)

end Cert.RefScore

end
-- ==== Proof.ScBase.lean ====
/-
  The idealized kernel's program as the SparseCore launch theorem sees it: the SparseCore configuration, the kernels'
  body table under the two TensorCore pipelines, the variants (none) and the configuration's side facts. Shared by the
  modules that prove the vector-subcore task, the two TensorCore regions and @main.
-/
import proofs.«217460_g7679401525743_retrytranche1_990_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217460_g7679401525743_retrytranche1_990_34_alg».proof.Proof.Gen.KernelIdeal

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels under the SparseCore call: the kernels' own and the two TensorCore pipelines'. -/
abbrev ΛP : Labels := Pipeline.Sig Λ₀ (Fin 2) fun p => (pcfgs (F := F) p).Adm
/-- The one SparseCore call of @main. -/
abbrev K : SparseCore.Cfg τ sig (ΛP (F := F)) 1 := sc (F := F)
theorem nCore_zero : (K (F := F)).nCore 0 = 2 := rfl
theorem nSub_zero : (K (F := F)).nSub 0 = 16 := rfl
/-- The body table under the call: each pallas_call's region and pipeline over the kernels' functions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ

end Cert.KernelIdeal.Sc

end
-- ==== Proof.TcGhost.lean ====
/-
  The ghost state of the two TensorCore pipelines inside the SparseCore program: the resource algebra with a copy of
  the rounds library for the staging cells (duties unnamed) beside the handshakes' rounds and the transfers' counters,
  the embeddings of the two rounds libraries, the staging cells' launch element, and how owning the certificate's
  launch element yields the handshakes' element and, after an update, each device's staging-cell ghost state and duty
  tokens for both pipelines.
-/
import proofs.«217460_g7679401525743_retrytranche1_990_34_alg».proof.Proof.ScBase
import proofs.«217460_g7679401525743_retrytranche1_990_34_alg».proof.Proof.Gen.KernelIdeal.Launch
import proofs.«217460_g7679401525743_retrytranche1_990_34_alg».proof.Proof.Gen.KernelIdeal.Points
import Idealize.ShloMosaic.Lib.Pipeline.Regions

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The staging cells' rounds library: one round per transfer through a staging buffer, duties unnamed. -/
abbrev UP : Type := URounds (GSem nD τ sig) Unit
/-- The certificate's resource algebra: the handshakes' rounds, the staging cells' rounds, the transfers' counters
    (rightmost, where the transfer rules find them by instance). -/
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := inferInstance
instance EH_landsIn : (EH (F := F)).LandsIn (upEmb : UEmb _ (MT nD τ sig (HIx 1) (Elt F) ℕ UU ℕ)) := inferInstance

/-- Neither pallas_call has a prefetched table: the admissible contents are the empty ones. -/
abbrev adm : (p : Fin 2) → (pcfgs (F := F) p).Adm := fun p => (cfgs p).toPCfg_adm

/-- The two pipelines' staging cells are pairwise distinct. -/
theorem phinj : Function.Injective (Pipeline.cellOf (nD := nD) (τ := τ) (Pipeline.pin (pcfgs (F := F)) adm)) := cellOf_inj

/-- The staging cells' launch element: every staging cell of both pipelines on every device at its launch state, with
    one duty token per transfer the pipelines' loops issue. -/
def uP : UP := initOf (Pipeline.cells (Pipeline.pin (pcfgs (F := F)) adm) phinj) (Pipeline.launchToks (Pipeline.pin (pcfgs (F := F)) adm) phinj)

/-- Both pipelines' staging-cell ghost state and duty tokens on device `d`: what a region's entry allocates its cells'
    invariants from. -/
abbrev ghost2 (d : Dev nD) : sProp 𝕄 := Pipeline.ghostOn (pcfgs (F := F)) adm EP Finset.univ d

theorem ghost2_eq (d : Dev nD) : (ghost2 (F := F) d : sProp 𝕄)
    = bigSep Finset.univ fun p : Fin 2 => iprop(Pipeline.cellsGhost (Pipeline.pin (pcfgs (F := F)) adm) EP p d ∗ Pipeline.toksInit (Pipeline.pin (pcfgs (F := F)) adm) EP p d) := rfl

/-- The staging cells' launch element funds every device's ghost state for both pipelines. -/
theorem fundP : (BI.own (EP (F := F) (uP (F := F))) : sProp 𝕄) ⊢ iprop(|==> bigSep Finset.univ fun d : Dev nD => ghost2 (F := F) d) := by
  unfold uP
  iintro Hu
  imod (Pipeline.fund_ghost (Pipeline.pin (pcfgs (F := F)) adm) (EP (F := F)) phinj) $$ Hu with ⟨Hg, Ht⟩
  imodintro
  simp only [ghost2_eq, bigSep_sep']
  isplitl [Hg]
  · iexact Hg
  · iexact Ht

/-- The certificate's launch element: the handshakes' rounds at their launch state, the staging cells' at theirs, no
    transfer counted. -/
def u₀ : UU := (initOf (K (F := F)).hsCells (K (F := F)).hsToks, (uP (F := F), 1))

/-- Owning the launch element is owning the handshakes' element and the staging cells'. -/
theorem ownU_split : (ownU (u₀ (F := F)) : sProp 𝕄) ⊢ iprop(BI.own (EH (initOf (K (F := F)).hsCells (K (F := F)).hsToks)) ∗ BI.own (EP (F := F) (uP (F := F)))) := by
  unfold u₀
  iintro Hu
  ihave H := (ownU_pair _ _) $$ Hu
  icases H with ⟨HH, HR⟩
  isplitl [HH]; · iexact HH
  ihave H2 := (own_pair_emb (embR : Emb (UP × Counters) (MT nD τ sig (HIx 1) (Elt F) ℕ UU ℕ)) _ _) $$ HR
  icases H2 with ⟨HP, -⟩
  iexact HP

end Cert.KernelIdeal.Sc

end
-- ==== Proof.ScTile.lean ====
/-
  The vector-subcore task of the one SparseCore call. Tile (c, s) of the 2 × 16 grid works on batch entry b = 2·s + c:
  it copies R into a scratch, reads R_b sixteen-fold, streams the three coordinate planes of z^T[b] through a ring of
  three 8×1024 slots (three copies per slot on the slot's own semaphore, all three waited for before the slot is read),
  adds the thresholded weights lane by lane into four accumulators, and writes their sum to row b of the partials.
  Every semaphore is the tile's own and is waited on by the tile that started the copies: no thread signals another.
  What the call hands a tile: a read share of z^T and of R (every tile reads them, none writes), and row b of the
  partials array whole.
-/
import proofs.«217460_g7679401525743_retrytranche1_990_34_alg».proof.Proof.TcGhost
import proofs.«217460_g7679401525743_retrytranche1_990_34_alg».proof.Proof.Gen.KernelIdeal.Skeleton
import Idealize.ShloMosaic.Lib.Batch

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 1) (Elt F) ℕ UU ℕ

/-! ## The arrays -/

abbrev zLoc (d : Dev nD) : Loc nD τ sig := (SparseCore.T d).loc main_v0
abbrev rLoc (d : Dev nD) : Loc nD τ sig := (SparseCore.T d).loc main_arg1
abbrev pLoc (d : Dev nD) : Loc nD τ sig := (SparseCore.T d).loc main_v1

/-- The batch entry of tile (c, s). -/
abbrev entryOf (c s : ℕ) : ℕ := 2 * s + c

theorem hdiv : 32 ∣ S32x16.size 0 := ⟨1, rfl⟩
/-- Row b of the 32 × 16 partials array. -/
abbrev prow (b : Fin 32) : Rect S32x16 := Rect.part (s := S32x16) (a₀ := 0) hdiv b
abbrev prowSet (b : Fin 32) : Finset S32x16.Idx := ((Memref.whole main_v1_scv : Memref sig .scVector .hbm S32x16 .f32).view.slice (prow b)).set

theorem entry_lt {c s : ℕ} (hc : c < 2) (hs : s < 16) : entryOf c s < 32 := by unfold entryOf; omega

variable (zt : (d : Dev nD) → Buf (Elt F) (zLoc d)) (r : (d : Dev nD) → Buf (Elt F) (rLoc d)) (p₀ : (d : Dev nD) → Buf (Elt F) (pLoc d))

/-- What tile number b is handed: its read shares of z^T and R, and row b of the partials at the launch contents. -/
def goRes (d : Dev nD) (b : Fin 32) : sProp 𝕄 :=
  iprop((zLoc d ↦{shareTokN fullShare b.val} zt d) ∗ (rLoc d ↦{shareTokN fullShare b.val} r d) ∗ (pLoc d ↦[prowSet b]{fullShare} p₀ d))
/-- What it hands back: the shares, and row b at what it wrote. -/
def tdRes (d : Dev nD) (b : Fin 32) : sProp 𝕄 :=
  iprop((zLoc d ↦{shareTokN fullShare b.val} zt d) ∗ (rLoc d ↦{shareTokN fullShare b.val} r d) ∗ ∃ f, pLoc d ↦[prowSet b]{fullShare} f)

instance goRes_storable (d : Dev nD) (b : Fin 32) : BI.Storable (upEmb : UEmb _ 𝕄) (goRes zt r p₀ d b) := by unfold goRes; infer_instance
instance tdRes_storable (d : Dev nD) (b : Fin 32) : BI.Storable (upEmb : UEmb _ 𝕄) (tdRes zt r d b) := by unfold tdRes; infer_instance

/-- The entry of tile (c, i) of the call's grid, as an index of the partials' rows. -/
def entryFin (c : Fin ((K (F := F)).nCore 0)) (i : Fin ((K (F := F)).nSub 0)) : Fin 32 :=
  ⟨entryOf c.val i.val, entry_lt (Fin.cast nCore_zero c).isLt (Fin.cast nSub_zero i).isLt⟩

/-- The call's payloads: a SparseCore is handed exactly what its sixteen tiles are, and hands back what they do. -/
def P : (K (F := F)).Pay (nD := nD) (Val := Elt F) (Name := ℕ) (U := UU) where
  st := fun q d c => match q with | 0 => bigSep Finset.univ fun i : Fin ((K (F := F)).nSub 0) => goRes zt r p₀ d (entryFin c i)
  dn := fun q d c => match q with | 0 => bigSep Finset.univ fun i : Fin ((K (F := F)).nSub 0) => tdRes zt r d (entryFin c i)
  go := fun q d c i => match q with | 0 => goRes zt r p₀ d (entryFin c i)
  td := fun q d c i => match q with | 0 => tdRes zt r d (entryFin c i)
  x := fun _ _ => iprop(emp)

instance P_storable : (P (F := F) zt r p₀).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands ARE its tiles' and its results theirs. -/
theorem vecSplit : (K (F := F)).VecSplit' (P zt r p₀) 0 := by
  intro d c
  show (bigSep Finset.univ fun i : Fin ((K (F := F)).nSub 0) => goRes zt r p₀ d (entryFin c i))
    ⊢ |={Set.univ}=> iprop((bigSep Finset.univ fun i : Fin ((K (F := F)).nSub 0) => goRes zt r p₀ d (entryFin c i))
      ∗ ((bigSep Finset.univ fun i : Fin ((K (F := F)).nSub 0) => tdRes zt r d (entryFin c i))
        -∗ (bigSep Finset.univ fun i : Fin ((K (F := F)).nSub 0) => tdRes zt r d (entryFin c i))))
  iintro Hst
  imodintro
  isplitl [Hst]; · iexact Hst
  iintro Htd; iexact Htd

/-! ## The task -/

section Tile

variable [FloatOps F] (d : Dev nD) (L : grid0.Coords)

abbrev cV (L : grid0.Coords) : Fin τ.nSC := (L 0).castLE hcore0
abbrev jV (L : grid0.Coords) : Fin τ.nSub := (L 1).castLE hsub0
/-- The entry of the tile at grid coordinates L. -/
def entryL (L : grid0.Coords) : Fin 32 := ⟨entryOf (L 0).val (L 1).val, entry_lt (L 0).isLt (L 1).isLt⟩

-- the kernel's memrefs, spelt as the body table passes them
local notation "zW" => (Memref.whole Cert.KernelIdeal.main_v0_scv : Memref Cert.KernelIdeal.sig Kind.scVector Space.hbm Cert.KernelIdeal.S64x3x128x1024 EltTy.f32)
local notation "rW" => (Memref.whole Cert.KernelIdeal.main_arg1_scv : Memref Cert.KernelIdeal.sig Kind.scVector Space.hbm Cert.KernelIdeal.S64 EltTy.f32)
local notation "pW" => (Memref.whole Cert.KernelIdeal.main_v1_scv : Memref Cert.KernelIdeal.sig Kind.scVector Space.hbm Cert.KernelIdeal.S32x16 EltTy.f32)

/-- The tile's eleven scratch buffers: R's copy, the ring's nine 8 × 1024 slots, the 16-lane staging of the result. -/
abbrev scr : Fin 11 → Ref sig .scVector :=
  ![cc0_scratch0, cc0_scratch1, cc0_scratch2, cc0_scratch3, cc0_scratch4, cc0_scratch5, cc0_scratch6, cc0_scratch7, cc0_scratch8, cc0_scratch9, cc0_scratch10]
theorem scr_inj : Function.Injective scr := by decide
/-- The tile's five DMA semaphores: the ring's three, and the two copies' at either end. -/
abbrev sms : Fin 5 → DmaSem sig := ![cc0_scratch11.sem, cc0_scratch12.sem, cc0_scratch13.sem, cc0_scoped0.sem, cc0_scoped1.sem]
theorem sms_inj : Function.Injective sms := by decide
theorem sms_scoped : ∀ k, (SemLoc.dma (sms k) : SemLoc sig).isScoped .scVector = true := by decide

abbrev cellOf (d : Dev nD) (c : Fin τ.nSC) (j : Fin τ.nSub) (k : Fin 5) : GSem nD τ sig := (V d c j, .dma (sms k))

omit [FloatOps F] in
/-- The tile's own buffers are its eleven scratch buffers, each at some contents, and the rest. -/
theorem ownBufs_V (d : Dev nD) (c : Fin τ.nSC) (j : Fin τ.nSub) :
    (ownBufs (V d c j) : sProp 𝕄)
      = iprop((bigSep Finset.univ fun k : Fin 11 => iprop(∃ f, (V d c j).loc (scr k) ↦{fullShare} f))
          ∗ bigSep (ownRefs (τ := τ) (sig := sig) (.scVector c j) \ Finset.univ.image fun k : Fin 11 => (Proc.scVector c j).devRef (scr k))
              fun b => iprop(∃ f, ((d, b) : Loc nD τ sig) ↦{fullShare} f)) := by
  unfold SparseCore.Cfg.ownBufs
  rw [SparseCore.bigSep_sdiff_split' (t := Finset.univ.image fun k : Fin 11 => (Proc.scVector c j).devRef (scr k)) (fun b hb => by
      obtain ⟨k, -, rfl⟩ := Finset.mem_image.mp hb
      fin_cases k <;> exact SparseCore.Cfg.mem_ownRefs_of_owner (p := Proc.scVector c j) rfl),
    SparseCore.bigSep_image_of_injOn (fun a _ b _ e => scr_inj (Proc.devRef_injective _ e))]

omit [FloatOps F] in
/-- The tile's own semaphores at zero are its five DMA semaphores' and the rest. -/
theorem ownSems0_V (d : Dev nD) (c : Fin τ.nSC) (j : Fin τ.nSub) :
    (ownSems0 (V d c j) : sProp 𝕄)
      = iprop((bigSep Finset.univ fun k : Fin 5 => semVal (cellOf d c j k) 0)
          ∗ bigSep (ownCells (V d c j) \ Finset.univ.image (cellOf d c j)) fun g => semVal g 0) := by
  unfold SparseCore.Cfg.ownSems0
  rw [SparseCore.bigSep_sdiff_split' (t := Finset.univ.image (cellOf d c j)) (fun g hg => by
      obtain ⟨k, -, rfl⟩ := Finset.mem_image.mp hg
      exact (mem_ownCells (g := cellOf d c j k)).mpr ⟨rfl, sms_scoped k⟩),
    SparseCore.bigSep_image_of_injOn (fun a _ b _ e => sms_inj (by
      have := congrArg Prod.snd e; simpa [cellOf] using this))]

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
/-- The gathered index is the tile's entry, sixteen-fold, and names an element of R's 64. -/
theorem chk1 : ∀ L : grid0.Coords, k0_chk1 (broadcast S16 (Scalar.addi (Scalar.muli (BitVec.ofNat 32 (L 1).val) 2#32) (BitVec.ofNat 32 (L 0).val))) := by
  decide +kernel

omit [FloatOps F] in
/-- The arrays as a tile's memrefs address them are the TensorCore's arrays. -/
theorem pts_z (c : Fin τ.nSC) (j : Fin τ.nSub) (q : PosShare TreeShare) (f : Buf (Elt F) (zLoc d)) :
    ((zW).view.loc (V d c j) ↦{q} f : sProp 𝕄) = zLoc d ↦{q} f := by
  simp only [Memref.view_whole, View.set_whole]
omit [FloatOps F] in
theorem pts_r (c : Fin τ.nSC) (j : Fin τ.nSub) (q : PosShare TreeShare) (f : Buf (Elt F) (rLoc d)) :
    ((rW).view.loc (V d c j) ↦{q} f : sProp 𝕄) = rLoc d ↦{q} f := by
  simp only [Memref.view_whole, View.set_whole]

/-- Row b of the partials as the tile slices it for its copy out. -/
abbrev pRowK (L : grid0.Coords) : Memref sig .scVector .hbm S16 .f32 :=
  ((pW).slice (Rect.unit (s := S32x16) (k0_off65 L) S1x16.size (k0_off65_inb L)) (fun _ => rfl)).squeeze S16 squeezes_S1x16_S16

omit [FloatOps F] in
theorem pRect_eq : Rect.unit (s := S32x16) (k0_off65 L) S1x16.size (k0_off65_inb L) = prow (entryL L) := by
  unfold prow Rect.part Rect.block
  congr 1 <;> funext a
  · rw [k0_off65_eq]
    match a with
    | 0 => simp [Shape.partIx, Shape.partSize, entryL, entryOf]
    | 1 => simp [Shape.partIx, Shape.partSize]
  · match a with
    | 0 => simp [Shape.partSize]
    | 1 => simp [Shape.partSize]

omit [FloatOps F] in
theorem set_pRowK : (pRowK L).view.set = prowSet (entryL L) := by
  show (((pW).view.slice (Rect.unit (s := S32x16) (k0_off65 L) S1x16.size (k0_off65_inb L))).reshape S16 squeezes_S1x16_S16.numel_eq).set
    = ((pW).view.slice (prow (entryL L))).set
  rw [View.set_reshape]
  exact pRect_eq L ▸ rfl

omit [FloatOps F] in
theorem pts_pRowK (f : Buf (Elt F) (pLoc d)) :
    ((pRowK L).view.loc (V d (cV L) (jV L)) ↦[(pRowK L).view.set]{fullShare} f : sProp 𝕄) = pLoc d ↦[prowSet (entryL L)]{fullShare} f := by
  rw [set_pRowK]

omit [FloatOps F] in
/-- Every wait the tile records beyond W is at the kernels' own index. -/
theorem wb_base (W : Waits sig (HIx 1)) : ∀ p ∈ W, p ∈ W ∨ p.2 = none := fun _ hp => .inl hp
omit [FloatOps F] in
theorem wb_insert {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

omit [FloatOps F] in
/-- What a chunk's loop nest holds at every trip, whatever the accumulators: the slot's three buffers, which it only reads. -/
def slotInv {σ : Type} (d : Dev nD) (c : Fin τ.nSC) (j : Fin τ.nSub) (a b e : Ref sig .scVector) (_ : Nat) (_ : σ) : sProp 𝕄 :=
  iprop((∃ f, (Memref.whole a).view.loc (V d c j) ↦{fullShare} f) ∗ (∃ f, (Memref.whole b).view.loc (V d c j) ↦{fullShare} f)
    ∗ ∃ f, (Memref.whole e).view.loc (V d c j) ↦{fullShare} f)

set_option maxHeartbeats 8000000 in
/-- The task on vector subcore (L 0, L 1) of device d. -/
theorem tile_body (hF : (K (F := F)).Facts) (O : CellTallies nD τ sig (HIx 1)) (W : Waits sig (HIx 1)) (hO : ∀ g, O g none = 0) :
    iprop(levAts (K (F := F)).L (K (F := F)).lev ∗ emp ∗ goRes zt r p₀ d (entryL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_partials_kernel L zW (Memref.isWhole_whole _) rW (Memref.isWhole_whole _) pW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) cc0_scratch11 cc0_scratch12 cc0_scratch13 cc0_scoped0 cc0_scoped1)
          fun _ => iprop(tdRes zt r d (entryL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_partials_kernel_eq_skeleton]; unfold cc0__sc_partials_kernel_skel
  rw [(K (F := F)).scopedBufs_V hF d (cV L) (jV L), SparseCore.Cfg.scopedSems0_V (Val := Elt F) d (cV L) (jV L), ownSems0_V, ownBufs_V]
  rw [bigSep_fin5, bigSep_fin11]
  unfold goRes
  iintro ⟨#Hlv, -, ⟨Hz, Hr, Hp⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, ⟨%f10, Hb10⟩⟩, Hbufs⟩,
    ⟨⟨Hs0, Hs1, Hs2, Hs3, Hs4⟩, Hsems⟩, HO⟩
  ihave Hmw := ((K (F := F)).mayWaits_none (thr := V d (cV L) (jV L)) hO) $$ Hlv
  ihave Hb0 := (Entails.of_eq (show ((V d (cV L) (jV L)).loc (scr 0) ↦{fullShare} f0 : sProp 𝕄) = ((Memref.whole cc0_scratch0 : Memref sig .scVector .vmem _ .f32).view.loc (V d (cV L) (jV L)) ↦{fullShare} f0) from rfl)) $$ Hb0
  ihave Hb1 := (Entails.of_eq (show ((V d (cV L) (jV L)).loc (scr 1) ↦{fullShare} f1 : sProp 𝕄) = ((Memref.whole cc0_scratch1 : Memref sig .scVector .vmem _ .f32).view.loc (V d (cV L) (jV L)) ↦{fullShare} f1) from rfl)) $$ Hb1
  ihave Hb2 := (Entails.of_eq (show ((V d (cV L) (jV L)).loc (scr 2) ↦{fullShare} f2 : sProp 𝕄) = ((Memref.whole cc0_scratch2 : Memref sig .scVector .vmem _ .f32).view.loc (V d (cV L) (jV L)) ↦{fullShare} f2) from rfl)) $$ Hb2
  ihave Hb3 := (Entails.of_eq (show ((V d (cV L) (jV L)).loc (scr 3) ↦{fullShare} f3 : sProp 𝕄) = ((Memref.whole cc0_scratch3 : Memref sig .scVector .vmem _ .f32).view.loc (V d (cV L) (jV L)) ↦{fullShare} f3) from rfl)) $$ Hb3
  ihave Hb4 := (Entails.of_eq (show ((V d (cV L) (jV L)).loc (scr 4) ↦{fullShare} f4 : sProp 𝕄) = ((Memref.whole cc0_scratch4 : Memref sig .scVector .vmem _ .f32).view.loc (V d (cV L) (jV L)) ↦{fullShare} f4) from rfl)) $$ Hb4
  ihave Hb5 := (Entails.of_eq (show ((V d (cV L) (jV L)).loc (scr 5) ↦{fullShare} f5 : sProp 𝕄) = ((Memref.whole cc0_scratch5 : Memref sig .scVector .vmem _ .f32).view.loc (V d (cV L) (jV L)) ↦{fullShare} f5) from rfl)) $$ Hb5
  ihave Hb6 := (Entails.of_eq (show ((V d (cV L) (jV L)).loc (scr 6) ↦{fullShare} f6 : sProp 𝕄) = ((Memref.whole cc0_scratch6 : Memref sig .scVector .vmem _ .f32).view.loc (V d (cV L) (jV L)) ↦{fullShare} f6) from rfl)) $$ Hb6
  ihave Hb7 := (Entails.of_eq (show ((V d (cV L) (jV L)).loc (scr 7) ↦{fullShare} f7 : sProp 𝕄) = ((Memref.whole cc0_scratch7 : Memref sig .scVector .vmem _ .f32).view.loc (V d (cV L) (jV L)) ↦{fullShare} f7) from rfl)) $$ Hb7
  ihave Hb8 := (Entails.of_eq (show ((V d (cV L) (jV L)).loc (scr 8) ↦{fullShare} f8 : sProp 𝕄) = ((Memref.whole cc0_scratch8 : Memref sig .scVector .vmem _ .f32).view.loc (V d (cV L) (jV L)) ↦{fullShare} f8) from rfl)) $$ Hb8
  ihave Hb9 := (Entails.of_eq (show ((V d (cV L) (jV L)).loc (scr 9) ↦{fullShare} f9 : sProp 𝕄) = ((Memref.whole cc0_scratch9 : Memref sig .scVector .vmem _ .f32).view.loc (V d (cV L) (jV L)) ↦{fullShare} f9) from rfl)) $$ Hb9
  ihave Hb10 := (Entails.of_eq (show ((V d (cV L) (jV L)).loc (scr 10) ↦{fullShare} f10 : sProp 𝕄) = ((Memref.whole cc0_scratch10 : Memref sig .scVector .vmem _ .f32).view.loc (V d (cV L) (jV L)) ↦{fullShare} f10) from rfl)) $$ Hb10
  ihave Hs0 := (Entails.of_eq (show (semVal (cellOf d (cV L) (jV L) 0) 0 : sProp 𝕄) = semVal (V d (cV L) (jV L), SemLoc.dma cc0_scratch11.sem) 0 from rfl)) $$ Hs0
  ihave Hs1 := (Entails.of_eq (show (semVal (cellOf d (cV L) (jV L) 1) 0 : sProp 𝕄) = semVal (V d (cV L) (jV L), SemLoc.dma cc0_scratch12.sem) 0 from rfl)) $$ Hs1
  ihave Hs2 := (Entails.of_eq (show (semVal (cellOf d (cV L) (jV L) 2) 0 : sProp 𝕄) = semVal (V d (cV L) (jV L), SemLoc.dma cc0_scratch13.sem) 0 from rfl)) $$ Hs2
  ihave Hs3 := (Entails.of_eq (show (semVal (cellOf d (cV L) (jV L) 3) 0 : sProp 𝕄) = semVal (V d (cV L) (jV L), SemLoc.dma cc0_scoped0.sem) 0 from rfl)) $$ Hs3
  ihave Hs4 := (Entails.of_eq (show (semVal (cellOf d (cV L) (jV L) 4) 0 : sProp 𝕄) = semVal (V d (cV L) (jV L), SemLoc.dma cc0_scoped1.sem) 0 from rfl)) $$ Hs4
  ihave Hz := (Entails.of_eq (pts_z (F := F) d (cV L) (jV L) _ _).symm) $$ Hz
  -- nine copies may read z^T at once: the tile's share of it as nine read tokens and the remainder
  ihave Hz := (Transfers.pointsTo_toks_split (shareTokN fullShare (entryL L).val) 9) $$ Hz
  rw [bigSep_fin9]
  icases Hz with ⟨Hzr, Hz0, Hz1, Hz2, Hz3, Hz4, Hz5, Hz6, Hz7, Hz8⟩
  ihave Hr := (Entails.of_eq (pts_r (F := F) d (cV L) (jV L) _ _).symm) $$ Hr
  ihave Hp := (Entails.of_eq (pts_pRowK (F := F) d L _).symm) $$ Hp
  have hchk := chk1 L
  have hB0 : Transfers.BatchOf (V d (cV L) (jV L)) (SemLoc.dma cc0_scratch11.sem) 3 := trivial
  have hB1 : Transfers.BatchOf (V d (cV L) (jV L)) (SemLoc.dma cc0_scratch12.sem) 3 := trivial
  have hB2 : Transfers.BatchOf (V d (cV L) (jV L)) (SemLoc.dma cc0_scratch13.sem) 3 := trivial
  sl_exec_parts
  -- the gather of R's entry, sixteen-fold: a load of the whole scratch
  ihave Hb0 := (Entails.of_eq (show ((Memref.whole cc0_scratch0 : Memref sig .scVector .vmem S64 .f32).view.loc (V d (cV L) (jV L)) ↦{fullShare} _ : sProp 𝕄)
    = (((Memref.whole cc0_scratch0 : Memref sig .scVector .vmem S64 .f32).access (.whole S64)).loc (V d (cV L) (jV L)) ↦{fullShare} _) from rfl)) $$ Hb0
  iapply (SparseCore.wp_vectorLoadIdx 𝒱₀ (V d (cV L) (jV L)) none Set.univ (base := (Memref.whole cc0_scratch0 : Memref sig .scVector .vmem S64 .f32))
    (S := Finset.univ) (q := fullShare) (Finset.subset_univ _)) $$ Hb0
  iintro Hb0
  sl_exec_parts
  -- chunk 0 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc0 HI
  unfold slotInv
  icases HI with ⟨⟨%g0a, Hb1⟩, ⟨%g0b, Hb2⟩, ⟨%g0c, Hb3⟩⟩
  sl_exec_parts
  -- chunk 1 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc1 HI
  unfold slotInv
  icases HI with ⟨⟨%g1a, Hb4⟩, ⟨%g1b, Hb5⟩, ⟨%g1c, Hb6⟩⟩
  sl_exec_parts
  -- chunk 2 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc2 HI
  unfold slotInv
  icases HI with ⟨⟨%g2a, Hb7⟩, ⟨%g2b, Hb8⟩, ⟨%g2c, Hb9⟩⟩
  sl_exec_parts
  -- chunk 3 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc3 HI
  unfold slotInv
  icases HI with ⟨⟨%g3a, Hb1⟩, ⟨%g3b, Hb2⟩, ⟨%g3c, Hb3⟩⟩
  sl_exec_parts
  -- chunk 4 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc4 HI
  unfold slotInv
  icases HI with ⟨⟨%g4a, Hb4⟩, ⟨%g4b, Hb5⟩, ⟨%g4c, Hb6⟩⟩
  sl_exec_parts
  -- chunk 5 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc5 HI
  unfold slotInv
  icases HI with ⟨⟨%g5a, Hb7⟩, ⟨%g5b, Hb8⟩, ⟨%g5c, Hb9⟩⟩
  sl_exec_parts
  -- chunk 6 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc6 HI
  unfold slotInv
  icases HI with ⟨⟨%g6a, Hb1⟩, ⟨%g6b, Hb2⟩, ⟨%g6c, Hb3⟩⟩
  sl_exec_parts
  -- chunk 7 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc7 HI
  unfold slotInv
  icases HI with ⟨⟨%g7a, Hb4⟩, ⟨%g7b, Hb5⟩, ⟨%g7c, Hb6⟩⟩
  sl_exec_parts
  -- chunk 8 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc8 HI
  unfold slotInv
  icases HI with ⟨⟨%g8a, Hb7⟩, ⟨%g8b, Hb8⟩, ⟨%g8c, Hb9⟩⟩
  sl_exec_parts
  -- chunk 9 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc9 HI
  unfold slotInv
  icases HI with ⟨⟨%g9a, Hb1⟩, ⟨%g9b, Hb2⟩, ⟨%g9c, Hb3⟩⟩
  sl_exec_parts
  -- chunk 10 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc10 HI
  unfold slotInv
  icases HI with ⟨⟨%g10a, Hb4⟩, ⟨%g10b, Hb5⟩, ⟨%g10c, Hb6⟩⟩
  sl_exec_parts
  -- chunk 11 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc11 HI
  unfold slotInv
  icases HI with ⟨⟨%g11a, Hb7⟩, ⟨%g11b, Hb8⟩, ⟨%g11c, Hb9⟩⟩
  sl_exec_parts
  -- chunk 12 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc12 HI
  unfold slotInv
  icases HI with ⟨⟨%g12a, Hb1⟩, ⟨%g12b, Hb2⟩, ⟨%g12c, Hb3⟩⟩
  sl_exec_parts
  -- chunk 13 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc13 HI
  unfold slotInv
  icases HI with ⟨⟨%g13a, Hb4⟩, ⟨%g13b, Hb5⟩, ⟨%g13c, Hb6⟩⟩
  sl_exec_parts
  -- chunk 14 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc14 HI
  unfold slotInv
  icases HI with ⟨⟨%g14a, Hb7⟩, ⟨%g14b, Hb8⟩, ⟨%g14c, Hb9⟩⟩
  sl_exec_parts
  -- chunk 15 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc15 HI
  unfold slotInv
  icases HI with ⟨⟨%g15a, Hb1⟩, ⟨%g15b, Hb2⟩, ⟨%g15c, Hb3⟩⟩
  sl_exec_parts
  sl_step
  unfold tdRes
  isplitl [Hzr Hz0 Hz1 Hz2 Hz3 Hz4 Hz5 Hz6 Hz7 Hz8 Hr Hp]
  · isplitl [Hzr Hz0 Hz1 Hz2 Hz3 Hz4 Hz5 Hz6 Hz7 Hz8]
    · -- the nine read tokens and the remainder are the tile's share of z^T again
      iapply (Entails.of_eq (pts_z (F := F) d (cV L) (jV L) _ _))
      iapply (Transfers.pointsTo_toks_join (shareTokN fullShare (entryL L).val) 9)
      rw [bigSep_fin9]
      isplitl [Hzr]; · iexact Hzr
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hr]
    · iapply (Entails.of_eq (pts_r (F := F) d (cV L) (jV L) _ _)); iexact Hr
    · iexists _; iapply (Entails.of_eq (pts_pRowK (F := F) d L _)); iexact Hp
  isplitl [Hb0 Hb1 Hb2 Hb3 Hb4 Hb5 Hb6 Hb7 Hb8 Hb9 Hb10 Hbufs]
  · isplitl [Hb0 Hb1 Hb2 Hb3 Hb4 Hb5 Hb6 Hb7 Hb8 Hb9 Hb10]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      isplitl [Hb8]; · iexists _; iexact Hb8
      isplitl [Hb9]; · iexists _; iexact Hb9
      iexists _; iexact Hb10
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _
  isplitr
  swap
  · iexact HO
  · ipureintro
    repeat (first | exact wb_base W | apply wb_insert)

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_partials_kernel (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) cc0_scratch11 cc0_scratch12 cc0_scratch13 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hF : (K (F := F)).Facts) : (K (F := F)).TileObl (D (F := F)) 𝒱 (P zt r p₀) v₀ 0 := by
  intro d c i O W hO _ _
  simp only [show (P zt r p₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body zt r p₀ d (coordsV ⟨_, hc.1⟩ ⟨_, hc.2⟩) hF O W hO).trans (wp_mono frame _ _ fun _ => obl_post)

end Cert.KernelIdeal.Sc

end
-- ==== Proof.ScDeal.lean ====
/-
  How the call deals the three arrays to its thirty-two tiles and gathers them back. The coordinate planes and the
  radii are only read: each tile gets one read token of each and the call keeps the remainder. The partials array
  is written row by row: tile `b` gets row `b` whole, the rows are pairwise disjoint and cover the array, and the
  rows handed back at whatever the tiles wrote are the array at some contents. The grid's tile `(c, i)` is entry
  `2 i + c`, a bijection of the 2 × 16 grid with the thirty-two entries.
-/
import proofs.«217460_g7679401525743_retrytranche1_990_34_alg».proof.Proof.ScTile

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

/-! ## The rows of the partials array -/

theorem prowSet_eq (b : Fin 32) : prowSet b = (prow b).set := by
  show ((View.whole (main_v1_scv : Ref sig .scVector)).slice (prow b)).set = _
  rw [View.set_slice]; exact Finset.map_refl

theorem prows_disjoint : ∀ i ∈ (Finset.univ : Finset (Fin 32)), ∀ j ∈ (Finset.univ : Finset (Fin 32)), i ≠ j →
    Disjoint (prowSet i) (prowSet j) :=
  fun i _ j _ h => by rw [prowSet_eq, prowSet_eq]; exact Rect.part_disjoint hdiv h

theorem prows_cover : (Finset.univ : Finset (Fin 32)).biUnion prowSet = Finset.univ :=
  (Finset.biUnion_congr rfl fun i _ => prowSet_eq i).trans (Rect.biUnion_part hdiv)

/-- The whole partials array is its thirty-two rows. -/
theorem pPts_rows (d : Dev nD) (f : Buf (Elt F) (pLoc d)) :
    (pLoc d ↦{fullShare} f : sProp 𝕄) = bigSep Finset.univ fun b : Fin 32 => pLoc d ↦[prowSet b]{fullShare} f := by
  rw [← pointsTo_biUnion Finset.univ (ℓ := pLoc d) prowSet prows_disjoint, prows_cover]; try rfl

/-- The thirty-two rows, each at some contents, are the whole array at some contents. -/
theorem pRows_join [FloatOps F] (d : Dev nD) :
    (bigSep Finset.univ fun b : Fin 32 => iprop(∃ f, pLoc d ↦[prowSet b]{fullShare} f))
      ⊢ (iprop(∃ f, pLoc d ↦{fullShare} f) : sProp 𝕄) := by
  refine (bigSep_exists_pi Finset.univ (fun (b : Fin 32) (f : Buf (Elt F) (pLoc d)) => (pLoc d ↦[prowSet b]{fullShare} f : sProp 𝕄))).trans ?_
  iintro ⟨%fs, H⟩
  ihave H' := (pointsTo_biUnion_join Finset.univ prowSet fs (fs 0) prows_disjoint) $$ H
  icases H' with ⟨%g, -, Hg⟩
  rw [prows_cover]
  iexists g; iexact Hg

/-! ## The grid's tiles are the thirty-two entries -/

theorem entryFin_injective :
    Function.Injective fun ci : Fin ((K (F := F)).nCore 0) × Fin ((K (F := F)).nSub 0) => entryFin (F := F) ci.1 ci.2 := by
  rintro ⟨c, i⟩ ⟨c', i'⟩ h
  have hc : c.val < 2 := (Fin.cast nCore_zero c).isLt
  have hc' : c'.val < 2 := (Fin.cast nCore_zero c').isLt
  have hv : 2 * i.val + c.val = 2 * i'.val + c'.val := congrArg Fin.val h
  exact Prod.ext (Fin.ext (by show c.val = c'.val; omega)) (Fin.ext (by show i.val = i'.val; omega))

/-- A family over the thirty-two entries, taken tile by tile over the grid, is the family over the entries. -/
theorem bigSep_grid (Φ : Fin 32 → sProp 𝕄) :
    (bigSep Finset.univ fun c : Fin ((K (F := F)).nCore 0) => bigSep Finset.univ fun i : Fin ((K (F := F)).nSub 0) =>
        Φ (entryFin (F := F) c i))
      = bigSep Finset.univ Φ := by
  classical
  rw [← bigSep_univ_prod (fun ci : Fin ((K (F := F)).nCore 0) × Fin ((K (F := F)).nSub 0) => Φ (entryFin (F := F) ci.1 ci.2))]
  have hmap : (Finset.univ : Finset (Fin ((K (F := F)).nCore 0) × Fin ((K (F := F)).nSub 0))).map
      ⟨_, entryFin_injective (F := F)⟩ = (Finset.univ : Finset (Fin 32)) :=
    Finset.eq_univ_of_card _ (by
      rw [Finset.card_map, Finset.card_univ, Fintype.card_prod, Fintype.card_fin, Fintype.card_fin, Fintype.card_fin,
        nCore_zero, nSub_zero])
  rw [← hmap, bigSep_map]
  rfl

variable (zt : (d : Dev nD) → Buf (Elt F) (zLoc d)) (r : (d : Dev nD) → Buf (Elt F) (rLoc d)) (p₀ : (d : Dev nD) → Buf (Elt F) (pLoc d))

/-- What the two SparseCores are handed is what the thirty-two tiles are. -/
theorem st_all (d : Dev nD) :
    (bigSep Finset.univ fun c : Fin ((K (F := F)).nCore 0) => (P zt r p₀).st 0 d c)
      = bigSep Finset.univ fun b : Fin 32 => goRes zt r p₀ d b :=
  bigSep_grid (F := F) fun b => goRes zt r p₀ d b

/-- What they hand back is what the tiles do. -/
theorem dn_all (d : Dev nD) :
    (bigSep Finset.univ fun c : Fin ((K (F := F)).nCore 0) => (P zt r p₀).dn 0 d c)
      = bigSep Finset.univ fun b : Fin 32 => tdRes zt r d b :=
  bigSep_grid (F := F) fun b => tdRes zt r d b

/-! ## Dealing and gathering -/

/-- From the three arrays whole: the remainders of the two read arrays, and every SparseCore's operands. -/
theorem deal (d : Dev nD) :
    iprop((zLoc d ↦{fullShare} zt d) ∗ (rLoc d ↦{fullShare} r d) ∗ (pLoc d ↦{fullShare} p₀ d))
      ⊢ (iprop((zLoc d ↦{shareDrop fullShare 32} zt d) ∗ (rLoc d ↦{shareDrop fullShare 32} r d)
          ∗ bigSep Finset.univ fun c : Fin ((K (F := F)).nCore 0) => (P zt r p₀).st 0 d c) : sProp 𝕄) := by
  rw [st_all]
  unfold goRes
  rw [bigSep_sep', bigSep_sep', pPts_rows]
  iintro ⟨Hz, Hr, Hp⟩
  ihave Hz := (Transfers.pointsTo_toks_split fullShare 32) $$ Hz
  ihave Hr := (Transfers.pointsTo_toks_split fullShare 32) $$ Hr
  icases Hz with ⟨Hz0, Hzt⟩
  icases Hr with ⟨Hr0, Hrt⟩
  isplitl [Hz0]; · iexact Hz0
  isplitl [Hr0]; · iexact Hr0
  isplitl [Hzt]; · iexact Hzt
  isplitl [Hrt]; · iexact Hrt
  iexact Hp

/-- From the remainders and every SparseCore's results: the two read arrays whole again, and the partials array whole
    at some contents. -/
theorem gather [FloatOps F] (d : Dev nD) :
    iprop((zLoc d ↦{shareDrop fullShare 32} zt d) ∗ (rLoc d ↦{shareDrop fullShare 32} r d)
        ∗ bigSep Finset.univ fun c : Fin ((K (F := F)).nCore 0) => (P zt r p₀).dn 0 d c)
      ⊢ (iprop((zLoc d ↦{fullShare} zt d) ∗ (rLoc d ↦{fullShare} r d) ∗ ∃ f, pLoc d ↦{fullShare} f) : sProp 𝕄) := by
  rw [dn_all]
  unfold tdRes
  rw [bigSep_sep', bigSep_sep']
  iintro ⟨Hz0, Hr0, Hzt, Hrt, Hp⟩
  isplitl [Hz0 Hzt]
  · iapply (Transfers.pointsTo_toks_join fullShare 32)
    isplitl [Hz0]; · iexact Hz0
    iexact Hzt
  isplitl [Hr0 Hrt]
  · iapply (Transfers.pointsTo_toks_join fullShare 32)
    isplitl [Hr0]; · iexact Hr0
    iexact Hrt
  iapply (pRows_join d); iexact Hp

end Cert.KernelIdeal.Sc

end
-- ==== Proof.TcEpilogue.lean ====
/-
  The epilogue pallas_call (pipeline 1 of @main) as a region of the TensorCore's program: the kernel body's triple on
  whole staging buffers, the pipeline's proof data at a valuation of the TensorCore's buffers, the body obligation, and
  the region record: entered holding the unscoped buffers at the valuation and owing nothing, the call runs to the
  eight arrays at what the write-backs make of them, the other buffers untouched.
-/
import proofs.«217460_g7679401525743_retrytranche1_990_34_alg».proof.Proof.TcGhost
import proofs.«217460_g7679401525743_retrytranche1_990_34_alg».proof.Proof.Gen.KernelIdeal.Skeleton
import Idealize.ShloMosaic.Lib.Pipeline.FrameBody
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The epilogue kernel's body: what it reads and what it leaves -/

abbrev r2_0 : Rect S32x16 := Rect.unit (s := S32x16) ![0, 0] S32x16.size inb_S32x16_S32x16_0_0
abbrev r2_1 : Rect S32 := Rect.unit (s := S32) ![0] S32.size inb_S32_S32_0
abbrev r2_2 : Rect S64 := Rect.unit (s := S64) ![0] S64.size inb_S64_S64_0
abbrev r2_3 : Rect S1 := Rect.unit (s := S1) ![0] S1.size inb_S1_S1_0

/-- The scalar the body reads from the one-word SMEM operand. -/
def sc2_3 (x3 : Vec F S1 .f32) : Elt F .f32 := View.ld x3 r2_3 (Shape.Idx.first (by decide))

/-- Each result's staging buffer after the body, from the four operands' blocks: its one store as a piece. -/
def out2_4 (x0 : Vec F S32x16 .f32) (x1 : Vec F S32 .f32) : Vec F S64 .f32 :=
  View.canon [⟨r2_2, k2_pay2 (View.ld x0 r2_0) (View.ld x1 r2_1)⟩]
def out2_5 (x2 : Vec F S64 .f32) (x3 : Vec F S1 .f32) : Vec F S64 .f32 :=
  View.canon [⟨r2_2, k2_pay5 (View.ld x2 r2_2) (sc2_3 x3)⟩]
def out2_6 (x2 : Vec F S64 .f32) (x3 : Vec F S1 .f32) : Vec F S64 .f32 :=
  View.canon [⟨r2_2, k2_pay6 (View.ld x2 r2_2) (sc2_3 x3)⟩]
def out2_7 (x0 : Vec F S32x16 .f32) (x1 : Vec F S32 .f32) (x2 : Vec F S64 .f32) (x3 : Vec F S1 .f32) : Vec F S64 .f32 :=
  View.canon [⟨r2_2, k2_pay1 (k2_pay7 (View.ld x2 r2_2) (sc2_3 x3)) (k2_pay8 (View.ld x0 r2_0) (View.ld x1 r2_1) (View.ld x2 r2_2) (sc2_3 x3))⟩]

/-- The one store covers the buffer. -/
theorem cover2 (p0 : Vec F S64 .f32) (y : S64.Idx) :
    ∃ pc ∈ ([⟨r2_2, p0⟩] : List (View.Piece (Elt F) S64 .f32)), y ∈ pc.1.set :=
  View.cover_of_tiled [⟨r2_2, p0⟩] S64.size (by rfl) y

set_option maxHeartbeats 1000000 in
/-- The body on whole staging memrefs, the four operands' at read contents and the four results' at anything, runs
    to the continuation holding the operands' as they were and each result's at its `out2_W` of the operands'. -/
theorem sound_kernel2 [∀ e, Nonempty (Elt F e)] (c : Dev nD) (E : Set ℕ)
    (arg0 : Memref sig .tc .vmem S32x16 .f32) (harg0 : arg0.IsWhole) (arg1 : Memref sig .tc .vmem S32 .f32) (harg1 : arg1.IsWhole)
    (arg2 : Memref sig .tc .vmem S64 .f32) (harg2 : arg2.IsWhole) (arg3 : Memref sig .tc .smem S1 .f32) (harg3 : arg3.IsWhole)
    (arg4 : Memref sig .tc .vmem S64 .f32) (harg4 : arg4.IsWhole) (arg5 : Memref sig .tc .vmem S64 .f32) (harg5 : arg5.IsWhole)
    (arg6 : Memref sig .tc .vmem S64 .f32) (harg6 : arg6.IsWhole) (arg7 : Memref sig .tc .vmem S64 .f32) (harg7 : arg7.IsWhole)
    (x0 : Vec F S32x16 .f32) (x1 : Vec F S32 .f32) (x2 : Vec F S64 .f32) (x3 : Vec F S1 .f32) (Kc : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ y, owns (c : Thread nD τ) arg4 fullShare y) ∗ (∃ y, owns (c : Thread nD τ) arg5 fullShare y)
        ∗ (∃ y, owns (c : Thread nD τ) arg6 fullShare y) ∗ (∃ y, owns (c : Thread nD τ) arg7 fullShare y)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out2_4 x0 x1) ∗ owns (c : Thread nD τ) arg5 fullShare (out2_5 x2 x3)
            ∗ owns (c : Thread nD τ) arg6 fullShare (out2_6 x2 x3) ∗ owns (c : Thread nD τ) arg7 fullShare (out2_7 x0 x1 x2 x3)) -∗ Kc ⟨⟩))
      ⊢ wp frame (wpE (defs₀ (F := F)) Variants.none (c : Thread nD τ) none) E
          (cc2__tc_epilogue_kernel arg0 harg0 arg1 harg1 arg2 harg2 arg3 harg3 arg4 harg4 arg5 harg5 arg6 harg6 arg7 harg7) Kc := by
  simp only [cc2__tc_epilogue_kernel_eq_skeleton]; unfold cc2__tc_epilogue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  isplitl [H5]
  · iexists _; isplitr
    swap; · iexact H5
    ipureintro
    exact View.read_writes_eq_canon _ _ _ (cover2 _)
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The epilogue pipeline's proof data -/

variable (W : Valuation τ sig (Elt F))

/-- The TensorCore's buffers on any device at the valuation. -/
abbrev VW (c : Dev nD) (b : Ref sig .tc) : Buf (Elt F) ((c : Thread nD τ).loc b) := W b

/-- Window `w`'s block at the one point, read off its array at the valuation. -/
def iblk2 (c : Dev nD) (w : Fin cfg2.W) (t : Fin cfg2.N) : ((cfg2.win w).xblock (cfg2.grid.coords t)).Idx → Elt F (cfg2.win w).elt :=
  ((cfg2.win w).blk t).view.read (Elt F) (VW W c (Pipeline.arrRef spec2 w))

/-- The recorded (cell, index) pairs the TensorCore may hold through a region after the SparseCore call: those at
    level at most 8. The staging cells' own waits are at index `none`, level 0. -/
def rec8 (c : Dev nD) : Set (SemLoc sig × HIx 1) := {p | (K (F := F)).lev ((c : Thread nD τ), p.1) p.2 ≤ 8}

/-- The proof data of the epilogue pipeline on device `c`: the arrays at the valuation; after the body each operand's
    buffer at its block and each result's at `out2_W` of the operands' blocks; the invariant the scoped buffers no
    window stages; nothing owed; full shares. -/
def dat2 (c : Dev nD) : Dat τ (Elt F) (HIx 1) ℕ UU ℕ cfg2 c where
  A w := VW W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => out2_4 (iblk2 W c 0 t) (iblk2 W c 1 t)
    | ⟨5, _⟩ => out2_5 (iblk2 W c 2 t) (iblk2 W c 3 t)
    | ⟨6, _⟩ => out2_6 (iblk2 W c 2 t) (iblk2 W c 3 t)
    | ⟨7, _⟩ => out2_7 (iblk2 W c 0 t) (iblk2 W c 1 t) (iblk2 W c 2 t) (iblk2 W c 3 t)
  Φ _ := Pipeline.scopedRest (Ix := HIx 1) (Name := ℕ) (U := UU) (Lvl := ℕ) (Val := Elt F) spec2 c
  q _ := fullShare
  owed _ := 0
  recorded _ := rec8 (F := F) c

theorem A2_eq (c : Dev nD) (w : Fin cfg2.W) : (dat2 W c).A w = VW W c (Pipeline.arrRef spec2 w) := by
  dsimp only [dat2]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = out2_4 (iblk2 W c 0 t) (iblk2 W c 1 t) := by dsimp only [dat2]
theorem after2_5 (c : Dev nD) (t : Fin cfg2.N) : (dat2 W c).after 5 t = out2_5 (iblk2 W c 2 t) (iblk2 W c 3 t) := by dsimp only [dat2]
theorem after2_6 (c : Dev nD) (t : Fin cfg2.N) : (dat2 W c).after 6 t = out2_6 (iblk2 W c 2 t) (iblk2 W c 3 t) := by dsimp only [dat2]
theorem after2_7 (c : Dev nD) (t : Fin cfg2.N) : (dat2 W c).after 7 t = out2_7 (iblk2 W c 0 t) (iblk2 W c 1 t) (iblk2 W c 2 t) (iblk2 W c 3 t) := by dsimp only [dat2]

/-- Each operand's staging buffer holds its block when the body runs: it was just fetched. -/
theorem before2_0 (c : Dev nD) (t : Fin cfg2.N) (d) : (dat2 W c).before 0 t d = iblk2 W c 0 t :=
  ((dat2 W c).before_fetched 0 t (fetch2_0 t) d).trans (by unfold Dat.fetched Dat.blockOf iblk2; rw [A2_eq]; rfl)
theorem before2_1 (c : Dev nD) (t : Fin cfg2.N) (d) : (dat2 W c).before 1 t d = iblk2 W c 1 t :=
  ((dat2 W c).before_fetched 1 t (fetch2_1 t) d).trans (by unfold Dat.fetched Dat.blockOf iblk2; rw [A2_eq]; rfl)
theorem before2_2 (c : Dev nD) (t : Fin cfg2.N) (d) : (dat2 W c).before 2 t d = iblk2 W c 2 t :=
  ((dat2 W c).before_fetched 2 t (fetch2_2 t) d).trans (by unfold Dat.fetched Dat.blockOf iblk2; rw [A2_eq]; rfl)
theorem before2_3 (c : Dev nD) (t : Fin cfg2.N) (d) : (dat2 W c).before 3 t d = iblk2 W c 3 t :=
  ((dat2 W c).before_fetched 3 t (fetch2_3 t) d).trans (by unfold Dat.fetched Dat.blockOf iblk2; rw [A2_eq]; rfl)

/-! ## The body obligation -/

def bodyPre2 (c : Dev nD) (t : Fin cfg2.N) : sProp 𝕄 :=
  iprop((dat2 W c).Φ t.castSucc ∗ (dat2 W c).owesAt none t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d))
    ∗ (∃ d, owns (c : Thread nD τ) (st2_6 t) fullShare ((dat2 W c).before 6 t d))
    ∗ (∃ d, owns (c : Thread nD τ) (st2_7 t) fullShare ((dat2 W c).before 7 t d)))

def bodyPost2 (c : Dev nD) (t : Fin cfg2.N) : sProp 𝕄 :=
  iprop((dat2 W c).Φ t.succ ∗ (dat2 W c).owesAt none t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t)
    ∗ owns (c : Thread nD τ) (st2_5 t) fullShare ((dat2 W c).after 5 t)
    ∗ owns (c : Thread nD τ) (st2_6 t) fullShare ((dat2 W c).after 6 t)
    ∗ owns (c : Thread nD τ) (st2_7 t) fullShare ((dat2 W c).after 7 t))

theorem sound_body2 [∀ e, Nonempty (Elt F e)] (c : Dev nD) (t : Fin cfg2.N) :
    bodyPre2 W c t ⊢ wp frame (wpE (defs₀ (F := F)) Variants.none (c : Thread nD τ) none) Set.univ (bodyAt2 t) (fun _ => bodyPost2 W c t) := by
  unfold bodyPre2 bodyPost2 bodyAt2
  simp only [before2_0, before2_1, before2_2, before2_3]
  rw [show (dat2 W c).Φ t.succ = (dat2 W c).Φ t.castSucc from rfl,
    show (dat2 W c).owesAt none t.succ = (dat2 W c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ (iblk2 W c 0 t) (iblk2 W c 1 t) (iblk2 W c 2 t) (iblk2 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 [∀ e, Nonempty (Elt F e)] (c : Dev nD) : BodyObligation (dat2 (F := F) W c) (defs₀ (F := F)) Variants.none none Set.univ := fun t => by
  rw [bigSep_W2, bigSep_W2]
  exact sound_body2 W c t

/-! ## The epilogue region -/

theorem bigSep_F0 {M : Type} [URA M] (Φ : Fin 0 → sProp M) : bigSep Finset.univ Φ = (BI.emp : sProp M) :=
  bigSep_univ_eq_bigSepL [] (by decide) (by decide) Φ

theorem prefHeld2 (c : Dev nD) (q) (pf) :
    (Pipeline.prefHeld (Ix := HIx 1) (Name := ℕ) (U := UU) (Lvl := ℕ) (Val := Elt F) (pcfgs (F := F) 1).pre c q pf : sProp 𝕄) = BI.emp :=
  bigSep_F0 _

/-- The TensorCore owing nothing, its recorded pairs at level at most 8: its state between the SparseCore call's end
    and the program's. -/
abbrev owes8 (c : Dev nD) : sProp 𝕄 :=
  iprop(∃ Wt, ⌜(K (F := F)).WBelow (T c) Wt 8⌝ ∗ owes (T c) (0 : CellTallies nD τ sig (HIx 1)) Wt)

theorem owesAt2_intro (c : Dev nD) (t : Fin (cfg2.N + 1)) : (owes8 (F := F) c : sProp 𝕄) ⊢ (dat2 W c).owesAt none t := by
  unfold Dat.owesAt Pipeline.owesWithin Dat.bound
  iintro ⟨%Wt, %hW, HO⟩; iexists Wt; isplitr
  · ipureintro; exact fun p hp => Or.inl (hW p (Finset.mem_coe.mp hp))
  iexact HO

theorem owesAt2_elim (c : Dev nD) (t : Fin (cfg2.N + 1)) : ((dat2 W c).owesAt none t : sProp 𝕄) ⊢ owes8 (F := F) c := by
  unfold Dat.owesAt Pipeline.owesWithin
  iintro ⟨%Wt, %hW, HO⟩; iexists Wt; isplitr
  · ipureintro; intro p hp
    rcases hW (Finset.mem_coe.mpr hp) with h | ⟨w, s, rfl⟩
    · exact h
    · exact Nat.zero_le _
  iexact HO

/-- The reduce pipeline's proof data where the epilogue's region is stated: not consulted. -/
def dat1any [∀ e, Nonempty (Elt F e)] (c : Dev nD) : Dat τ (Elt F) (HIx 1) ℕ UU ℕ cfg1 c where
  A w := VW W c (Pipeline.arrRef spec1 w)
  after _ _ := fun _ => Classical.arbitrary _
  Φ _ := iprop(emp)
  q _ := fullShare
  owed _ := 0

/-- Both pipelines' proof data, for the epilogue's region. -/
def pdatsB [∀ e, Nonempty (Elt F e)] : (p : Fin 2) → (c : Dev nD) → Dat τ (Elt F) (HIx 1) ℕ UU ℕ (Pipeline.pin (pcfgs (F := F)) adm p) c
  | 0 => dat1any W
  | 1 => dat2 W

variable (lv : GSem nD τ sig → HIx 1 → ℕ)

/-- The epilogue region: entered holding the TensorCore's unscoped buffers at the valuation and owing nothing, it
    leaves the eight arrays at what the pipeline's write-backs make of them and the other unscoped buffers as they
    were. -/
def reg2 [∀ e, Nonempty (Elt F e)] : Pipeline.RegionSeg (pcfgs (F := F)) adm (pdatsB W) (none : HIx 1) defs₀ 𝒱₀ (K (F := F)).L lv 1 where
  win := winFacts2.to₀
  block_pos := block_pos2
  stage_whole := stage_whole2
  K := PEmpty
  osem k := k.elim
  ho := Pipeline.OwnSemFacts.none _
  hbody c := (body_obligation2 W c).loose
  hwaits := Pipeline.hwaits_of_owed_zero _ _ _ _ _ lv 1 fun _ _ => rfl
  pre c := iprop(unscopedBufs c (VW W c) ∗ owes8 (F := F) c)
  post c := iprop((dat2 W c).arrays ((dat2 W c).arrAt · cfg2.N) ∗ Pipeline.unscopedRest spec2 c (VW W c) ∗ owes8 (F := F) c)
  X _ := iprop(emp)
  Y _ := iprop(emp)
  Z c := Pipeline.unscopedRest spec2 c (VW W c)
  hentry c := by
    rw [Pipeline.ownSems0_none, prefHeld2]
    iintro ⟨⟨Hb, HO⟩, -, -⟩
    imodintro
    ihave H := (Pipeline.arrays_of_unscopedBufs (pcfgs (F := F)) adm (pdatsB W) (p := 1) winFacts2 arr_whole2 c
      ((dat2 W c).share_full fun _ => rfl) (VW W c) (fun w => A2_eq W c w)) $$ Hb
    icases H with ⟨Ha, Hr⟩
    isplitl [Ha]; · iexact Ha
    isplitr; · iempintro
    isplitl [HO]; · iapply (owesAt2_intro W c 0); iexact HO
    isplitr; · iempintro
    iexact Hr
  hin c := by
    rw [show (pdatsB W 1 c).Φ 0 = Pipeline.scopedRest (Ix := HIx 1) (Name := ℕ) (U := UU) (Lvl := ℕ) (Val := Elt F) spec2 c from rfl]
    iintro ⟨-, -, HR⟩; iexact HR
  hout c := by
    rw [show (pdatsB W 1 c).Φ (Fin.last _) = Pipeline.scopedRest (Ix := HIx 1) (Name := ℕ) (U := UU) (Lvl := ℕ) (Val := Elt F) spec2 c from rfl,
      Pipeline.ownSems0_none]
    iintro HR
    isplitr; · iempintro
    isplitr; · iempintro
    iexact HR
  hexit c := by
    iintro ⟨Ha, HO, -, HZ⟩
    imodintro
    isplitl [Ha]; · iexact Ha
    isplitl [HZ]; · iexact HZ
    iapply (owesAt2_elim W c _); iexact HO

/-- The epilogue's call under the pipelines' body table: from the region boundary, the region's entry state, the
    level facts and the epilogue pipeline's staging-cell ghost state, to the boundary and the region's exit state. -/
theorem wp_region2_D [∀ e, Nonempty (Elt F e)] (d : Dev nD) {α : Type}
    (k : PUnit → Prog (TpuEff nD τ sig (Elt F) (ΛP (F := F)) .tc) α) (Q : α → sProp 𝕄) :
    iprop((iprop(boundary (d.tc : Thread nD τ) ∗ (reg2 W lv).post d) -∗ wp frame (wpE (D (F := F)) 𝒱 (d.tc : Thread nD τ) none) Set.univ (k ⟨⟩) Q)
        ∗ boundary (d.tc : Thread nD τ) ∗ (reg2 W lv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  Pipeline.RegionSeg.wp (pcfgs (F := F)) adm (pdatsB W) none phinj EP defs₀ 𝒱₀ (K (F := F)).L lv (reg2 W lv) d none (fun _ h => by cases h) k Q

end Cert.KernelIdeal.Sc

end
-- ==== Proof.TcRegions.lean ====
/-
  The two TensorCore pallas_calls of @main as the SparseCore program's TensorCore thread runs them: each call, spelt
  as @main spells it under the SparseCore program's body table, from the region boundary, the TensorCore's unscoped
  buffers held whole, the level facts and its pipeline's staging-cell ghost state, to the boundary and the buffers
  with the call's results at the kernel body's values.
-/
import proofs.«217460_g7679401525743_retrytranche1_990_34_alg».proof.Proof.TcEpilogue
import proofs.«217460_g7679401525743_retrytranche1_990_34_alg».proof.Proof.Gen.KernelIdeal.Skeleton
import Idealize.ShloMosaic.Lib.Pipeline.FrameBody
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays at the region's exit, named -/

variable (W : Valuation τ sig (Elt F))

theorem N2_succ : cfg2.N = (t2_0 : Fin cfg2.N).val + 1 := by decide

/-- Result 0's array after the one write-back: what the body left in its staging buffer. -/
theorem arrAt2_4 (c : Dev nD) : (dat2 W c).arrAt 4 cfg2.N = (out2_4 (iblk2 W c 0 t2_0) (iblk2 W c 1 t2_0) : Buf (Elt F) ((c : Thread nD τ).loc main_v4_0)) := by
  rw [N2_succ, Dat.arrAt_succ, if_pos (flush2_4 t2_0)]
  unfold Dat.flushed
  rw [after2_4]
  funext i
  have hy : ((cfg2.win 4).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 1's array after the one write-back: what the body left in its staging buffer. -/
theorem arrAt2_5 (c : Dev nD) : (dat2 W c).arrAt 5 cfg2.N = (out2_5 (iblk2 W c 2 t2_0) (iblk2 W c 3 t2_0) : Buf (Elt F) ((c : Thread nD τ).loc main_v4_1)) := by
  rw [N2_succ, Dat.arrAt_succ, if_pos (flush2_5 t2_0)]
  unfold Dat.flushed
  rw [after2_5]
  funext i
  have hy : ((cfg2.win 5).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 2's array after the one write-back: what the body left in its staging buffer. -/
theorem arrAt2_6 (c : Dev nD) : (dat2 W c).arrAt 6 cfg2.N = (out2_6 (iblk2 W c 2 t2_0) (iblk2 W c 3 t2_0) : Buf (Elt F) ((c : Thread nD τ).loc main_v4_2)) := by
  rw [N2_succ, Dat.arrAt_succ, if_pos (flush2_6 t2_0)]
  unfold Dat.flushed
  rw [after2_6]
  funext i
  have hy : ((cfg2.win 6).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 3's array after the one write-back: what the body left in its staging buffer. -/
theorem arrAt2_7 (c : Dev nD) : (dat2 W c).arrAt 7 cfg2.N = (out2_7 (iblk2 W c 0 t2_0) (iblk2 W c 1 t2_0) (iblk2 W c 2 t2_0) (iblk2 W c 3 t2_0) : Buf (Elt F) ((c : Thread nD τ).loc main_v4_3)) := by
  rw [N2_succ, Dat.arrAt_succ, if_pos (flush2_7 t2_0)]
  unfold Dat.flushed
  rw [after2_7]
  funext i
  have hy : ((cfg2.win 7).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Operand 0's block is its whole array. -/
theorem iblk2_0 (c : Dev nD) (t : Fin cfg2.N) : iblk2 W c 0 t = (W main_v1 : Vec F S32x16 .f32) := by
  funext i
  have hy : ((cfg2.win 0).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 1's block is its whole array. -/
theorem iblk2_1 (c : Dev nD) (t : Fin cfg2.N) : iblk2 W c 1 t = (W main_v2 : Vec F S32 .f32) := by
  funext i
  have hy : ((cfg2.win 1).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 2's block is its whole array. -/
theorem iblk2_2 (c : Dev nD) (t : Fin cfg2.N) : iblk2 W c 2 t = (W main_arg1 : Vec F S64 .f32) := by
  funext i
  have hy : ((cfg2.win 2).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 3's block is its whole array. -/
theorem iblk2_3 (c : Dev nD) (t : Fin cfg2.N) : iblk2 W c 3 t = (W main_v3 : Vec F S1 .f32) := by
  funext i
  have hy : ((cfg2.win 3).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-! ## The region's entry and exit states as whole points-to facts -/

variable (lv : GSem nD τ sig → HIx 1 → ℕ)

/-- A TensorCore buffer held whole. -/
abbrev pt (c : Dev nD) (b : Ref sig .tc) (f : Buf (Elt F) ((c : Thread nD τ).loc b)) : sProp 𝕄 := ((c : Thread nD τ).loc b) ↦{fullShare} f

/-- The four results, from the four operands. -/
abbrev res2_4 : Vec F S64 .f32 := out2_4 (W main_v1) (W main_v2)
abbrev res2_5 : Vec F S64 .f32 := out2_5 (W main_arg1) (W main_v3)
abbrev res2_6 : Vec F S64 .f32 := out2_6 (W main_arg1) (W main_v3)
abbrev res2_7 : Vec F S64 .f32 := out2_7 (W main_v1) (W main_v2) (W main_arg1) (W main_v3)

/-- The TensorCore's eleven unscoped buffers at a valuation, one by one: the epilogue's eight arrays, then the rest. -/
theorem unscopedBufs_eq (c : Dev nD) : (unscopedBufs c (VW W c) : sProp 𝕄)
    = iprop((pt c main_v1 (W main_v1) ∗ pt c main_v2 (W main_v2) ∗ pt c main_arg1 (W main_arg1) ∗ pt c main_v3 (W main_v3)
        ∗ pt c main_v4_0 (W main_v4_0) ∗ pt c main_v4_1 (W main_v4_1) ∗ pt c main_v4_2 (W main_v4_2) ∗ pt c main_v4_3 (W main_v4_3))
      ∗ (pt c main_arg0 (W main_arg0) ∗ pt c main_arg2 (W main_arg2) ∗ pt c main_v0 (W main_v0))) := by
  rw [Pipeline.unscopedBufs_split (Pipeline.pin (pcfgs (F := F)) adm) 1 winFacts2.arr_unscoped winFacts2.arr_inj c (VW W c), bigSep_W2]
  rw [show Pipeline.unscopedRest (Ix := HIx 1) (Name := ℕ) (U := UU) (Lvl := ℕ) (Pipeline.pin (pcfgs (F := F)) adm 1).spec c (VW W c)
    = Pipeline.unscopedRest (Ix := HIx 1) (Name := ℕ) (U := UU) (Lvl := ℕ) spec2 c (VW W c) from rfl, unscopedRest2_eq]
  rfl

/-- The region's entry state. -/
theorem pre2_eq [∀ e, Nonempty (Elt F e)] (c : Dev nD) : ((reg2 W lv).pre c : sProp 𝕄)
    = iprop(((pt c main_v1 (W main_v1) ∗ pt c main_v2 (W main_v2) ∗ pt c main_arg1 (W main_arg1) ∗ pt c main_v3 (W main_v3)
        ∗ pt c main_v4_0 (W main_v4_0) ∗ pt c main_v4_1 (W main_v4_1) ∗ pt c main_v4_2 (W main_v4_2) ∗ pt c main_v4_3 (W main_v4_3))
      ∗ (pt c main_arg0 (W main_arg0) ∗ pt c main_arg2 (W main_arg2) ∗ pt c main_v0 (W main_v0))) ∗ owes8 (F := F) c) := by
  show iprop(unscopedBufs c (VW W c) ∗ owes8 (F := F) c) = _
  rw [unscopedBufs_eq]

/-- The region's exit state: the operands as they were, the results at the body's values of the operands. -/
theorem post2_eq [∀ e, Nonempty (Elt F e)] (c : Dev nD) : ((reg2 W lv).post c : sProp 𝕄)
    = iprop((pt c main_v1 (W main_v1) ∗ pt c main_v2 (W main_v2) ∗ pt c main_arg1 (W main_arg1) ∗ pt c main_v3 (W main_v3)
        ∗ pt c main_v4_0 (res2_4 W) ∗ pt c main_v4_1 (res2_5 W) ∗ pt c main_v4_2 (res2_6 W) ∗ pt c main_v4_3 (res2_7 W))
      ∗ (pt c main_arg0 (W main_arg0) ∗ pt c main_arg2 (W main_arg2) ∗ pt c main_v0 (W main_v0)) ∗ owes8 (F := F) c) := by
  show iprop((pdatsB W 1 c).arrays ((dat2 W c).arrAt · cfg2.N) ∗ Pipeline.unscopedRest spec2 c (VW W c) ∗ owes8 (F := F) c) = _
  rw [Pipeline.arrays_eq (Pipeline.pin (pcfgs (F := F)) adm) (pdatsB W) 1 c arr_whole2 ((dat2 W c).share_full fun _ => rfl), bigSep_W2,
    unscopedRest2_eq]
  rw [(dat2 W c).arrAt_in 0 rfl, (dat2 W c).arrAt_in 1 rfl, (dat2 W c).arrAt_in 2 rfl, (dat2 W c).arrAt_in 3 rfl,
    arrAt2_4, arrAt2_5, arrAt2_6, arrAt2_7, iblk2_0, iblk2_1, iblk2_2, iblk2_3]
  rfl

/-! ## The call as @main spells it -/

theorem lift_entry (p : Fin 2) :
    (SparseCore.liftProg (Q := 1) (Prog.lift (.customCall (Pipeline.entry p) ()) : Prog (TpuEff nD τ sig (Elt F) (ΛP (F := F)) .tc) PUnit))
      = Prog.lift (.customCall (SparseCore.inner (Pipeline.entry p)) ()) := rfl

/-- The two pipelines' ghost state on a device, pipeline by pipeline. -/
theorem ghost2_split (d : Dev nD) : (ghost2 (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  rw [ghost2_eq]
  exact bigSep_univ_eq_bigSepL [(0 : Fin 2), (1 : Fin 2)] (by decide) (by decide) _

set_option backward.isDefEq.respectTransparency.types false in
set_option maxHeartbeats 2000000 in
/-- The epilogue's call under the SparseCore program's body table, between the region record's states. -/
theorem wp_region2 [∀ e, Nonempty (Elt F e)] (d : Dev nD) (Φ : PUnit → sProp 𝕄) :
    iprop((iprop(boundary (T d) ∗ (reg2 W lv).post d) -∗ Φ ⟨⟩)
        ∗ boundary (T d) ∗ (reg2 W lv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  rw [← lift_entry (F := F) 1]
  refine BIBase.Entails.trans ?_ ((K (F := F)).wp_liftProg (D (F := F)) 𝒱 (T d) Set.univ none _ Φ)
  refine BIBase.Entails.trans ?_ (wp_region2_D W lv d Prog.ret Φ)
  iintro ⟨Hk, Hrest⟩
  isplitl [Hk]
  · iintro H
    rw [wp_ret]
    imodintro
    iapply Hk; iexact H
  iexact Hrest

/-- What the epilogue's call is entered from: the TensorCore's eleven unscoped buffers whole at a valuation (the
    epilogue's four operands and four results first, then the three it does not touch), the core owing nothing. -/
abbrev Pre2 (d : Dev nD) : sProp 𝕄 :=
  iprop(((pt d main_v1 (W main_v1) ∗ pt d main_v2 (W main_v2) ∗ pt d main_arg1 (W main_arg1) ∗ pt d main_v3 (W main_v3)
        ∗ pt d main_v4_0 (W main_v4_0) ∗ pt d main_v4_1 (W main_v4_1) ∗ pt d main_v4_2 (W main_v4_2) ∗ pt d main_v4_3 (W main_v4_3))
      ∗ (pt d main_arg0 (W main_arg0) ∗ pt d main_arg2 (W main_arg2) ∗ pt d main_v0 (W main_v0))) ∗ owes8 (F := F) d)

/-- What it leaves: the operands as they were, the four results at the body's values of the operands. -/
abbrev Post2 (d : Dev nD) : sProp 𝕄 :=
  iprop((pt d main_v1 (W main_v1) ∗ pt d main_v2 (W main_v2) ∗ pt d main_arg1 (W main_arg1) ∗ pt d main_v3 (W main_v3)
        ∗ pt d main_v4_0 (res2_4 W) ∗ pt d main_v4_1 (res2_5 W) ∗ pt d main_v4_2 (res2_6 W) ∗ pt d main_v4_3 (res2_7 W))
      ∗ (pt d main_arg0 (W main_arg0) ∗ pt d main_arg2 (W main_arg2) ∗ pt d main_v0 (W main_v0)) ∗ owes8 (F := F) d)

/-- **The epilogue region inside @main.** From the region boundary, the buffers whole at the valuation `W`, the level
    facts and the epilogue pipeline's staging-cell ghost state, the call runs to the boundary and the buffers with the
    four results at `res2_4 W … res2_7 W`. -/
theorem wp_epilogue [∀ e, Nonempty (Elt F e)] (d : Dev nD) (Φ : PUnit → sProp 𝕄) :
    iprop((iprop(boundary (T d) ∗ Post2 W d) -∗ Φ ⟨⟩)
        ∗ boundary (T d) ∗ Pre2 W d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  have h := wp_region2 W lv d Φ
  rw [pre2_eq, post2_eq] at h
  exact h

end Cert.KernelIdeal.Sc

end
-- ==== Proof.TcReduceData.lean ====
/-
  The reduce pallas_call (pipeline 0 of @main) as a region of the TensorCore's program: the kernel body's triple at a
  grid point, the pipeline's relational proof data at a valuation of the TensorCore's buffers — the result's staging
  buffer accumulates one word per point —, the body obligation, what the result's array holds after the last point's
  write-back (by induction over the points), and the region record.
-/
import proofs.«217460_g7679401525743_retrytranche1_990_34_alg».proof.Proof.TcRegions
import proofs.«217460_g7679401525743_retrytranche1_990_34_alg».proof.Proof.Gen.KernelIdeal.Skeleton
import Idealize.ShloMosaic.Lib.Pipeline.FrameBody
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The reduce kernel's body: one point's word stored into the result's staging buffer -/

abbrev r1_a : Rect S1x3x128x1024 := Rect.unit (s := S1x3x128x1024) ![0, 0, 0, 0] S1x1x128x1024.size inb_S1x3x128x1024_S1x1x128x1024_0_0_0_0
abbrev r1_b : Rect S1x3x128x1024 := Rect.unit (s := S1x3x128x1024) ![0, 1, 0, 0] S1x1x128x1024.size inb_S1x3x128x1024_S1x1x128x1024_0_1_0_0
abbrev r1_c : Rect S1x3x128x1024 := Rect.unit (s := S1x3x128x1024) ![0, 2, 0, 0] S1x1x128x1024.size inb_S1x3x128x1024_S1x1x128x1024_0_2_0_0
/-- The word of the second operand the point reads, -/
abbrev r1_R (i : grid1.Coords) : Rect S64 := Rect.unit (s := S64) (k1_off1 i) S1.size (k1_off1_inb i)
/-- and the word of the result it stores. -/
abbrev r1_o (i : grid1.Coords) : Rect S32 := Rect.unit (s := S32) (k1_off2 i) S1.size (k1_off2_inb i)

/-- The point's value, from its block of the first operand and the second operand. -/
def val1 (i : grid1.Coords) (x1 : Vec F S1x3x128x1024 .f32) (x2 : Vec F S64 .f32) : Elt F .f32 :=
  k1_pay1 (View.ld x1 r1_a) (View.ld x1 r1_b) (View.ld x1 r1_c) (View.ld x2 (r1_R i) (Shape.Idx.first (show 0 < S1.numel by decide)))

/-- The result's staging buffer with the point's word set to `v`. -/
def upd1 (i : grid1.Coords) (y3 : Vec F S32 .f32) (v : Elt F .f32) : Vec F S32 .f32 :=
  fun y => if y ∈ (r1_o i).set then v else y3 y

set_option maxHeartbeats 2000000 in
/-- The body at grid coordinates `i`, on whole staging memrefs: the operands' as they were, the result's with the
    point's word at the point's value. -/
theorem sound_kernel1 [∀ e, Nonempty (Elt F e)] (c : Dev nD) (E : Set ℕ) (i : grid1.Coords)
    (arg1 : Memref sig .tc .vmem S1x3x128x1024 .f32) (harg1 : arg1.IsWhole) (arg2 : Memref sig .tc .smem S64 .f32) (harg2 : arg2.IsWhole)
    (arg3 : Memref sig .tc .smem S32 .f32) (harg3 : arg3.IsWhole)
    (x1 : Vec F S1x3x128x1024 .f32) (x2 : Vec F S64 .f32) (y3 : Vec F S32 .f32) (Kc : PUnit → sProp 𝕄) :
    iprop(owns (c : Thread nD τ) arg1 fullShare x1 ∗ owns (c : Thread nD τ) arg2 fullShare x2 ∗ owns (c : Thread nD τ) arg3 fullShare y3
        ∗ (iprop(owns (c : Thread nD τ) arg1 fullShare x1 ∗ owns (c : Thread nD τ) arg2 fullShare x2
            ∗ owns (c : Thread nD τ) arg3 fullShare (upd1 i y3 (val1 i x1 x2))) -∗ Kc ⟨⟩))
      ⊢ wp frame (wpE (defs₀ (F := F)) Variants.none (c : Thread nD τ) none) E
          (cc1__tc_reduce_kernel i arg1 harg1 arg2 harg2 arg3 harg3) Kc := by
  simp only [cc1__tc_reduce_kernel_eq_skeleton]; unfold cc1__tc_reduce_kernel_skel
  unfold owns
  iintro ⟨⟨%f1, %hf1, H1⟩, ⟨%f2, %hf2, H2⟩, ⟨%f3, %hf3, H3⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  funext y
  unfold upd1
  split
  · next hy =>
    obtain ⟨x, rfl⟩ := (r1_o i).exists_idx_of_mem hy
    exact View.read_writes_cons_emb arg3.view f3 (r1_o i) _ [] x
  · next hy =>
    rw [View.read_writes_apply_of_forall_not_mem _ _ y _ (fun p hp => by rw [List.mem_singleton] at hp; subst hp; exact hy)]

/-! ## The reduce pipeline's relational proof data -/

variable (W : Valuation τ sig (Elt F))

/-- Window `w`'s block at point `t`, read off its array at the valuation. -/
def iblk1 (w : Fin cfg1.W) (t : Fin cfg1.N) : ((cfg1.win w).xblock (cfg1.grid.coords t)).Idx → Elt F (cfg1.win w).elt :=
  ((cfg1.win w).blk t).view.read (Elt F) (W (Pipeline.arrRef spec1 w))

/-- The proof data of the reduce pipeline on device `c`: the arrays at the valuation; the body leaves the two operands'
    buffers as it found them and sets, in the result's buffer, the point's word to the point's value of its block
    of the first operand and of the second operand; the invariant the scoped buffers no window stages; nothing owed. -/
def rdat1 (c : Dev nD) : Pipeline.RDat τ (Elt F) (HIx 1) ℕ UU ℕ cfg1 c where
  A w := VW W c (Pipeline.arrRef spec1 w)
  after w t := match w with
    | ⟨0, _⟩ => fun Y X => X = Y
    | ⟨1, _⟩ => fun Y X => X = Y
    | ⟨2, _⟩ => fun Y X => X = upd1 (grid1.coords t) Y (val1 (grid1.coords t) (iblk1 W 0 t) (W main_arg1))
  Φ _ := Pipeline.scopedRest (Ix := HIx 1) (Name := ℕ) (U := UU) (Lvl := ℕ) (Val := Elt F) spec1 c
  q _ := fullShare
  owed _ := 0
  recorded _ := rec8 (F := F) c

theorem after1_0 (c : Dev nD) (t : Fin cfg1.N) (Y X) : (rdat1 W c).after 0 t Y X ↔ X = Y := by dsimp only [rdat1]; exact Iff.rfl
theorem after1_1 (c : Dev nD) (t : Fin cfg1.N) (Y X) : (rdat1 W c).after 1 t Y X ↔ X = Y := by dsimp only [rdat1]; exact Iff.rfl
theorem after1_2 (c : Dev nD) (t : Fin cfg1.N) (Y X) :
    (rdat1 W c).after 2 t Y X ↔ X = upd1 (grid1.coords t) Y (val1 (grid1.coords t) (iblk1 W 0 t) (W main_arg1)) := by dsimp only [rdat1]; exact Iff.rfl

/-- The first operand's buffer holds the point's block when the body runs: it was just fetched. -/
theorem finds1_0 (c : Dev nD) (t : Fin cfg1.N) (Y) (h : (rdat1 W c).Finds 0 t Y) : Y = iblk1 W 0 t := by
  obtain ⟨d, rfl⟩ := ((rdat1 W c).finds_of_fetch (fetch1_0 t) Y).mp h
  rfl

/-- The second operand's index map is constant. -/
theorem tr1_eq : ∀ i : grid1.Coords, cc1_transform_1 i = ![0] := by decide +kernel

/-- The second operand's block is its whole array, at every point. -/
theorem blockOf1_1 (c : Dev nD) (t : Fin cfg1.N) : (rdat1 W c).blockOf 1 t = (W main_arg1 : Vec F S64 .f32) := by
  funext i
  have hy : ((cfg1.win 1).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show (cc1_transform_1 (grid1.coords t)) a * _ + 1 * (i a).val = (i a).val
    rw [tr1_eq]
    simp
  unfold Pipeline.RDat.blockOf
  rw [View.read_apply, hy]
  rfl

/-- The second operand's buffer holds the whole second operand at every point: fetched at the first, left as found since. -/
theorem finds1_1 (c : Dev nD) : ∀ (t : Fin cfg1.N) (Y), (rdat1 W c).Finds 1 t Y → Y = (W main_arg1 : Vec F S64 .f32) := by
  intro t
  induction hn : t.val using Nat.strong_induction_on generalizing t with
  | _ n ih =>
    subst hn; intro Y h
    by_cases hf : (cfg1.win 1).fetch t = true
    · obtain ⟨d, rfl⟩ := ((rdat1 W c).finds_of_fetch hf Y).mp h
      exact (show (rdat1 W c).fetched 1 t d = (rdat1 W c).blockOf 1 t from rfl).trans (blockOf1_1 W c t)
    · have hf' : (cfg1.win 1).fetch t = false := by simpa using hf
      have ht : t.val ≠ 0 := fun h0 => hf ((fetch1_1 t).mpr (by omega))
      rcases ((rdat1 W c).finds_of_pos hf' ht Y).mp h with hfl | ⟨Y', hY', hXY⟩
      · exact absurd hfl (by rw [(cfg1.win 1).flush_in rfl]; exact Bool.false_ne_true)
      · have := ih (t.val - 1) (by omega) ⟨t.val - 1, Nat.lt_of_le_of_lt (Nat.sub_le _ _) t.isLt⟩ rfl Y' hY'
        rw [(after1_1 W c _ Y' Y).mp hXY]; exact this

/-! ## The body obligation -/

theorem body_obligation1 [∀ e, Nonempty (Elt F e)] (c : Dev nD) :
    (rdat1 (F := F) W c).BodyObligation (defs₀ (F := F)) Variants.none none Set.univ := fun t Y hY => by
  rw [bigSep_W1, bigSep_W1]
  have h0 := finds1_0 W c t (Y 0) (hY 0)
  have h1 := finds1_1 W c t (Y 1) (hY 1)
  show _ ⊢ wp frame _ Set.univ (bodyAt1 t) _
  rw [show (rdat1 W c).Φ t.succ = (rdat1 W c).Φ t.castSucc from rfl,
    show (rdat1 W c).owesAt none t.succ = (rdat1 W c).owesAt none t.castSucc from rfl]
  iintro ⟨HΦ, Ho, H0, H1, H2⟩
  iapply (sound_kernel1 c Set.univ (grid1.coords t) _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr; · ipureintro; exact (after1_0 W c t _ _).mpr rfl
    iexact H0
  isplitl [H1]
  · iexists (Y 1); isplitr; · ipureintro; exact (after1_1 W c t _ _).mpr rfl
    iexact H1
  iexists _; isplitr
  swap; · iexact H2
  ipureintro
  rw [after1_2, ← h0, ← h1]

/-! ## The result's array at the region's exit -/

theorem N1_eq : cfg1.N = 32 := N_1

/-- The point that stores word `y` of the result. -/
def tOf (y : S32.Idx) : Fin cfg1.N := ⟨(y 0).val, by rw [N1_eq]; exact (y 0).isLt⟩

/-- What the reduce region leaves in the result: word `y` at the value of the point that stores it. -/
def res1 : Vec F S32 .f32 := fun y => val1 (grid1.coords (tOf y)) (iblk1 W 0 (tOf y)) (W main_arg1)

/-- A point stores exactly its own word. -/
theorem mem_o : ∀ (t : Fin grid1.N) (y : S32.Idx), y ∈ (r1_o (grid1.coords t)).set ↔ (y 0).val = t.val := by decide +kernel

/-- After point `t` the result's staging buffer holds the values of the points up to `t`. -/
theorem leaves1_2 (c : Dev nD) : ∀ (t : Fin cfg1.N) (X), (rdat1 W c).Leaves 2 t X → ∀ y : S32.Idx, (y 0).val ≤ t.val → X y = res1 W y := by
  intro t
  induction hn : t.val using Nat.strong_induction_on generalizing t with
  | _ n ih =>
    subst hn; intro X ⟨Y, hY, hXY⟩ y hy
    rw [(after1_2 W c t Y X).mp hXY]
    unfold upd1
    by_cases hm : y ∈ (r1_o (grid1.coords t)).set
    · rw [if_pos hm]
      have e : tOf y = t := Fin.ext ((mem_o t y).mp hm)
      unfold res1; rw [e]
    · rw [if_neg hm]
      have hne : (y 0).val ≠ t.val := fun h => hm ((mem_o t y).mpr h)
      have ht : t.val ≠ 0 := by omega
      have hf : (cfg1.win 2).fetch t = false := (cfg1.win 2).fetch_out rfl t
      rcases ((rdat1 W c).finds_of_pos hf ht Y).mp hY with hfl | hL
      · exact absurd ((flush1_2 _).mp hfl) (by have := lt_of_lt_of_eq t.isLt N1_eq; show ¬ (t.val - 1) % 32 = 31; omega)
      · exact ih (t.val - 1) (by omega) ⟨t.val - 1, Nat.lt_of_le_of_lt (Nat.sub_le _ _) t.isLt⟩ rfl Y hL y (by show (y 0).val ≤ t.val - 1; omega)

/-- The result's index map is constant. -/
theorem tr2_eq : ∀ i : grid1.Coords, cc1_transform_2 i = ![0] := by decide +kernel

/-- No point before the last writes the result back. -/
theorem arrAt1_2_below (c : Dev nD) : ∀ n, n ≤ 31 → (rdat1 W c).ArrAt 2 n = fun G => G = (rdat1 W c).A 2
  | 0, _ => rfl
  | n + 1, h => by
    have hn : n < cfg1.N := by rw [N1_eq]; omega
    rw [show n + 1 = (⟨n, hn⟩ : Fin cfg1.N).val + 1 from rfl, Pipeline.RDat.ArrAt_succ,
      if_neg (fun hfl => by have := (flush1_2 _).mp hfl; change n % 32 = 31 at this; omega)]
    exact arrAt1_2_below c n (by omega)

/-- The result's array after the last point's write-back: the 32 values. -/
theorem arrAt1_2 (c : Dev nD) (G) (h : (rdat1 W c).ArrAt 2 cfg1.N G) : G = (res1 W : Buf (Elt F) ((c : Thread nD τ).loc main_v2)) := by
  have h31 : 31 < cfg1.N := by rw [N1_eq]; omega
  rw [show cfg1.N = (⟨31, h31⟩ : Fin cfg1.N).val + 1 from N1_eq, Pipeline.RDat.ArrAt_succ,
    if_pos ((flush1_2 _).mpr rfl), arrAt1_2_below W c 31 le_rfl] at h
  obtain ⟨G₀, X, rfl, hL, rfl⟩ := h
  have hX : X = res1 W := funext fun y => leaves1_2 W c ⟨31, h31⟩ X hL y (by have h32 : (y 0).val < 32 := (y 0).isLt; show (y 0).val ≤ 31; omega)
  subst hX
  funext i
  have hy : ((cfg1.win 2).blk ⟨31, h31⟩).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show (cc1_transform_2 (grid1.coords ⟨31, h31⟩)) a * _ + 1 * (i a).val = (i a).val
    rw [tr2_eq]
    simp
  conv_lhs => rw [← hy, View.write_emb_of_mem _ _ (Finset.mem_univ _)]
  rfl

/-! ## The reduce region -/

theorem prefHeld1 (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

theorem owesAt1_intro (c : Dev nD) (t : Fin (cfg1.N + 1)) : (owes8 (F := F) c : sProp 𝕄) ⊢ (rdat1 W c).owesAt none t := by
  unfold Pipeline.RDat.owesAt Pipeline.owesWithin Pipeline.RDat.bound
  iintro ⟨%Wt, %hW, HO⟩; iexists Wt; isplitr
  · ipureintro; exact fun p hp => Or.inl (hW p (Finset.mem_coe.mp hp))
  iexact HO

theorem owesAt1_elim (c : Dev nD) (t : Fin (cfg1.N + 1)) : ((rdat1 W c).owesAt none t : sProp 𝕄) ⊢ owes8 (F := F) c := by
  unfold Pipeline.RDat.owesAt Pipeline.owesWithin
  iintro ⟨%Wt, %hW, HO⟩; iexists Wt; isplitr
  · ipureintro; intro p hp
    rcases hW (Finset.mem_coe.mpr hp) with h | ⟨w, s, rfl⟩
    · exact h
    · exact Nat.zero_le _
  iexact HO

/-- The epilogue pipeline's proof data where the reduce region is stated: not consulted. -/
def rdat2any (c : Dev nD) : Pipeline.RDat τ (Elt F) (HIx 1) ℕ UU ℕ cfg2 c where
  A w := VW W c (Pipeline.arrRef spec2 w)
  after _ _ _ _ := True
  Φ _ := iprop(emp)
  q _ := fullShare
  owed _ := 0

/-- Both pipelines' proof data, for the reduce region. -/
def rdatsA : (p : Fin 2) → (c : Dev nD) → Pipeline.RDat τ (Elt F) (HIx 1) ℕ UU ℕ (Pipeline.pin (pcfgs (F := F)) adm p) c
  | 0 => rdat1 W
  | 1 => rdat2any W

variable (lv : GSem nD τ sig → HIx 1 → ℕ)

/-- The reduce region: entered holding the TensorCore's unscoped buffers at the valuation and owing nothing, it
    leaves its three arrays at what they may hold after the write-backs and the other unscoped buffers as they were. -/
def reg1 [∀ e, Nonempty (Elt F e)] : Pipeline.RDat.RegionSeg (pcfgs (F := F)) adm (rdatsA W) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := body_obligation1 W c
  hwaits := Pipeline.RDat.hwaits_of_owed_zero _ _ _ _ _ lv 0 fun _ _ => rfl
  pre c := iprop(unscopedBufs c (VW W c) ∗ owes8 (F := F) c)
  post c := iprop((rdat1 W c).arraysAt cfg1.N ∗ Pipeline.unscopedRest spec1 c (VW W c) ∗ owes8 (F := F) c)
  X _ := iprop(emp)
  Y _ := iprop(emp)
  Z c := Pipeline.unscopedRest spec1 c (VW W c)
  hentry c := by
    rw [Pipeline.ownSems0_none, prefHeld1]
    iintro ⟨⟨Hb, HO⟩, -, -⟩
    imodintro
    ihave H := (Pipeline.RDat.arrays_of_unscopedBufs (pcfgs (F := F)) adm (rdatsA W) (p := 0) winFacts1 arr_whole1 c
      ((rdat1 W c).share_full fun _ => rfl) (VW W c) (fun w => rfl)) $$ Hb
    icases H with ⟨Ha, Hr⟩
    isplitl [Ha]; · iexact Ha
    isplitr; · iempintro
    isplitl [HO]; · iapply (owesAt1_intro W c 0); iexact HO
    isplitr; · iempintro
    iexact Hr
  hin c := by
    rw [show (rdatsA W 0 c).Φ 0 = Pipeline.scopedRest (Ix := HIx 1) (Name := ℕ) (U := UU) (Lvl := ℕ) (Val := Elt F) spec1 c from rfl]
    iintro ⟨-, -, HR⟩; iexact HR
  hout c := by
    rw [show (rdatsA W 0 c).Φ (Fin.last _) = Pipeline.scopedRest (Ix := HIx 1) (Name := ℕ) (U := UU) (Lvl := ℕ) (Val := Elt F) spec1 c from rfl,
      Pipeline.ownSems0_none]
    iintro HR
    isplitr; · iempintro
    isplitr; · iempintro
    iexact HR
  hexit c := by
    iintro ⟨Ha, HO, -, HZ⟩
    imodintro
    isplitl [Ha]; · iexact Ha
    isplitl [HZ]; · iexact HZ
    iapply (owesAt1_elim W c _); iexact HO

/-- The reduce call under the pipelines' body table. -/
theorem wp_region1_D [∀ e, Nonempty (Elt F e)] (d : Dev nD) {α : Type}
    (k : PUnit → Prog (TpuEff nD τ sig (Elt F) (ΛP (F := F)) .tc) α) (Q : α → sProp 𝕄) :
    iprop((iprop(boundary (d.tc : Thread nD τ) ∗ (reg1 W lv).post d) -∗ wp frame (wpE (D (F := F)) 𝒱 (d.tc : Thread nD τ) none) Set.univ (k ⟨⟩) Q)
        ∗ boundary (d.tc : Thread nD τ) ∗ (reg1 W lv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  Pipeline.RDat.RegionSeg.wp (pcfgs (F := F)) adm (rdatsA W) none phinj EP defs₀ 𝒱₀ (K (F := F)).L lv (reg1 W lv) d none (fun _ h => by cases h) k Q

end Cert.KernelIdeal.Sc

end
-- ==== Proof.TcReduce.lean ====
/-
  The reduce pallas_call as @main spells it, under the SparseCore program's body table: from the region boundary, the
  TensorCore's eleven unscoped buffers held whole at a valuation, the level facts and the reduce pipeline's staging-cell
  ghost state, to the boundary and the buffers with the call's result at the 32 values, every other buffer as it was.
-/
import proofs.«217460_g7679401525743_retrytranche1_990_34_alg».proof.Proof.TcReduceData
import proofs.«217460_g7679401525743_retrytranche1_990_34_alg».proof.Proof.Gen.KernelIdeal.Skeleton
import Idealize.ShloMosaic.Lib.Pipeline.FrameBody
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F)) (lv : GSem nD τ sig → HIx 1 → ℕ)

/-! ## The reduce region's entry and exit states as whole points-to facts -/

/-- What the reduce call is entered from: the same eleven whole buffers as the epilogue's, the core owing nothing. -/
abbrev Pre1 (d : Dev nD) : sProp 𝕄 := Pre2 W d

/-- What it leaves: the result `main_v2` at the 32 values, every other buffer as it was. -/
abbrev Post1 (d : Dev nD) : sProp 𝕄 :=
  iprop((pt d main_v1 (W main_v1) ∗ pt d main_v2 (res1 W) ∗ pt d main_arg1 (W main_arg1) ∗ pt d main_v3 (W main_v3)
        ∗ pt d main_v4_0 (W main_v4_0) ∗ pt d main_v4_1 (W main_v4_1) ∗ pt d main_v4_2 (W main_v4_2) ∗ pt d main_v4_3 (W main_v4_3))
      ∗ (pt d main_arg0 (W main_arg0) ∗ pt d main_arg2 (W main_arg2) ∗ pt d main_v0 (W main_v0)) ∗ owes8 (F := F) d)

theorem pre1_eq [∀ e, Nonempty (Elt F e)] (c : Dev nD) : ((reg1 W lv).pre c : sProp 𝕄) = Pre1 W c := by
  show iprop(unscopedBufs c (VW W c) ∗ owes8 (F := F) c) = _
  rw [unscopedBufs_eq]

/-- The valuation after the region: the result at the 32 values. -/
def W1 : Valuation τ sig (Elt F) := Function.update W (Proc.devRef .tc main_v2) (res1 W)

theorem W1_v2 : W1 W (Proc.devRef .tc main_v2) = res1 W := Function.update_self ..
theorem W1_ne (b : DevRef τ sig) (h : b ≠ Proc.devRef .tc main_v2) : W1 W b = W b := Function.update_of_ne h ..

/-- The region's exit state is the unscoped buffers at the valuation after the region. -/
theorem post1_bufs [∀ e, Nonempty (Elt F e)] (c : Dev nD) :
    ((reg1 W lv).post c : sProp 𝕄) ⊢ iprop(unscopedBufs c (VW (W1 W) c) ∗ owes8 (F := F) c) := by
  show iprop((rdat1 W c).arraysAt cfg1.N ∗ Pipeline.unscopedRest spec1 c (VW W c) ∗ owes8 (F := F) c) ⊢ _
  rw [Pipeline.unscopedBufs_split (Pipeline.pin (pcfgs (F := F)) adm) 0 winFacts1.arr_unscoped winFacts1.arr_inj c (VW (W1 W) c),
    ← Pipeline.RDat.arrays_eq (pcfgs (F := F)) adm (rdatsA W) 0 c arr_whole1 ((rdat1 W c).share_full fun _ => rfl)
      (fun w => VW (W1 W) c (Pipeline.arrRef (Pipeline.pin (pcfgs (F := F)) adm 0).spec w))]
  rw [show Pipeline.unscopedRest (Ix := HIx 1) (Name := ℕ) (U := UU) (Lvl := ℕ) (Pipeline.pin (pcfgs (F := F)) adm 0).spec c (VW (W1 W) c)
    = Pipeline.unscopedRest (Ix := HIx 1) (Name := ℕ) (U := UU) (Lvl := ℕ) spec1 c (VW (W1 W) c) from rfl, unscopedRest1_eq, unscopedRest1_eq]
  show iprop((rdat1 W c).arraysAt cfg1.N ∗ _ ∗ _) ⊢ iprop(((rdat1 W c).arrays _ ∗ _) ∗ _)
  unfold Pipeline.RDat.arraysAt Pipeline.RDat.arrays
  rw [bigSep_W1, bigSep_W1]
  iintro ⟨⟨⟨%G0, %h0, H0⟩, ⟨%G1, %h1, H1⟩, ⟨%G2, %h2, H2⟩⟩, ⟨Ha0, Ha2, Hv1, Hv3, H40, H41, H42, H43⟩, HO⟩
  rw [Pipeline.RDat.ArrAt_in _ 0 rfl] at h0
  rw [Pipeline.RDat.ArrAt_in _ 1 rfl] at h1
  have e2 := arrAt1_2 W c G2 h2
  have e0 : G0 = VW (W1 W) c (Pipeline.arrRef spec1 0) := h0.trans (W1_ne W _ (by decide)).symm
  have e1 : G1 = VW (W1 W) c (Pipeline.arrRef spec1 1) := h1.trans (W1_ne W _ (by decide)).symm
  have e2' : G2 = VW (W1 W) c (Pipeline.arrRef spec1 2) := e2.trans (W1_v2 W).symm
  subst e0; subst e1; subst e2'
  simp only [VW, W1_ne W (Proc.devRef .tc main_arg0) (by decide), W1_ne W (Proc.devRef .tc main_arg2) (by decide),
    W1_ne W (Proc.devRef .tc main_v1) (by decide), W1_ne W (Proc.devRef .tc main_v3) (by decide),
    W1_ne W (Proc.devRef .tc main_v4_0) (by decide), W1_ne W (Proc.devRef .tc main_v4_1) (by decide),
    W1_ne W (Proc.devRef .tc main_v4_2) (by decide), W1_ne W (Proc.devRef .tc main_v4_3) (by decide)]
  isplitl [H0 H1 H2 Ha0 Ha2 Hv1 Hv3 H40 H41 H42 H43]
  · isplitl [H0 H1 H2]
    · isplitl [H0]; · iexact H0
      isplitl [H1]; · iexact H1
      iexact H2
    isplitl [Ha0]; · iexact Ha0
    isplitl [Ha2]; · iexact Ha2
    isplitl [Hv1]; · iexact Hv1
    isplitl [Hv3]; · iexact Hv3
    isplitl [H40]; · iexact H40
    isplitl [H41]; · iexact H41
    isplitl [H42]; · iexact H42
    iexact H43
  iexact HO

theorem post1_ent [∀ e, Nonempty (Elt F e)] (c : Dev nD) : ((reg1 W lv).post c : sProp 𝕄) ⊢ Post1 W c := by
  refine BIBase.Entails.trans (post1_bufs W lv c) ?_
  rw [unscopedBufs_eq (W1 W) c]
  simp only [W1_v2, W1_ne W (Proc.devRef .tc main_arg0) (by decide), W1_ne W (Proc.devRef .tc main_arg2) (by decide),
    W1_ne W (Proc.devRef .tc main_v0) (by decide), W1_ne W (Proc.devRef .tc main_arg1) (by decide),
    W1_ne W (Proc.devRef .tc main_v1) (by decide), W1_ne W (Proc.devRef .tc main_v3) (by decide),
    W1_ne W (Proc.devRef .tc main_v4_0) (by decide), W1_ne W (Proc.devRef .tc main_v4_1) (by decide),
    W1_ne W (Proc.devRef .tc main_v4_2) (by decide), W1_ne W (Proc.devRef .tc main_v4_3) (by decide)]
  iintro ⟨⟨H8, H3⟩, HO⟩
  isplitl [H8]; · iexact H8
  isplitl [H3]; · iexact H3
  iexact HO

/-! ## The call as @main spells it -/

set_option backward.isDefEq.respectTransparency.types false in
set_option maxHeartbeats 2000000 in
/-- The reduce call under the SparseCore program's body table, between the region record's states. -/
theorem wp_region1 [∀ e, Nonempty (Elt F e)] (d : Dev nD) (Φ : PUnit → sProp 𝕄) :
    iprop((iprop(boundary (T d) ∗ (reg1 W lv).post d) -∗ Φ ⟨⟩)
        ∗ boundary (T d) ∗ (reg1 W lv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  rw [← lift_entry (F := F) 0]
  refine BIBase.Entails.trans ?_ ((K (F := F)).wp_liftProg (D (F := F)) 𝒱 (T d) Set.univ none _ Φ)
  refine BIBase.Entails.trans ?_ (wp_region1_D W lv d Prog.ret Φ)
  iintro ⟨Hk, Hrest⟩
  isplitl [Hk]
  · iintro H
    rw [wp_ret]
    imodintro
    iapply Hk; iexact H
  iexact Hrest

/-- **The reduce region inside @main.** From the region boundary, the buffers whole at the valuation `W`, the level
    facts and the reduce pipeline's staging-cell ghost state, the call runs to the boundary and the buffers with
    `main_v2` at `res1 W`. -/
theorem wp_reduce [∀ e, Nonempty (Elt F e)] (d : Dev nD) (Φ : PUnit → sProp 𝕄) :
    iprop((iprop(boundary (T d) ∗ Post1 W d) -∗ Φ ⟨⟩)
        ∗ boundary (T d) ∗ Pre1 W d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  refine BIBase.Entails.trans ?_ (wp_region1 W lv d Φ)
  rw [pre1_eq]
  iintro ⟨Hk, Hrest⟩
  isplitl [Hk]
  · iintro ⟨Hb, Hp⟩
    iapply Hk
    isplitl [Hb]; · iexact Hb
    iapply (post1_ent W lv d); iexact Hp
  iexact Hrest

end Cert.KernelIdeal.Sc

end
-- ==== Proof.ScMain.lean ====
/-
  @main on the TensorCore and the launch. @main transposes z, starts the SparseCore call and waits for it (the 32 tiles
  each leave their row of the partials), runs the reduce region over the other 32 batch entries, reshapes the
  observation count, and runs the epilogue region. The launch element funds the handshakes' rounds and both pipelines'
  staging cells; the kernel's own protocol needs nothing of it. What the run leaves: the three arguments unchanged.
-/
import proofs.«217460_g7679401525743_retrytranche1_990_34_alg».proof.Proof.ScTile
import proofs.«217460_g7679401525743_retrytranche1_990_34_alg».proof.Proof.ScDeal
import proofs.«217460_g7679401525743_retrytranche1_990_34_alg».proof.Proof.TcReduce

noncomputable section

namespace Cert.KernelIdeal.Sc

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays' contents along @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev o0' : DevRef τ sig := Proc.devRef .tc (main_v4_0 : Ref sig .tc)
abbrev o1' : DevRef τ sig := Proc.devRef .tc (main_v4_1 : Ref sig .tc)
abbrev o2' : DevRef τ sig := Proc.devRef .tc (main_v4_2 : Ref sig .tc)
abbrev o3' : DevRef τ sig := Proc.devRef .tc (main_v4_3 : Ref sig .tc)

/-- The transposition z ↦ z^T and the reshape of the observation count, as @main's host operations. -/
abbrev opT : HloOp τ sig (Elt F) :=
  StableHlo.unary main_arg0 main_v0 ((transpose S64x3x128x1024 [0, 3, 1, 2] · transposes_S64x128x1024x3_S64x3x128x1024_0_3_1_2) : (⟨S64x128x1024x3, .f32⟩ : BufTy).Contents (Elt F) → (⟨S64x3x128x1024, .f32⟩ : BufTy).Contents (Elt F))
abbrev opR : HloOp τ sig (Elt F) := StableHlo.reshape main_arg2 main_v3 rfl shapeCasts_S_S1

/-- The launch valuation; after the transposition. -/
def V0 (d : Dev nD) : Valuation τ sig (Elt F) := fun b => m (d, b)
def V1 (d : Dev nD) : Valuation τ sig (Elt F) := (opT (F := F)).result (V0 m d)

/-- z^T, R and the partials' launch contents, as the SparseCore call is handed them. -/
abbrev ztOf (d : Dev nD) : Buf (Elt F) (zLoc d) := V1 m d v0'
abbrev rOf (d : Dev nD) : Buf (Elt F) (rLoc d) := m (d, a1')
abbrev pOf (d : Dev nD) : Buf (Elt F) (pLoc d) := m (d, v1')

abbrev PP : (K (F := F)).Pay (nD := nD) (Val := Elt F) (Name := ℕ) (U := UU) := P (ztOf m) (rOf m) (pOf m)

/-- After the SparseCore call (the partials at what the tiles left), after the reduce region, after the reshape. -/
def V2 (d : Dev nD) (fp : Buf (Elt F) (pLoc d)) : Valuation τ sig (Elt F) := Function.update (V1 m d) v1' fp
def V3 (d : Dev nD) (fp : Buf (Elt F) (pLoc d)) : Valuation τ sig (Elt F) := Function.update (V2 m d fp) v2' (res1 (F := F) (V2 m d fp))
def V4 (d : Dev nD) (fp : Buf (Elt F) (pLoc d)) : Valuation τ sig (Elt F) := (opR (F := F)).result (V3 m d fp)

theorem V1_a0 (d : Dev nD) : V1 m d a0' = m (d, a0') := (opT (F := F)).result_of_not_mem (V0 m d) (b := a0') (show a0' ∉ ({v0'} : Finset (DevRef τ sig)) by decide)
theorem V1_a1 (d : Dev nD) : V1 m d a1' = m (d, a1') := (opT (F := F)).result_of_not_mem (V0 m d) (b := a1') (show a1' ∉ ({v0'} : Finset (DevRef τ sig)) by decide)
theorem V1_a2 (d : Dev nD) : V1 m d a2' = m (d, a2') := (opT (F := F)).result_of_not_mem (V0 m d) (b := a2') (show a2' ∉ ({v0'} : Finset (DevRef τ sig)) by decide)
theorem V1_v1 (d : Dev nD) : V1 m d v1' = m (d, v1') := (opT (F := F)).result_of_not_mem (V0 m d) (b := v1') (show v1' ∉ ({v0'} : Finset (DevRef τ sig)) by decide)
theorem V1_v2 (d : Dev nD) : V1 m d v2' = m (d, v2') := (opT (F := F)).result_of_not_mem (V0 m d) (b := v2') (show v2' ∉ ({v0'} : Finset (DevRef τ sig)) by decide)
theorem V1_v3 (d : Dev nD) : V1 m d v3' = m (d, v3') := (opT (F := F)).result_of_not_mem (V0 m d) (b := v3') (show v3' ∉ ({v0'} : Finset (DevRef τ sig)) by decide)
theorem V1_o0 (d : Dev nD) : V1 m d o0' = m (d, o0') := (opT (F := F)).result_of_not_mem (V0 m d) (b := o0') (show o0' ∉ ({v0'} : Finset (DevRef τ sig)) by decide)
theorem V1_o1 (d : Dev nD) : V1 m d o1' = m (d, o1') := (opT (F := F)).result_of_not_mem (V0 m d) (b := o1') (show o1' ∉ ({v0'} : Finset (DevRef τ sig)) by decide)
theorem V1_o2 (d : Dev nD) : V1 m d o2' = m (d, o2') := (opT (F := F)).result_of_not_mem (V0 m d) (b := o2') (show o2' ∉ ({v0'} : Finset (DevRef τ sig)) by decide)
theorem V1_o3 (d : Dev nD) : V1 m d o3' = m (d, o3') := (opT (F := F)).result_of_not_mem (V0 m d) (b := o3') (show o3' ∉ ({v0'} : Finset (DevRef τ sig)) by decide)
theorem V2_a0 (d : Dev nD) (fp : Buf (Elt F) (pLoc d)) : V2 m d fp a0' = m (d, a0') := (Function.update_of_ne (show a0' ≠ v1' by decide) _ _).trans (V1_a0 m d)
theorem V2_a1 (d : Dev nD) (fp : Buf (Elt F) (pLoc d)) : V2 m d fp a1' = m (d, a1') := (Function.update_of_ne (show a1' ≠ v1' by decide) _ _).trans (V1_a1 m d)
theorem V2_a2 (d : Dev nD) (fp : Buf (Elt F) (pLoc d)) : V2 m d fp a2' = m (d, a2') := (Function.update_of_ne (show a2' ≠ v1' by decide) _ _).trans (V1_a2 m d)
theorem V2_v0 (d : Dev nD) (fp : Buf (Elt F) (pLoc d)) : V2 m d fp v0' = V1 m d v0' := Function.update_of_ne (show v0' ≠ v1' by decide) _ _
theorem V2_v1 (d : Dev nD) (fp : Buf (Elt F) (pLoc d)) : V2 m d fp v1' = fp := Function.update_self _ _ _
theorem V2_v2 (d : Dev nD) (fp : Buf (Elt F) (pLoc d)) : V2 m d fp v2' = m (d, v2') := (Function.update_of_ne (show v2' ≠ v1' by decide) _ _).trans (V1_v2 m d)
theorem V2_v3 (d : Dev nD) (fp : Buf (Elt F) (pLoc d)) : V2 m d fp v3' = m (d, v3') := (Function.update_of_ne (show v3' ≠ v1' by decide) _ _).trans (V1_v3 m d)
theorem V2_o0 (d : Dev nD) (fp : Buf (Elt F) (pLoc d)) : V2 m d fp o0' = m (d, o0') := (Function.update_of_ne (show o0' ≠ v1' by decide) _ _).trans (V1_o0 m d)
theorem V2_o1 (d : Dev nD) (fp : Buf (Elt F) (pLoc d)) : V2 m d fp o1' = m (d, o1') := (Function.update_of_ne (show o1' ≠ v1' by decide) _ _).trans (V1_o1 m d)
theorem V2_o2 (d : Dev nD) (fp : Buf (Elt F) (pLoc d)) : V2 m d fp o2' = m (d, o2') := (Function.update_of_ne (show o2' ≠ v1' by decide) _ _).trans (V1_o2 m d)
theorem V2_o3 (d : Dev nD) (fp : Buf (Elt F) (pLoc d)) : V2 m d fp o3' = m (d, o3') := (Function.update_of_ne (show o3' ≠ v1' by decide) _ _).trans (V1_o3 m d)
theorem V3_a0 (d : Dev nD) (fp : Buf (Elt F) (pLoc d)) : V3 m d fp a0' = m (d, a0') := (Function.update_of_ne (show a0' ≠ v2' by decide) _ _).trans (V2_a0 m d fp)
theorem V3_a1 (d : Dev nD) (fp : Buf (Elt F) (pLoc d)) : V3 m d fp a1' = m (d, a1') := (Function.update_of_ne (show a1' ≠ v2' by decide) _ _).trans (V2_a1 m d fp)
theorem V3_a2 (d : Dev nD) (fp : Buf (Elt F) (pLoc d)) : V3 m d fp a2' = m (d, a2') := (Function.update_of_ne (show a2' ≠ v2' by decide) _ _).trans (V2_a2 m d fp)
theorem V3_v0 (d : Dev nD) (fp : Buf (Elt F) (pLoc d)) : V3 m d fp v0' = V1 m d v0' := (Function.update_of_ne (show v0' ≠ v2' by decide) _ _).trans (V2_v0 m d fp)
theorem V3_v1 (d : Dev nD) (fp : Buf (Elt F) (pLoc d)) : V3 m d fp v1' = fp := (Function.update_of_ne (show v1' ≠ v2' by decide) _ _).trans (V2_v1 m d fp)
theorem V3_v2 (d : Dev nD) (fp : Buf (Elt F) (pLoc d)) : V3 m d fp v2' = res1 (F := F) (V2 m d fp) := Function.update_self _ _ _
theorem V3_v3 (d : Dev nD) (fp : Buf (Elt F) (pLoc d)) : V3 m d fp v3' = m (d, v3') := (Function.update_of_ne (show v3' ≠ v2' by decide) _ _).trans (V2_v3 m d fp)
theorem V3_o0 (d : Dev nD) (fp : Buf (Elt F) (pLoc d)) : V3 m d fp o0' = m (d, o0') := (Function.update_of_ne (show o0' ≠ v2' by decide) _ _).trans (V2_o0 m d fp)
theorem V3_o1 (d : Dev nD) (fp : Buf (Elt F) (pLoc d)) : V3 m d fp o1' = m (d, o1') := (Function.update_of_ne (show o1' ≠ v2' by decide) _ _).trans (V2_o1 m d fp)
theorem V3_o2 (d : Dev nD) (fp : Buf (Elt F) (pLoc d)) : V3 m d fp o2' = m (d, o2') := (Function.update_of_ne (show o2' ≠ v2' by decide) _ _).trans (V2_o2 m d fp)
theorem V3_o3 (d : Dev nD) (fp : Buf (Elt F) (pLoc d)) : V3 m d fp o3' = m (d, o3') := (Function.update_of_ne (show o3' ≠ v2' by decide) _ _).trans (V2_o3 m d fp)
theorem V4_a0 (d : Dev nD) (fp : Buf (Elt F) (pLoc d)) : V4 m d fp a0' = m (d, a0') := ((opR (F := F)).result_of_not_mem (V3 m d fp) (b := a0') (show a0' ∉ ({v3'} : Finset (DevRef τ sig)) by decide)).trans (V3_a0 m d fp)
theorem V4_a1 (d : Dev nD) (fp : Buf (Elt F) (pLoc d)) : V4 m d fp a1' = m (d, a1') := ((opR (F := F)).result_of_not_mem (V3 m d fp) (b := a1') (show a1' ∉ ({v3'} : Finset (DevRef τ sig)) by decide)).trans (V3_a1 m d fp)
theorem V4_a2 (d : Dev nD) (fp : Buf (Elt F) (pLoc d)) : V4 m d fp a2' = m (d, a2') := ((opR (F := F)).result_of_not_mem (V3 m d fp) (b := a2') (show a2' ∉ ({v3'} : Finset (DevRef τ sig)) by decide)).trans (V3_a2 m d fp)
theorem V4_v0 (d : Dev nD) (fp : Buf (Elt F) (pLoc d)) : V4 m d fp v0' = V1 m d v0' := ((opR (F := F)).result_of_not_mem (V3 m d fp) (b := v0') (show v0' ∉ ({v3'} : Finset (DevRef τ sig)) by decide)).trans (V3_v0 m d fp)
theorem V4_v1 (d : Dev nD) (fp : Buf (Elt F) (pLoc d)) : V4 m d fp v1' = fp := ((opR (F := F)).result_of_not_mem (V3 m d fp) (b := v1') (show v1' ∉ ({v3'} : Finset (DevRef τ sig)) by decide)).trans (V3_v1 m d fp)
theorem V4_v2 (d : Dev nD) (fp : Buf (Elt F) (pLoc d)) : V4 m d fp v2' = res1 (F := F) (V2 m d fp) := ((opR (F := F)).result_of_not_mem (V3 m d fp) (b := v2') (show v2' ∉ ({v3'} : Finset (DevRef τ sig)) by decide)).trans (V3_v2 m d fp)
theorem V4_o0 (d : Dev nD) (fp : Buf (Elt F) (pLoc d)) : V4 m d fp o0' = m (d, o0') := ((opR (F := F)).result_of_not_mem (V3 m d fp) (b := o0') (show o0' ∉ ({v3'} : Finset (DevRef τ sig)) by decide)).trans (V3_o0 m d fp)
theorem V4_o1 (d : Dev nD) (fp : Buf (Elt F) (pLoc d)) : V4 m d fp o1' = m (d, o1') := ((opR (F := F)).result_of_not_mem (V3 m d fp) (b := o1') (show o1' ∉ ({v3'} : Finset (DevRef τ sig)) by decide)).trans (V3_o1 m d fp)
theorem V4_o2 (d : Dev nD) (fp : Buf (Elt F) (pLoc d)) : V4 m d fp o2' = m (d, o2') := ((opR (F := F)).result_of_not_mem (V3 m d fp) (b := o2') (show o2' ∉ ({v3'} : Finset (DevRef τ sig)) by decide)).trans (V3_o2 m d fp)
theorem V4_o3 (d : Dev nD) (fp : Buf (Elt F) (pLoc d)) : V4 m d fp o3' = m (d, o3') := ((opR (F := F)).result_of_not_mem (V3 m d fp) (b := o3') (show o3' ∉ ({v3'} : Finset (DevRef τ sig)) by decide)).trans (V3_o3 m d fp)

omit [FloatOps F] in
theorem held2 (d : Dev nD) (x y : DevRef τ sig) (h : x ≠ y) (W : Valuation τ sig (Elt F)) :
    (held (T d) {x, y} W : sProp 𝕄) = iprop(((d, x) ↦{fullShare} W x) ∗ ((d, y) ↦{fullShare} W y)) := by
  unfold held
  rw [SparseCore.bigSep_insert' (by simpa using h), bigSep_singleton]

/-! ## The launch element -/

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost2 (F := F) d)
        ∗ bigSep Finset.univ fun thr : Thread nD τ => bigSep Finset.univ fun q : Fin 1 => (PP m).x q thr) := by
  iintro Hu
  ihave H := (ownU_split (F := F)) $$ Hu
  icases H with ⟨HH, HP⟩
  imod (fundP (F := F)) $$ HP with Hg
  imodintro
  isplitl [HH]; · iexact HH
  isplitl [Hg]; · iexact Hg
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- What @main leaves the claim: the three arguments at their launch contents. -/
abbrev FIN (d : Dev nD) : sProp 𝕄 :=
  iprop(pt d main_arg0 (m ((SparseCore.T d).loc main_arg0)) ∗ pt d main_arg1 (m ((SparseCore.T d).loc main_arg1)) ∗ pt d main_arg2 (m ((SparseCore.T d).loc main_arg2)))

omit [FloatOps F] in
/-- A whole points-to fact at equal contents. -/
theorem pt_congr (d : Dev nD) (b : Ref sig .tc) {f g : Buf (Elt F) ((d : Thread nD τ).loc b)} (h : f = g) : (pt d b f : sProp 𝕄) ⊢ pt d b g := Entails.of_eq (h ▸ rfl)

omit [FloatOps F] in
/-- After the call the TensorCore owes nothing: its handshake state is that fact and a remainder. -/
theorem tcSt_owes (d : Dev nD) : ∃ R : sProp 𝕄, ((K (F := F)).tcSt EH d 1 : sProp 𝕄) = iprop(owes8 (F := F) d ∗ R) :=
  ⟨_, by unfold SparseCore.Cfg.tcSt; rw [(K (F := F)).Otc_end d le_rfl]⟩

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost2 (F := F) d)
      ⊢ wp frame (wpE ((K (F := F)).defs (D (F := F))) 𝒱 (SparseCore.T d) none) Set.univ (main d)
          fun _ => iprop((K (F := F)).tcSt EH d 1 ∗ FIN m d) := by
  have hlv : ((K (F := F)).ctx EH (PP m) κ : sProp 𝕄) ⊢ levAts (K (F := F)).L (K (F := F)).lev := by
    unfold SparseCore.Cfg.ctx; exact sep_elim_left
  obtain ⟨R, hR⟩ := tcSt_owes (F := F) d
  unfold SparseCore.Cfg.tcRes
  rw [show (unscopedBufs d (fun b => m ((SparseCore.T d).loc b)) : sProp 𝕄) = unscopedBufs d (VW (V0 m d) d) from rfl,
    unscopedBufs_eq (V0 m d) d, ghost2_split]
  simp only [main, wp_bind, wp_pure]
  iintro ⟨#Hctx, Hst, ⟨Hb, ⟨⟨Hv1, Hv2, Ha1, Hv3, Ho0, Ho1, Ho2, Ho3⟩, Ha0, Ha2, Hv0⟩, -, -⟩, ⟨Hc0, Ht0⟩, ⟨Hc1, Ht1⟩⟩
  ihave #Hlv := hlv $$ Hctx
  -- the transposition
  iapply (wp_hlo_within 𝒱 (SparseCore.T d) none Set.univ (op := opT (F := F)) (S := {a0', v0'}) (show ({a0', v0'} : Finset (DevRef τ sig)) ⊆ {a0', v0'} from Finset.Subset.refl _) (V := V0 m d)) $$ [Hb Ha0 Hv0]
  · isplitl [Hb]; · iexact Hb
    rw [held2 d a0' v0' (by decide)]
    isplitl [Ha0]; · iexact Ha0
    iexact Hv0
  iintro ⟨Hb, Hheld⟩
  ihave Hh := (Entails.of_eq (held2 (F := F) d a0' v0' (by decide) _)) $$ Hheld
  icases Hh with ⟨Ha0, Hv0⟩
  rw [wp_ret]; imodintro
  -- the SparseCore call: z^T, R and the partials dealt to the 32 tiles and gathered back
  ihave Hd := (deal (ztOf m) (rOf m) (pOf m) d) $$ [Hv0 Ha1 Hv1]
  · isplitl [Hv0]; · iexact Hv0
    isplitl [Ha1]; · iexact Ha1
    iexact Hv1
  icases Hd with ⟨Hzr, Hrr, Hst0⟩
  iapply ((K (F := F)).wp_run (D (F := F)) 𝒱 (EH := EH) (P := PP m) κ d 0) $$ [Hst Hst0 Hb Hzr Hrr Ha0 Ha2 Hv2 Hv3 Ho0 Ho1 Ho2 Ho3 Hc0 Ht0 Hc1 Ht1]
  isplitr; · iexact Hctx
  isplitl [Hst]; · iexact Hst
  isplitl [Hst0]; · iexact Hst0
  iintro ⟨Hst, Hdn⟩
  ihave Hg := (gather (ztOf m) (rOf m) (pOf m) d) $$ [Hzr Hrr Hdn]
  · isplitl [Hzr]; · iexact Hzr
    isplitl [Hrr]; · iexact Hrr
    iexact Hdn
  icases Hg with ⟨Hv0, Ha1, %fp, Hv1⟩
  ihave Hst := (Entails.of_eq (show ((K (F := F)).tcSt EH d ((0 : Fin 1).val + 1) : sProp 𝕄) = (K (F := F)).tcSt EH d 1 from rfl)) $$ Hst
  ihave Hst' := (Entails.of_eq hR) $$ Hst
  icases Hst' with ⟨HO8, HR⟩
  -- the reduce region, at the contents after the call
  iapply (wp_reduce (V2 m d fp) (K (F := F)).lev d _) $$ [Hb Hv1 Hv2 Ha1 Hv3 Ho0 Ho1 Ho2 Ho3 Ha0 Ha2 Hv0 HO8 Hc0 Ht0 HR Hc1 Ht1]
  isplitr [Hb Hv1 Hv2 Ha1 Hv3 Ho0 Ho1 Ho2 Ho3 Ha0 Ha2 Hv0 HO8 Hc0 Ht0]
  swap
  · isplitl [Hb]; · iexact Hb
    isplitl [Hv1 Hv2 Ha1 Hv3 Ho0 Ho1 Ho2 Ho3 Ha0 Ha2 Hv0 HO8]
    · unfold Pre1 Pre2
      rw [V2_v1, V2_v2, V2_a1, V2_v3, V2_o0, V2_o1, V2_o2, V2_o3, V2_a0, V2_a2, V2_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc0]; · iexact Hc0
    iexact Ht0
  iintro ⟨Hb, H1⟩
  icases H1 with ⟨⟨Hv1, Hv2, Ha1, Hv3, Ho0, Ho1, Ho2, Ho3⟩, ⟨Ha0, Ha2, Hv0⟩, HO8⟩
  ihave Ha0 := (pt_congr d main_arg0 (V2_a0 m d fp)) $$ Ha0
  ihave Ha1 := (pt_congr d main_arg1 (V2_a1 m d fp)) $$ Ha1
  ihave Ha2 := (pt_congr d main_arg2 (V2_a2 m d fp)) $$ Ha2
  ihave Hv0 := (pt_congr d main_v0 (V2_v0 m d fp)) $$ Hv0
  ihave Hv1 := (pt_congr d main_v1 (V2_v1 m d fp)) $$ Hv1
  ihave Hv3 := (pt_congr d main_v3 (V2_v3 m d fp)) $$ Hv3
  ihave Ho0 := (pt_congr d main_v4_0 (V2_o0 m d fp)) $$ Ho0
  ihave Ho1 := (pt_congr d main_v4_1 (V2_o1 m d fp)) $$ Ho1
  ihave Ho2 := (pt_congr d main_v4_2 (V2_o2 m d fp)) $$ Ho2
  ihave Ho3 := (pt_congr d main_v4_3 (V2_o3 m d fp)) $$ Ho3
  -- the reshape of the observation count
  iapply (wp_hlo_within 𝒱 (SparseCore.T d) none Set.univ (op := opR (F := F)) (S := {a2', v3'}) (show ({a2', v3'} : Finset (DevRef τ sig)) ⊆ {a2', v3'} from Finset.Subset.refl _) (V := V3 m d fp)) $$ [Hb Ha2 Hv3]
  · isplitl [Hb]; · iexact Hb
    rw [held2 d a2' v3' (by decide), V3_a2, V3_v3]
    isplitl [Ha2]; · iexact Ha2
    iexact Hv3
  iintro ⟨Hb, Hheld⟩
  ihave Hh := (Entails.of_eq (held2 (F := F) d a2' v3' (by decide) _)) $$ Hheld
  icases Hh with ⟨Ha2, Hv3⟩
  ihave Ha2 := (Entails.of_eq (show ((((d, a2') : Loc nD τ sig) ↦{fullShare} (opR (F := F)).result (V3 m d fp) a2') : sProp 𝕄) = pt d main_arg2 (V4 m d fp a2') from rfl)) $$ Ha2
  ihave Ha2 := (pt_congr d main_arg2 (V4_a2 m d fp)) $$ Ha2
  rw [wp_ret]; imodintro
  -- the epilogue region, at the contents after the reshape
  iapply (wp_epilogue (V4 m d fp) (K (F := F)).lev d _) $$ [Hb Hv1 Hv2 Ha1 Hv3 Ho0 Ho1 Ho2 Ho3 Ha0 Ha2 Hv0 HO8 Hc1 Ht1 HR]
  isplitr [Hb Hv1 Hv2 Ha1 Hv3 Ho0 Ho1 Ho2 Ho3 Ha0 Ha2 Hv0 HO8 Hc1 Ht1]
  swap
  · isplitl [Hb]; · iexact Hb
    isplitl [Hv1 Hv2 Ha1 Hv3 Ho0 Ho1 Ho2 Ho3 Ha0 Ha2 Hv0 HO8]
    · unfold Pre2
      rw [V4_v1, V4_v2, V4_a1, V4_o0, V4_o1, V4_o2, V4_o3, V4_a0, V4_a2, V4_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc1]; · iexact Hc1
    iexact Ht1
  iintro ⟨Hb, H2⟩
  icases H2 with ⟨⟨Hv1, Hv2, Ha1, Hv3, Ho0, Ho1, Ho2, Ho3⟩, ⟨Ha0, Ha2, Hv0⟩, HO8⟩
  ihave Ha0 := (pt_congr d main_arg0 (V4_a0 m d fp)) $$ Ha0
  ihave Ha1 := (pt_congr d main_arg1 (V4_a1 m d fp)) $$ Ha1
  ihave Ha2 := (pt_congr d main_arg2 (V4_a2 m d fp)) $$ Ha2
  imodintro
  isplitl [HO8 HR]
  · iapply (Entails.of_eq hR.symm)
    isplitl [HO8]; · iexact HO8
    iexact HR
  isplitl [Ha0]; · iexact Ha0
  isplitl [Ha1]; · iexact Ha1
  iexact Ha2

def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro ⟨⟨H0, H1, H2⟩, HSI⟩
  icombine HSI H0 gives %h0
  icombine HSI H1 gives %h1
  icombine HSI H2 gives %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (ztOf m) (rOf m) (pOf m) facts)
    (fun q _ => match q with | 0 => SparseCore.Cfg.VecSplit.of_plain (vecSplit (ztOf m) (rOf m) (pOf m)))
    m ρ main (fun d => ghost2 (F := F) d) (FIN m) (u₀ (F := F)) (sep_elim_left.trans (hu₀ m)) (hmain m ρ) (fq m) (hfin m) (QC m) (fun _ h => h)

end Cert.KernelIdeal.Sc

end
-- ==== Proof.ScPayV.lean ====
/-
  The SparseCore call's payloads with the tiles' results NAMED, at the exact-arithmetic instance: tile b hands back
  row b of the partials at contents whose sixteen lanes add up to the entry's raw score (the thresholded weights of the
  entry's 128 × 1024 points). What a tile is handed is as in the frame proof.
-/
import proofs.«217460_g7679401525743_retrytranche1_990_34_alg».proof.Proof.ScDeal
import proofs.«217460_g7679401525743_retrytranche1_990_34_alg».proof.Proof.Score

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

local notation "𝕄" => MT nD τ sig (HIx 1) (Elt Ideal) ℕ UU ℕ

variable (zt : (d : Dev nD) → Buf (Elt Ideal) (zLoc d)) (r : (d : Dev nD) → Buf (Elt Ideal) (rLoc d)) (p₀ : (d : Dev nD) → Buf (Elt Ideal) (pLoc d))
  (zsrc : (d : Dev nD) → Buf (Elt Ideal) ((SparseCore.T d : Thread nD τ).loc main_arg0))

/-- The lanes of row b add up to entry b's raw score. -/
def rowSum (d : Dev nD) (b : Fin 32) (f : Vec Ideal S32x16 .f32) : Prop :=
  ∑ l : Fin 16, f (ix2 b l) = Cert.Score.rawAt (zsrc d) (r d) ⟨b.val, by omega⟩

/-- What tile b hands back, its row's lane sums named. -/
def tdResV (d : Dev nD) (b : Fin 32) : sProp 𝕄 :=
  iprop((zLoc d ↦{shareTokN fullShare b.val} zt d) ∗ (rLoc d ↦{shareTokN fullShare b.val} r d)
    ∗ ∃ f, ⌜rowSum r zsrc d b f⌝ ∗ (pLoc d ↦[prowSet b]{fullShare} f))

instance tdResV_storable (d : Dev nD) (b : Fin 32) : BI.Storable (upEmb : UEmb _ 𝕄) (tdResV zt r zsrc d b) := by unfold tdResV; infer_instance

/-- The call's payloads, the results named. -/
def PV : (K (F := Ideal)).Pay (nD := nD) (Val := Elt Ideal) (Name := ℕ) (U := UU) where
  st := fun q d c => match q with | 0 => bigSep Finset.univ fun i : Fin ((K (F := Ideal)).nSub 0) => goRes zt r p₀ d (entryFin c i)
  dn := fun q d c => match q with | 0 => bigSep Finset.univ fun i : Fin ((K (F := Ideal)).nSub 0) => tdResV zt r zsrc d (entryFin c i)
  go := fun q d c i => match q with | 0 => goRes zt r p₀ d (entryFin c i)
  td := fun q d c i => match q with | 0 => tdResV zt r zsrc d (entryFin c i)
  x := fun _ _ => iprop(emp)

instance PV_storable : (PV zt r p₀ zsrc).IsStorable where
  st q d c := match q with | 0 => by unfold PV; dsimp only; infer_instance
  dn q d c := match q with | 0 => by unfold PV; dsimp only; infer_instance
  go q d c i := match q with | 0 => by unfold PV; dsimp only; infer_instance
  td q d c i := match q with | 0 => by unfold PV; dsimp only; infer_instance

theorem vecSplitV : (K (F := Ideal)).VecSplit' (PV zt r p₀ zsrc) 0 := by
  intro d c
  show (bigSep Finset.univ fun i : Fin ((K (F := Ideal)).nSub 0) => goRes zt r p₀ d (entryFin c i))
    ⊢ |={Set.univ}=> iprop((bigSep Finset.univ fun i : Fin ((K (F := Ideal)).nSub 0) => goRes zt r p₀ d (entryFin c i))
      ∗ ((bigSep Finset.univ fun i : Fin ((K (F := Ideal)).nSub 0) => tdResV zt r zsrc d (entryFin c i))
        -∗ (bigSep Finset.univ fun i : Fin ((K (F := Ideal)).nSub 0) => tdResV zt r zsrc d (entryFin c i))))
  iintro Hst
  imodintro
  isplitl [Hst]; · iexact Hst
  iintro Htd; iexact Htd

/-- What the SparseCores are handed is as in the frame proof. -/
theorem stV_eq (d : Dev nD) (c : Fin ((K (F := Ideal)).nCore 0)) : (PV zt r p₀ zsrc).st 0 d c = (P zt r p₀).st 0 d c := rfl

theorem dnV_all (d : Dev nD) : (bigSep Finset.univ fun c : Fin ((K (F := Ideal)).nCore 0) => (PV zt r p₀ zsrc).dn 0 d c)
    = bigSep Finset.univ fun b : Fin 32 => tdResV zt r zsrc d b := by
  show (bigSep Finset.univ fun c : Fin ((K (F := Ideal)).nCore 0) => bigSep Finset.univ fun i : Fin ((K (F := Ideal)).nSub 0) => tdResV zt r zsrc d (entryFin c i)) = _
  exact bigSep_grid (F := Ideal) (fun b => tdResV zt r zsrc d b)

/-- Row b as a unit rectangle. -/
theorem prow_unit (b : Fin 32) : prow b = Rect.unit (s := S32x16) ![b.val, 0] ![1, 16] (by intro a; fin_cases a <;> simp <;> omega) := by
  unfold prow Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- Lane l of row b lies in row b. -/
theorem mem_prowSet (b : Fin 32) (l : Fin 16) : (ix2 b l : S32x16.Idx) ∈ prowSet b := by
  rw [prowSet_eq, prow_unit, Rect.mem_set_unit]
  intro a; fin_cases a <;> simp [ix2]

/-- From the remainders and every SparseCore's results: the two read arrays whole again, and the partials whole at
    contents every row of which adds up to its entry's raw score. -/
theorem gatherV (d : Dev nD) :
    iprop((zLoc d ↦{shareDrop fullShare 32} zt d) ∗ (rLoc d ↦{shareDrop fullShare 32} r d)
        ∗ bigSep Finset.univ fun c : Fin ((K (F := Ideal)).nCore 0) => (PV zt r p₀ zsrc).dn 0 d c)
      ⊢ (iprop((zLoc d ↦{fullShare} zt d) ∗ (rLoc d ↦{fullShare} r d) ∗ ∃ f, ⌜∀ b : Fin 32, rowSum r zsrc d b f⌝ ∗ (pLoc d ↦{fullShare} f)) : sProp 𝕄) := by
  rw [dnV_all]
  unfold tdResV
  rw [bigSep_sep', bigSep_sep']
  iintro ⟨Hz0, Hr0, Hzt, Hrt, Hp⟩
  isplitl [Hz0 Hzt]
  · iapply (Transfers.pointsTo_toks_join fullShare 32)
    isplitl [Hz0]; · iexact Hz0
    iexact Hzt
  isplitl [Hr0 Hrt]
  · iapply (Transfers.pointsTo_toks_join fullShare 32)
    isplitl [Hr0]; · iexact Hr0
    iexact Hrt
  ihave Hp := (bigSep_exists_pi Finset.univ (fun (b : Fin 32) (f : Buf (Elt Ideal) (pLoc d)) => (iprop(⌜rowSum r zsrc d b f⌝ ∗ (pLoc d ↦[prowSet b]{fullShare} f)) : sProp 𝕄))) $$ Hp
  icases Hp with ⟨%fs, H⟩
  ihave H := (bigSep_pure_sep Finset.univ (fun b : Fin 32 => rowSum r zsrc d b (fs b)) (fun b => (pLoc d ↦[prowSet b]{fullShare} fs b : sProp 𝕄))) $$ H
  icases H with ⟨%hs, H⟩
  ihave H' := (pointsTo_biUnion_join Finset.univ prowSet fs (fs 0) prows_disjoint) $$ H
  icases H' with ⟨%g, %hg, Hg⟩
  rw [prows_cover]
  iexists g
  isplitr
  · ipureintro
    intro b
    have hb := hs b (Finset.mem_univ b)
    unfold rowSum at hb ⊢
    rw [← hb]
    exact Finset.sum_congr rfl fun l _ => hg b (Finset.mem_univ b) _ (mem_prowSet b l)
  · iexact Hg

end Cert.KernelIdeal.Sc

end
-- ==== Proof.ScoreLaws.lean ====
/-
  The algebraic laws between two spellings of the score on the extended reals.

  * a quotient with numerator `-1/2` is `-1/2` times the quotient with numerator `1` (also by zero: both are `⊥`);
  * half the threshold times `A` is `(1/2 · A)` times the threshold (the two patterns share a significand, one binade apart);
  * `0 - x = -x`;
  * a three-term sum of squares is `0 +` the sum over the three coordinates;
  * a comparison feeding a select is the `if` on the order;
  * the sum over 128 × 1024 points, taken as sixteen lane sums of 16 × 8 × 8 × 8 terms each, is the double sum.
-/
import Idealize.ShloMosaic.PureOps.Ideal
import Idealize.ShloMosaic.PureOps.Ideal.Laws
import Mathlib.Algebra.BigOperators.Fin

noncomputable section

namespace Cert.ScoreLaws

open Idealize.ShloMosaic
open scoped BigOperators

/-! ## The constants -/

/-- The pattern of `1.0` denotes `1`. -/
theorem ofBits_one : Ideal.ofBits .f32 0x3F800000#32 = 1 := by
  simp [Ideal.ofBits, Ideal.ieee, -EReal.coe_mul]; norm_num

/-- The pattern of `-0.5` denotes `-1/2`. -/
theorem ofBits_negHalf : Ideal.ofBits .f32 0xBF000000#32 = ((-(1 / 2) : ℝ) : EReal) := by
  simp [Ideal.ofBits, Ideal.ieee, -EReal.coe_mul]; norm_num

/-- The pattern of `0.5` denotes `1/2`. -/
theorem ofBits_half : Ideal.ofBits .f32 0x3F000000#32 = ((1 / 2 : ℝ) : EReal) := by
  simp [Ideal.ofBits, Ideal.ieee, -EReal.coe_mul]; norm_num

/-- The threshold's pattern denotes `10465512 · 2⁻³³`. -/
theorem ofBits_thr : Ideal.ofBits .f32 0x3A9FB0E8#32 = ((10465512 / 2 ^ 33 : ℝ) : EReal) := by
  simp [Ideal.ofBits, Ideal.ieee, -EReal.coe_mul]; norm_num

/-- The half threshold's pattern denotes `10465512 · 2⁻³⁴`: the same significand, one binade below. -/
theorem ofBits_halfThr : Ideal.ofBits .f32 0x3A1FB0E8#32 = ((10465512 / 2 ^ 34 : ℝ) : EReal) := by
  simp [Ideal.ofBits, Ideal.ieee, -EReal.coe_mul]; norm_num

/-! ## Quotients, products, negation -/

/-- A quotient with numerator `-1/2` is `-1/2` times the quotient with numerator `1`; by zero both are `⊥`. -/
theorem div_negHalf (q : EReal) :
    Ideal.div (Ideal.ofBits .f32 0xBF000000#32) q
      = Ideal.ofBits .f32 0xBF000000#32 * Ideal.div (Ideal.ofBits .f32 0x3F800000#32) q := by
  rw [ofBits_one]
  unfold Ideal.div
  by_cases hq : q = 0
  · rw [if_pos hq, if_pos hq, if_pos (by norm_num : (0 : EReal) < 1), ofBits_negHalf]
    have hneg : ¬ (0 : EReal) < ((-(1 / 2) : ℝ) : EReal) := by
      rw [not_lt]; exact_mod_cast (by norm_num : (-(1 / 2) : ℝ) ≤ 0)
    rw [if_neg hneg]
    exact (EReal.coe_mul_top_of_neg (by norm_num : (-(1 / 2) : ℝ) < 0)).symm
  · rw [if_neg hq, if_neg hq, one_mul]

/-- Half the threshold times `A` is `(1/2 · A)` times the threshold. -/
theorem halfThr_mul (A : EReal) :
    Ideal.ofBits .f32 0x3A1FB0E8#32 * A
      = (Ideal.ofBits .f32 0x3F000000#32 * A) * Ideal.ofBits .f32 0x3A9FB0E8#32 := by
  rw [ofBits_halfThr, ofBits_half, ofBits_thr, mul_comm (_ * A), ← mul_assoc, ← EReal.coe_mul]
  congr 2
  norm_num

/-- `0 - x = -x`. -/
theorem zero_sub_eq_neg (x : EReal) : Ideal.ofBits .f32 0x00000000#32 - x = -x := by
  rw [Ideal.ofBits_zero_f32, zero_sub]

/-- A three-term sum of squares is `0 +` the sum over the three coordinates. -/
theorem sq3 (x y w : EReal) :
    (x * x + y * y) + w * w
      = Ideal.ofBits .f32 0x00000000#32 + ∑ k : Fin 3, (![x, y, w] : Fin 3 → EReal) k * (![x, y, w] : Fin 3 → EReal) k := by
  rw [Ideal.ofBits_zero_f32, zero_add, Fin.sum_univ_three]
  rfl

/-- A select on the comparison `x < y` is the `if` on the order. -/
theorem select_olt {α : Type} (x y : EReal) (a b : α) :
    Scalar.select (Ideal.cmp .olt x y) a b = if x < y then a else b := by
  unfold Scalar.select Ideal.cmp
  by_cases h : x < y
  · simp [h]
  · simp [h]

/-! ## The sum over the points, lane by lane -/

section Lanes
variable {M : Type*} [AddCommMonoid M]

/-- A row index below 128 is `8 · c + r` with `c < 16`, `r < 8`. -/
def rowEquiv : Fin 16 × Fin 8 ≃ Fin 128 where
  toFun x := ⟨8 * x.1.val + x.2.val, by omega⟩
  invFun p := (⟨p.val / 8, by omega⟩, ⟨p.val % 8, by omega⟩)
  left_inv x := by
    ext
    · show (8 * x.1.val + x.2.val) / 8 = x.1.val; omega
    · show (8 * x.1.val + x.2.val) % 8 = x.2.val; omega
  right_inv p := by
    ext
    show 8 * (p.val / 8) + p.val % 8 = p.val; omega

/-- A column index below 1024 is `128 · g + 16 · k + l` with `g, k < 8`, `l < 16`. -/
def colEquiv : Fin 8 × Fin 8 × Fin 16 ≃ Fin 1024 where
  toFun x := ⟨128 * x.1.val + 16 * x.2.1.val + x.2.2.val, by omega⟩
  invFun q := (⟨q.val / 128, by omega⟩, ⟨q.val % 128 / 16, by omega⟩, ⟨q.val % 16, by omega⟩)
  left_inv x := by
    ext
    · show (128 * x.1.val + 16 * x.2.1.val + x.2.2.val) / 128 = x.1.val; omega
    · show (128 * x.1.val + 16 * x.2.1.val + x.2.2.val) % 128 / 16 = x.2.1.val; omega
    · show (128 * x.1.val + 16 * x.2.1.val + x.2.2.val) % 16 = x.2.2.val; omega
  right_inv q := by
    ext
    show 128 * (q.val / 128) + 16 * (q.val % 128 / 16) + q.val % 16 = q.val; omega

/-- The sum over the rows by `(c, r)`. -/
theorem sum_rows (h : Fin 128 → M) :
    ∑ p : Fin 128, h p = ∑ c : Fin 16, ∑ r : Fin 8, h ⟨8 * c.val + r.val, by omega⟩ := by
  rw [← Equiv.sum_comp rowEquiv h, Fintype.sum_prod_type]
  rfl

/-- The sum over the columns by `(g, k, l)`. -/
theorem sum_cols (h : Fin 1024 → M) :
    ∑ q : Fin 1024, h q
      = ∑ g : Fin 8, ∑ k : Fin 8, ∑ l : Fin 16, h ⟨128 * g.val + 16 * k.val + l.val, by omega⟩ := by
  rw [← Equiv.sum_comp colEquiv h, Fintype.sum_prod_type]
  refine Finset.sum_congr rfl fun g _ => ?_
  rw [Fintype.sum_prod_type]
  rfl

/-- Sixteen lane sums, each over the 16 × 8 row blocks and the 8 × 8 column groups of its lane, add up to the
    double sum over the 128 × 1024 points. -/
theorem sum_lanes (f : Fin 128 → Fin 1024 → M) :
    ∑ l : Fin 16, ∑ c : Fin 16, ∑ r : Fin 8, ∑ g : Fin 8, ∑ k : Fin 8,
        f ⟨8 * c.val + r.val, by omega⟩ ⟨128 * g.val + 16 * k.val + l.val, by omega⟩
      = ∑ p : Fin 128, ∑ q : Fin 1024, f p q := by
  rw [sum_rows (fun p => ∑ q : Fin 1024, f p q)]
  simp only [sum_cols]
  -- bring the lane's sum outward past k, g, r, c
  rw [Finset.sum_comm]
  refine Finset.sum_congr rfl fun c _ => ?_
  rw [Finset.sum_comm]
  refine Finset.sum_congr rfl fun r _ => ?_
  rw [Finset.sum_comm]
  refine Finset.sum_congr rfl fun g _ => ?_
  rw [Finset.sum_comm]

/-- The double sum over the points is the sum over the pairs. -/
theorem sum_points_prod (f : Fin 128 → Fin 1024 → M) :
    ∑ p : Fin 128, ∑ q : Fin 1024, f p q = ∑ x : Fin 128 × Fin 1024, f x.1 x.2 :=
  (Fintype.sum_prod_type' f).symm

end Lanes

end Cert.ScoreLaws

end
-- ==== Proof.Epilogue.lean ====
/-
  The epilogue kernel's stored values, read index by index on the extended reals, are the score's functions:
  the per-batch scalars `lam`, `muPer`, `sig` in the kernel's spelling (half the threshold folded into one constant,
  `0 - lam` for the negation) equal the specification's, so the stored expected score and variance are the
  specification's; the stored raw score is the sixteen-lane sums of the partial sums followed by the directly
  reduced entries; and the stored objective is the specification's as soon as the raw score is.
-/
import proofs.«217460_g7679401525743_retrytranche1_990_34_alg».proof.Proof.Gen.KernelIdeal.Skeleton
import proofs.«217460_g7679401525743_retrytranche1_990_34_alg».proof.Proof.Score
import proofs.«217460_g7679401525743_retrytranche1_990_34_alg».proof.Proof.ScoreLaws
import Idealize.ShloMosaic.Lib.Pipeline.Value
import Idealize.ShloMosaic.PureOps.Ideal.Laws

noncomputable section

namespace Cert.Epilogue

open Cert.KernelIdeal Cert.KernelIdeal.Gen Idealize.ShloMosaic Idealize.ShloMosaic.ValueIdx
open scoped BigOperators

/-! ## The per-batch scalars -/

/-- The kernel's `lam`: half the threshold times the inverse squared radius. -/
theorem lam_eq (r : Vec Ideal S64 .f32) (b : Fin 64) :
    k2_pay3 (F := Ideal) r (ix1 b) = Cert.Score.lam r b := by
  have e : k2_pay3 (F := Ideal) r (ix1 b) = Ideal.ofBits .f32 0x3A1FB0E8#32 * Cert.Score.invSq r b := rfl
  rw [e, Cert.ScoreLaws.halfThr_mul]
  rfl

/-- The kernel's `muPer`: `(1 - exp(0 - lam)) / lam`. -/
theorem muPer_eq (r : Vec Ideal S64 .f32) (b : Fin 64) :
    k2_pay4 (F := Ideal) r (ix1 b) = Cert.Score.muPer r b := by
  have e : k2_pay4 (F := Ideal) r (ix1 b)
      = Ideal.div (Cert.Score.cOne - Ideal.exp (Ideal.ofBits .f32 0x00000000#32 - k2_pay3 (F := Ideal) r (ix1 b)))
          (k2_pay3 (F := Ideal) r (ix1 b)) := rfl
  rw [e, lam_eq, Cert.ScoreLaws.zero_sub_eq_neg]
  rfl

/-- The stored expected background score. -/
theorem mu_eq (r : Vec Ideal S64 .f32) (n : Elt Ideal .f32) :
    k2_pay5 (F := Ideal) r n = Cert.Score.mu r (fun _ => n) := by
  funext i
  obtain ⟨b, rfl⟩ : ∃ b : Fin 64, i = ix1 b := ⟨i 0, eq_ix1 i⟩
  have e : k2_pay5 (F := Ideal) r n (ix1 b) = n * k2_pay4 (F := Ideal) r (ix1 b) := rfl
  rw [e, muPer_eq]
  rfl

/-- The stored background variance. -/
theorem sigma2_eq (r : Vec Ideal S64 .f32) (n : Elt Ideal .f32) :
    k2_pay6 (F := Ideal) r n = Cert.Score.sigma2 r (fun _ => n) := by
  funext i
  obtain ⟨b, rfl⟩ : ∃ b : Fin 64, i = ix1 b := ⟨i 0, eq_ix1 i⟩
  have e : k2_pay6 (F := Ideal) r n (ix1 b)
      = n * (Ideal.div (Cert.Score.cOne - Ideal.exp (Cert.Score.cNegTwo * k2_pay3 (F := Ideal) r (ix1 b)))
              (Cert.Score.cTwo * k2_pay3 (F := Ideal) r (ix1 b))
            - k2_pay4 (F := Ideal) r (ix1 b) * k2_pay4 (F := Ideal) r (ix1 b)) := rfl
  rw [e, lam_eq, muPer_eq]
  rfl

/-! ## The stored raw score -/

/-- The sum over the sixteen lanes of one row of partial sums. -/
theorem laneSum_apply (part : Vec Ideal S32x16 .f32) (h : S32x16.Reduces [1] S32) (hφ : FKind.Formats .f32)
    (hacc : (0x00000000#32 : BitVec 32) = FKind.add.neutral .f32 hφ) (b : Fin 32) :
    multiReduction (F := Ideal) .add [1] S32 part 0x00000000#32 h hφ hacc (ix1 b)
      = ∑ l : Fin 16, part (ix2 b l) := by
  refine (Ideal.reduceAdd_single h part (ix1 b)).trans ?_
  refine Finset.sum_congr rfl fun k _ => congrArg part (funext fun a => Fin.ext ?_)
  match a with
  | ⟨0, _⟩ => rfl
  | ⟨1, _⟩ => rfl

/-- The stored raw score: the first 32 entries are lane sums of the partial sums, the last 32 the directly reduced
    entries. -/
theorem raw_apply (part : Vec Ideal S32x16 .f32) (tc : Vec Ideal S32 .f32) (b : Fin 64) :
    k2_pay2 (F := Ideal) part tc (ix1 b)
      = if h : b.val < 32 then ∑ l : Fin 16, part (ix2 (⟨b.val, h⟩ : Fin 32) l)
        else tc (ix1 (⟨b.val - 32, by omega⟩ : Fin 32)) := by
  unfold k2_pay2
  simp only [shapeCast_self]
  split
  · next h =>
    rw [concatenate_pair_apply_left (t := S64) (s₁ := S32) (s₂ := S32) (0 : Fin 1) _ _ _ (ix1 b) rfl
      (ix1 (⟨b.val, h⟩ : Fin 32)) (fun b' => by match b' with | ⟨0, _⟩ => rfl)]
    exact laneSum_apply part _ _ _ ⟨b.val, h⟩
  · next h =>
    exact concatenate_pair_apply_right (t := S64) (s₁ := S32) (s₂ := S32) (0 : Fin 1) _ _ _ (ix1 b) rfl rfl
      (ix1 (⟨b.val - 32, by omega⟩ : Fin 32))
      (fun b' hb' => by match b' with | ⟨0, _⟩ => exact absurd rfl hb')
      (by show b.val - 32 + 32 = b.val; omega)

/-! ## The stored objective -/

/-- The stored objective at a batch entry, from the stored raw score, expected score and variance. -/
theorem obj_apply (part : Vec Ideal S32x16 .f32) (tc : Vec Ideal S32 .f32) (r : Vec Ideal S64 .f32) (n : Elt Ideal .f32)
    (b : Fin 64) :
    k2_pay1 (F := Ideal) (k2_pay7 (F := Ideal) r n) (k2_pay8 (F := Ideal) part tc r n) (ix1 b)
      = ((k2_pay2 (F := Ideal) part tc (ix1 b) - Cert.Score.cOne * k2_pay5 (F := Ideal) r n (ix1 b)) - Cert.Score.cOne)
          + Ideal.sqrt (k2_pay6 (F := Ideal) r n (ix1 b)) := rfl

/-- If the stored raw score is the specification's, so is the stored objective. -/
theorem obj_eq (z : Cert.Score.Points) (part : Vec Ideal S32x16 .f32) (tc : Vec Ideal S32 .f32) (r : Vec Ideal S64 .f32)
    (n : Elt Ideal .f32) (hraw : k2_pay2 (F := Ideal) part tc = Cert.Score.raw z r) :
    k2_pay1 (F := Ideal) (k2_pay7 (F := Ideal) r n) (k2_pay8 (F := Ideal) part tc r n)
      = Cert.Score.obj z r (fun _ => n) := by
  funext i
  obtain ⟨b, rfl⟩ : ∃ b : Fin 64, i = ix1 b := ⟨i 0, eq_ix1 i⟩
  rw [obj_apply, hraw, mu_eq, sigma2_eq]
  rfl

end Cert.Epilogue

end
-- ==== Proof.ReduceTile.lean ====
/-
  The reduce kernel's stored value for one batch entry, on the extended reals: the sum over the 128 × 1024 points of
  the Gaussian weight of each point inside the chord threshold — with the three coordinate planes and the radius of
  batch entry `b` it is the specification's raw score of `b`.
-/
import proofs.«217460_g7679401525743_retrytranche1_990_34_alg».proof.Proof.Gen.KernelIdeal.Skeleton
import proofs.«217460_g7679401525743_retrytranche1_990_34_alg».proof.Proof.Score
import proofs.«217460_g7679401525743_retrytranche1_990_34_alg».proof.Proof.ScoreLaws
import Idealize.ShloMosaic.Lib.Pipeline.Value
import Idealize.ShloMosaic.PureOps.Ideal.Laws

noncomputable section

namespace Cert.ReduceTile

open Cert.KernelIdeal Cert.KernelIdeal.Gen Idealize.ShloMosaic Idealize.ShloMosaic.ValueIdx
open scoped BigOperators

/-! ## Indices of the one-entry tile -/

/-- An index of the [1, 128, 1024] tile is its last two coordinates. -/
def tileEquiv : S1x128x1024.Idx ≃ Fin 128 × Fin 1024 where
  toFun i := (i 1, i 2)
  invFun pq := ix3 (0 : Fin 1) pq.1 pq.2
  left_inv i := by
    funext a
    match a with
    | ⟨0, _⟩ => exact Fin.ext (by have h : (i 0).val < 1 := (i 0).isLt; show 0 = (i 0).val; omega)
    | ⟨1, _⟩ => rfl
    | ⟨2, _⟩ => rfl
  right_inv _ := rfl

/-- A sum over the tile is the double sum over its last two coordinates. -/
theorem sum_tile {M : Type*} [AddCommMonoid M] (f : S1x128x1024.Idx → M) :
    ∑ i, f i = ∑ p : Fin 128, ∑ q : Fin 1024, f (ix3 (0 : Fin 1) p q) := by
  rw [← Equiv.sum_comp tileEquiv.symm f, Fintype.sum_prod_type]
  rfl

/-- A [1, 1, 128, 1024] plane viewed as [128, 1024]. -/
theorem plane_apply {α : Type} (v : S1x1x128x1024.Idx → α) (h : S1x1x128x1024.ShapeCasts S128x1024)
    (p : Fin 128) (q : Fin 1024) :
    shapeCast S128x1024 v h (ix2 p q) = v (ix4 (0 : Fin 1) (0 : Fin 1) p q) :=
  shapeCast_apply v h (ix2 p q) (ix4 (0 : Fin 1) (0 : Fin 1) p q) (by
    rw [Shape.rowMajor_val_four, Shape.rowMajor_val_two]
    show ((0 * 1 + 0) * 128 + p.val) * 1024 + q.val = p.val * 1024 + q.val
    omega)

/-- A [128, 1024] tile viewed as [1, 128, 1024]. -/
theorem tile_apply {α : Type} (v : S128x1024.Idx → α) (h : S128x1024.ShapeCasts S1x128x1024)
    (p : Fin 128) (q : Fin 1024) :
    shapeCast S1x128x1024 v h (ix3 (0 : Fin 1) p q) = v (ix2 p q) :=
  shapeCast_apply v h (ix3 (0 : Fin 1) p q) (ix2 p q) (by
    rw [Shape.rowMajor_val_two, Shape.rowMajor_val_three]
    show p.val * 1024 + q.val = (0 * 128 + p.val) * 1024 + q.val
    omega)

/-! ## The stored value -/

/-- The squared norm of the point `(p, q)` from its three coordinate planes. -/
def sqn (x y w : Vec Ideal S1x1x128x1024 .f32) (p : Fin 128) (q : Fin 1024) : EReal :=
  (x (ix4 (0 : Fin 1) (0 : Fin 1) p q) * x (ix4 (0 : Fin 1) (0 : Fin 1) p q)
      + y (ix4 (0 : Fin 1) (0 : Fin 1) p q) * y (ix4 (0 : Fin 1) (0 : Fin 1) p q))
    + w (ix4 (0 : Fin 1) (0 : Fin 1) p q) * w (ix4 (0 : Fin 1) (0 : Fin 1) p q)

/-- The kernel's weight of the point `(p, q)`. -/
def wgt (x y w : Vec Ideal S1x1x128x1024 .f32) (rv : Elt Ideal .f32) (p : Fin 128) (q : Fin 1024) : EReal :=
  if sqn x y w p q < Cert.Score.cThr
  then Ideal.exp (Ideal.div Cert.Score.cNegHalf (rv * rv) * sqn x y w p q) else Cert.Score.cZero

/-- The stored value is the double sum of the weights. -/
theorem pay_eq_sum (x y w : Vec Ideal S1x1x128x1024 .f32) (rv : Elt Ideal .f32) :
    k1_pay1 (F := Ideal) x y w rv = ∑ p : Fin 128, ∑ q : Fin 1024, wgt x y w rv p q := by
  unfold k1_pay1
  dsimp only
  unfold extractAt
  rw [shapeCast_apply _ _ _ (ix1 (0 : Fin 1)) (by rw [Shape.rowMajor_val_one, Shape.rowMajor_val_three]; rfl)]
  refine (Ideal.reduceAdd_total _ (fun b => by match b with | ⟨0, _⟩ => rfl) _ (ix1 (0 : Fin 1))).trans ?_
  rw [sum_tile]
  refine Finset.sum_congr rfl fun p _ => Finset.sum_congr rfl fun q _ => ?_
  rw [tile_apply]
  show Scalar.select (Ideal.cmp .olt
      ((shapeCast S128x1024 x _ (ix2 p q) * shapeCast S128x1024 x _ (ix2 p q)
          + shapeCast S128x1024 y _ (ix2 p q) * shapeCast S128x1024 y _ (ix2 p q))
        + shapeCast S128x1024 w _ (ix2 p q) * shapeCast S128x1024 w _ (ix2 p q)) Cert.Score.cThr)
      (Ideal.exp (Ideal.div Cert.Score.cNegHalf (rv * rv)
        * ((shapeCast S128x1024 x _ (ix2 p q) * shapeCast S128x1024 x _ (ix2 p q)
            + shapeCast S128x1024 y _ (ix2 p q) * shapeCast S128x1024 y _ (ix2 p q))
          + shapeCast S128x1024 w _ (ix2 p q) * shapeCast S128x1024 w _ (ix2 p q))))
      Cert.Score.cZero = _
  rw [plane_apply, plane_apply, plane_apply, Cert.ScoreLaws.select_olt]
  rfl

/-- With the three coordinate planes and the radius of batch entry `b`, the stored value is the specification's raw
    score of `b`. -/
theorem pay_eq_rawAt (z : Cert.Score.Points) (r : Cert.Score.PerBatch) (b : Fin 64)
    (x y w : Vec Ideal S1x1x128x1024 .f32) (rv : Elt Ideal .f32)
    (hx : ∀ (p : Fin 128) (q : Fin 1024), x (ix4 (0 : Fin 1) (0 : Fin 1) p q) = z (ix4 b p q (0 : Fin 3)))
    (hy : ∀ (p : Fin 128) (q : Fin 1024), y (ix4 (0 : Fin 1) (0 : Fin 1) p q) = z (ix4 b p q (1 : Fin 3)))
    (hw : ∀ (p : Fin 128) (q : Fin 1024), w (ix4 (0 : Fin 1) (0 : Fin 1) p q) = z (ix4 b p q (2 : Fin 3)))
    (hr : rv = r (ix1 b)) :
    k1_pay1 (F := Ideal) x y w rv = Cert.Score.rawAt z r b := by
  rw [pay_eq_sum]
  unfold Cert.Score.rawAt
  rw [show Cert.Score.cZero = 0 from Ideal.ofBits_zero_f32, zero_add]
  refine Finset.sum_congr rfl fun p _ => Finset.sum_congr rfl fun q _ => ?_
  have hs : sqn x y w p q = Cert.Score.sqNorm z b p q := by
    unfold sqn Cert.Score.sqNorm
    rw [hx, hy, hw, show Cert.Score.cZero = 0 from Ideal.ofBits_zero_f32, zero_add, Fin.sum_univ_three]
  unfold wgt Cert.Score.weight
  rw [hs, hr, Cert.ScoreLaws.div_negHalf]
  rfl

end Cert.ReduceTile

end
-- ==== Proof.KernelScore.lean ====
/-
  From the epilogue's stored arrays to the specification. Read through whole rectangles, the four stored arrays are
  the epilogue's payloads of the operand arrays; the observation count reshaped to one word reads back as the count;
  the transposed points read back with the coordinate axis moved; and so, when the partial sums' lane sums and the
  directly reduced entries are the specification's raw scores, the four stored arrays are the specification's four
  results.
-/
import proofs.«217460_g7679401525743_retrytranche1_990_34_alg».proof.Proof.TcEpilogue
import proofs.«217460_g7679401525743_retrytranche1_990_34_alg».proof.Proof.Epilogue
import proofs.«217460_g7679401525743_retrytranche1_990_34_alg».proof.Proof.ReduceTile
import proofs.«217460_g7679401525743_retrytranche1_990_34_alg».proof.Proof.Score
import Idealize.ShloMosaic.Lib.Pipeline.Value

noncomputable section

namespace Cert.KernelScore

open Cert.KernelIdeal Cert.KernelIdeal.Gen Cert.KernelIdeal.Sc Idealize.ShloMosaic Idealize.ShloMosaic.ValueIdx
open scoped BigOperators

/-- Every element type has a value on the extended reals. -/
instance nonemptyElt : ∀ e, Nonempty (Elt Ideal e) := fun e => by
  cases e <;> first | exact ⟨(0 : EReal)⟩ | exact ⟨(0 : BitVec _)⟩

theorem hz1 : (![0] : Fin 1 → Nat) = fun _ => 0 := funext fun a => by fin_cases a <;> rfl
theorem hz2 : (![0, 0] : Fin 2 → Nat) = fun _ => 0 := funext fun a => by fin_cases a <;> rfl

/-! ## Whole rectangles -/

/-- The one-word operand read as a scalar is its element. -/
theorem sc_eq (x3 : Vec Ideal S1 .f32) : sc2_3 (F := Ideal) x3 = x3 (ix1 (0 : Fin 1)) := by
  unfold sc2_3
  rw [View.ld_unit_zero (S := S1) hz1]
  refine congrArg x3 (funext fun a => Fin.ext ?_)
  match a with
  | ⟨0, _⟩ => rfl

theorem out4_eq (x0 : Vec Ideal S32x16 .f32) (x1 : Vec Ideal S32 .f32) :
    out2_4 (F := Ideal) x0 x1 = k2_pay2 (F := Ideal) x0 x1 := by
  unfold out2_4
  rw [View.canon_unit_zero hz1, View.ld_unit_zero (S := S32x16) hz2, View.ld_unit_zero (S := S32) hz1]

theorem out5_eq (x2 : Vec Ideal S64 .f32) (x3 : Vec Ideal S1 .f32) :
    out2_5 (F := Ideal) x2 x3 = k2_pay5 (F := Ideal) x2 (sc2_3 (F := Ideal) x3) := by
  unfold out2_5
  rw [View.canon_unit_zero hz1, View.ld_unit_zero (S := S64) hz1]

theorem out6_eq (x2 : Vec Ideal S64 .f32) (x3 : Vec Ideal S1 .f32) :
    out2_6 (F := Ideal) x2 x3 = k2_pay6 (F := Ideal) x2 (sc2_3 (F := Ideal) x3) := by
  unfold out2_6
  rw [View.canon_unit_zero hz1, View.ld_unit_zero (S := S64) hz1]

theorem out7_eq (x0 : Vec Ideal S32x16 .f32) (x1 : Vec Ideal S32 .f32) (x2 : Vec Ideal S64 .f32) (x3 : Vec Ideal S1 .f32) :
    out2_7 (F := Ideal) x0 x1 x2 x3
      = k2_pay1 (F := Ideal) (k2_pay7 (F := Ideal) x2 (sc2_3 (F := Ideal) x3))
          (k2_pay8 (F := Ideal) x0 x1 x2 (sc2_3 (F := Ideal) x3)) := by
  unfold out2_7
  rw [View.canon_unit_zero hz1, View.ld_unit_zero (S := S32x16) hz2, View.ld_unit_zero (S := S32) hz1,
    View.ld_unit_zero (S := S64) hz1]

/-! ## The observation count and the transposed points -/

/-- The count reshaped to one word reads back as the count. -/
theorem count_eq (n : Cert.Score.Single) (h : S_.ShapeCasts S1) :
    sc2_3 (F := Ideal) (shapeCast S1 n h) = n ix0 := by
  rw [sc_eq]
  unfold shapeCast
  exact congrArg n (funext fun a => a.elim0)

/-- The transposed points read back with the coordinate axis moved from second to last. -/
theorem transpose_eq (z : Cert.Score.Points) (h : S64x128x1024x3.Transposes [0, 3, 1, 2] S64x3x128x1024)
    (b : Fin 64) (k : Fin 3) (p : Fin 128) (q : Fin 1024) :
    transpose S64x3x128x1024 [0, 3, 1, 2] z h (ix4 b k p q) = z (ix4 b p q k) :=
  transpose_apply [0, 3, 1, 2] z h (ix4 b k p q) (ix4 b p q k) (fun a => by
    match a with
    | ⟨0, _⟩ => rfl
    | ⟨1, _⟩ => rfl
    | ⟨2, _⟩ => rfl
    | ⟨3, _⟩ => rfl)

/-! ## The four stored arrays are the specification's four results -/

/-- The stored raw score is the specification's when the lane sums of the partial sums and the directly reduced
    entries are. -/
theorem raw_eq (z : Cert.Score.Points) (r : Cert.Score.PerBatch) (part : Vec Ideal S32x16 .f32) (tc : Vec Ideal S32 .f32)
    (hpart : ∀ b : Fin 32, ∑ l : Fin 16, part (ix2 b l) = Cert.Score.rawAt z r ⟨b.val, by omega⟩)
    (htc : ∀ i : Fin 32, tc (ix1 i) = Cert.Score.rawAt z r ⟨i.val + 32, by omega⟩) :
    k2_pay2 (F := Ideal) part tc = Cert.Score.raw z r := by
  funext j
  obtain ⟨b, rfl⟩ : ∃ b : Fin 64, j = ix1 b := ⟨j 0, eq_ix1 j⟩
  rw [Cert.Epilogue.raw_apply, Cert.Score.raw_apply]
  split
  · next h => exact hpart ⟨b.val, h⟩
  · next h =>
    rw [htc ⟨b.val - 32, by omega⟩]
    exact congrArg (Cert.Score.rawAt z r) (Fin.ext (by show b.val - 32 + 32 = b.val; omega))

theorem results_eq (z : Cert.Score.Points) (r : Cert.Score.PerBatch) (n : Cert.Score.Single)
    (part : Vec Ideal S32x16 .f32) (tc : Vec Ideal S32 .f32) (x3 : Vec Ideal S1 .f32)
    (hn : sc2_3 (F := Ideal) x3 = n ix0)
    (hpart : ∀ b : Fin 32, ∑ l : Fin 16, part (ix2 b l) = Cert.Score.rawAt z r ⟨b.val, by omega⟩)
    (htc : ∀ i : Fin 32, tc (ix1 i) = Cert.Score.rawAt z r ⟨i.val + 32, by omega⟩) :
    out2_4 (F := Ideal) part tc = Cert.Score.raw z r
      ∧ out2_5 (F := Ideal) r x3 = Cert.Score.mu r n
      ∧ out2_6 (F := Ideal) r x3 = Cert.Score.sigma2 r n
      ∧ out2_7 (F := Ideal) part tc r x3 = Cert.Score.obj z r n := by
  have hraw := raw_eq z r part tc hpart htc
  have hn' : (fun _ => n ix0 : Cert.Score.Single) = n := funext fun j => congrArg n (eq_ix0 j).symm
  refine ⟨?_, ?_, ?_, ?_⟩
  · rw [out4_eq, hraw]
  · rw [out5_eq, hn, Cert.Epilogue.mu_eq, hn']
  · rw [out6_eq, hn, Cert.Epilogue.sigma2_eq, hn']
  · rw [out7_eq, hn, Cert.Epilogue.obj_eq z part tc r (n ix0) hraw, hn']

/-! ## The reduce kernel's word for the directly reduced entries -/

/-- With the three planes of block `i + 32` of the transposed points and that entry's radius, the reduce kernel's
    stored word is the specification's raw score of entry `i + 32`. -/
theorem reduce_eq (z : Cert.Score.Points) (r : Cert.Score.PerBatch)
    (h : S64x128x1024x3.Transposes [0, 3, 1, 2] S64x3x128x1024) (i : Fin 32)
    (x y w : Vec Ideal S1x1x128x1024 .f32) (rv : Elt Ideal .f32)
    (hx : ∀ (p : Fin 128) (q : Fin 1024), x (ix4 (0 : Fin 1) (0 : Fin 1) p q)
      = transpose S64x3x128x1024 [0, 3, 1, 2] z h (ix4 (⟨i.val + 32, by omega⟩ : Fin 64) (0 : Fin 3) p q))
    (hy : ∀ (p : Fin 128) (q : Fin 1024), y (ix4 (0 : Fin 1) (0 : Fin 1) p q)
      = transpose S64x3x128x1024 [0, 3, 1, 2] z h (ix4 (⟨i.val + 32, by omega⟩ : Fin 64) (1 : Fin 3) p q))
    (hw : ∀ (p : Fin 128) (q : Fin 1024), w (ix4 (0 : Fin 1) (0 : Fin 1) p q)
      = transpose S64x3x128x1024 [0, 3, 1, 2] z h (ix4 (⟨i.val + 32, by omega⟩ : Fin 64) (2 : Fin 3) p q))
    (hr : rv = r (ix1 (⟨i.val + 32, by omega⟩ : Fin 64))) :
    k1_pay1 (F := Ideal) x y w rv = Cert.Score.rawAt z r ⟨i.val + 32, by omega⟩ :=
  Cert.ReduceTile.pay_eq_rawAt z r ⟨i.val + 32, by omega⟩ x y w rv
    (fun p q => (hx p q).trans (transpose_eq z h _ _ p q))
    (fun p q => (hy p q).trans (transpose_eq z h _ _ p q))
    (fun p q => (hw p q).trans (transpose_eq z h _ _ p q)) hr

end Cert.KernelScore

end
-- ==== Proof.TcReduceV.lean ====
/-
  The reduce region's result, word by word: word `i` is the kernel body's value of the three coordinate planes of block
  `i + 32` of the first operand and of word `i + 32` of the second operand — the block read through the window's index
  map (block index times block size plus the coordinate inside the block) and the word through the body's offset.
-/
import proofs.«217460_g7679401525743_retrytranche1_990_34_alg».proof.Proof.TcReduce
import Idealize.ShloMosaic.Lib.ValueIdx
import proofs.«217460_g7679401525743_retrytranche1_990_34_alg».proof.Proof.Gen.KernelIdeal.Skeleton
import Idealize.ShloMosaic.Lib.Pipeline.FrameBody
import Idealize.ShloMosaic.Lib.Tactic

set_option maxRecDepth 16384

noncomputable section

namespace Cert.KernelIdeal.Sc

open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F))

/-- The first operand's index map: block `i + 32` along the leading axis. -/
theorem tr0_eq : ∀ i : grid1.Coords, cc1_transform_0 i = ![(i 0).val + 32, 0, 0, 0] := by decide +kernel
/-- A point's coordinate is its number. -/
theorem coords1_val : ∀ t : Fin grid1.N, ((grid1.coords t) 0).val = t.val := by decide +kernel

/-- Where the first operand's block at point `t` sits in its array: block index times block size plus the coordinate
    inside the block, axis by axis. -/
theorem blk0_apply (t : Fin cfg1.N) (j : S1x3x128x1024.Idx) (a : Fin 4) :
    ((((cfg1.win 0).blk t).view.emb j) a).val = cc1_transform_0 (grid1.coords t) a * S1x3x128x1024.size a + (j a).val := by
  simp only [Memref.view_slice, View.emb_slice, Function.Embedding.trans_apply, Memref.view_whole, View.emb_whole, Function.Embedding.refl_apply]
  rw [Rect.emb_apply]
  show (cc1_transform_0 (grid1.coords t)) a * S1x3x128x1024.size a + 1 * (j a).val = cc1_transform_0 (grid1.coords t) a * S1x3x128x1024.size a + (j a).val
  omega

/-- Word `i` of the reduce region's result: the body's value of the three coordinate planes of block `i + 32` of the
    first operand and of word `i + 32` of the second. -/
theorem res1_apply (i : Fin 32) : ∃ (x y w : Vec F S1x1x128x1024 .f32) (rv : Elt F .f32),
    res1 W (ValueIdx.ix1 i) = k1_pay1 x y w rv
    ∧ (∀ (p : Fin 128) (q : Fin 1024), x (ValueIdx.ix4 (0 : Fin 1) (0 : Fin 1) p q) = (W main_v0 : Vec F S64x3x128x1024 .f32) (ValueIdx.ix4 (⟨i.val + 32, by omega⟩ : Fin 64) (0 : Fin 3) p q))
    ∧ (∀ (p : Fin 128) (q : Fin 1024), y (ValueIdx.ix4 (0 : Fin 1) (0 : Fin 1) p q) = (W main_v0 : Vec F S64x3x128x1024 .f32) (ValueIdx.ix4 (⟨i.val + 32, by omega⟩ : Fin 64) (1 : Fin 3) p q))
    ∧ (∀ (p : Fin 128) (q : Fin 1024), w (ValueIdx.ix4 (0 : Fin 1) (0 : Fin 1) p q) = (W main_v0 : Vec F S64x3x128x1024 .f32) (ValueIdx.ix4 (⟨i.val + 32, by omega⟩ : Fin 64) (2 : Fin 3) p q))
    ∧ rv = (W main_arg1 : Vec F S64 .f32) (ValueIdx.ix1 (⟨i.val + 32, by omega⟩ : Fin 64)) := by
  refine ⟨_, _, _, _, rfl, ?_, ?_, ?_, ?_⟩
  · intro p q
    show (W (Proc.devRef .tc main_v0) : Vec F S64x3x128x1024 .f32)
      (((cfg1.win 0).blk (tOf (ValueIdx.ix1 i))).view.emb (r1_a.idx (ValueIdx.ix4 (0 : Fin 1) (0 : Fin 1) p q))) = _
    congr 1
    funext a; apply Fin.ext
    rw [blk0_apply, tr0_eq]
    fin_cases a
    · show ((grid1.coords (tOf (ValueIdx.ix1 i)) 0).val + 32) * 1 + (0 + 1 * 0) = i.val + 32
      rw [coords1_val]
      show (i.val + 32) * 1 + (0 + 1 * 0) = i.val + 32
      omega
    · show 0 * 3 + (0 + 1 * 0) = 0
      rfl
    · show 0 * 128 + (0 + 1 * p.val) = p.val
      omega
    · show 0 * 1024 + (0 + 1 * q.val) = q.val
      omega
  · intro p q
    show (W (Proc.devRef .tc main_v0) : Vec F S64x3x128x1024 .f32)
      (((cfg1.win 0).blk (tOf (ValueIdx.ix1 i))).view.emb (r1_b.idx (ValueIdx.ix4 (0 : Fin 1) (0 : Fin 1) p q))) = _
    congr 1
    funext a; apply Fin.ext
    rw [blk0_apply, tr0_eq]
    fin_cases a
    · show ((grid1.coords (tOf (ValueIdx.ix1 i)) 0).val + 32) * 1 + (0 + 1 * 0) = i.val + 32
      rw [coords1_val]
      show (i.val + 32) * 1 + (0 + 1 * 0) = i.val + 32
      omega
    · show 0 * 3 + (1 + 1 * 0) = 1
      rfl
    · show 0 * 128 + (0 + 1 * p.val) = p.val
      omega
    · show 0 * 1024 + (0 + 1 * q.val) = q.val
      omega
  · intro p q
    show (W (Proc.devRef .tc main_v0) : Vec F S64x3x128x1024 .f32)
      (((cfg1.win 0).blk (tOf (ValueIdx.ix1 i))).view.emb (r1_c.idx (ValueIdx.ix4 (0 : Fin 1) (0 : Fin 1) p q))) = _
    congr 1
    funext a; apply Fin.ext
    rw [blk0_apply, tr0_eq]
    fin_cases a
    · show ((grid1.coords (tOf (ValueIdx.ix1 i)) 0).val + 32) * 1 + (0 + 1 * 0) = i.val + 32
      rw [coords1_val]
      show (i.val + 32) * 1 + (0 + 1 * 0) = i.val + 32
      omega
    · show 0 * 3 + (2 + 1 * 0) = 2
      rfl
    · show 0 * 128 + (0 + 1 * p.val) = p.val
      omega
    · show 0 * 1024 + (0 + 1 * q.val) = q.val
      omega
  · show (W (Proc.devRef .tc main_arg1) : Vec F S64 .f32) ((r1_R (grid1.coords (tOf (ValueIdx.ix1 i)))).idx (Shape.Idx.first (show 0 < S1.numel by decide))) = _
    congr 1
    funext a; apply Fin.ext
    show k1_off1 (grid1.coords (tOf (ValueIdx.ix1 i))) a + 1 * 0 = _
    rw [k1_off1_eq]
    fin_cases a
    show (grid1.coords (tOf (ValueIdx.ix1 i)) 0).val + 32 + 1 * 0 = i.val + 32
    rw [coords1_val]
    show i.val + 32 + 1 * 0 = i.val + 32
    omega

end Cert.KernelIdeal.Sc

end
-- ==== Proof.Lanes.lean ====
/-
  The vector subcores' per-vector values, lane by lane, on the extended reals: a sixteen-lane accumulator gains, at
  each lane, the Gaussian weight of that lane's point when its squared norm is inside the chord threshold; the scale
  vector is `-1/2` over the squared radius at each lane; the closing additions are lane-wise sums.
-/
import proofs.«217460_g7679401525743_retrytranche1_990_34_alg».proof.Proof.Gen.KernelIdeal.Skeleton
import proofs.«217460_g7679401525743_retrytranche1_990_34_alg».proof.Proof.Score
import proofs.«217460_g7679401525743_retrytranche1_990_34_alg».proof.Proof.ScoreLaws
import Idealize.ShloMosaic.Lib.Pipeline.Value

noncomputable section

namespace Cert.Lanes

open Cert.KernelIdeal Cert.KernelIdeal.Gen Idealize.ShloMosaic Idealize.ShloMosaic.ValueIdx
open scoped BigOperators

/-- A one-row [1, 16] vector viewed as its sixteen lanes. -/
theorem row_apply {α : Type} (v : S1x16.Idx → α) (h : S1x16.ShapeCasts S16) (l : Fin 16) :
    shapeCast S16 v h (ix1 l) = v (ix2 (0 : Fin 1) l) :=
  shapeCast_apply v h (ix1 l) (ix2 (0 : Fin 1) l) (by
    rw [Shape.rowMajor_val_two, Shape.rowMajor_val_one]
    show 0 * 16 + l.val = l.val
    omega)

/-- The weight of a point with coordinates `a, b, d` under the scale `c`: `exp (c · s)` with `s` its squared norm when
    `s` is inside the chord threshold, zero outside. -/
def wgt (c a b d : EReal) : EReal :=
  if (a * a + b * b) + d * d < Cert.Score.cThr then Ideal.exp (c * ((a * a + b * b) + d * d)) else Cert.Score.cZero

/-- One accumulation step from three loaded rows, at a lane. -/
theorem step3_apply (v6 acc : FVec Ideal S16 .f32) (xl yl zl : Vec Ideal S1x16 .f32) (l : Fin 16) :
    k0_pay2 (F := Ideal) v6 acc xl yl zl (ix1 l)
      = acc (ix1 l) + wgt (v6 (ix1 l)) (xl (ix2 (0 : Fin 1) l)) (yl (ix2 (0 : Fin 1) l)) (zl (ix2 (0 : Fin 1) l)) := by
  unfold k0_pay2
  show acc (ix1 l) + Scalar.select (Ideal.cmp .olt
      ((shapeCast S16 xl _ (ix1 l) * shapeCast S16 xl _ (ix1 l) + shapeCast S16 yl _ (ix1 l) * shapeCast S16 yl _ (ix1 l))
        + shapeCast S16 zl _ (ix1 l) * shapeCast S16 zl _ (ix1 l)) Cert.Score.cThr)
      (Ideal.exp (v6 (ix1 l)
        * ((shapeCast S16 xl _ (ix1 l) * shapeCast S16 xl _ (ix1 l) + shapeCast S16 yl _ (ix1 l) * shapeCast S16 yl _ (ix1 l))
          + shapeCast S16 zl _ (ix1 l) * shapeCast S16 zl _ (ix1 l))))
      Cert.Score.cZero = _
  rw [row_apply, row_apply, row_apply, Cert.ScoreLaws.select_olt]
  rfl

/-- One accumulation step whose first row is already a lane vector, at a lane. -/
theorem step2_apply (v6 acc : FVec Ideal S16 .f32) (xv : Vec Ideal S16 .f32) (yl zl : Vec Ideal S1x16 .f32) (l : Fin 16) :
    k0_pay119 (F := Ideal) v6 acc xv yl zl (ix1 l)
      = acc (ix1 l) + wgt (v6 (ix1 l)) (xv (ix1 l)) (yl (ix2 (0 : Fin 1) l)) (zl (ix2 (0 : Fin 1) l)) := by
  unfold k0_pay119
  show acc (ix1 l) + Scalar.select (Ideal.cmp .olt
      ((xv (ix1 l) * xv (ix1 l) + shapeCast S16 yl _ (ix1 l) * shapeCast S16 yl _ (ix1 l))
        + shapeCast S16 zl _ (ix1 l) * shapeCast S16 zl _ (ix1 l)) Cert.Score.cThr)
      (Ideal.exp (v6 (ix1 l)
        * ((xv (ix1 l) * xv (ix1 l) + shapeCast S16 yl _ (ix1 l) * shapeCast S16 yl _ (ix1 l))
          + shapeCast S16 zl _ (ix1 l) * shapeCast S16 zl _ (ix1 l))))
      Cert.Score.cZero = _
  rw [row_apply, row_apply, Cert.ScoreLaws.select_olt]
  rfl

/-- A loaded row as a lane vector, at a lane. -/
theorem rowVec_apply (xl : Vec Ideal S1x16 .f32) (l : Fin 16) :
    k0_pay113 (F := Ideal) xl (ix1 l) = xl (ix2 (0 : Fin 1) l) := by
  unfold k0_pay113
  exact row_apply xl _ l

/-- The zero accumulator. -/
theorem zeroVec_apply (l : Fin 16) : k0_pay115 (F := Ideal) (ix1 l) = Cert.Score.cZero := rfl

/-- The scale vector at a lane: `-1/2` over the squared radius. -/
theorem scale_apply (v3 : Vec Ideal S16 .f32) (l : Fin 16) :
    k0_pay114 (F := Ideal) v3 (ix1 l) = Ideal.div Cert.Score.cNegHalf (v3 (ix1 l) * v3 (ix1 l)) := rfl

/-- The scale vector at a lane holding the radius of batch entry `b` is `-1/2` times the inverse squared radius. -/
theorem scale_eq (v3 : Vec Ideal S16 .f32) (l : Fin 16) (r : Cert.Score.PerBatch) (b : Fin 64)
    (h : v3 (ix1 l) = r (ix1 b)) :
    k0_pay114 (F := Ideal) v3 (ix1 l) = Cert.Score.cNegHalf * Cert.Score.invSq r b := by
  rw [scale_apply, h, Cert.ScoreLaws.div_negHalf]
  rfl

/-- The closing addition of two lane vectors. -/
theorem add2_apply (a b : FVec Ideal S16 .f32) (l : Fin 16) :
    k0_pay1 (F := Ideal) a b (ix1 l) = b (ix1 l) + a (ix1 l) := rfl

/-- The closing addition of three lane vectors. -/
theorem add3_apply (a b c : FVec Ideal S16 .f32) (l : Fin 16) :
    k0_pay151 (F := Ideal) a b c (ix1 l) = (a (ix1 l) + b (ix1 l)) + c (ix1 l) := rfl

/-- Under the scale of batch entry `b`, the weight of the point `(p, q)` of `b` is the specification's. -/
theorem wgt_eq_weight (z : Cert.Score.Points) (r : Cert.Score.PerBatch) (b : Fin 64) (p : Fin 128) (q : Fin 1024) :
    wgt (Cert.Score.cNegHalf * Cert.Score.invSq r b) (z (ix4 b p q (0 : Fin 3))) (z (ix4 b p q (1 : Fin 3)))
        (z (ix4 b p q (2 : Fin 3)))
      = Cert.Score.weight z r b p q := by
  have hs : (z (ix4 b p q (0 : Fin 3)) * z (ix4 b p q (0 : Fin 3)) + z (ix4 b p q (1 : Fin 3)) * z (ix4 b p q (1 : Fin 3)))
      + z (ix4 b p q (2 : Fin 3)) * z (ix4 b p q (2 : Fin 3)) = Cert.Score.sqNorm z b p q := by
    unfold Cert.Score.sqNorm
    rw [show Cert.Score.cZero = 0 from Ideal.ofBits_zero_f32, zero_add, Fin.sum_univ_three]
  unfold wgt Cert.Score.weight
  rw [hs]

end Cert.Lanes

end
-- ==== Proof.LaneFold.lean ====
/-
  The vector subcores' loop nest as a pure function of the carried accumulators, and its sum.

  A chunk is an 8 × 1024 slot of each of the three coordinate planes. One inner trip (row `r`, column group `g`)
  takes eight steps `k = 0 … 7`: it reads the sixteen-lane rows at column `128 · g + 16 · k` of the three planes
  and adds each lane's weight to accumulator `k mod 4`. Eight inner trips make a row, eight rows a chunk, sixteen
  chunks a batch entry. At every lane the four accumulators' total grows by the sum of the weights read, whatever
  the order; summed over the sixteen lanes and the sixteen chunks this is the double sum over the entry's
  128 × 1024 points.
-/
import proofs.«217460_g7679401525743_retrytranche1_990_34_alg».proof.Proof.Gen.KernelIdeal.Skeleton
import proofs.«217460_g7679401525743_retrytranche1_990_34_alg».proof.Proof.Score
import proofs.«217460_g7679401525743_retrytranche1_990_34_alg».proof.Proof.ScoreLaws
import proofs.«217460_g7679401525743_retrytranche1_990_34_alg».proof.Proof.Lanes
import Mathlib.Tactic.Abel

noncomputable section

namespace Cert.LaneFold

open Cert.KernelIdeal Cert.KernelIdeal.Gen Idealize.ShloMosaic Idealize.ShloMosaic.ValueIdx
open scoped BigOperators

/-- A sixteen-lane accumulator. -/
abbrev Acc : Type := FVec Ideal S16 .f32
/-- The four carried accumulators. -/
abbrev Accs : Type := Acc × Acc × Acc × Acc
/-- A slot's contents: 8 rows of 1024 columns. -/
abbrev Slot : Type := FVec Ideal S8x1024 .f32
/-- How a sixteen-lane row is read out of a slot: row `r`, sixteen-column block `cb`. -/
abbrev RowAt : Type := Slot → Fin 8 → Fin 64 → Vec Ideal S1x16 .f32

/-- The four accumulators' total at a lane. -/
def total (accs : Accs) (l : Fin 16) : EReal :=
  accs.1 (ix1 l) + accs.2.1 (ix1 l) + accs.2.2.1 (ix1 l) + accs.2.2.2 (ix1 l)

/-! ## Folding a trip function over the trips -/

section Fold
variable {σ : Type} {n : Nat}

/-- The first `k` trips of `f`, in order (all `n` of them at `k = n`). -/
def foldUpTo (f : Fin n → σ → σ) : Nat → σ → σ
  | 0, a => a
  | k + 1, a => if h : k < n then f ⟨k, h⟩ (foldUpTo f k a) else foldUpTo f k a

theorem foldUpTo_zero (f : Fin n → σ → σ) (a : σ) : foldUpTo f 0 a = a := rfl

theorem foldUpTo_succ (f : Fin n → σ → σ) (k : Fin n) (a : σ) :
    foldUpTo f (k.val + 1) a = f k (foldUpTo f k.val a) := by
  show (if h : k.val < n then f ⟨k.val, h⟩ (foldUpTo f k.val a) else foldUpTo f k.val a) = _
  rw [dif_pos k.isLt]

/-- If every trip adds `d j` to a quantity `T` of the carried values, all the trips add `∑ j, d j`. -/
theorem foldUpTo_total {M : Type*} [AddCommMonoid M] (T : σ → M) (f : Fin n → σ → σ) (d : Fin n → M)
    (h : ∀ j a, T (f j a) = T a + d j) (a : σ) :
    T (foldUpTo f n a) = T a + ∑ j : Fin n, d j := by
  have key : ∀ k, k ≤ n → T (foldUpTo f k a)
      = T a + ∑ j ∈ Finset.range k, (if hj : j < n then d ⟨j, hj⟩ else 0) := by
    intro k
    induction k with
    | zero => intro _; rw [Finset.range_zero, Finset.sum_empty, add_zero]; rfl
    | succ k ih =>
      intro hk
      have hk' : k < n := hk
      rw [show foldUpTo f (k + 1) a = f ⟨k, hk'⟩ (foldUpTo f k a) from foldUpTo_succ f ⟨k, hk'⟩ a, h,
        ih (Nat.le_of_lt hk'), Finset.sum_range_succ, dif_pos hk', add_assoc]
  rw [key n le_rfl, ← Fin.sum_univ_eq_sum_range (fun j => if hj : j < n then d ⟨j, hj⟩ else 0) n]
  refine congrArg (T a + ·) (Finset.sum_congr rfl fun j _ => ?_)
  rw [dif_pos j.isLt]

end Fold

/-! ## One step, one trip -/

section Chunk
variable (rowAt : RowAt) (bx bY bw : Slot) (v6 : Acc)

/-- The sixteen-column block of step `k` in column group `g`. -/
def colBlock (g k : Fin 8) : Fin 64 := ⟨8 * g.val + k.val, by omega⟩

/-- The column of lane `l` at step `k` of column group `g`. -/
def col (g k : Fin 8) (l : Fin 16) : Fin 1024 := ⟨128 * g.val + 16 * k.val + l.val, by omega⟩

/-- One step from three loaded rows. -/
def step (r g k : Fin 8) (a : Acc) : Acc :=
  k0_pay2 (F := Ideal) v6 a (rowAt bx r (colBlock g k)) (rowAt bY r (colBlock g k)) (rowAt bw r (colBlock g k))

/-- One step whose first row was made a lane vector before. -/
def stepV (r g k : Fin 8) (a : Acc) : Acc :=
  k0_pay119 (F := Ideal) v6 a (k0_pay113 (F := Ideal) (rowAt bx r (colBlock g k))) (rowAt bY r (colBlock g k))
    (rowAt bw r (colBlock g k))

/-- One inner trip: eight steps, step `k` into accumulator `k mod 4`. -/
def tripFn (r g : Fin 8) (accs : Accs) : Accs :=
  (step rowAt bx bY bw v6 r g 4 (step rowAt bx bY bw v6 r g 0 accs.1),
   step rowAt bx bY bw v6 r g 5 (step rowAt bx bY bw v6 r g 1 accs.2.1),
   stepV rowAt bx bY bw v6 r g 6 (step rowAt bx bY bw v6 r g 2 accs.2.2.1),
   step rowAt bx bY bw v6 r g 7 (step rowAt bx bY bw v6 r g 3 accs.2.2.2))

/-- The same trip spelt with the first chunk's own step functions. -/
def tripFn0 (r g : Fin 8) (accs : Accs) : Accs :=
  (k0_pay6 (F := Ideal) v6
      (k0_pay2 (F := Ideal) v6 accs.1 (rowAt bx r (colBlock g 0)) (rowAt bY r (colBlock g 0)) (rowAt bw r (colBlock g 0)))
      (rowAt bx r (colBlock g 4)) (rowAt bY r (colBlock g 4)) (rowAt bw r (colBlock g 4)),
   k0_pay7 (F := Ideal) v6
      (k0_pay3 (F := Ideal) v6 accs.2.1 (rowAt bx r (colBlock g 1)) (rowAt bY r (colBlock g 1)) (rowAt bw r (colBlock g 1)))
      (rowAt bx r (colBlock g 5)) (rowAt bY r (colBlock g 5)) (rowAt bw r (colBlock g 5)),
   k0_pay119 (F := Ideal) v6
      (k0_pay4 (F := Ideal) v6 accs.2.2.1 (rowAt bx r (colBlock g 2)) (rowAt bY r (colBlock g 2)) (rowAt bw r (colBlock g 2)))
      (k0_pay8 (F := Ideal) (rowAt bx r (colBlock g 6))) (rowAt bY r (colBlock g 6)) (rowAt bw r (colBlock g 6)),
   k0_pay120 (F := Ideal) v6
      (k0_pay5 (F := Ideal) v6 accs.2.2.2 (rowAt bx r (colBlock g 3)) (rowAt bY r (colBlock g 3)) (rowAt bw r (colBlock g 3)))
      (rowAt bx r (colBlock g 7)) (rowAt bY r (colBlock g 7)) (rowAt bw r (colBlock g 7)))

theorem tripFn0_eq (r g : Fin 8) (accs : Accs) :
    tripFn0 rowAt bx bY bw v6 r g accs = tripFn rowAt bx bY bw v6 r g accs := rfl

/-- One row: its eight inner trips in order. -/
def rowFn (r : Fin 8) (accs : Accs) : Accs := foldUpTo (fun g a => tripFn rowAt bx bY bw v6 r g a) 8 accs

/-- One chunk: its eight rows in order. -/
def chunkFn (accs : Accs) : Accs := foldUpTo (fun r a => rowFn rowAt bx bY bw v6 r a) 8 accs

/-- The weight read by step `k` of trip `(r, g)` at lane `l`. -/
def W (r g k : Fin 8) (l : Fin 16) : EReal :=
  Cert.Lanes.wgt (v6 (ix1 l)) (bx (ix2 r (col g k l))) (bY (ix2 r (col g k l))) (bw (ix2 r (col g k l)))

section Laws
variable (hrow : ∀ (f : Slot) (r : Fin 8) (cb : Fin 64) (l : Fin 16),
  rowAt f r cb (ix2 (0 : Fin 1) l) = f (ix2 r (⟨16 * cb.val + l.val, by omega⟩ : Fin 1024)))
include hrow

/-- A step adds its lane's weight. -/
theorem step_apply (r g k : Fin 8) (a : Acc) (l : Fin 16) :
    step rowAt bx bY bw v6 r g k a (ix1 l) = a (ix1 l) + W bx bY bw v6 r g k l := by
  have e : (⟨16 * (colBlock g k).val + l.val, by omega⟩ : Fin 1024) = col g k l :=
    Fin.ext (by show 16 * (8 * g.val + k.val) + l.val = 128 * g.val + 16 * k.val + l.val; omega)
  unfold step W
  rw [Cert.Lanes.step3_apply, hrow, hrow, hrow, e]

/-- So does a step whose first row was made a lane vector before. -/
theorem stepV_apply (r g k : Fin 8) (a : Acc) (l : Fin 16) :
    stepV rowAt bx bY bw v6 r g k a (ix1 l) = a (ix1 l) + W bx bY bw v6 r g k l := by
  have e : (⟨16 * (colBlock g k).val + l.val, by omega⟩ : Fin 1024) = col g k l :=
    Fin.ext (by show 16 * (8 * g.val + k.val) + l.val = 128 * g.val + 16 * k.val + l.val; omega)
  unfold stepV W
  rw [Cert.Lanes.step2_apply, Cert.Lanes.rowVec_apply, hrow, hrow, hrow, e]

/-- An inner trip adds its eight steps' weights to the total. -/
theorem trip_total (r g : Fin 8) (accs : Accs) (l : Fin 16) :
    total (tripFn rowAt bx bY bw v6 r g accs) l = total accs l + ∑ k : Fin 8, W bx bY bw v6 r g k l := by
  simp only [total, tripFn, step_apply rowAt bx bY bw v6 hrow, stepV_apply rowAt bx bY bw v6 hrow, Fin.sum_univ_eight]
  abel

/-- A row adds its eight trips' weights. -/
theorem row_total (r : Fin 8) (accs : Accs) (l : Fin 16) :
    total (rowFn rowAt bx bY bw v6 r accs) l
      = total accs l + ∑ g : Fin 8, ∑ k : Fin 8, W bx bY bw v6 r g k l :=
  foldUpTo_total (fun a => total a l) _ (fun g => ∑ k : Fin 8, W bx bY bw v6 r g k l)
    (fun g a => trip_total rowAt bx bY bw v6 hrow r g a l) accs

/-- The chunk's law: at every lane the total grows by the sum of the weights read. -/
theorem chunk_total (accs : Accs) (l : Fin 16) :
    total (chunkFn rowAt bx bY bw v6 accs) l
      = total accs l + ∑ r : Fin 8, ∑ g : Fin 8, ∑ k : Fin 8, W bx bY bw v6 r g k l :=
  foldUpTo_total (fun a => total a l) _ (fun r => ∑ g : Fin 8, ∑ k : Fin 8, W bx bY bw v6 r g k l)
    (fun r a => row_total rowAt bx bY bw v6 hrow r a l) accs

end Laws

end Chunk

/-! ## The sixteen chunks of a batch entry -/

section Entry
variable (rowAt : RowAt) (cx cy cw : Fin 16 → Slot) (v6 : Acc)

/-- A batch entry: its sixteen chunks in order, chunk `c` from its own three slots. -/
def entryFn (accs : Accs) : Accs := foldUpTo (fun c a => chunkFn rowAt (cx c) (cy c) (cw c) v6 a) 16 accs

/-- The four zero accumulators total zero. -/
theorem total_zero (l : Fin 16) :
    total (k0_pay115 (F := Ideal), k0_pay116 (F := Ideal), k0_pay117 (F := Ideal), k0_pay118 (F := Ideal)) l = 0 := by
  show Cert.Score.cZero + Cert.Score.cZero + Cert.Score.cZero + Cert.Score.cZero = 0
  rw [show Cert.Score.cZero = 0 from Ideal.ofBits_zero_f32, add_zero, add_zero, add_zero]

section Laws
variable (hrow : ∀ (f : Slot) (r : Fin 8) (cb : Fin 64) (l : Fin 16),
  rowAt f r cb (ix2 (0 : Fin 1) l) = f (ix2 r (⟨16 * cb.val + l.val, by omega⟩ : Fin 1024)))
include hrow

/-- At every lane the total grows by the weights of all sixteen chunks. -/
theorem entry_total (accs : Accs) (l : Fin 16) :
    total (entryFn rowAt cx cy cw v6 accs) l
      = total accs l + ∑ c : Fin 16, ∑ r : Fin 8, ∑ g : Fin 8, ∑ k : Fin 8, W (cx c) (cy c) (cw c) v6 r g k l :=
  foldUpTo_total (fun a => total a l) _
    (fun c => ∑ r : Fin 8, ∑ g : Fin 8, ∑ k : Fin 8, W (cx c) (cy c) (cw c) v6 r g k l)
    (fun c a => chunk_total rowAt (cx c) (cy c) (cw c) v6 hrow a l) accs

/-- When chunk `c`'s slots hold rows `8 c … 8 c + 7` of batch entry `b`'s three coordinate planes, the scale is
    `-1/2` times the entry's inverse squared radius at every lane and the accumulators start from a zero total, the
    sixteen lanes' totals after the sixteen chunks add up to the entry's double sum of weights. -/
theorem entry_sum (z : Cert.Score.Points) (rr : Cert.Score.PerBatch) (b : Fin 64)
    (hx : ∀ (c : Fin 16) (r : Fin 8) (q : Fin 1024),
      cx c (ix2 r q) = z (ix4 b (⟨8 * c.val + r.val, by omega⟩ : Fin 128) q (0 : Fin 3)))
    (hy : ∀ (c : Fin 16) (r : Fin 8) (q : Fin 1024),
      cy c (ix2 r q) = z (ix4 b (⟨8 * c.val + r.val, by omega⟩ : Fin 128) q (1 : Fin 3)))
    (hw : ∀ (c : Fin 16) (r : Fin 8) (q : Fin 1024),
      cw c (ix2 r q) = z (ix4 b (⟨8 * c.val + r.val, by omega⟩ : Fin 128) q (2 : Fin 3)))
    (hv6 : ∀ l : Fin 16, v6 (ix1 l) = Cert.Score.cNegHalf * Cert.Score.invSq rr b)
    (accs : Accs) (h0 : ∀ l, total accs l = 0) :
    ∑ l : Fin 16, total (entryFn rowAt cx cy cw v6 accs) l
      = ∑ p : Fin 128, ∑ q : Fin 1024, Cert.Score.weight z rr b p q := by
  refine Eq.trans ?_ (Cert.ScoreLaws.sum_lanes fun p q => Cert.Score.weight z rr b p q)
  refine Finset.sum_congr rfl fun l _ => ?_
  rw [entry_total rowAt cx cy cw v6 hrow accs l, h0 l, zero_add]
  refine Finset.sum_congr rfl fun c _ => Finset.sum_congr rfl fun r _ => Finset.sum_congr rfl fun g _ =>
    Finset.sum_congr rfl fun k _ => ?_
  unfold W
  rw [hx, hy, hw, hv6]
  exact Cert.Lanes.wgt_eq_weight z rr b _ _

/-- The same with the specification's raw score on the right. -/
theorem entry_rawAt (z : Cert.Score.Points) (rr : Cert.Score.PerBatch) (b : Fin 64)
    (hx : ∀ (c : Fin 16) (r : Fin 8) (q : Fin 1024),
      cx c (ix2 r q) = z (ix4 b (⟨8 * c.val + r.val, by omega⟩ : Fin 128) q (0 : Fin 3)))
    (hy : ∀ (c : Fin 16) (r : Fin 8) (q : Fin 1024),
      cy c (ix2 r q) = z (ix4 b (⟨8 * c.val + r.val, by omega⟩ : Fin 128) q (1 : Fin 3)))
    (hw : ∀ (c : Fin 16) (r : Fin 8) (q : Fin 1024),
      cw c (ix2 r q) = z (ix4 b (⟨8 * c.val + r.val, by omega⟩ : Fin 128) q (2 : Fin 3)))
    (hv6 : ∀ l : Fin 16, v6 (ix1 l) = Cert.Score.cNegHalf * Cert.Score.invSq rr b)
    (accs : Accs) (h0 : ∀ l, total accs l = 0) :
    ∑ l : Fin 16, total (entryFn rowAt cx cy cw v6 accs) l = Cert.Score.rawAt z rr b := by
  rw [entry_sum rowAt cx cy cw v6 hrow z rr b hx hy hw hv6 accs h0]
  unfold Cert.Score.rawAt
  rw [show Cert.Score.cZero = 0 from Ideal.ofBits_zero_f32, zero_add]

end Laws

end Entry

end Cert.LaneFold

end
-- ==== Proof.LaneRun.lean ====
/-
  The loop nest of one chunk as the kernel spells it: the rows are read through unit rectangles at the offsets the
  kernel computes from the two trip numbers and the step's column constant. With the offsets' closed form these
  reads are the canonical row reads, so a chunk is the chunk function of the pure model, and chunk after chunk the
  four accumulators' total at a lane grows by the weights of the rows the chunk's slot holds.
-/
import proofs.«217460_g7679401525743_retrytranche1_990_34_alg».proof.Proof.LaneFold
import Idealize.ShloMosaic.Lib.Pipeline.Value

noncomputable section

namespace Cert.LaneRun

open Cert.KernelIdeal Cert.KernelIdeal.Gen Idealize.ShloMosaic Idealize.ShloMosaic.ValueIdx Cert.LaneFold
open scoped BigOperators

/-! ## Reading a sixteen-lane row out of a slot -/

/-- A row read through a unit rectangle depends on the offsets only. -/
theorem read_congr (g : Slot) {o o' : Fin 2 → Nat} (h : o = o') (p : ∀ a, o a + S1x16.size a ≤ S8x1024.size a)
    (p' : ∀ a, o' a + S1x16.size a ≤ S8x1024.size a) :
    (fun x => g ((Rect.unit (s := S8x1024) o S1x16.size p).toLoadRect.idx x) : Vec Ideal S1x16 .f32)
      = fun x => g ((Rect.unit (s := S8x1024) o' S1x16.size p').toLoadRect.idx x) := by
  subst h; rfl

theorem inbC (r : Fin 8) (cb : Fin 64) : ∀ a, (![r.val, 16 * cb.val] : Fin 2 → Nat) a + S1x16.size a ≤ S8x1024.size a := by
  intro a
  match a with
  | ⟨0, _⟩ => show r.val + 1 ≤ 8; omega
  | ⟨1, _⟩ => show 16 * cb.val + 16 ≤ 1024; omega

/-- The canonical row read: row `r`, sixteen-column block `cb`. -/
def rowAtC : RowAt := fun g r cb x => g ((Rect.unit (s := S8x1024) ![r.val, 16 * cb.val] S1x16.size (inbC r cb)).toLoadRect.idx x)

theorem hrowC (f : Slot) (r : Fin 8) (cb : Fin 64) (l : Fin 16) :
    rowAtC f r cb (ix2 (0 : Fin 1) l) = f (ix2 r (⟨16 * cb.val + l.val, by omega⟩ : Fin 1024)) := by
  unfold rowAtC
  refine congrArg f (funext fun a => Fin.ext ?_)
  match a with
  | ⟨0, _⟩ => show r.val + 1 * 0 = r.val; omega
  | ⟨1, _⟩ => show 16 * cb.val + 1 * l.val = 16 * cb.val + l.val; omega

/-! ## The kernel's spelling -/

section Run
variable (off : Fin 8 → Fin 8 → BitVec 32 → Fin 2 → Nat)
  (inb : ∀ (k k2 j : Fin 8) a, off k k2 (BitVec.ofNat 32 (16 * j.val)) a + S1x16.size a ≤ S8x1024.size a)

/-- The row the kernel reads at outer trip `k`, inner trip `k2`, step `j`. -/
def rowRun (g : Slot) (k k2 j : Fin 8) : Vec Ideal S1x16 .f32 :=
  fun x => g ((Rect.unit (s := S8x1024) (off k k2 (BitVec.ofNat 32 (16 * j.val))) S1x16.size (inb k k2 j)).toLoadRect.idx x)

/-- One inner trip as the kernel yields it. -/
def tripRun (ga gb gc : Slot) (v6 : Acc) (k k2 : Fin 8) (accs : Accs) : Accs :=
  (k0_pay6 (F := Ideal) v6
      (k0_pay2 (F := Ideal) v6 accs.1 (rowRun off inb ga k k2 0) (rowRun off inb gb k k2 0) (rowRun off inb gc k k2 0))
      (rowRun off inb ga k k2 4) (rowRun off inb gb k k2 4) (rowRun off inb gc k k2 4),
   k0_pay7 (F := Ideal) v6
      (k0_pay3 (F := Ideal) v6 accs.2.1 (rowRun off inb ga k k2 1) (rowRun off inb gb k k2 1) (rowRun off inb gc k k2 1))
      (rowRun off inb ga k k2 5) (rowRun off inb gb k k2 5) (rowRun off inb gc k k2 5),
   k0_pay119 (F := Ideal) v6
      (k0_pay4 (F := Ideal) v6 accs.2.2.1 (rowRun off inb ga k k2 2) (rowRun off inb gb k k2 2) (rowRun off inb gc k k2 2))
      (k0_pay8 (F := Ideal) (rowRun off inb ga k k2 6)) (rowRun off inb gb k k2 6) (rowRun off inb gc k k2 6),
   k0_pay120 (F := Ideal) v6
      (k0_pay5 (F := Ideal) v6 accs.2.2.2 (rowRun off inb ga k k2 3) (rowRun off inb gb k k2 3) (rowRun off inb gc k k2 3))
      (rowRun off inb ga k k2 7) (rowRun off inb gb k k2 7) (rowRun off inb gc k k2 7))

/-- One row of the kernel's loop nest: its eight inner trips. -/
def rowRunFn (ga gb gc : Slot) (v6 : Acc) (k : Fin 8) (accs : Accs) : Accs :=
  foldUpTo (fun k2 a => tripRun off inb ga gb gc v6 k k2 a) 8 accs

/-- One chunk of the kernel's loop nest: its eight rows. -/
def chunkRun (ga gb gc : Slot) (v6 : Acc) (accs : Accs) : Accs :=
  foldUpTo (fun k a => rowRunFn off inb ga gb gc v6 k a) 8 accs

variable (hoff : ∀ (k k2 j : Fin 8), off k k2 (BitVec.ofNat 32 (16 * j.val)) = ![k.val, 128 * k2.val + 16 * j.val])
include hoff

theorem rowRun_eq (g : Slot) (k k2 j : Fin 8) : rowRun off inb g k k2 j = rowAtC g k (colBlock k2 j) := by
  unfold rowRun rowAtC
  refine read_congr g ((hoff k k2 j).trans ?_) _ _
  funext a
  match a with
  | ⟨0, _⟩ => rfl
  | ⟨1, _⟩ => show 128 * k2.val + 16 * j.val = 16 * (8 * k2.val + j.val); omega

theorem tripRun_eq (ga gb gc : Slot) (v6 : Acc) (k k2 : Fin 8) (accs : Accs) :
    tripRun off inb ga gb gc v6 k k2 accs = tripFn rowAtC ga gb gc v6 k k2 accs := by
  unfold tripRun
  simp only [rowRun_eq off inb hoff]
  rfl

theorem chunkRun_eq (ga gb gc : Slot) (v6 : Acc) (accs : Accs) :
    chunkRun off inb ga gb gc v6 accs = chunkFn rowAtC ga gb gc v6 accs := by
  unfold chunkRun chunkFn rowRunFn rowFn
  simp only [tripRun_eq off inb hoff]

end Run

/-! ## Chunk after chunk -/

section Entry
variable (z : Cert.Score.Points) (rr : Cert.Score.PerBatch) (b : Fin 64)

/-- The weights of chunk `c` at lane `l`: rows `8 c … 8 c + 7`, the lane's 64 columns. -/
def S (c : Fin 16) (l : Fin 16) : EReal :=
  ∑ r : Fin 8, ∑ g : Fin 8, ∑ k : Fin 8,
    Cert.Score.weight z rr b (⟨8 * c.val + r.val, by omega⟩ : Fin 128) (⟨128 * g.val + 16 * k.val + l.val, by omega⟩ : Fin 1024)

/-- The weights of the first `n` chunks at lane `l`. -/
def P (n : Nat) (l : Fin 16) : EReal := ∑ c ∈ Finset.range n, (if h : c < 16 then S z rr b ⟨c, h⟩ l else 0)

theorem P_zero (l : Fin 16) : P z rr b 0 l = 0 := by
  unfold P; rw [Finset.range_zero, Finset.sum_empty]

theorem P_succ (c : Fin 16) (l : Fin 16) : P z rr b (c.val + 1) l = P z rr b c.val l + S z rr b c l := by
  unfold P; rw [Finset.sum_range_succ, dif_pos c.isLt]

/-- All sixteen chunks, all sixteen lanes: the entry's raw score. -/
theorem sum_P : ∑ l : Fin 16, P z rr b 16 l = Cert.Score.rawAt z rr b := by
  unfold Cert.Score.rawAt
  rw [show Cert.Score.cZero = 0 from Ideal.ofBits_zero_f32, zero_add,
    ← Cert.ScoreLaws.sum_lanes fun p q => Cert.Score.weight z rr b p q]
  refine Finset.sum_congr rfl fun l _ => ?_
  unfold P
  rw [← Fin.sum_univ_eq_sum_range (fun c => if h : c < 16 then S z rr b ⟨c, h⟩ l else 0) 16]
  refine Finset.sum_congr rfl fun c _ => ?_
  rw [dif_pos c.isLt]
  rfl

/-- One chunk of the kernel's loop nest adds its chunk's weights to the running total. -/
theorem chunk_step (off : Fin 8 → Fin 8 → BitVec 32 → Fin 2 → Nat)
    (inb : ∀ (k k2 j : Fin 8) a, off k k2 (BitVec.ofNat 32 (16 * j.val)) a + S1x16.size a ≤ S8x1024.size a)
    (hoff : ∀ (k k2 j : Fin 8), off k k2 (BitVec.ofNat 32 (16 * j.val)) = ![k.val, 128 * k2.val + 16 * j.val])
    (ga gb gc : Slot) (v6 : Acc) (c : Fin 16)
    (hga : ∀ (r : Fin 8) (q : Fin 1024), ga (ix2 r q) = z (ix4 b (⟨8 * c.val + r.val, by omega⟩ : Fin 128) q (0 : Fin 3)))
    (hgb : ∀ (r : Fin 8) (q : Fin 1024), gb (ix2 r q) = z (ix4 b (⟨8 * c.val + r.val, by omega⟩ : Fin 128) q (1 : Fin 3)))
    (hgc : ∀ (r : Fin 8) (q : Fin 1024), gc (ix2 r q) = z (ix4 b (⟨8 * c.val + r.val, by omega⟩ : Fin 128) q (2 : Fin 3)))
    (hv6 : ∀ l : Fin 16, v6 (ix1 l) = Cert.Score.cNegHalf * Cert.Score.invSq rr b)
    (accPrev acc : Accs) (hacc : acc = chunkRun off inb ga gb gc v6 accPrev)
    (hprev : ∀ l, total accPrev l = P z rr b c.val l) :
    ∀ l, total acc l = P z rr b (c.val + 1) l := by
  intro l
  rw [hacc, chunkRun_eq off inb hoff, chunk_total rowAtC ga gb gc v6 hrowC accPrev l, hprev l, P_succ]
  refine congrArg (P z rr b c.val l + ·) ?_
  unfold S
  refine Finset.sum_congr rfl fun r _ => Finset.sum_congr rfl fun g _ => Finset.sum_congr rfl fun k _ => ?_
  unfold W
  rw [hga, hgb, hgc, hv6]
  exact Cert.Lanes.wgt_eq_weight z rr b _ _

end Entry

end Cert.LaneRun

end
-- ==== Proof.SlotViews.lean ====
/-
  What the copies leave and what the reads see, element by element: a buffer written whole holds the payload; the
  copy out of an 8 × 1024 row block of one coordinate plane of the transposed points reads that block; the gathered
  radius is the entry's at every lane; the row of the partials written whole reads back the written lanes.
-/
import proofs.«217460_g7679401525743_retrytranche1_990_34_alg».proof.Proof.Gen.KernelIdeal.Skeleton
import proofs.«217460_g7679401525743_retrytranche1_990_34_alg».proof.Proof.Score
import proofs.«217460_g7679401525743_retrytranche1_990_34_alg».proof.Proof.Lanes
import Idealize.ShloMosaic.Lib.Pipeline.Value

noncomputable section

namespace Cert.SlotViews

open Cert.KernelIdeal Cert.KernelIdeal.Gen Idealize.ShloMosaic Idealize.ShloMosaic.ValueIdx
open scoped BigOperators

/-- A buffer written whole through its own view holds the payload. -/
theorem write_whole_apply {κ : Kind} (b : Ref sig κ) (f : (View.whole b).ty.Contents (Elt Ideal))
    (w : b.ty.shape.Idx → Elt Ideal b.ty.elt) (i : b.ty.shape.Idx) :
    (View.whole b).write (Elt Ideal) f w Finset.univ i = w i :=
  (View.write_emb_of_mem (v := View.whole b) f w (Finset.mem_univ i)).trans rfl

/-- The row block `[row0, row0 + 8)` of plane `pl` of entry `b` of the transposed points, read as 8 × 1024. -/
theorem src_read (o : Fin 4 → Nat) (b pl row0 : Nat) (ho : o = ![b, pl, row0, 0])
    (inb : ∀ a, o a + S1x1x8x1024.size a ≤ S64x3x128x1024.size a)
    (hsl : ∀ a, (Rect.unit (s := S64x3x128x1024) o S1x1x8x1024.size inb).stride a = 1)
    (hsq : S1x1x8x1024.Squeezes S8x1024)
    (zt : Vec Ideal S64x3x128x1024 .f32) (hb : b < 64) (hpl : pl < 3) (hrow : row0 + 8 ≤ 128) (r : Fin 8) (q : Fin 1024) :
    View.read (Elt Ideal)
        (((Memref.whole main_v0_scv : Memref sig .scVector .hbm S64x3x128x1024 .f32).slice
          (Rect.unit (s := S64x3x128x1024) o S1x1x8x1024.size inb) hsl).squeeze S8x1024 hsq).view zt (ix2 r q)
      = zt (ix4 (⟨b, hb⟩ : Fin 64) (⟨pl, hpl⟩ : Fin 3) (⟨row0 + r.val, by omega⟩ : Fin 128) q) := by
  subst ho
  have he : Shape.reshapeEquiv (s := S1x1x8x1024) (s' := S8x1024) hsq.numel_eq (ix2 r q) = ix4 (0 : Fin 1) (0 : Fin 1) r q :=
    Shape.reshapeEquiv_eq_of_rowMajor _ (by
      rw [Shape.rowMajor_val_four, Shape.rowMajor_val_two]
      show ((0 * 1 + 0) * 8 + r.val) * 1024 + q.val = r.val * 1024 + q.val
      omega)
  rw [View.read_apply]
  simp only [Memref.view_squeeze, Memref.view_slice, Memref.view_whole, View.emb_reshape, View.emb_slice, View.emb_whole,
    Function.Embedding.trans_apply, Equiv.coe_toEmbedding, he]
  refine (cast_eq _ _).trans (congrArg zt (funext fun a => Fin.ext ?_))
  match a with
  | ⟨0, _⟩ => show b + 1 * 0 = b; omega
  | ⟨1, _⟩ => show pl + 1 * 0 = pl; omega
  | ⟨2, _⟩ => show row0 + 1 * r.val = row0 + r.val; omega
  | ⟨3, _⟩ => show 0 + 1 * q.val = q.val; omega

/-- The gathered radius: every lane reads the entry's element of what the scratch was filled with. -/
theorem gathered (f0 : (View.whole cc0_scratch0).ty.Contents (Elt Ideal)) (rd : Vec Ideal S64 .f32) (idx : IVec S16 32)
    (h : ∀ a x, ((![idx] : Fin 1 → IVec S16 32) a x).toNat < S64.size a) (b : Fin 64)
    (hidx : ∀ l : Fin 16, (idx (ix1 l)).toNat = b.val) (l : Fin 16) :
    loadIdx (F := Ideal) (View.read (Elt Ideal) ((Memref.whole cc0_scratch0 : Memref sig .scVector .vmem S64 .f32).access (Rect.whole S64))
        (View.write (Elt Ideal) (Memref.whole cc0_scratch0 : Memref sig .scVector .vmem S64 .f32).view f0 rd Finset.univ))
      ![idx] h (ix1 l) = rd (ix1 b) := by
  unfold loadIdx
  rw [View.read_apply]
  simp only [Memref.view_whole, View.emb_slice, View.emb_whole, Function.Embedding.trans_apply]
  refine (cast_eq _ _).trans ((write_whole_apply cc0_scratch0 f0 rd _).trans (congrArg rd (funext fun a => Fin.ext ?_)))
  match a with
  | ⟨0, _⟩ => show 0 + 1 * (idx (ix1 l)).toNat = b.val; rw [hidx l]; omega

/-- The row of the partials written whole reads back the written lanes. -/
theorem row_written (o : Fin 2 → Nat) (b : Nat) (ho : o = ![b, 0])
    (inb : ∀ a, o a + S1x16.size a ≤ S32x16.size a)
    (hsl : ∀ a, (Rect.unit (s := S32x16) o S1x16.size inb).stride a = 1) (hsq : S1x16.Squeezes S16)
    (p : Vec Ideal S32x16 .f32) (w : Vec Ideal S16 .f32) (hb : b < 32) (l : Fin 16) :
    (View.writes
        (((Memref.whole main_v1_scv : Memref sig .scVector .hbm S32x16 .f32).slice (Rect.unit (s := S32x16) o S1x16.size inb) hsl).squeeze S16 hsq).view
        (Elt Ideal) p [⟨Rect.whole S16, w⟩]) (ix2 (⟨b, hb⟩ : Fin 32) l) = w (ix1 l) := by
  subst ho
  have he : Shape.reshapeEquiv (s := S1x16) (s' := S16) hsq.numel_eq (ix1 l) = ix2 (0 : Fin 1) l :=
    Shape.reshapeEquiv_eq_of_rowMajor _ (by
      rw [Shape.rowMajor_val_two, Shape.rowMajor_val_one]
      show 0 * 16 + l.val = l.val
      omega)
  have hw := congrFun (View.read_writes_whole
    (((Memref.whole main_v1_scv : Memref sig .scVector .hbm S32x16 .f32).slice (Rect.unit (s := S32x16) ![b, 0] S1x16.size inb) hsl).squeeze S16 hsq).view
    p w) (ix1 l)
  rw [View.read_apply] at hw
  simp only [Memref.view_squeeze, Memref.view_slice, Memref.view_whole, View.emb_reshape, View.emb_slice, View.emb_whole,
    Function.Embedding.trans_apply, Equiv.coe_toEmbedding, he] at hw
  have hi : (View.whole main_v1_scv).emb ((Rect.unit (s := S32x16) ![b, 0] ![1, 16] inb).emb (ix2 (0 : Fin 1) l))
      = ix2 (⟨b, hb⟩ : Fin 32) l := funext fun a => Fin.ext (by
    match a with
    | ⟨0, _⟩ => show b + 1 * 0 = b; omega
    | ⟨1, _⟩ => show 0 + 1 * l.val = l.val; omega)
  rw [hi] at hw
  exact (cast_eq _ _).symm.trans hw

end Cert.SlotViews

end
-- ==== Proof.ScTileValue.lean ====
/-
  The vector-subcore task with its result named, on the extended reals. Tile (c, s) works on batch entry b = 2·s + c.
  The gathered radius gives, at every lane, the scale -1/2 over the squared radius. Chunk c of the sixteen streams rows
  8c … 8c+7 of the entry's three coordinate planes into a slot; while a chunk's loop nest runs, the slot's buffers hold
  exactly those rows and the four carried accumulators are the pure fold of the rows read so far, so after the chunk
  the accumulators' total at each lane has grown by the weights of the chunk's points in that lane's columns. After the
  sixteenth chunk the four accumulators are added into one sixteen-lane vector, which is written to row b of the
  partials: its sixteen lanes add up to the entry's raw score.
-/
import proofs.«217460_g7679401525743_retrytranche1_990_34_alg».proof.Proof.ScTile
import proofs.«217460_g7679401525743_retrytranche1_990_34_alg».proof.Proof.ScPayV
import proofs.«217460_g7679401525743_retrytranche1_990_34_alg».proof.Proof.LaneRun
import proofs.«217460_g7679401525743_retrytranche1_990_34_alg».proof.Proof.SlotViews

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

local notation "𝕄" => MT nD τ sig (HIx 1) (Elt Ideal) ℕ UU ℕ

/-- The slot's three buffers hold rows `8 c … 8 c + 7` of entry `b`'s three coordinate planes. -/
def slotHolds (zs : Cert.Score.Points) (b : Fin 64) (c : Fin 16) (ga gb gc : Cert.LaneFold.Slot) : Prop :=
  (∀ (r : Fin 8) (q : Fin 1024), ga (ix2 r q) = zs (ix4 b (⟨8 * c.val + r.val, by omega⟩ : Fin 128) q (0 : Fin 3)))
  ∧ (∀ (r : Fin 8) (q : Fin 1024), gb (ix2 r q) = zs (ix4 b (⟨8 * c.val + r.val, by omega⟩ : Fin 128) q (1 : Fin 3)))
  ∧ (∀ (r : Fin 8) (q : Fin 1024), gc (ix2 r q) = zs (ix4 b (⟨8 * c.val + r.val, by omega⟩ : Fin 128) q (2 : Fin 3)))

/-- Inside a row of a chunk held in slot 0: the slot's three buffers at fixed contents, and the accumulators after the
    first `k2` inner trips. -/
def innerInv0 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (k : Fin 8) (init : Cert.LaneFold.Accs) (ga gb gc : Cert.LaneFold.Slot) (k2 : Nat)
    (acc : Cert.LaneFold.Accs) : sProp 𝕄 :=
  iprop(((Memref.whole cc0_scratch1 : Memref sig .scVector .vmem S8x1024 .f32).view.loc (V d c j) ↦{fullShare} ga)
    ∗ ((Memref.whole cc0_scratch2 : Memref sig .scVector .vmem S8x1024 .f32).view.loc (V d c j) ↦{fullShare} gb)
    ∗ ((Memref.whole cc0_scratch3 : Memref sig .scVector .vmem S8x1024 .f32).view.loc (V d c j) ↦{fullShare} gc)
    ∗ ⌜acc = Cert.LaneFold.foldUpTo (fun k2 a => Cert.LaneRun.tripRun off inb ga gb gc v6 k k2 a) k2 init⌝)

/-- Across the rows of a chunk held in slot 0: the slot's three buffers at contents that are the chunk's rows of the
    entry's three planes, and the accumulators after the first `k` rows. -/
def outerInv0 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (zs : Cert.Score.Points) (b : Fin 64) (cc : Fin 16) (init : Cert.LaneFold.Accs) (k : Nat)
    (acc : Cert.LaneFold.Accs) : sProp 𝕄 :=
  iprop(∃ ga gb gc : Cert.LaneFold.Slot,
    ((Memref.whole cc0_scratch1 : Memref sig .scVector .vmem S8x1024 .f32).view.loc (V d c j) ↦{fullShare} ga)
    ∗ ((Memref.whole cc0_scratch2 : Memref sig .scVector .vmem S8x1024 .f32).view.loc (V d c j) ↦{fullShare} gb)
    ∗ ((Memref.whole cc0_scratch3 : Memref sig .scVector .vmem S8x1024 .f32).view.loc (V d c j) ↦{fullShare} gc)
    ∗ ⌜slotHolds zs b cc ga gb gc
        ∧ acc = Cert.LaneFold.foldUpTo (fun k a => Cert.LaneRun.rowRunFn off inb ga gb gc v6 k a) k init⌝)

/-- Inside a row of a chunk held in slot 1: the slot's three buffers at fixed contents, and the accumulators after the
    first `k2` inner trips. -/
def innerInv1 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (k : Fin 8) (init : Cert.LaneFold.Accs) (ga gb gc : Cert.LaneFold.Slot) (k2 : Nat)
    (acc : Cert.LaneFold.Accs) : sProp 𝕄 :=
  iprop(((Memref.whole cc0_scratch4 : Memref sig .scVector .vmem S8x1024 .f32).view.loc (V d c j) ↦{fullShare} ga)
    ∗ ((Memref.whole cc0_scratch5 : Memref sig .scVector .vmem S8x1024 .f32).view.loc (V d c j) ↦{fullShare} gb)
    ∗ ((Memref.whole cc0_scratch6 : Memref sig .scVector .vmem S8x1024 .f32).view.loc (V d c j) ↦{fullShare} gc)
    ∗ ⌜acc = Cert.LaneFold.foldUpTo (fun k2 a => Cert.LaneRun.tripRun off inb ga gb gc v6 k k2 a) k2 init⌝)

/-- Across the rows of a chunk held in slot 1: the slot's three buffers at contents that are the chunk's rows of the
    entry's three planes, and the accumulators after the first `k` rows. -/
def outerInv1 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (zs : Cert.Score.Points) (b : Fin 64) (cc : Fin 16) (init : Cert.LaneFold.Accs) (k : Nat)
    (acc : Cert.LaneFold.Accs) : sProp 𝕄 :=
  iprop(∃ ga gb gc : Cert.LaneFold.Slot,
    ((Memref.whole cc0_scratch4 : Memref sig .scVector .vmem S8x1024 .f32).view.loc (V d c j) ↦{fullShare} ga)
    ∗ ((Memref.whole cc0_scratch5 : Memref sig .scVector .vmem S8x1024 .f32).view.loc (V d c j) ↦{fullShare} gb)
    ∗ ((Memref.whole cc0_scratch6 : Memref sig .scVector .vmem S8x1024 .f32).view.loc (V d c j) ↦{fullShare} gc)
    ∗ ⌜slotHolds zs b cc ga gb gc
        ∧ acc = Cert.LaneFold.foldUpTo (fun k a => Cert.LaneRun.rowRunFn off inb ga gb gc v6 k a) k init⌝)

/-- Inside a row of a chunk held in slot 2: the slot's three buffers at fixed contents, and the accumulators after the
    first `k2` inner trips. -/
def innerInv2 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (k : Fin 8) (init : Cert.LaneFold.Accs) (ga gb gc : Cert.LaneFold.Slot) (k2 : Nat)
    (acc : Cert.LaneFold.Accs) : sProp 𝕄 :=
  iprop(((Memref.whole cc0_scratch7 : Memref sig .scVector .vmem S8x1024 .f32).view.loc (V d c j) ↦{fullShare} ga)
    ∗ ((Memref.whole cc0_scratch8 : Memref sig .scVector .vmem S8x1024 .f32).view.loc (V d c j) ↦{fullShare} gb)
    ∗ ((Memref.whole cc0_scratch9 : Memref sig .scVector .vmem S8x1024 .f32).view.loc (V d c j) ↦{fullShare} gc)
    ∗ ⌜acc = Cert.LaneFold.foldUpTo (fun k2 a => Cert.LaneRun.tripRun off inb ga gb gc v6 k k2 a) k2 init⌝)

/-- Across the rows of a chunk held in slot 2: the slot's three buffers at contents that are the chunk's rows of the
    entry's three planes, and the accumulators after the first `k` rows. -/
def outerInv2 (d : Dev nD) (c : Fin τ.nSC) (j : Fin τ.nSub) (off : Fin 8 → Fin 8 → BitVec 32 → Fin 2 → Nat)
    (inb : ∀ (k k2 j : Fin 8) a, off k k2 (BitVec.ofNat 32 (16 * j.val)) a + S1x16.size a ≤ S8x1024.size a)
    (v6 : Cert.LaneFold.Acc) (zs : Cert.Score.Points) (b : Fin 64) (cc : Fin 16) (init : Cert.LaneFold.Accs) (k : Nat)
    (acc : Cert.LaneFold.Accs) : sProp 𝕄 :=
  iprop(∃ ga gb gc : Cert.LaneFold.Slot,
    ((Memref.whole cc0_scratch7 : Memref sig .scVector .vmem S8x1024 .f32).view.loc (V d c j) ↦{fullShare} ga)
    ∗ ((Memref.whole cc0_scratch8 : Memref sig .scVector .vmem S8x1024 .f32).view.loc (V d c j) ↦{fullShare} gb)
    ∗ ((Memref.whole cc0_scratch9 : Memref sig .scVector .vmem S8x1024 .f32).view.loc (V d c j) ↦{fullShare} gc)
    ∗ ⌜slotHolds zs b cc ga gb gc
        ∧ acc = Cert.LaneFold.foldUpTo (fun k a => Cert.LaneRun.rowRunFn off inb ga gb gc v6 k a) k init⌝)

variable (zt : (d : Dev nD) → Buf (Elt Ideal) (zLoc d)) (r : (d : Dev nD) → Buf (Elt Ideal) (rLoc d)) (p₀ : (d : Dev nD) → Buf (Elt Ideal) (pLoc d))
  (zsrc : (d : Dev nD) → Buf (Elt Ideal) ((SparseCore.T d : Thread nD τ).loc main_arg0))
variable (d : Dev nD) (L : grid0.Coords)

local notation "zW" => (Memref.whole Cert.KernelIdeal.main_v0_scv : Memref Cert.KernelIdeal.sig Kind.scVector Space.hbm Cert.KernelIdeal.S64x3x128x1024 EltTy.f32)
local notation "rW" => (Memref.whole Cert.KernelIdeal.main_arg1_scv : Memref Cert.KernelIdeal.sig Kind.scVector Space.hbm Cert.KernelIdeal.S64 EltTy.f32)
local notation "pW" => (Memref.whole Cert.KernelIdeal.main_v1_scv : Memref Cert.KernelIdeal.sig Kind.scVector Space.hbm Cert.KernelIdeal.S32x16 EltTy.f32)

/-- The gathered index's word is the tile's entry. -/
theorem entry_word : ∀ L : grid0.Coords,
    (Scalar.addi (Scalar.muli (BitVec.ofNat 32 (L 1).val) 2#32) (BitVec.ofNat 32 (L 0).val)).toNat = 2 * (L 1).val + (L 0).val := by
  decide +kernel

/-- The tile's entry among the sixty-four. -/
abbrev bE (L : grid0.Coords) : Fin 64 := ⟨(entryL L).val, by have := (entryL L).isLt; omega⟩

/-- The staged sum read back at a lane is the four accumulators' total. -/
theorem staged_total (f10 : (View.whole cc0_scratch10).ty.Contents (Elt Ideal)) (acc : Cert.LaneFold.Accs) (l : Fin 16) :
    View.read (Elt Ideal) (Memref.whole cc0_scratch10 : Memref sig .scVector .vmem S16 .f32).view
        ((Memref.whole cc0_scratch10 : Memref sig .scVector .vmem S16 .f32).view.writes (Elt Ideal) f10
          [⟨Rect.unit (s := S16) ![0] S16.size inb_S16_S16_0,
            k0_pay1 (F := Ideal) acc.2.2.2 (k0_pay151 (F := Ideal) acc.1 acc.2.1 acc.2.2.1)⟩]) (ix1 l)
      = Cert.LaneFold.total acc l := by
  have h := View.read_writes_cons_emb (View.whole cc0_scratch10) f10 (Rect.unit (s := S16) ![0] S16.size inb_S16_S16_0)
    (k0_pay1 (F := Ideal) acc.2.2.2 (k0_pay151 (F := Ideal) acc.1 acc.2.1 acc.2.2.1)) [] (ix1 l)
  have he : (Rect.unit (s := S16) ![0] S16.size inb_S16_S16_0).emb (ix1 l) = ix1 l := funext fun a => Fin.ext (by
    match a with
    | ⟨0, _⟩ => show 0 + 1 * l.val = l.val; omega)
  rw [he] at h
  exact h.trans rfl

/-- The row written from lanes that hold the accumulators' totals adds up to the entry's raw score. -/
theorem final_sum (acc : Cert.LaneFold.Accs) (w : Vec Ideal S16 .f32)
    (hw : ∀ l : Fin 16, w (ix1 l) = Cert.LaneFold.total acc l)
    (hT : ∀ l : Fin 16, Cert.LaneFold.total acc l = Cert.LaneRun.P (zsrc d) (r d) (bE L) 16 l) :
    rowSum r zsrc d (entryL L) ((pRowK L).view.writes (Elt Ideal) (p₀ d) [⟨Rect.whole S16, w⟩]) := by
  unfold rowSum
  exact (Finset.sum_congr rfl fun l _ =>
    ((Cert.SlotViews.row_written _ _ (k0_off65_eq L) _ _ _ (p₀ d) w (entryL L).isLt l).trans (hw l)).trans (hT l)).trans
    (Cert.LaneRun.sum_P (zsrc d) (r d) (bE L))

set_option maxHeartbeats 8000000 in
/-- The task on vector subcore (L 0, L 1) of device d, with what it leaves in its row of the partials: sixteen lanes that
    add up to the entry's raw score. -/
theorem tile_body_val (hzt : ∀ (d : Dev nD) (b : Fin 64) (k : Fin 3) (p : Fin 128) (q : Fin 1024),
      (zt d : Vec Ideal S64x3x128x1024 .f32) (ix4 b k p q) = (zsrc d : Vec Ideal S64x128x1024x3 .f32) (ix4 b p q k))
    (hF : (K (F := Ideal)).Facts) (O : CellTallies nD τ sig (HIx 1)) (W : Waits sig (HIx 1)) (hO : ∀ g, O g none = 0) :
    iprop(levAts (K (F := Ideal)).L (K (F := Ideal)).lev ∗ emp ∗ goRes zt r p₀ d (entryL L)
        ∗ scopedBufs (V d (cV L) (jV L)) ∗ scopedSems0 (V d (cV L) (jV L)) ∗ owes (V d (cV L) (jV L)) O W)
      ⊢ wp frame (wpE (defs₀ (F := Ideal)) 𝒱₀ (V d (cV L) (jV L)) none) Set.univ
          (cc0__sc_partials_kernel L zW (Memref.isWhole_whole _) rW (Memref.isWhole_whole _) pW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) cc0_scratch11 cc0_scratch12 cc0_scratch13 cc0_scoped0 cc0_scoped1)
          fun _ => iprop(tdResV zt r zsrc d (entryL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_partials_kernel_eq_skeleton]; unfold cc0__sc_partials_kernel_skel
  rw [(K (F := Ideal)).scopedBufs_V hF d (cV L) (jV L), SparseCore.Cfg.scopedSems0_V (Val := Elt Ideal) d (cV L) (jV L), ownSems0_V, ownBufs_V]
  rw [bigSep_fin5, bigSep_fin11]
  unfold goRes
  iintro ⟨#Hlv, -, ⟨Hz, Hr, Hp⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, ⟨%f10, Hb10⟩⟩, Hbufs⟩,
    ⟨⟨Hs0, Hs1, Hs2, Hs3, Hs4⟩, Hsems⟩, HO⟩
  ihave Hmw := ((K (F := Ideal)).mayWaits_none (thr := V d (cV L) (jV L)) hO) $$ Hlv
  ihave Hb0 := (Entails.of_eq (show ((V d (cV L) (jV L)).loc (scr 0) ↦{fullShare} f0 : sProp 𝕄) = ((Memref.whole cc0_scratch0 : Memref sig .scVector .vmem _ .f32).view.loc (V d (cV L) (jV L)) ↦{fullShare} f0) from rfl)) $$ Hb0
  ihave Hb1 := (Entails.of_eq (show ((V d (cV L) (jV L)).loc (scr 1) ↦{fullShare} f1 : sProp 𝕄) = ((Memref.whole cc0_scratch1 : Memref sig .scVector .vmem _ .f32).view.loc (V d (cV L) (jV L)) ↦{fullShare} f1) from rfl)) $$ Hb1
  ihave Hb2 := (Entails.of_eq (show ((V d (cV L) (jV L)).loc (scr 2) ↦{fullShare} f2 : sProp 𝕄) = ((Memref.whole cc0_scratch2 : Memref sig .scVector .vmem _ .f32).view.loc (V d (cV L) (jV L)) ↦{fullShare} f2) from rfl)) $$ Hb2
  ihave Hb3 := (Entails.of_eq (show ((V d (cV L) (jV L)).loc (scr 3) ↦{fullShare} f3 : sProp 𝕄) = ((Memref.whole cc0_scratch3 : Memref sig .scVector .vmem _ .f32).view.loc (V d (cV L) (jV L)) ↦{fullShare} f3) from rfl)) $$ Hb3
  ihave Hb4 := (Entails.of_eq (show ((V d (cV L) (jV L)).loc (scr 4) ↦{fullShare} f4 : sProp 𝕄) = ((Memref.whole cc0_scratch4 : Memref sig .scVector .vmem _ .f32).view.loc (V d (cV L) (jV L)) ↦{fullShare} f4) from rfl)) $$ Hb4
  ihave Hb5 := (Entails.of_eq (show ((V d (cV L) (jV L)).loc (scr 5) ↦{fullShare} f5 : sProp 𝕄) = ((Memref.whole cc0_scratch5 : Memref sig .scVector .vmem _ .f32).view.loc (V d (cV L) (jV L)) ↦{fullShare} f5) from rfl)) $$ Hb5
  ihave Hb6 := (Entails.of_eq (show ((V d (cV L) (jV L)).loc (scr 6) ↦{fullShare} f6 : sProp 𝕄) = ((Memref.whole cc0_scratch6 : Memref sig .scVector .vmem _ .f32).view.loc (V d (cV L) (jV L)) ↦{fullShare} f6) from rfl)) $$ Hb6
  ihave Hb7 := (Entails.of_eq (show ((V d (cV L) (jV L)).loc (scr 7) ↦{fullShare} f7 : sProp 𝕄) = ((Memref.whole cc0_scratch7 : Memref sig .scVector .vmem _ .f32).view.loc (V d (cV L) (jV L)) ↦{fullShare} f7) from rfl)) $$ Hb7
  ihave Hb8 := (Entails.of_eq (show ((V d (cV L) (jV L)).loc (scr 8) ↦{fullShare} f8 : sProp 𝕄) = ((Memref.whole cc0_scratch8 : Memref sig .scVector .vmem _ .f32).view.loc (V d (cV L) (jV L)) ↦{fullShare} f8) from rfl)) $$ Hb8
  ihave Hb9 := (Entails.of_eq (show ((V d (cV L) (jV L)).loc (scr 9) ↦{fullShare} f9 : sProp 𝕄) = ((Memref.whole cc0_scratch9 : Memref sig .scVector .vmem _ .f32).view.loc (V d (cV L) (jV L)) ↦{fullShare} f9) from rfl)) $$ Hb9
  ihave Hb10 := (Entails.of_eq (show ((V d (cV L) (jV L)).loc (scr 10) ↦{fullShare} f10 : sProp 𝕄) = ((Memref.whole cc0_scratch10 : Memref sig .scVector .vmem _ .f32).view.loc (V d (cV L) (jV L)) ↦{fullShare} f10) from rfl)) $$ Hb10
  ihave Hs0 := (Entails.of_eq (show (semVal (cellOf d (cV L) (jV L) 0) 0 : sProp 𝕄) = semVal (V d (cV L) (jV L), SemLoc.dma cc0_scratch11.sem) 0 from rfl)) $$ Hs0
  ihave Hs1 := (Entails.of_eq (show (semVal (cellOf d (cV L) (jV L) 1) 0 : sProp 𝕄) = semVal (V d (cV L) (jV L), SemLoc.dma cc0_scratch12.sem) 0 from rfl)) $$ Hs1
  ihave Hs2 := (Entails.of_eq (show (semVal (cellOf d (cV L) (jV L) 2) 0 : sProp 𝕄) = semVal (V d (cV L) (jV L), SemLoc.dma cc0_scratch13.sem) 0 from rfl)) $$ Hs2
  ihave Hs3 := (Entails.of_eq (show (semVal (cellOf d (cV L) (jV L) 3) 0 : sProp 𝕄) = semVal (V d (cV L) (jV L), SemLoc.dma cc0_scoped0.sem) 0 from rfl)) $$ Hs3
  ihave Hs4 := (Entails.of_eq (show (semVal (cellOf d (cV L) (jV L) 4) 0 : sProp 𝕄) = semVal (V d (cV L) (jV L), SemLoc.dma cc0_scoped1.sem) 0 from rfl)) $$ Hs4
  ihave Hz := (Entails.of_eq (pts_z (F := Ideal) d (cV L) (jV L) _ _).symm) $$ Hz
  -- nine copies may read z^T at once: the tile's share of it as nine read tokens and the remainder
  ihave Hz := (Transfers.pointsTo_toks_split (shareTokN fullShare (entryL L).val) 9) $$ Hz
  rw [bigSep_fin9]
  icases Hz with ⟨Hzr, Hz0, Hz1, Hz2, Hz3, Hz4, Hz5, Hz6, Hz7, Hz8⟩
  ihave Hr := (Entails.of_eq (pts_r (F := Ideal) d (cV L) (jV L) _ _).symm) $$ Hr
  ihave Hp := (Entails.of_eq (pts_pRowK (F := Ideal) d L _).symm) $$ Hp
  have hchk := chk1 L
  have hB0 : Transfers.BatchOf (V d (cV L) (jV L)) (SemLoc.dma cc0_scratch11.sem) 3 := trivial
  have hB1 : Transfers.BatchOf (V d (cV L) (jV L)) (SemLoc.dma cc0_scratch12.sem) 3 := trivial
  have hB2 : Transfers.BatchOf (V d (cV L) (jV L)) (SemLoc.dma cc0_scratch13.sem) 3 := trivial
  sl_exec_parts
  -- the gather of R's entry, sixteen-fold: a load of the whole scratch
  ihave Hb0 := (Entails.of_eq (show ((Memref.whole cc0_scratch0 : Memref sig .scVector .vmem S64 .f32).view.loc (V d (cV L) (jV L)) ↦{fullShare} _ : sProp 𝕄)
    = (((Memref.whole cc0_scratch0 : Memref sig .scVector .vmem S64 .f32).access (.whole S64)).loc (V d (cV L) (jV L)) ↦{fullShare} _) from rfl)) $$ Hb0
  iapply (SparseCore.wp_vectorLoadIdx 𝒱₀ (V d (cV L) (jV L)) none Set.univ (base := (Memref.whole cc0_scratch0 : Memref sig .scVector .vmem S64 .f32))
    (S := Finset.univ) (q := fullShare) (Finset.subset_univ _)) $$ Hb0
  iintro Hb0
  sl_exec_parts
  have hv6 : ∀ l : Fin 16, (tile_body_val.sl.r r d L f0 hchk) (ix1 l) = Cert.Score.cNegHalf * Cert.Score.invSq (r d) (bE L) := fun l =>
    Cert.Lanes.scale_eq _ l (r d) (bE L)
      (Cert.SlotViews.gathered f0 _ (tile_body_val.sl.v2 L) _ (bE L) (fun l' => entry_word L) l)
  have hT : ∀ l : Fin 16, Cert.LaneFold.total (k0_pay115 (F := Ideal), k0_pay116 (F := Ideal), k0_pay117 (F := Ideal), k0_pay118 (F := Ideal)) l
      = Cert.LaneRun.P (zsrc d) (r d) (bE L) 0 l := fun l => (Cert.LaneFold.total_zero l).trans (Cert.LaneRun.P_zero _ _ _ l).symm
  -- chunk 0 (slot 0): the slot's buffers hold rows 0..7 of the entry's planes; the accumulators are the fold of the rows
  sl_for (outerInv0 d (cV L) (jV L) k0_off10 (fun k k2 j => k0_off10_inb k k2 j) (tile_body_val.sl.r r d L f0 hchk) (zsrc d) (bE L) (0 : Fin 16) (k0_pay115 (F := Ideal), k0_pay116 (F := Ideal), k0_pay117 (F := Ideal), k0_pay118 (F := Ideal))) $$ [Hb1 Hb2 Hb3]
  case region =>
    intro k acc
    unfold outerInv0
    iintro ⟨%ga, %gb, %gc, Ha, Hb, Hc, %hfacts⟩
    sl_exec
    sl_for (innerInv0 d (cV L) (jV L) k0_off10 (fun k k2 j => k0_off10_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off10 (fun k k2 j => k0_off10_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off10 (fun k k2 j => k0_off10_inb k k2 j) ga gb gc (tile_body_val.sl.r r d L f0 hchk) k a) k (k0_pay115 (F := Ideal), k0_pay116 (F := Ideal), k0_pay117 (F := Ideal), k0_pay118 (F := Ideal))).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 0 (k0_off1_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 0 (k0_off2_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 0 (k0_off3_eq L) _ _ _ (zt d) (bE L).isLt (by decide) (by decide) r' q).trans (hzt d _ _ _ _))⟩, rfl⟩
  iintro %acc0 HI
  unfold outerInv0
  icases HI with ⟨%g0a, %g0b, %g0c, Hb1, Hb2, Hb3, %hfin0⟩
  have hT0 := Cert.LaneRun.chunk_step (zsrc d) (r d) (bE L) k0_off10 (fun k k2 j => k0_off10_inb k k2 j) k0_off10_eq g0a g0b g0c
    (tile_body_val.sl.r r d L f0 hchk) (0 : Fin 16) hfin0.1.1 hfin0.1.2.1 hfin0.1.2.2 hv6 _ acc0 hfin0.2 hT
  sl_exec_parts
  -- chunk 1 (slot 1): the slot's buffers hold rows 8..15 of the entry's planes; the accumulators are the fold of the rows
  sl_for (outerInv1 d (cV L) (jV L) k0_off14 (fun k k2 j => k0_off14_inb k k2 j) (tile_body_val.sl.r r d L f0 hchk) (zsrc d) (bE L) (1 : Fin 16) acc0) $$ [Hb4 Hb5 Hb6]
  case region =>
    intro k acc
    unfold outerInv1
    iintro ⟨%ga, %gb, %gc, Ha, Hb, Hc, %hfacts⟩
    sl_exec
    sl_for (innerInv1 d (cV L) (jV L) k0_off14 (fun k k2 j => k0_off14_inb k k2 j) (tile_body_val.sl.r r d L f0 hchk) k acc ga gb gc) $$ [Ha Hb Hc]
    case region =>
      intro k2 acc2
      unfold innerInv1
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off14 (fun k k2 j => k0_off14_inb k k2 j) ga gb gc (tile_body_val.sl.r r d L f0 hchk) k k2 a) k2 acc).symm
    · unfold innerInv1
      isplitl [Ha]; · iexact Ha
      isplitl [Hb]; · iexact Hb
      isplitl [Hc]; · iexact Hc
      ipureintro
      rfl
    iintro %acc' HI
    unfold innerInv1
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off14 (fun k k2 j => k0_off14_inb k k2 j) ga gb gc (tile_body_val.sl.r r d L f0 hchk) k a) k acc0).symm⟩
  · unfold outerInv1
    iexists _, _, _
    isplitl [Hb4]; · iexact Hb4
    isplitl [Hb5]; · iexact Hb5
    isplitl [Hb6]; · iexact Hb6
    ipureintro
    exact ⟨⟨fun r' q => (Cert.SlotViews.write_whole_apply cc0_scratch4 _ _ (ix2 r' q)).trans
          ((Cert.SlotViews.src_read _ _ 0 8 (k0_off4_eq L) _ _ _ (zt d) (bE L).isLt (by decide) (by decide) r' q).trans (hzt d _ _ _ _)),
        fun r' q => (Cert.SlotViews.write_whole_apply cc0_scratch5 _ _ (ix2 r' q)).trans
          ((Cert.SlotViews.src_read _ _ 1 8 (k0_off5_eq L) _ _ _ (zt d) (bE L).isLt (by decide) (by decide) r' q).trans (hzt d _ _ _ _)),
        fun r' q => (Cert.SlotViews.write_whole_apply cc0_scratch6 _ _ (ix2 r' q)).trans
          ((Cert.SlotViews.src_read _ _ 2 8 (k0_off6_eq L) _ _ _ (zt d) (bE L).isLt (by decide) (by decide) r' q).trans (hzt d _ _ _ _))⟩, rfl⟩
  iintro %acc1 HI
  unfold outerInv1
  icases HI with ⟨%g1a, %g1b, %g1c, Hb4, Hb5, Hb6, %hfin1⟩
  have hT1 := Cert.LaneRun.chunk_step (zsrc d) (r d) (bE L) k0_off14 (fun k k2 j => k0_off14_inb k k2 j) k0_off14_eq g1a g1b g1c
    (tile_body_val.sl.r r d L f0 hchk) (1 : Fin 16) hfin1.1.1 hfin1.1.2.1 hfin1.1.2.2 hv6 _ acc1 hfin1.2 hT0
  sl_exec_parts
  -- chunk 2 (slot 2): the slot's buffers hold rows 16..23 of the entry's planes; the accumulators are the fold of the rows
  sl_for (outerInv2 d (cV L) (jV L) k0_off18 (fun k k2 j => k0_off18_inb k k2 j) (tile_body_val.sl.r r d L f0 hchk) (zsrc d) (bE L) (2 : Fin 16) acc1) $$ [Hb7 Hb8 Hb9]
  case region =>
    intro k acc
    unfold outerInv2
    iintro ⟨%ga, %gb, %gc, Ha, Hb, Hc, %hfacts⟩
    sl_exec
    sl_for (innerInv2 d (cV L) (jV L) k0_off18 (fun k k2 j => k0_off18_inb k k2 j) (tile_body_val.sl.r r d L f0 hchk) k acc ga gb gc) $$ [Ha Hb Hc]
    case region =>
      intro k2 acc2
      unfold innerInv2
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off18 (fun k k2 j => k0_off18_inb k k2 j) ga gb gc (tile_body_val.sl.r r d L f0 hchk) k k2 a) k2 acc).symm
    · unfold innerInv2
      isplitl [Ha]; · iexact Ha
      isplitl [Hb]; · iexact Hb
      isplitl [Hc]; · iexact Hc
      ipureintro
      rfl
    iintro %acc' HI
    unfold innerInv2
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off18 (fun k k2 j => k0_off18_inb k k2 j) ga gb gc (tile_body_val.sl.r r d L f0 hchk) k a) k acc1).symm⟩
  · unfold outerInv2
    iexists _, _, _
    isplitl [Hb7]; · iexact Hb7
    isplitl [Hb8]; · iexact Hb8
    isplitl [Hb9]; · iexact Hb9
    ipureintro
    exact ⟨⟨fun r' q => (Cert.SlotViews.write_whole_apply cc0_scratch7 _ _ (ix2 r' q)).trans
          ((Cert.SlotViews.src_read _ _ 0 16 (k0_off7_eq L) _ _ _ (zt d) (bE L).isLt (by decide) (by decide) r' q).trans (hzt d _ _ _ _)),
        fun r' q => (Cert.SlotViews.write_whole_apply cc0_scratch8 _ _ (ix2 r' q)).trans
          ((Cert.SlotViews.src_read _ _ 1 16 (k0_off8_eq L) _ _ _ (zt d) (bE L).isLt (by decide) (by decide) r' q).trans (hzt d _ _ _ _)),
        fun r' q => (Cert.SlotViews.write_whole_apply cc0_scratch9 _ _ (ix2 r' q)).trans
          ((Cert.SlotViews.src_read _ _ 2 16 (k0_off9_eq L) _ _ _ (zt d) (bE L).isLt (by decide) (by decide) r' q).trans (hzt d _ _ _ _))⟩, rfl⟩
  iintro %acc2 HI
  unfold outerInv2
  icases HI with ⟨%g2a, %g2b, %g2c, Hb7, Hb8, Hb9, %hfin2⟩
  have hT2 := Cert.LaneRun.chunk_step (zsrc d) (r d) (bE L) k0_off18 (fun k k2 j => k0_off18_inb k k2 j) k0_off18_eq g2a g2b g2c
    (tile_body_val.sl.r r d L f0 hchk) (2 : Fin 16) hfin2.1.1 hfin2.1.2.1 hfin2.1.2.2 hv6 _ acc2 hfin2.2 hT1
  sl_exec_parts
  -- chunk 3 (slot 0): the slot's buffers hold rows 24..31 of the entry's planes; the accumulators are the fold of the rows
  sl_for (outerInv0 d (cV L) (jV L) k0_off22 (fun k k2 j => k0_off22_inb k k2 j) (tile_body_val.sl.r r d L f0 hchk) (zsrc d) (bE L) (3 : Fin 16) acc2) $$ [Hb1 Hb2 Hb3]
  case region =>
    intro k acc
    unfold outerInv0
    iintro ⟨%ga, %gb, %gc, Ha, Hb, Hc, %hfacts⟩
    sl_exec
    sl_for (innerInv0 d (cV L) (jV L) k0_off22 (fun k k2 j => k0_off22_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off22 (fun k k2 j => k0_off22_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off22 (fun k k2 j => k0_off22_inb k k2 j) ga gb gc (tile_body_val.sl.r r d L f0 hchk) k a) k acc2).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 24 (k0_off11_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 24 (k0_off12_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 24 (k0_off13_eq L) _ _ _ (zt d) (bE L).isLt (by decide) (by decide) r' q).trans (hzt d _ _ _ _))⟩, rfl⟩
  iintro %acc3 HI
  unfold outerInv0
  icases HI with ⟨%g3a, %g3b, %g3c, Hb1, Hb2, Hb3, %hfin3⟩
  have hT3 := Cert.LaneRun.chunk_step (zsrc d) (r d) (bE L) k0_off22 (fun k k2 j => k0_off22_inb k k2 j) k0_off22_eq g3a g3b g3c
    (tile_body_val.sl.r r d L f0 hchk) (3 : Fin 16) hfin3.1.1 hfin3.1.2.1 hfin3.1.2.2 hv6 _ acc3 hfin3.2 hT2
  sl_exec_parts
  -- chunk 4 (slot 1): the slot's buffers hold rows 32..39 of the entry's planes; the accumulators are the fold of the rows
  sl_for (outerInv1 d (cV L) (jV L) k0_off26 (fun k k2 j => k0_off26_inb k k2 j) (tile_body_val.sl.r r d L f0 hchk) (zsrc d) (bE L) (4 : Fin 16) acc3) $$ [Hb4 Hb5 Hb6]
  case region =>
    intro k acc
    unfold outerInv1
    iintro ⟨%ga, %gb, %gc, Ha, Hb, Hc, %hfacts⟩
    sl_exec
    sl_for (innerInv1 d (cV L) (jV L) k0_off26 (fun k k2 j => k0_off26_inb k k2 j) (tile_body_val.sl.r r d L f0 hchk) k acc ga gb gc) $$ [Ha Hb Hc]
    case region =>
      intro k2 acc2
      unfold innerInv1
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off26 (fun k k2 j => k0_off26_inb k k2 j) ga gb gc (tile_body_val.sl.r r d L f0 hchk) k k2 a) k2 acc).symm
    · unfold innerInv1
      isplitl [Ha]; · iexact Ha
      isplitl [Hb]; · iexact Hb
      isplitl [Hc]; · iexact Hc
      ipureintro
      rfl
    iintro %acc' HI
    unfold innerInv1
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off26 (fun k k2 j => k0_off26_inb k k2 j) ga gb gc (tile_body_val.sl.r r d L f0 hchk) k a) k acc3).symm⟩
  · unfold outerInv1
    iexists _, _, _
    isplitl [Hb4]; · iexact Hb4
    isplitl [Hb5]; · iexact Hb5
    isplitl [Hb6]; · iexact Hb6
    ipureintro
    exact ⟨⟨fun r' q => (Cert.SlotViews.write_whole_apply cc0_scratch4 _ _ (ix2 r' q)).trans
          ((Cert.SlotViews.src_read _ _ 0 32 (k0_off15_eq L) _ _ _ (zt d) (bE L).isLt (by decide) (by decide) r' q).trans (hzt d _ _ _ _)),
        fun r' q => (Cert.SlotViews.write_whole_apply cc0_scratch5 _ _ (ix2 r' q)).trans
          ((Cert.SlotViews.src_read _ _ 1 32 (k0_off16_eq L) _ _ _ (zt d) (bE L).isLt (by decide) (by decide) r' q).trans (hzt d _ _ _ _)),
        fun r' q => (Cert.SlotViews.write_whole_apply cc0_scratch6 _ _ (ix2 r' q)).trans
          ((Cert.SlotViews.src_read _ _ 2 32 (k0_off17_eq L) _ _ _ (zt d) (bE L).isLt (by decide) (by decide) r' q).trans (hzt d _ _ _ _))⟩, rfl⟩
  iintro %acc4 HI
  unfold outerInv1
  icases HI with ⟨%g4a, %g4b, %g4c, Hb4, Hb5, Hb6, %hfin4⟩
  have hT4 := Cert.LaneRun.chunk_step (zsrc d) (r d) (bE L) k0_off26 (fun k k2 j => k0_off26_inb k k2 j) k0_off26_eq g4a g4b g4c
    (tile_body_val.sl.r r d L f0 hchk) (4 : Fin 16) hfin4.1.1 hfin4.1.2.1 hfin4.1.2.2 hv6 _ acc4 hfin4.2 hT3
  sl_exec_parts
  -- chunk 5 (slot 2): the slot's buffers hold rows 40..47 of the entry's planes; the accumulators are the fold of the rows
  sl_for (outerInv2 d (cV L) (jV L) k0_off30 (fun k k2 j => k0_off30_inb k k2 j) (tile_body_val.sl.r r d L f0 hchk) (zsrc d) (bE L) (5 : Fin 16) acc4) $$ [Hb7 Hb8 Hb9]
  case region =>
    intro k acc
    unfold outerInv2
    iintro ⟨%ga, %gb, %gc, Ha, Hb, Hc, %hfacts⟩
    sl_exec
    sl_for (innerInv2 d (cV L) (jV L) k0_off30 (fun k k2 j => k0_off30_inb k k2 j) (tile_body_val.sl.r r d L f0 hchk) k acc ga gb gc) $$ [Ha Hb Hc]
    case region =>
      intro k2 acc2
      unfold innerInv2
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off30 (fun k k2 j => k0_off30_inb k k2 j) ga gb gc (tile_body_val.sl.r r d L f0 hchk) k k2 a) k2 acc).symm
    · unfold innerInv2
      isplitl [Ha]; · iexact Ha
      isplitl [Hb]; · iexact Hb
      isplitl [Hc]; · iexact Hc
      ipureintro
      rfl
    iintro %acc' HI
    unfold innerInv2
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off30 (fun k k2 j => k0_off30_inb k k2 j) ga gb gc (tile_body_val.sl.r r d L f0 hchk) k a) k acc4).symm⟩
  · unfold outerInv2
    iexists _, _, _
    isplitl [Hb7]; · iexact Hb7
    isplitl [Hb8]; · iexact Hb8
    isplitl [Hb9]; · iexact Hb9
    ipureintro
    exact ⟨⟨fun r' q => (Cert.SlotViews.write_whole_apply cc0_scratch7 _ _ (ix2 r' q)).trans
          ((Cert.SlotViews.src_read _ _ 0 40 (k0_off19_eq L) _ _ _ (zt d) (bE L).isLt (by decide) (by decide) r' q).trans (hzt d _ _ _ _)),
        fun r' q => (Cert.SlotViews.write_whole_apply cc0_scratch8 _ _ (ix2 r' q)).trans
          ((Cert.SlotViews.src_read _ _ 1 40 (k0_off20_eq L) _ _ _ (zt d) (bE L).isLt (by decide) (by decide) r' q).trans (hzt d _ _ _ _)),
        fun r' q => (Cert.SlotViews.write_whole_apply cc0_scratch9 _ _ (ix2 r' q)).trans
          ((Cert.SlotViews.src_read _ _ 2 40 (k0_off21_eq L) _ _ _ (zt d) (bE L).isLt (by decide) (by decide) r' q).trans (hzt d _ _ _ _))⟩, rfl⟩
  iintro %acc5 HI
  unfold outerInv2
  icases HI with ⟨%g5a, %g5b, %g5c, Hb7, Hb8, Hb9, %hfin5⟩
  have hT5 := Cert.LaneRun.chunk_step (zsrc d) (r d) (bE L) k0_off30 (fun k k2 j => k0_off30_inb k k2 j) k0_off30_eq g5a g5b g5c
    (tile_body_val.sl.r r d L f0 hchk) (5 : Fin 16) hfin5.1.1 hfin5.1.2.1 hfin5.1.2.2 hv6 _ acc5 hfin5.2 hT4
  sl_exec_parts
  -- chunk 6 (slot 0): the slot's buffers hold rows 48..55 of the entry's planes; the accumulators are the fold of the rows
  sl_for (outerInv0 d (cV L) (jV L) k0_off34 (fun k k2 j => k0_off34_inb k k2 j) (tile_body_val.sl.r r d L f0 hchk) (zsrc d) (bE L) (6 : Fin 16) acc5) $$ [Hb1 Hb2 Hb3]
  case region =>
    intro k acc
    unfold outerInv0
    iintro ⟨%ga, %gb, %gc, Ha, Hb, Hc, %hfacts⟩
    sl_exec
    sl_for (innerInv0 d (cV L) (jV L) k0_off34 (fun k k2 j => k0_off34_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off34 (fun k k2 j => k0_off34_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off34 (fun k k2 j => k0_off34_inb k k2 j) ga gb gc (tile_body_val.sl.r r d L f0 hchk) k a) k acc5).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 48 (k0_off23_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 48 (k0_off24_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 48 (k0_off25_eq L) _ _ _ (zt d) (bE L).isLt (by decide) (by decide) r' q).trans (hzt d _ _ _ _))⟩, rfl⟩
  iintro %acc6 HI
  unfold outerInv0
  icases HI with ⟨%g6a, %g6b, %g6c, Hb1, Hb2, Hb3, %hfin6⟩
  have hT6 := Cert.LaneRun.chunk_step (zsrc d) (r d) (bE L) k0_off34 (fun k k2 j => k0_off34_inb k k2 j) k0_off34_eq g6a g6b g6c
    (tile_body_val.sl.r r d L f0 hchk) (6 : Fin 16) hfin6.1.1 hfin6.1.2.1 hfin6.1.2.2 hv6 _ acc6 hfin6.2 hT5
  sl_exec_parts
  -- chunk 7 (slot 1): the slot's buffers hold rows 56..63 of the entry's planes; the accumulators are the fold of the rows
  sl_for (outerInv1 d (cV L) (jV L) k0_off38 (fun k k2 j => k0_off38_inb k k2 j) (tile_body_val.sl.r r d L f0 hchk) (zsrc d) (bE L) (7 : Fin 16) acc6) $$ [Hb4 Hb5 Hb6]
  case region =>
    intro k acc
    unfold outerInv1
    iintro ⟨%ga, %gb, %gc, Ha, Hb, Hc, %hfacts⟩
    sl_exec
    sl_for (innerInv1 d (cV L) (jV L) k0_off38 (fun k k2 j => k0_off38_inb k k2 j) (tile_body_val.sl.r r d L f0 hchk) k acc ga gb gc) $$ [Ha Hb Hc]
    case region =>
      intro k2 acc2
      unfold innerInv1
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off38 (fun k k2 j => k0_off38_inb k k2 j) ga gb gc (tile_body_val.sl.r r d L f0 hchk) k k2 a) k2 acc).symm
    · unfold innerInv1
      isplitl [Ha]; · iexact Ha
      isplitl [Hb]; · iexact Hb
      isplitl [Hc]; · iexact Hc
      ipureintro
      rfl
    iintro %acc' HI
    unfold innerInv1
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off38 (fun k k2 j => k0_off38_inb k k2 j) ga gb gc (tile_body_val.sl.r r d L f0 hchk) k a) k acc6).symm⟩
  · unfold outerInv1
    iexists _, _, _
    isplitl [Hb4]; · iexact Hb4
    isplitl [Hb5]; · iexact Hb5
    isplitl [Hb6]; · iexact Hb6
    ipureintro
    exact ⟨⟨fun r' q => (Cert.SlotViews.write_whole_apply cc0_scratch4 _ _ (ix2 r' q)).trans
          ((Cert.SlotViews.src_read _ _ 0 56 (k0_off27_eq L) _ _ _ (zt d) (bE L).isLt (by decide) (by decide) r' q).trans (hzt d _ _ _ _)),
        fun r' q => (Cert.SlotViews.write_whole_apply cc0_scratch5 _ _ (ix2 r' q)).trans
          ((Cert.SlotViews.src_read _ _ 1 56 (k0_off28_eq L) _ _ _ (zt d) (bE L).isLt (by decide) (by decide) r' q).trans (hzt d _ _ _ _)),
        fun r' q => (Cert.SlotViews.write_whole_apply cc0_scratch6 _ _ (ix2 r' q)).trans
          ((Cert.SlotViews.src_read _ _ 2 56 (k0_off29_eq L) _ _ _ (zt d) (bE L).isLt (by decide) (by decide) r' q).trans (hzt d _ _ _ _))⟩, rfl⟩
  iintro %acc7 HI
  unfold outerInv1
  icases HI with ⟨%g7a, %g7b, %g7c, Hb4, Hb5, Hb6, %hfin7⟩
  have hT7 := Cert.LaneRun.chunk_step (zsrc d) (r d) (bE L) k0_off38 (fun k k2 j => k0_off38_inb k k2 j) k0_off38_eq g7a g7b g7c
    (tile_body_val.sl.r r d L f0 hchk) (7 : Fin 16) hfin7.1.1 hfin7.1.2.1 hfin7.1.2.2 hv6 _ acc7 hfin7.2 hT6
  sl_exec_parts
  -- chunk 8 (slot 2): the slot's buffers hold rows 64..71 of the entry's planes; the accumulators are the fold of the rows
  sl_for (outerInv2 d (cV L) (jV L) k0_off42 (fun k k2 j => k0_off42_inb k k2 j) (tile_body_val.sl.r r d L f0 hchk) (zsrc d) (bE L) (8 : Fin 16) acc7) $$ [Hb7 Hb8 Hb9]
  case region =>
    intro k acc
    unfold outerInv2
    iintro ⟨%ga, %gb, %gc, Ha, Hb, Hc, %hfacts⟩
    sl_exec
    sl_for (innerInv2 d (cV L) (jV L) k0_off42 (fun k k2 j => k0_off42_inb k k2 j) (tile_body_val.sl.r r d L f0 hchk) k acc ga gb gc) $$ [Ha Hb Hc]
    case region =>
      intro k2 acc2
      unfold innerInv2
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off42 (fun k k2 j => k0_off42_inb k k2 j) ga gb gc (tile_body_val.sl.r r d L f0 hchk) k k2 a) k2 acc).symm
    · unfold innerInv2
      isplitl [Ha]; · iexact Ha
      isplitl [Hb]; · iexact Hb
      isplitl [Hc]; · iexact Hc
      ipureintro
      rfl
    iintro %acc' HI
    unfold innerInv2
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off42 (fun k k2 j => k0_off42_inb k k2 j) ga gb gc (tile_body_val.sl.r r d L f0 hchk) k a) k acc7).symm⟩
  · unfold outerInv2
    iexists _, _, _
    isplitl [Hb7]; · iexact Hb7
    isplitl [Hb8]; · iexact Hb8
    isplitl [Hb9]; · iexact Hb9
    ipureintro
    exact ⟨⟨fun r' q => (Cert.SlotViews.write_whole_apply cc0_scratch7 _ _ (ix2 r' q)).trans
          ((Cert.SlotViews.src_read _ _ 0 64 (k0_off31_eq L) _ _ _ (zt d) (bE L).isLt (by decide) (by decide) r' q).trans (hzt d _ _ _ _)),
        fun r' q => (Cert.SlotViews.write_whole_apply cc0_scratch8 _ _ (ix2 r' q)).trans
          ((Cert.SlotViews.src_read _ _ 1 64 (k0_off32_eq L) _ _ _ (zt d) (bE L).isLt (by decide) (by decide) r' q).trans (hzt d _ _ _ _)),
        fun r' q => (Cert.SlotViews.write_whole_apply cc0_scratch9 _ _ (ix2 r' q)).trans
          ((Cert.SlotViews.src_read _ _ 2 64 (k0_off33_eq L) _ _ _ (zt d) (bE L).isLt (by decide) (by decide) r' q).trans (hzt d _ _ _ _))⟩, rfl⟩
  iintro %acc8 HI
  unfold outerInv2
  icases HI with ⟨%g8a, %g8b, %g8c, Hb7, Hb8, Hb9, %hfin8⟩
  have hT8 := Cert.LaneRun.chunk_step (zsrc d) (r d) (bE L) k0_off42 (fun k k2 j => k0_off42_inb k k2 j) k0_off42_eq g8a g8b g8c
    (tile_body_val.sl.r r d L f0 hchk) (8 : Fin 16) hfin8.1.1 hfin8.1.2.1 hfin8.1.2.2 hv6 _ acc8 hfin8.2 hT7
  sl_exec_parts
  -- chunk 9 (slot 0): the slot's buffers hold rows 72..79 of the entry's planes; the accumulators are the fold of the rows
  sl_for (outerInv0 d (cV L) (jV L) k0_off46 (fun k k2 j => k0_off46_inb k k2 j) (tile_body_val.sl.r r d L f0 hchk) (zsrc d) (bE L) (9 : Fin 16) acc8) $$ [Hb1 Hb2 Hb3]
  case region =>
    intro k acc
    unfold outerInv0
    iintro ⟨%ga, %gb, %gc, Ha, Hb, Hc, %hfacts⟩
    sl_exec
    sl_for (innerInv0 d (cV L) (jV L) k0_off46 (fun k k2 j => k0_off46_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off46 (fun k k2 j => k0_off46_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off46 (fun k k2 j => k0_off46_inb k k2 j) ga gb gc (tile_body_val.sl.r r d L f0 hchk) k a) k acc8).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 72 (k0_off35_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 72 (k0_off36_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 72 (k0_off37_eq L) _ _ _ (zt d) (bE L).isLt (by decide) (by decide) r' q).trans (hzt d _ _ _ _))⟩, rfl⟩
  iintro %acc9 HI
  unfold outerInv0
  icases HI with ⟨%g9a, %g9b, %g9c, Hb1, Hb2, Hb3, %hfin9⟩
  have hT9 := Cert.LaneRun.chunk_step (zsrc d) (r d) (bE L) k0_off46 (fun k k2 j => k0_off46_inb k k2 j) k0_off46_eq g9a g9b g9c
    (tile_body_val.sl.r r d L f0 hchk) (9 : Fin 16) hfin9.1.1 hfin9.1.2.1 hfin9.1.2.2 hv6 _ acc9 hfin9.2 hT8
  sl_exec_parts
  -- chunk 10 (slot 1): the slot's buffers hold rows 80..87 of the entry's planes; the accumulators are the fold of the rows
  sl_for (outerInv1 d (cV L) (jV L) k0_off50 (fun k k2 j => k0_off50_inb k k2 j) (tile_body_val.sl.r r d L f0 hchk) (zsrc d) (bE L) (10 : Fin 16) acc9) $$ [Hb4 Hb5 Hb6]
  case region =>
    intro k acc
    unfold outerInv1
    iintro ⟨%ga, %gb, %gc, Ha, Hb, Hc, %hfacts⟩
    sl_exec
    sl_for (innerInv1 d (cV L) (jV L) k0_off50 (fun k k2 j => k0_off50_inb k k2 j) (tile_body_val.sl.r r d L f0 hchk) k acc ga gb gc) $$ [Ha Hb Hc]
    case region =>
      intro k2 acc2
      unfold innerInv1
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off50 (fun k k2 j => k0_off50_inb k k2 j) ga gb gc (tile_body_val.sl.r r d L f0 hchk) k k2 a) k2 acc).symm
    · unfold innerInv1
      isplitl [Ha]; · iexact Ha
      isplitl [Hb]; · iexact Hb
      isplitl [Hc]; · iexact Hc
      ipureintro
      rfl
    iintro %acc' HI
    unfold innerInv1
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off50 (fun k k2 j => k0_off50_inb k k2 j) ga gb gc (tile_body_val.sl.r r d L f0 hchk) k a) k acc9).symm⟩
  · unfold outerInv1
    iexists _, _, _
    isplitl [Hb4]; · iexact Hb4
    isplitl [Hb5]; · iexact Hb5
    isplitl [Hb6]; · iexact Hb6
    ipureintro
    exact ⟨⟨fun r' q => (Cert.SlotViews.write_whole_apply cc0_scratch4 _ _ (ix2 r' q)).trans
          ((Cert.SlotViews.src_read _ _ 0 80 (k0_off39_eq L) _ _ _ (zt d) (bE L).isLt (by decide) (by decide) r' q).trans (hzt d _ _ _ _)),
        fun r' q => (Cert.SlotViews.write_whole_apply cc0_scratch5 _ _ (ix2 r' q)).trans
          ((Cert.SlotViews.src_read _ _ 1 80 (k0_off40_eq L) _ _ _ (zt d) (bE L).isLt (by decide) (by decide) r' q).trans (hzt d _ _ _ _)),
        fun r' q => (Cert.SlotViews.write_whole_apply cc0_scratch6 _ _ (ix2 r' q)).trans
          ((Cert.SlotViews.src_read _ _ 2 80 (k0_off41_eq L) _ _ _ (zt d) (bE L).isLt (by decide) (by decide) r' q).trans (hzt d _ _ _ _))⟩, rfl⟩
  iintro %acc10 HI
  unfold outerInv1
  icases HI with ⟨%g10a, %g10b, %g10c, Hb4, Hb5, Hb6, %hfin10⟩
  have hT10 := Cert.LaneRun.chunk_step (zsrc d) (r d) (bE L) k0_off50 (fun k k2 j => k0_off50_inb k k2 j) k0_off50_eq g10a g10b g10c
    (tile_body_val.sl.r r d L f0 hchk) (10 : Fin 16) hfin10.1.1 hfin10.1.2.1 hfin10.1.2.2 hv6 _ acc10 hfin10.2 hT9
  sl_exec_parts
  -- chunk 11 (slot 2): the slot's buffers hold rows 88..95 of the entry's planes; the accumulators are the fold of the rows
  sl_for (outerInv2 d (cV L) (jV L) k0_off54 (fun k k2 j => k0_off54_inb k k2 j) (tile_body_val.sl.r r d L f0 hchk) (zsrc d) (bE L) (11 : Fin 16) acc10) $$ [Hb7 Hb8 Hb9]
  case region =>
    intro k acc
    unfold outerInv2
    iintro ⟨%ga, %gb, %gc, Ha, Hb, Hc, %hfacts⟩
    sl_exec
    sl_for (innerInv2 d (cV L) (jV L) k0_off54 (fun k k2 j => k0_off54_inb k k2 j) (tile_body_val.sl.r r d L f0 hchk) k acc ga gb gc) $$ [Ha Hb Hc]
    case region =>
      intro k2 acc2
      unfold innerInv2
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off54 (fun k k2 j => k0_off54_inb k k2 j) ga gb gc (tile_body_val.sl.r r d L f0 hchk) k k2 a) k2 acc).symm
    · unfold innerInv2
      isplitl [Ha]; · iexact Ha
      isplitl [Hb]; · iexact Hb
      isplitl [Hc]; · iexact Hc
      ipureintro
      rfl
    iintro %acc' HI
    unfold innerInv2
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off54 (fun k k2 j => k0_off54_inb k k2 j) ga gb gc (tile_body_val.sl.r r d L f0 hchk) k a) k acc10).symm⟩
  · unfold outerInv2
    iexists _, _, _
    isplitl [Hb7]; · iexact Hb7
    isplitl [Hb8]; · iexact Hb8
    isplitl [Hb9]; · iexact Hb9
    ipureintro
    exact ⟨⟨fun r' q => (Cert.SlotViews.write_whole_apply cc0_scratch7 _ _ (ix2 r' q)).trans
          ((Cert.SlotViews.src_read _ _ 0 88 (k0_off43_eq L) _ _ _ (zt d) (bE L).isLt (by decide) (by decide) r' q).trans (hzt d _ _ _ _)),
        fun r' q => (Cert.SlotViews.write_whole_apply cc0_scratch8 _ _ (ix2 r' q)).trans
          ((Cert.SlotViews.src_read _ _ 1 88 (k0_off44_eq L) _ _ _ (zt d) (bE L).isLt (by decide) (by decide) r' q).trans (hzt d _ _ _ _)),
        fun r' q => (Cert.SlotViews.write_whole_apply cc0_scratch9 _ _ (ix2 r' q)).trans
          ((Cert.SlotViews.src_read _ _ 2 88 (k0_off45_eq L) _ _ _ (zt d) (bE L).isLt (by decide) (by decide) r' q).trans (hzt d _ _ _ _))⟩, rfl⟩
  iintro %acc11 HI
  unfold outerInv2
  icases HI with ⟨%g11a, %g11b, %g11c, Hb7, Hb8, Hb9, %hfin11⟩
  have hT11 := Cert.LaneRun.chunk_step (zsrc d) (r d) (bE L) k0_off54 (fun k k2 j => k0_off54_inb k k2 j) k0_off54_eq g11a g11b g11c
    (tile_body_val.sl.r r d L f0 hchk) (11 : Fin 16) hfin11.1.1 hfin11.1.2.1 hfin11.1.2.2 hv6 _ acc11 hfin11.2 hT10
  sl_exec_parts
  -- chunk 12 (slot 0): the slot's buffers hold rows 96..103 of the entry's planes; the accumulators are the fold of the rows
  sl_for (outerInv0 d (cV L) (jV L) k0_off58 (fun k k2 j => k0_off58_inb k k2 j) (tile_body_val.sl.r r d L f0 hchk) (zsrc d) (bE L) (12 : Fin 16) acc11) $$ [Hb1 Hb2 Hb3]
  case region =>
    intro k acc
    unfold outerInv0
    iintro ⟨%ga, %gb, %gc, Ha, Hb, Hc, %hfacts⟩
    sl_exec
    sl_for (innerInv0 d (cV L) (jV L) k0_off58 (fun k k2 j => k0_off58_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off58 (fun k k2 j => k0_off58_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off58 (fun k k2 j => k0_off58_inb k k2 j) ga gb gc (tile_body_val.sl.r r d L f0 hchk) k a) k acc11).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 96 (k0_off47_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 96 (k0_off48_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 96 (k0_off49_eq L) _ _ _ (zt d) (bE L).isLt (by decide) (by decide) r' q).trans (hzt d _ _ _ _))⟩, rfl⟩
  iintro %acc12 HI
  unfold outerInv0
  icases HI with ⟨%g12a, %g12b, %g12c, Hb1, Hb2, Hb3, %hfin12⟩
  have hT12 := Cert.LaneRun.chunk_step (zsrc d) (r d) (bE L) k0_off58 (fun k k2 j => k0_off58_inb k k2 j) k0_off58_eq g12a g12b g12c
    (tile_body_val.sl.r r d L f0 hchk) (12 : Fin 16) hfin12.1.1 hfin12.1.2.1 hfin12.1.2.2 hv6 _ acc12 hfin12.2 hT11
  sl_exec_parts
  -- chunk 13 (slot 1): the slot's buffers hold rows 104..111 of the entry's planes; the accumulators are the fold of the rows
  sl_for (outerInv1 d (cV L) (jV L) k0_off62 (fun k k2 j => k0_off62_inb k k2 j) (tile_body_val.sl.r r d L f0 hchk) (zsrc d) (bE L) (13 : Fin 16) acc12) $$ [Hb4 Hb5 Hb6]
  case region =>
    intro k acc
    unfold outerInv1
    iintro ⟨%ga, %gb, %gc, Ha, Hb, Hc, %hfacts⟩
    sl_exec
    sl_for (innerInv1 d (cV L) (jV L) k0_off62 (fun k k2 j => k0_off62_inb k k2 j) (tile_body_val.sl.r r d L f0 hchk) k acc ga gb gc) $$ [Ha Hb Hc]
    case region =>
      intro k2 acc2
      unfold innerInv1
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off62 (fun k k2 j => k0_off62_inb k k2 j) ga gb gc (tile_body_val.sl.r r d L f0 hchk) k k2 a) k2 acc).symm
    · unfold innerInv1
      isplitl [Ha]; · iexact Ha
      isplitl [Hb]; · iexact Hb
      isplitl [Hc]; · iexact Hc
      ipureintro
      rfl
    iintro %acc' HI
    unfold innerInv1
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off62 (fun k k2 j => k0_off62_inb k k2 j) ga gb gc (tile_body_val.sl.r r d L f0 hchk) k a) k acc12).symm⟩
  · unfold outerInv1
    iexists _, _, _
    isplitl [Hb4]; · iexact Hb4
    isplitl [Hb5]; · iexact Hb5
    isplitl [Hb6]; · iexact Hb6
    ipureintro
    exact ⟨⟨fun r' q => (Cert.SlotViews.write_whole_apply cc0_scratch4 _ _ (ix2 r' q)).trans
          ((Cert.SlotViews.src_read _ _ 0 104 (k0_off51_eq L) _ _ _ (zt d) (bE L).isLt (by decide) (by decide) r' q).trans (hzt d _ _ _ _)),
        fun r' q => (Cert.SlotViews.write_whole_apply cc0_scratch5 _ _ (ix2 r' q)).trans
          ((Cert.SlotViews.src_read _ _ 1 104 (k0_off52_eq L) _ _ _ (zt d) (bE L).isLt (by decide) (by decide) r' q).trans (hzt d _ _ _ _)),
        fun r' q => (Cert.SlotViews.write_whole_apply cc0_scratch6 _ _ (ix2 r' q)).trans
          ((Cert.SlotViews.src_read _ _ 2 104 (k0_off53_eq L) _ _ _ (zt d) (bE L).isLt (by decide) (by decide) r' q).trans (hzt d _ _ _ _))⟩, rfl⟩
  iintro %acc13 HI
  unfold outerInv1
  icases HI with ⟨%g13a, %g13b, %g13c, Hb4, Hb5, Hb6, %hfin13⟩
  have hT13 := Cert.LaneRun.chunk_step (zsrc d) (r d) (bE L) k0_off62 (fun k k2 j => k0_off62_inb k k2 j) k0_off62_eq g13a g13b g13c
    (tile_body_val.sl.r r d L f0 hchk) (13 : Fin 16) hfin13.1.1 hfin13.1.2.1 hfin13.1.2.2 hv6 _ acc13 hfin13.2 hT12
  sl_exec_parts
  -- chunk 14 (slot 2): the slot's buffers hold rows 112..119 of the entry's planes; the accumulators are the fold of the rows
  sl_for (outerInv2 d (cV L) (jV L) k0_off63 (fun k k2 j => k0_off63_inb k k2 j) (tile_body_val.sl.r r d L f0 hchk) (zsrc d) (bE L) (14 : Fin 16) acc13) $$ [Hb7 Hb8 Hb9]
  case region =>
    intro k acc
    unfold outerInv2
    iintro ⟨%ga, %gb, %gc, Ha, Hb, Hc, %hfacts⟩
    sl_exec
    sl_for (innerInv2 d (cV L) (jV L) k0_off63 (fun k k2 j => k0_off63_inb k k2 j) (tile_body_val.sl.r r d L f0 hchk) k acc ga gb gc) $$ [Ha Hb Hc]
    case region =>
      intro k2 acc2
      unfold innerInv2
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off63 (fun k k2 j => k0_off63_inb k k2 j) ga gb gc (tile_body_val.sl.r r d L f0 hchk) k k2 a) k2 acc).symm
    · unfold innerInv2
      isplitl [Ha]; · iexact Ha
      isplitl [Hb]; · iexact Hb
      isplitl [Hc]; · iexact Hc
      ipureintro
      rfl
    iintro %acc' HI
    unfold innerInv2
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off63 (fun k k2 j => k0_off63_inb k k2 j) ga gb gc (tile_body_val.sl.r r d L f0 hchk) k a) k acc13).symm⟩
  · unfold outerInv2
    iexists _, _, _
    isplitl [Hb7]; · iexact Hb7
    isplitl [Hb8]; · iexact Hb8
    isplitl [Hb9]; · iexact Hb9
    ipureintro
    exact ⟨⟨fun r' q => (Cert.SlotViews.write_whole_apply cc0_scratch7 _ _ (ix2 r' q)).trans
          ((Cert.SlotViews.src_read _ _ 0 112 (k0_off55_eq L) _ _ _ (zt d) (bE L).isLt (by decide) (by decide) r' q).trans (hzt d _ _ _ _)),
        fun r' q => (Cert.SlotViews.write_whole_apply cc0_scratch8 _ _ (ix2 r' q)).trans
          ((Cert.SlotViews.src_read _ _ 1 112 (k0_off56_eq L) _ _ _ (zt d) (bE L).isLt (by decide) (by decide) r' q).trans (hzt d _ _ _ _)),
        fun r' q => (Cert.SlotViews.write_whole_apply cc0_scratch9 _ _ (ix2 r' q)).trans
          ((Cert.SlotViews.src_read _ _ 2 112 (k0_off57_eq L) _ _ _ (zt d) (bE L).isLt (by decide) (by decide) r' q).trans (hzt d _ _ _ _))⟩, rfl⟩
  iintro %acc14 HI
  unfold outerInv2
  icases HI with ⟨%g14a, %g14b, %g14c, Hb7, Hb8, Hb9, %hfin14⟩
  have hT14 := Cert.LaneRun.chunk_step (zsrc d) (r d) (bE L) k0_off63 (fun k k2 j => k0_off63_inb k k2 j) k0_off63_eq g14a g14b g14c
    (tile_body_val.sl.r r d L f0 hchk) (14 : Fin 16) hfin14.1.1 hfin14.1.2.1 hfin14.1.2.2 hv6 _ acc14 hfin14.2 hT13
  sl_exec_parts
  -- chunk 15 (slot 0): the slot's buffers hold rows 120..127 of the entry's planes; the accumulators are the fold of the rows
  sl_for (outerInv0 d (cV L) (jV L) k0_off64 (fun k k2 j => k0_off64_inb k k2 j) (tile_body_val.sl.r r d L f0 hchk) (zsrc d) (bE L) (15 : Fin 16) acc14) $$ [Hb1 Hb2 Hb3]
  case region =>
    intro k acc
    unfold outerInv0
    iintro ⟨%ga, %gb, %gc, Ha, Hb, Hc, %hfacts⟩
    sl_exec
    sl_for (innerInv0 d (cV L) (jV L) k0_off64 (fun k k2 j => k0_off64_inb k k2 j) (tile_body_val.sl.r r d L f0 hchk) k acc ga gb gc) $$ [Ha Hb Hc]
    case region =>
      intro k2 acc2
      unfold innerInv0
      iintro ⟨Ha, Hb, Hc, %hacc2⟩
      sl_exec_parts
      sl_step
      isplitl [Ha]; · iexact Ha
      isplitl [Hb]; · iexact Hb
      isplitl [Hc]; · iexact Hc
      ipureintro
      subst hacc2
      exact Eq.trans rfl (Cert.LaneFold.foldUpTo_succ (n := 8)
        (fun k2 a => Cert.LaneRun.tripRun k0_off64 (fun k k2 j => k0_off64_inb k k2 j) ga gb gc (tile_body_val.sl.r r d L f0 hchk) k k2 a) k2 acc).symm
    · unfold innerInv0
      isplitl [Ha]; · iexact Ha
      isplitl [Hb]; · iexact Hb
      isplitl [Hc]; · iexact Hc
      ipureintro
      rfl
    iintro %acc' HI
    unfold innerInv0
    icases HI with ⟨Ha, Hb, Hc, %hacc'⟩
    sl_exec
    sl_step
    iexists ga, gb, gc
    isplitl [Ha]; · iexact Ha
    isplitl [Hb]; · iexact Hb
    isplitl [Hc]; · iexact Hc
    ipureintro
    obtain ⟨hslot, hacc⟩ := hfacts
    subst hacc
    subst hacc'
    exact ⟨hslot, Eq.trans rfl (Cert.LaneFold.foldUpTo_succ (n := 8)
      (fun k a => Cert.LaneRun.rowRunFn k0_off64 (fun k k2 j => k0_off64_inb k k2 j) ga gb gc (tile_body_val.sl.r r d L f0 hchk) k a) k acc14).symm⟩
  · unfold outerInv0
    iexists _, _, _
    isplitl [Hb1]; · iexact Hb1
    isplitl [Hb2]; · iexact Hb2
    isplitl [Hb3]; · iexact Hb3
    ipureintro
    exact ⟨⟨fun r' q => (Cert.SlotViews.write_whole_apply cc0_scratch1 _ _ (ix2 r' q)).trans
          ((Cert.SlotViews.src_read _ _ 0 120 (k0_off59_eq L) _ _ _ (zt d) (bE L).isLt (by decide) (by decide) r' q).trans (hzt d _ _ _ _)),
        fun r' q => (Cert.SlotViews.write_whole_apply cc0_scratch2 _ _ (ix2 r' q)).trans
          ((Cert.SlotViews.src_read _ _ 1 120 (k0_off60_eq L) _ _ _ (zt d) (bE L).isLt (by decide) (by decide) r' q).trans (hzt d _ _ _ _)),
        fun r' q => (Cert.SlotViews.write_whole_apply cc0_scratch3 _ _ (ix2 r' q)).trans
          ((Cert.SlotViews.src_read _ _ 2 120 (k0_off61_eq L) _ _ _ (zt d) (bE L).isLt (by decide) (by decide) r' q).trans (hzt d _ _ _ _))⟩, rfl⟩
  iintro %acc15 HI
  unfold outerInv0
  icases HI with ⟨%g15a, %g15b, %g15c, Hb1, Hb2, Hb3, %hfin15⟩
  have hT15 := Cert.LaneRun.chunk_step (zsrc d) (r d) (bE L) k0_off64 (fun k k2 j => k0_off64_inb k k2 j) k0_off64_eq g15a g15b g15c
    (tile_body_val.sl.r r d L f0 hchk) (15 : Fin 16) hfin15.1.1 hfin15.1.2.1 hfin15.1.2.2 hv6 _ acc15 hfin15.2 hT14
  sl_exec_parts
  sl_step
  unfold tdResV
  isplitl [Hzr Hz0 Hz1 Hz2 Hz3 Hz4 Hz5 Hz6 Hz7 Hz8 Hr Hp]
  · isplitl [Hzr Hz0 Hz1 Hz2 Hz3 Hz4 Hz5 Hz6 Hz7 Hz8]
    · -- the nine read tokens and the remainder are the tile's share of z^T again
      iapply (Entails.of_eq (pts_z (F := Ideal) d (cV L) (jV L) _ _))
      iapply (Transfers.pointsTo_toks_join (shareTokN fullShare (entryL L).val) 9)
      rw [bigSep_fin9]
      isplitl [Hzr]; · iexact Hzr
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hr]
    · iapply (Entails.of_eq (pts_r (F := Ideal) d (cV L) (jV L) _ _)); iexact Hr
    · iexists _
      isplitr
      swap
      · iapply (Entails.of_eq (pts_pRowK (F := Ideal) d L _)); iexact Hp
      · ipureintro
        exact final_sum r p₀ zsrc d L acc15 _ (fun l => staged_total f10 acc15 l) hT15
  isplitl [Hb0 Hb1 Hb2 Hb3 Hb4 Hb5 Hb6 Hb7 Hb8 Hb9 Hb10 Hbufs]
  · isplitl [Hb0 Hb1 Hb2 Hb3 Hb4 Hb5 Hb6 Hb7 Hb8 Hb9 Hb10]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      isplitl [Hb8]; · iexists _; iexact Hb8
      isplitl [Hb9]; · iexists _; iexact Hb9
      iexists _; iexact Hb10
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _
  isplitr
  swap
  · iexact HO
  · ipureintro
    repeat (first | exact wb_base W | apply wb_insert)

end Cert.KernelIdeal.Sc

end
-- ==== Proof.ScMainV.lean ====
/-
  @main and the launch at the exact-arithmetic instance with the four results NAMED: the run of the idealized kernel
  ends with the raw score, its mean, its variance and the objective of the specification in the four result arrays.
  The tiles' rows add up to the first 32 entries' raw scores, the reduce region's words are the other 32, and the
  epilogue region's four payloads are the specification's functions of them.
-/
import proofs.«217460_g7679401525743_retrytranche1_990_34_alg».proof.Proof.ScMain
import proofs.«217460_g7679401525743_retrytranche1_990_34_alg».proof.Proof.ScPayV
import proofs.«217460_g7679401525743_retrytranche1_990_34_alg».proof.Proof.KernelScore
import proofs.«217460_g7679401525743_retrytranche1_990_34_alg».proof.Proof.TcReduceV
import proofs.«217460_g7679401525743_retrytranche1_990_34_alg».proof.Proof.ScTileValue

noncomputable section

namespace Cert.KernelIdeal.Sc

open Cert.KernelIdeal Cert.KernelIdeal.Gen

open Idealize.ShloMosaic Idealize.ShloMosaic.TcCoe Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

local notation "𝕄" => MT nD τ sig (HIx 1) (Elt Ideal) ℕ UU ℕ

variable (m : (ℓ : Loc nD τ sig) → Buf (Elt Ideal) ℓ) (ρ : Dev nD → PrngReg)

/-- z as launched. -/
abbrev zsrcOf (d : Dev nD) : Buf (Elt Ideal) ((SparseCore.T d : Thread nD τ).loc main_arg0) := m (d, a0')

abbrev PPV : (K (F := Ideal)).Pay (nD := nD) (Val := Elt Ideal) (Name := ℕ) (U := UU) := PV (ztOf m) (rOf m) (pOf m) (zsrcOf m)

/-- What the SparseCore call reads as z^T is z transposed. -/
theorem hzt (d : Dev nD) (b : Fin 64) (k : Fin 3) (p : Fin 128) (q : Fin 1024) :
    (ztOf m d : Vec Ideal S64x3x128x1024 .f32) (ix4 b k p q) = (zsrcOf m d : Vec Ideal S64x128x1024x3 .f32) (ix4 b p q k) := by
  have h1 : V1 m d v0' = transpose S64x3x128x1024 [0, 3, 1, 2] (V0 m d a0') transposes_S64x128x1024x3_S64x3x128x1024_0_3_1_2 :=
    StableHlo.unary_result main_arg0 main_v0 _ _ _ (V0 m d)
  show (V1 m d v0' : Vec Ideal S64x3x128x1024 .f32) (ix4 b k p q) = _
  rw [h1]
  exact Cert.KernelScore.transpose_eq _ _ b k p q

/-- The vector-subcore task with its row's lane sums named, as the launch theorem asks for it. -/
theorem tileOblV : (K (F := Ideal)).TileObl (D (F := Ideal)) 𝒱 (PPV m) v₀ 0 := by
  intro d c i O W hO _ _
  simp only [show (PPV m).ox = fun _ _ => 0 from rfl, add_zero]
  change _ ⊢ wp _ _ _ (Pipeline.liftProg (defs₀ (F := Ideal) (.scVector ((K (F := Ideal)).core 0 c) ((K (F := Ideal)).sub 0 i)) 0 ())) _
  refine BI.Entails.trans ?_ (Pipeline.wp_liftProg (D (F := Ideal)) (Pipeline.defs_kernel pcfgs defs₀) 𝒱₀ _ Set.univ none _ _)
  have hc : ((K (F := Ideal)).core 0 c).val < grid0.bound 0 ∧ ((K (F := Ideal)).sub 0 i).val < grid0.bound 1 := ⟨c.isLt, i.isLt⟩
  rw [defs₀_vector]; simp only [SparseCore.onTile, hc, and_self, ↓reduceDIte]
  exact (tile_body_val (ztOf m) (rOf m) (pOf m) (zsrcOf m) d (coordsV ⟨_, hc.1⟩ ⟨_, hc.2⟩) (hzt m) facts O W hO).trans (wp_mono frame _ _ fun _ => obl_post)

theorem hu₀V : (ownU (u₀ (F := Ideal)) : sProp 𝕄)
    ⊢ |={Set.univ}=> iprop(BI.own (EH (initOf (K (F := Ideal)).hsCells (K (F := Ideal)).hsToks)) ∗ (bigSep Finset.univ fun d : Dev nD => ghost2 (F := Ideal) d)
        ∗ bigSep Finset.univ fun thr : Thread nD τ => bigSep Finset.univ fun q : Fin 1 => (PPV m).x q thr) := by
  iintro Hu
  ihave H := (ownU_split (F := Ideal)) $$ Hu
  icases H with ⟨HH, HP⟩
  imod (fundP (F := Ideal)) $$ HP with Hg
  imodintro
  isplitl [HH]; · iexact HH
  isplitl [Hg]; · iexact Hg
  unfold PPV PV; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What @main leaves the claim: the arguments unchanged, and the four results at the epilogue region's values of
    partials whose rows add up to the first 32 entries' raw scores. -/
abbrev FINV (d : Dev nD) : sProp 𝕄 :=
  iprop(FIN m d ∗ ∃ fp : Buf (Elt Ideal) (pLoc d), ⌜∀ b : Fin 32, rowSum (rOf m) (zsrcOf m) d b fp⌝
    ∗ pt d main_v4_0 (res2_4 (V4 m d fp)) ∗ pt d main_v4_1 (res2_5 (V4 m d fp)) ∗ pt d main_v4_2 (res2_6 (V4 m d fp)) ∗ pt d main_v4_3 (res2_7 (V4 m d fp)))

set_option maxHeartbeats 2000000 in
theorem hmainV (κ : GSem nD τ sig → ℕ) (d : Dev nD) :
    iprop((K (F := Ideal)).ctx EH (PPV m) κ ∗ (K (F := Ideal)).tcSt EH d 0 ∗ (K (F := Ideal)).tcRes m ρ d ∗ ghost2 (F := Ideal) d)
      ⊢ wp frame (wpE ((K (F := Ideal)).defs (D (F := Ideal))) 𝒱 (SparseCore.T d) none) Set.univ (main d)
          fun _ => iprop((K (F := Ideal)).tcSt EH d 1 ∗ FINV m d) := by
  have hlv : ((K (F := Ideal)).ctx EH (PPV m) κ : sProp 𝕄) ⊢ levAts (K (F := Ideal)).L (K (F := Ideal)).lev := by
    unfold SparseCore.Cfg.ctx; exact sep_elim_left
  obtain ⟨R, hR⟩ := tcSt_owes (F := Ideal) d
  unfold SparseCore.Cfg.tcRes
  rw [show (unscopedBufs d (fun b => m ((SparseCore.T d).loc b)) : sProp 𝕄) = unscopedBufs d (VW (V0 m d) d) from rfl,
    unscopedBufs_eq (V0 m d) d, ghost2_split]
  simp only [main, wp_bind, wp_pure]
  iintro ⟨#Hctx, Hst, ⟨Hb, ⟨⟨Hv1, Hv2, Ha1, Hv3, Ho0, Ho1, Ho2, Ho3⟩, Ha0, Ha2, Hv0⟩, -, -⟩, ⟨Hc0, Ht0⟩, ⟨Hc1, Ht1⟩⟩
  ihave #Hlv := hlv $$ Hctx
  -- the transposition
  iapply (wp_hlo_within 𝒱 (SparseCore.T d) none Set.univ (op := opT (F := Ideal)) (S := {a0', v0'}) (show ({a0', v0'} : Finset (DevRef τ sig)) ⊆ {a0', v0'} from Finset.Subset.refl _) (V := V0 m d)) $$ [Hb Ha0 Hv0]
  · isplitl [Hb]; · iexact Hb
    rw [held2 d a0' v0' (by decide)]
    isplitl [Ha0]; · iexact Ha0
    iexact Hv0
  iintro ⟨Hb, Hheld⟩
  ihave Hh := (Entails.of_eq (held2 (F := Ideal) d a0' v0' (by decide) _)) $$ Hheld
  icases Hh with ⟨Ha0, Hv0⟩
  rw [wp_ret]; imodintro
  -- the SparseCore call: z^T, R and the partials dealt to the 32 tiles and gathered back
  ihave Hd := (deal (ztOf m) (rOf m) (pOf m) d) $$ [Hv0 Ha1 Hv1]
  · isplitl [Hv0]; · iexact Hv0
    isplitl [Ha1]; · iexact Ha1
    iexact Hv1
  icases Hd with ⟨Hzr, Hrr, Hst0⟩
  iapply ((K (F := Ideal)).wp_run (D (F := Ideal)) 𝒱 (EH := EH) (P := PPV m) κ d 0) $$ [Hst Hst0 Hb Hzr Hrr Ha0 Ha2 Hv2 Hv3 Ho0 Ho1 Ho2 Ho3 Hc0 Ht0 Hc1 Ht1]
  isplitr; · iexact Hctx
  isplitl [Hst]; · iexact Hst
  isplitl [Hst0]; · iexact Hst0
  iintro ⟨Hst, Hdn⟩
  ihave Hg := (gatherV (ztOf m) (rOf m) (pOf m) (zsrcOf m) d) $$ [Hzr Hrr Hdn]
  · isplitl [Hzr]; · iexact Hzr
    isplitl [Hrr]; · iexact Hrr
    iexact Hdn
  icases Hg with ⟨Hv0, Ha1, %fp, %hfp, Hv1⟩
  ihave Hst := (Entails.of_eq (show ((K (F := Ideal)).tcSt EH d ((0 : Fin 1).val + 1) : sProp 𝕄) = (K (F := Ideal)).tcSt EH d 1 from rfl)) $$ Hst
  ihave Hst' := (Entails.of_eq hR) $$ Hst
  icases Hst' with ⟨HO8, HR⟩
  -- the reduce region, at the contents after the call
  iapply (wp_reduce (V2 m d fp) (K (F := Ideal)).lev d _) $$ [Hb Hv1 Hv2 Ha1 Hv3 Ho0 Ho1 Ho2 Ho3 Ha0 Ha2 Hv0 HO8 Hc0 Ht0 HR Hc1 Ht1]
  isplitr [Hb Hv1 Hv2 Ha1 Hv3 Ho0 Ho1 Ho2 Ho3 Ha0 Ha2 Hv0 HO8 Hc0 Ht0]
  swap
  · isplitl [Hb]; · iexact Hb
    isplitl [Hv1 Hv2 Ha1 Hv3 Ho0 Ho1 Ho2 Ho3 Ha0 Ha2 Hv0 HO8]
    · unfold Pre1 Pre2
      rw [V2_v1, V2_v2, V2_a1, V2_v3, V2_o0, V2_o1, V2_o2, V2_o3, V2_a0, V2_a2, V2_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc0]; · iexact Hc0
    iexact Ht0
  iintro ⟨Hb, H1⟩
  icases H1 with ⟨⟨Hv1, Hv2, Ha1, Hv3, Ho0, Ho1, Ho2, Ho3⟩, ⟨Ha0, Ha2, Hv0⟩, HO8⟩
  ihave Ha0 := (pt_congr d main_arg0 (V2_a0 m d fp)) $$ Ha0
  ihave Ha1 := (pt_congr d main_arg1 (V2_a1 m d fp)) $$ Ha1
  ihave Ha2 := (pt_congr d main_arg2 (V2_a2 m d fp)) $$ Ha2
  ihave Hv0 := (pt_congr d main_v0 (V2_v0 m d fp)) $$ Hv0
  ihave Hv1 := (pt_congr d main_v1 (V2_v1 m d fp)) $$ Hv1
  ihave Hv3 := (pt_congr d main_v3 (V2_v3 m d fp)) $$ Hv3
  ihave Ho0 := (pt_congr d main_v4_0 (V2_o0 m d fp)) $$ Ho0
  ihave Ho1 := (pt_congr d main_v4_1 (V2_o1 m d fp)) $$ Ho1
  ihave Ho2 := (pt_congr d main_v4_2 (V2_o2 m d fp)) $$ Ho2
  ihave Ho3 := (pt_congr d main_v4_3 (V2_o3 m d fp)) $$ Ho3
  -- the reshape of the observation count
  iapply (wp_hlo_within 𝒱 (SparseCore.T d) none Set.univ (op := opR (F := Ideal)) (S := {a2', v3'}) (show ({a2', v3'} : Finset (DevRef τ sig)) ⊆ {a2', v3'} from Finset.Subset.refl _) (V := V3 m d fp)) $$ [Hb Ha2 Hv3]
  · isplitl [Hb]; · iexact Hb
    rw [held2 d a2' v3' (by decide), V3_a2, V3_v3]
    isplitl [Ha2]; · iexact Ha2
    iexact Hv3
  iintro ⟨Hb, Hheld⟩
  ihave Hh := (Entails.of_eq (held2 (F := Ideal) d a2' v3' (by decide) _)) $$ Hheld
  icases Hh with ⟨Ha2, Hv3⟩
  ihave Ha2 := (Entails.of_eq (show ((((d, a2') : Loc nD τ sig) ↦{fullShare} (opR (F := Ideal)).result (V3 m d fp) a2') : sProp 𝕄) = pt d main_arg2 (V4 m d fp a2') from rfl)) $$ Ha2
  ihave Ha2 := (pt_congr d main_arg2 (V4_a2 m d fp)) $$ Ha2
  rw [wp_ret]; imodintro
  -- the epilogue region, at the contents after the reshape
  iapply (wp_epilogue (V4 m d fp) (K (F := Ideal)).lev d _) $$ [Hb Hv1 Hv2 Ha1 Hv3 Ho0 Ho1 Ho2 Ho3 Ha0 Ha2 Hv0 HO8 Hc1 Ht1 HR]
  isplitr [Hb Hv1 Hv2 Ha1 Hv3 Ho0 Ho1 Ho2 Ho3 Ha0 Ha2 Hv0 HO8 Hc1 Ht1]
  swap
  · isplitl [Hb]; · iexact Hb
    isplitl [Hv1 Hv2 Ha1 Hv3 Ho0 Ho1 Ho2 Ho3 Ha0 Ha2 Hv0 HO8]
    · unfold Pre2
      rw [V4_v1, V4_v2, V4_a1, V4_o0, V4_o1, V4_o2, V4_o3, V4_a0, V4_a2, V4_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc1]; · iexact Hc1
    iexact Ht1
  iintro ⟨Hb, H2⟩
  icases H2 with ⟨⟨Hv1, Hv2, Ha1, Hv3, Ho0, Ho1, Ho2, Ho3⟩, ⟨Ha0, Ha2, Hv0⟩, HO8⟩
  ihave Ha0 := (pt_congr d main_arg0 (V4_a0 m d fp)) $$ Ha0
  ihave Ha1 := (pt_congr d main_arg1 (V4_a1 m d fp)) $$ Ha1
  ihave Ha2 := (pt_congr d main_arg2 (V4_a2 m d fp)) $$ Ha2
  imodintro
  isplitl [HO8 HR]
  · iapply (Entails.of_eq hR.symm)
    isplitl [HO8]; · iexact HO8
    iexact HR
  isplitl [Ha0 Ha1 Ha2]
  · isplitl [Ha0]; · iexact Ha0
    isplitl [Ha1]; · iexact Ha1
    iexact Ha2
  iexists fp
  isplitr; · ipureintro; exact hfp
  isplitl [Ho0]; · iexact Ho0
  isplitl [Ho1]; · iexact Ho1
  isplitl [Ho2]; · iexact Ho2
  iexact Ho3

/-- What the final memory holds, read off @main's last assertion. -/
def fqV (d : Dev nD) (s' : Phys nD τ sig (Elt Ideal)) : Prop :=
  fq m d s' ∧ ∃ fp : Buf (Elt Ideal) (pLoc d), (∀ b : Fin 32, rowSum (rOf m) (zsrcOf m) d b fp)
    ∧ s'.mem.mem ((SparseCore.T d).loc main_v4_0) = res2_4 (V4 m d fp) ∧ s'.mem.mem ((SparseCore.T d).loc main_v4_1) = res2_5 (V4 m d fp)
    ∧ s'.mem.mem ((SparseCore.T d).loc main_v4_2) = res2_6 (V4 m d fp) ∧ s'.mem.mem ((SparseCore.T d).loc main_v4_3) = res2_7 (V4 m d fp)

theorem hfinV (d : Dev nD) (s' : Phys nD τ sig (Elt Ideal)) : iprop(FINV m d ∗ SI s') ⊢ (⌜fqV m d s'⌝ : sProp 𝕄) := by
  iintro ⟨⟨⟨H0, H1, H2⟩, %fp, %hfp, Ho0, Ho1, Ho2, Ho3⟩, HSI⟩
  icombine HSI H0 gives %h0
  icombine HSI H1 gives %h1
  icombine HSI H2 gives %h2
  icombine HSI Ho0 gives %g0
  icombine HSI Ho1 gives %g1
  icombine HSI Ho2 gives %g2
  icombine HSI Ho3 gives %g3
  ipureintro
  exact ⟨⟨funext fun i => h0 i (Finset.mem_univ i), funext fun i => h1 i (Finset.mem_univ i), funext fun i => h2 i (Finset.mem_univ i)⟩,
    fp, hfp, funext fun i => g0 i (Finset.mem_univ i), funext fun i => g1 i (Finset.mem_univ i), funext fun i => g2 i (Finset.mem_univ i),
    funext fun i => g3 i (Finset.mem_univ i)⟩

/-- The four results in the final memory are the specification's functions of the launch arguments. -/
theorem results_of_fqV (d : Dev nD) (s' : Phys nD τ sig (Elt Ideal)) (h : fqV m d s') :
    s'.mem.mem ((SparseCore.T d).loc main_v4_0) = Cert.Score.raw (m ((SparseCore.T d).loc main_arg0)) (m ((SparseCore.T d).loc main_arg1))
    ∧ s'.mem.mem ((SparseCore.T d).loc main_v4_1) = Cert.Score.mu (m ((SparseCore.T d).loc main_arg1)) (m ((SparseCore.T d).loc main_arg2))
    ∧ s'.mem.mem ((SparseCore.T d).loc main_v4_2) = Cert.Score.sigma2 (m ((SparseCore.T d).loc main_arg1)) (m ((SparseCore.T d).loc main_arg2))
    ∧ s'.mem.mem ((SparseCore.T d).loc main_v4_3) = Cert.Score.obj (m ((SparseCore.T d).loc main_arg0)) (m ((SparseCore.T d).loc main_arg1)) (m ((SparseCore.T d).loc main_arg2)) := by
  obtain ⟨-, fp, hfp, e0, e1, e2, e3⟩ := h
  have hv0 : V1 m d v0' = transpose S64x3x128x1024 [0, 3, 1, 2] (V0 m d a0') transposes_S64x128x1024x3_S64x3x128x1024_0_3_1_2 :=
    StableHlo.unary_result main_arg0 main_v0 _ _ _ (V0 m d)
  have hn : sc2_3 (F := Ideal) (V4 m d fp v3') = (m (d, a2') : Cert.Score.Single) ix0 := by
    have h4 : V4 m d fp v3' = fun i => shapeCast S1 (V3 m d fp a2') shapeCasts_S_S1 i :=
      StableHlo.reshape_result main_arg2 main_v3 rfl shapeCasts_S_S1 _ _ (V3 m d fp)
    rw [h4, V3_a2]
    exact Cert.KernelScore.count_eq _ _
  have htc : ∀ i : Fin 32, (res1 (F := Ideal) (V2 m d fp)) (ix1 i) = Cert.Score.rawAt (m (d, a0')) (m (d, a1')) ⟨i.val + 32, by omega⟩ := by
    intro i
    obtain ⟨x, y, w, rv, hres, hx, hy, hw, hr⟩ := res1_apply (V2 m d fp) i
    rw [hres]
    refine Cert.KernelScore.reduce_eq (m (d, a0')) (m (d, a1')) transposes_S64x128x1024x3_S64x3x128x1024_0_3_1_2 i x y w rv ?_ ?_ ?_ ?_
    · intro p q; rw [hx p q, V2_v0, hv0]; rfl
    · intro p q; rw [hy p q, V2_v0, hv0]; rfl
    · intro p q; rw [hw p q, V2_v0, hv0]; rfl
    · rw [hr, V2_a1]
  have hres := Cert.KernelScore.results_eq (m (d, a0')) (m (d, a1')) (m (d, a2')) fp (res1 (F := Ideal) (V2 m d fp)) (V4 m d fp v3') hn (fun b => hfp b) htc
  refine ⟨e0.trans ?_, e1.trans ?_, e2.trans ?_, e3.trans ?_⟩
  · show out2_4 (F := Ideal) (V4 m d fp v1') (V4 m d fp v2') = _
    rw [V4_v1, V4_v2]; exact hres.1
  · show out2_5 (F := Ideal) (V4 m d fp a1') (V4 m d fp v3') = _
    rw [V4_a1]; exact hres.2.1
  · show out2_6 (F := Ideal) (V4 m d fp a1') (V4 m d fp v3') = _
    rw [V4_a1]; exact hres.2.2.1
  · show out2_7 (F := Ideal) (V4 m d fp v1') (V4 m d fp v2') (V4 m d fp a1') (V4 m d fp v3') = _
    rw [V4_v1, V4_v2, V4_a1]; exact hres.2.2.2

/-! ## The program's run, the results named -/

def QCV : PUnit × MemSt nD τ sig (Elt Ideal) → Prop := fun r => ∀ c : Dev nD,
  r.2.mem ((SparseCore.T c).loc main_v4_0) = Cert.Score.raw (m ((SparseCore.T c).loc main_arg0)) (m ((SparseCore.T c).loc main_arg1))
  ∧ r.2.mem ((SparseCore.T c).loc main_v4_1) = Cert.Score.mu (m ((SparseCore.T c).loc main_arg1)) (m ((SparseCore.T c).loc main_arg2))
  ∧ r.2.mem ((SparseCore.T c).loc main_v4_2) = Cert.Score.sigma2 (m ((SparseCore.T c).loc main_arg1)) (m ((SparseCore.T c).loc main_arg2))
  ∧ r.2.mem ((SparseCore.T c).loc main_v4_3) = Cert.Score.obj (m ((SparseCore.T c).loc main_arg0)) (m ((SparseCore.T c).loc main_arg1)) (m ((SparseCore.T c).loc main_arg2))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)

theorem run_mainV : θ_run (Cert.KernelIdeal.defs (F := Ideal)) (Cert.KernelIdeal.threads (F := Ideal)) ⟨m, fun _ => 0, ρ⟩ (QCV m) :=
  SparseCore.Cfg.θ_run_sc (K := K (F := Ideal)) (D := D (F := Ideal)) (𝒱 := 𝒱) (EH := EH) (P := PPV m) facts v₀
    (fun q hq => match q with | 0 => nomatch hq)
    (fun q _ => match q with | 0 => tileOblV m)
    (fun q _ => match q with | 0 => SparseCore.Cfg.VecSplit.of_plain (vecSplitV (ztOf m) (rOf m) (pOf m) (zsrcOf m)))
    m ρ main (fun d => ghost2 (F := Ideal) d) (FINV m) (u₀ (F := Ideal)) (sep_elim_left.trans (hu₀V m)) (hmainV m ρ) (fqV m) (hfinV m) (QCV m)
    (fun s' h c => by
      obtain ⟨r0, r1, r2, r3⟩ := results_of_fqV m c s' (h c)
      exact ⟨r0, r1, r2, r3, (h c).1.1, (h c).1.2.1, (h c).1.2.2⟩)

end Cert.KernelIdeal.Sc

end
-- ==== Proof.Bits.ScBase.lean ====
/-
  The kernel's program as the SparseCore launch theorem sees it: the SparseCore configuration, the kernels'
  body table under the two TensorCore pipelines, the variants (none) and the configuration's side facts. Shared by the
  modules that prove the vector-subcore task, the two TensorCore regions and @main.
-/
import proofs.«217460_g7679401525743_retrytranche1_990_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217460_g7679401525743_retrytranche1_990_34_alg».proof.Proof.Gen.Kernel

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels under the SparseCore call: the kernels' own and the two TensorCore pipelines'. -/
abbrev ΛP : Labels := Pipeline.Sig Λ₀ (Fin 2) fun p => (pcfgs (F := F) p).Adm
/-- The one SparseCore call of @main. -/
abbrev K : SparseCore.Cfg τ sig (ΛP (F := F)) 1 := sc (F := F)
theorem nCore_zero : (K (F := F)).nCore 0 = 2 := rfl
theorem nSub_zero : (K (F := F)).nSub 0 = 16 := rfl
/-- The body table under the call: each pallas_call's region and pipeline over the kernels' functions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library. -/
abbrev UH : Type := URounds (GSem nD τ sig) ℕ

end Cert.Kernel.Sc

end
-- ==== Proof.Bits.TcGhost.lean ====
/-
  The ghost state of the two TensorCore pipelines inside the SparseCore program: the resource algebra with a copy of
  the rounds library for the staging cells (duties unnamed) beside the handshakes' rounds and the transfers' counters,
  the embeddings of the two rounds libraries, the staging cells' launch element, and how owning the certificate's
  launch element yields the handshakes' element and, after an update, each device's staging-cell ghost state and duty
  tokens for both pipelines.
-/
import proofs.«217460_g7679401525743_retrytranche1_990_34_alg».proof.Proof.Bits.ScBase
import proofs.«217460_g7679401525743_retrytranche1_990_34_alg».proof.Proof.Gen.Kernel.Launch
import proofs.«217460_g7679401525743_retrytranche1_990_34_alg».proof.Proof.Gen.Kernel.Points
import Idealize.ShloMosaic.Lib.Pipeline.Regions

noncomputable section

namespace Cert.Kernel.Sc

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The staging cells' rounds library: one round per transfer through a staging buffer, duties unnamed. -/
abbrev UP : Type := URounds (GSem nD τ sig) Unit
/-- The certificate's resource algebra: the handshakes' rounds, the staging cells' rounds, the transfers' counters
    (rightmost, where the transfer rules find them by instance). -/
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left factor of the right factor. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := inferInstance
instance EH_landsIn : (EH (F := F)).LandsIn (upEmb : UEmb _ (MT nD τ sig (HIx 1) (Elt F) ℕ UU ℕ)) := inferInstance

/-- Neither pallas_call has a prefetched table: the admissible contents are the empty ones. -/
abbrev adm : (p : Fin 2) → (pcfgs (F := F) p).Adm := fun p => (cfgs p).toPCfg_adm

/-- The two pipelines' staging cells are pairwise distinct. -/
theorem phinj : Function.Injective (Pipeline.cellOf (nD := nD) (τ := τ) (Pipeline.pin (pcfgs (F := F)) adm)) := cellOf_inj

/-- The staging cells' launch element: every staging cell of both pipelines on every device at its launch state, with
    one duty token per transfer the pipelines' loops issue. -/
def uP : UP := initOf (Pipeline.cells (Pipeline.pin (pcfgs (F := F)) adm) phinj) (Pipeline.launchToks (Pipeline.pin (pcfgs (F := F)) adm) phinj)

/-- Both pipelines' staging-cell ghost state and duty tokens on device `d`: what a region's entry allocates its cells'
    invariants from. -/
abbrev ghost2 (d : Dev nD) : sProp 𝕄 := Pipeline.ghostOn (pcfgs (F := F)) adm EP Finset.univ d

theorem ghost2_eq (d : Dev nD) : (ghost2 (F := F) d : sProp 𝕄)
    = bigSep Finset.univ fun p : Fin 2 => iprop(Pipeline.cellsGhost (Pipeline.pin (pcfgs (F := F)) adm) EP p d ∗ Pipeline.toksInit (Pipeline.pin (pcfgs (F := F)) adm) EP p d) := rfl

/-- The staging cells' launch element funds every device's ghost state for both pipelines. -/
theorem fundP : (BI.own (EP (F := F) (uP (F := F))) : sProp 𝕄) ⊢ iprop(|==> bigSep Finset.univ fun d : Dev nD => ghost2 (F := F) d) := by
  unfold uP
  iintro Hu
  imod (Pipeline.fund_ghost (Pipeline.pin (pcfgs (F := F)) adm) (EP (F := F)) phinj) $$ Hu with ⟨Hg, Ht⟩
  imodintro
  simp only [ghost2_eq, bigSep_sep']
  isplitl [Hg]
  · iexact Hg
  · iexact Ht

/-- The certificate's launch element: the handshakes' rounds at their launch state, the staging cells' at theirs, no
    transfer counted. -/
def u₀ : UU := (initOf (K (F := F)).hsCells (K (F := F)).hsToks, (uP (F := F), 1))

/-- Owning the launch element is owning the handshakes' element and the staging cells'. -/
theorem ownU_split : (ownU (u₀ (F := F)) : sProp 𝕄) ⊢ iprop(BI.own (EH (initOf (K (F := F)).hsCells (K (F := F)).hsToks)) ∗ BI.own (EP (F := F) (uP (F := F)))) := by
  unfold u₀
  iintro Hu
  ihave H := (ownU_pair _ _) $$ Hu
  icases H with ⟨HH, HR⟩
  isplitl [HH]; · iexact HH
  ihave H2 := (own_pair_emb (embR : Emb (UP × Counters) (MT nD τ sig (HIx 1) (Elt F) ℕ UU ℕ)) _ _) $$ HR
  icases H2 with ⟨HP, -⟩
  iexact HP

end Cert.Kernel.Sc

end
-- ==== Proof.Bits.ScTile.lean ====
/-
  The vector-subcore task of the one SparseCore call. Tile (c, s) of the 2 × 16 grid works on batch entry b = 2·s + c:
  it copies R into a scratch, reads R_b sixteen-fold, streams the three coordinate planes of z^T[b] through a ring of
  three 8×1024 slots (three copies per slot on the slot's own semaphore, all three waited for before the slot is read),
  adds the thresholded weights lane by lane into four accumulators, and writes their sum to row b of the partials.
  Every semaphore is the tile's own and is waited on by the tile that started the copies: no thread signals another.
  What the call hands a tile: a read share of z^T and of R (every tile reads them, none writes), and row b of the
  partials array whole.
-/
import proofs.«217460_g7679401525743_retrytranche1_990_34_alg».proof.Proof.Bits.TcGhost
import proofs.«217460_g7679401525743_retrytranche1_990_34_alg».proof.Proof.Gen.Kernel.Skeleton
import Idealize.ShloMosaic.Lib.Batch

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 1) (Elt F) ℕ UU ℕ

/-! ## The arrays -/

abbrev zLoc (d : Dev nD) : Loc nD τ sig := (SparseCore.T d).loc main_v0
abbrev rLoc (d : Dev nD) : Loc nD τ sig := (SparseCore.T d).loc main_arg1
abbrev pLoc (d : Dev nD) : Loc nD τ sig := (SparseCore.T d).loc main_v1

/-- The batch entry of tile (c, s). -/
abbrev entryOf (c s : ℕ) : ℕ := 2 * s + c

theorem hdiv : 32 ∣ S32x16.size 0 := ⟨1, rfl⟩
/-- Row b of the 32 × 16 partials array. -/
abbrev prow (b : Fin 32) : Rect S32x16 := Rect.part (s := S32x16) (a₀ := 0) hdiv b
abbrev prowSet (b : Fin 32) : Finset S32x16.Idx := ((Memref.whole main_v1_scv : Memref sig .scVector .hbm S32x16 .f32).view.slice (prow b)).set

theorem entry_lt {c s : ℕ} (hc : c < 2) (hs : s < 16) : entryOf c s < 32 := by unfold entryOf; omega

variable (zt : (d : Dev nD) → Buf (Elt F) (zLoc d)) (r : (d : Dev nD) → Buf (Elt F) (rLoc d)) (p₀ : (d : Dev nD) → Buf (Elt F) (pLoc d))

/-- What tile number b is handed: its read shares of z^T and R, and row b of the partials at the launch contents. -/
def goRes (d : Dev nD) (b : Fin 32) : sProp 𝕄 :=
  iprop((zLoc d ↦{shareTokN fullShare b.val} zt d) ∗ (rLoc d ↦{shareTokN fullShare b.val} r d) ∗ (pLoc d ↦[prowSet b]{fullShare} p₀ d))
/-- What it hands back: the shares, and row b at what it wrote. -/
def tdRes (d : Dev nD) (b : Fin 32) : sProp 𝕄 :=
  iprop((zLoc d ↦{shareTokN fullShare b.val} zt d) ∗ (rLoc d ↦{shareTokN fullShare b.val} r d) ∗ ∃ f, pLoc d ↦[prowSet b]{fullShare} f)

instance goRes_storable (d : Dev nD) (b : Fin 32) : BI.Storable (upEmb : UEmb _ 𝕄) (goRes zt r p₀ d b) := by unfold goRes; infer_instance
instance tdRes_storable (d : Dev nD) (b : Fin 32) : BI.Storable (upEmb : UEmb _ 𝕄) (tdRes zt r d b) := by unfold tdRes; infer_instance

/-- The entry of tile (c, i) of the call's grid, as an index of the partials' rows. -/
def entryFin (c : Fin ((K (F := F)).nCore 0)) (i : Fin ((K (F := F)).nSub 0)) : Fin 32 :=
  ⟨entryOf c.val i.val, entry_lt (Fin.cast nCore_zero c).isLt (Fin.cast nSub_zero i).isLt⟩

/-- The call's payloads: a SparseCore is handed exactly what its sixteen tiles are, and hands back what they do. -/
def P : (K (F := F)).Pay (nD := nD) (Val := Elt F) (Name := ℕ) (U := UU) where
  st := fun q d c => match q with | 0 => bigSep Finset.univ fun i : Fin ((K (F := F)).nSub 0) => goRes zt r p₀ d (entryFin c i)
  dn := fun q d c => match q with | 0 => bigSep Finset.univ fun i : Fin ((K (F := F)).nSub 0) => tdRes zt r d (entryFin c i)
  go := fun q d c i => match q with | 0 => goRes zt r p₀ d (entryFin c i)
  td := fun q d c i => match q with | 0 => tdRes zt r d (entryFin c i)
  x := fun _ _ => iprop(emp)

instance P_storable : (P (F := F) zt r p₀).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

/-- A SparseCore's operands ARE its tiles' and its results theirs. -/
theorem vecSplit : (K (F := F)).VecSplit' (P zt r p₀) 0 := by
  intro d c
  show (bigSep Finset.univ fun i : Fin ((K (F := F)).nSub 0) => goRes zt r p₀ d (entryFin c i))
    ⊢ |={Set.univ}=> iprop((bigSep Finset.univ fun i : Fin ((K (F := F)).nSub 0) => goRes zt r p₀ d (entryFin c i))
      ∗ ((bigSep Finset.univ fun i : Fin ((K (F := F)).nSub 0) => tdRes zt r d (entryFin c i))
        -∗ (bigSep Finset.univ fun i : Fin ((K (F := F)).nSub 0) => tdRes zt r d (entryFin c i))))
  iintro Hst
  imodintro
  isplitl [Hst]; · iexact Hst
  iintro Htd; iexact Htd

/-! ## The task -/

section Tile

variable [FloatOps F] (d : Dev nD) (L : grid0.Coords)

abbrev cV (L : grid0.Coords) : Fin τ.nSC := (L 0).castLE hcore0
abbrev jV (L : grid0.Coords) : Fin τ.nSub := (L 1).castLE hsub0
/-- The entry of the tile at grid coordinates L. -/
def entryL (L : grid0.Coords) : Fin 32 := ⟨entryOf (L 0).val (L 1).val, entry_lt (L 0).isLt (L 1).isLt⟩

-- the kernel's memrefs, spelt as the body table passes them
local notation "zW" => (Memref.whole Cert.Kernel.main_v0_scv : Memref Cert.Kernel.sig Kind.scVector Space.hbm Cert.Kernel.S64x3x128x1024 EltTy.f32)
local notation "rW" => (Memref.whole Cert.Kernel.main_arg1_scv : Memref Cert.Kernel.sig Kind.scVector Space.hbm Cert.Kernel.S64 EltTy.f32)
local notation "pW" => (Memref.whole Cert.Kernel.main_v1_scv : Memref Cert.Kernel.sig Kind.scVector Space.hbm Cert.Kernel.S32x16 EltTy.f32)

/-- The tile's eleven scratch buffers: R's copy, the ring's nine 8 × 1024 slots, the 16-lane staging of the result. -/
abbrev scr : Fin 11 → Ref sig .scVector :=
  ![cc0_scratch0, cc0_scratch1, cc0_scratch2, cc0_scratch3, cc0_scratch4, cc0_scratch5, cc0_scratch6, cc0_scratch7, cc0_scratch8, cc0_scratch9, cc0_scratch10]
theorem scr_inj : Function.Injective scr := by decide
/-- The tile's five DMA semaphores: the ring's three, and the two copies' at either end. -/
abbrev sms : Fin 5 → DmaSem sig := ![cc0_scratch11.sem, cc0_scratch12.sem, cc0_scratch13.sem, cc0_scoped0.sem, cc0_scoped1.sem]
theorem sms_inj : Function.Injective sms := by decide
theorem sms_scoped : ∀ k, (SemLoc.dma (sms k) : SemLoc sig).isScoped .scVector = true := by decide

abbrev cellOf (d : Dev nD) (c : Fin τ.nSC) (j : Fin τ.nSub) (k : Fin 5) : GSem nD τ sig := (V d c j, .dma (sms k))

omit [FloatOps F] in
/-- The tile's own buffers are its eleven scratch buffers, each at some contents, and the rest. -/
theorem ownBufs_V (d : Dev nD) (c : Fin τ.nSC) (j : Fin τ.nSub) :
    (ownBufs (V d c j) : sProp 𝕄)
      = iprop((bigSep Finset.univ fun k : Fin 11 => iprop(∃ f, (V d c j).loc (scr k) ↦{fullShare} f))
          ∗ bigSep (ownRefs (τ := τ) (sig := sig) (.scVector c j) \ Finset.univ.image fun k : Fin 11 => (Proc.scVector c j).devRef (scr k))
              fun b => iprop(∃ f, ((d, b) : Loc nD τ sig) ↦{fullShare} f)) := by
  unfold SparseCore.Cfg.ownBufs
  rw [SparseCore.bigSep_sdiff_split' (t := Finset.univ.image fun k : Fin 11 => (Proc.scVector c j).devRef (scr k)) (fun b hb => by
      obtain ⟨k, -, rfl⟩ := Finset.mem_image.mp hb
      fin_cases k <;> exact SparseCore.Cfg.mem_ownRefs_of_owner (p := Proc.scVector c j) rfl),
    SparseCore.bigSep_image_of_injOn (fun a _ b _ e => scr_inj (Proc.devRef_injective _ e))]

omit [FloatOps F] in
/-- The tile's own semaphores at zero are its five DMA semaphores' and the rest. -/
theorem ownSems0_V (d : Dev nD) (c : Fin τ.nSC) (j : Fin τ.nSub) :
    (ownSems0 (V d c j) : sProp 𝕄)
      = iprop((bigSep Finset.univ fun k : Fin 5 => semVal (cellOf d c j k) 0)
          ∗ bigSep (ownCells (V d c j) \ Finset.univ.image (cellOf d c j)) fun g => semVal g 0) := by
  unfold SparseCore.Cfg.ownSems0
  rw [SparseCore.bigSep_sdiff_split' (t := Finset.univ.image (cellOf d c j)) (fun g hg => by
      obtain ⟨k, -, rfl⟩ := Finset.mem_image.mp hg
      exact (mem_ownCells (g := cellOf d c j k)).mpr ⟨rfl, sms_scoped k⟩),
    SparseCore.bigSep_image_of_injOn (fun a _ b _ e => sms_inj (by
      have := congrArg Prod.snd e; simpa [cellOf] using this))]

omit [FloatOps F] in
theorem bigSep_fin5 (Φ : Fin 5 → sProp 𝕄) : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]
omit [FloatOps F] in
theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

omit [FloatOps F] in
/-- The gathered index is the tile's entry, sixteen-fold, and names an element of R's 64. -/
theorem chk1 : ∀ L : grid0.Coords, k0_chk1 (broadcast S16 (Scalar.addi (Scalar.muli (BitVec.ofNat 32 (L 1).val) 2#32) (BitVec.ofNat 32 (L 0).val))) := by
  decide +kernel

omit [FloatOps F] in
/-- The arrays as a tile's memrefs address them are the TensorCore's arrays. -/
theorem pts_z (c : Fin τ.nSC) (j : Fin τ.nSub) (q : PosShare TreeShare) (f : Buf (Elt F) (zLoc d)) :
    ((zW).view.loc (V d c j) ↦{q} f : sProp 𝕄) = zLoc d ↦{q} f := by
  simp only [Memref.view_whole, View.set_whole]
omit [FloatOps F] in
theorem pts_r (c : Fin τ.nSC) (j : Fin τ.nSub) (q : PosShare TreeShare) (f : Buf (Elt F) (rLoc d)) :
    ((rW).view.loc (V d c j) ↦{q} f : sProp 𝕄) = rLoc d ↦{q} f := by
  simp only [Memref.view_whole, View.set_whole]

/-- Row b of the partials as the tile slices it for its copy out. -/
abbrev pRowK (L : grid0.Coords) : Memref sig .scVector .hbm S16 .f32 :=
  ((pW).slice (Rect.unit (s := S32x16) (k0_off65 L) S1x16.size (k0_off65_inb L)) (fun _ => rfl)).squeeze S16 squeezes_S1x16_S16

omit [FloatOps F] in
theorem pRect_eq : Rect.unit (s := S32x16) (k0_off65 L) S1x16.size (k0_off65_inb L) = prow (entryL L) := by
  unfold prow Rect.part Rect.block
  congr 1 <;> funext a
  · rw [k0_off65_eq]
    match a with
    | 0 => simp [Shape.partIx, Shape.partSize, entryL, entryOf]
    | 1 => simp [Shape.partIx, Shape.partSize]
  · match a with
    | 0 => simp [Shape.partSize]
    | 1 => simp [Shape.partSize]

omit [FloatOps F] in
theorem set_pRowK : (pRowK L).view.set = prowSet (entryL L) := by
  show (((pW).view.slice (Rect.unit (s := S32x16) (k0_off65 L) S1x16.size (k0_off65_inb L))).reshape S16 squeezes_S1x16_S16.numel_eq).set
    = ((pW).view.slice (prow (entryL L))).set
  rw [View.set_reshape]
  exact pRect_eq L ▸ rfl

omit [FloatOps F] in
theorem pts_pRowK (f : Buf (Elt F) (pLoc d)) :
    ((pRowK L).view.loc (V d (cV L) (jV L)) ↦[(pRowK L).view.set]{fullShare} f : sProp 𝕄) = pLoc d ↦[prowSet (entryL L)]{fullShare} f := by
  rw [set_pRowK]

omit [FloatOps F] in
/-- Every wait the tile records beyond W is at the kernels' own index. -/
theorem wb_base (W : Waits sig (HIx 1)) : ∀ p ∈ W, p ∈ W ∨ p.2 = none := fun _ hp => .inl hp
omit [FloatOps F] in
theorem wb_insert {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

omit [FloatOps F] in
/-- What a chunk's loop nest holds at every trip, whatever the accumulators: the slot's three buffers, which it only reads. -/
def slotInv {σ : Type} (d : Dev nD) (c : Fin τ.nSC) (j : Fin τ.nSub) (a b e : Ref sig .scVector) (_ : Nat) (_ : σ) : sProp 𝕄 :=
  iprop((∃ f, (Memref.whole a).view.loc (V d c j) ↦{fullShare} f) ∗ (∃ f, (Memref.whole b).view.loc (V d c j) ↦{fullShare} f)
    ∗ ∃ f, (Memref.whole e).view.loc (V d c j) ↦{fullShare} f)

set_option maxHeartbeats 8000000 in
/-- The task on vector subcore (L 0, L 1) of device d. -/
theorem tile_body (hF : (K (F := F)).Facts) (O : CellTallies nD τ sig (HIx 1)) (W : Waits sig (HIx 1)) (hO : ∀ g, O g none = 0) :
    iprop(levAts (K (F := F)).L (K (F := F)).lev ∗ emp ∗ goRes zt r p₀ d (entryL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_partials_kernel L zW (Memref.isWhole_whole _) rW (Memref.isWhole_whole _) pW (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) cc0_scratch11 cc0_scratch12 cc0_scratch13 cc0_scoped0 cc0_scoped1)
          fun _ => iprop(tdRes zt r d (entryL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_partials_kernel_eq_skeleton]; unfold cc0__sc_partials_kernel_skel
  rw [(K (F := F)).scopedBufs_V hF d (cV L) (jV L), SparseCore.Cfg.scopedSems0_V (Val := Elt F) d (cV L) (jV L), ownSems0_V, ownBufs_V]
  rw [bigSep_fin5, bigSep_fin11]
  unfold goRes
  iintro ⟨#Hlv, -, ⟨Hz, Hr, Hp⟩, ⟨⟨⟨%f0, Hb0⟩, ⟨%f1, Hb1⟩, ⟨%f2, Hb2⟩, ⟨%f3, Hb3⟩, ⟨%f4, Hb4⟩, ⟨%f5, Hb5⟩, ⟨%f6, Hb6⟩, ⟨%f7, Hb7⟩, ⟨%f8, Hb8⟩, ⟨%f9, Hb9⟩, ⟨%f10, Hb10⟩⟩, Hbufs⟩,
    ⟨⟨Hs0, Hs1, Hs2, Hs3, Hs4⟩, Hsems⟩, HO⟩
  ihave Hmw := ((K (F := F)).mayWaits_none (thr := V d (cV L) (jV L)) hO) $$ Hlv
  ihave Hb0 := (Entails.of_eq (show ((V d (cV L) (jV L)).loc (scr 0) ↦{fullShare} f0 : sProp 𝕄) = ((Memref.whole cc0_scratch0 : Memref sig .scVector .vmem _ .f32).view.loc (V d (cV L) (jV L)) ↦{fullShare} f0) from rfl)) $$ Hb0
  ihave Hb1 := (Entails.of_eq (show ((V d (cV L) (jV L)).loc (scr 1) ↦{fullShare} f1 : sProp 𝕄) = ((Memref.whole cc0_scratch1 : Memref sig .scVector .vmem _ .f32).view.loc (V d (cV L) (jV L)) ↦{fullShare} f1) from rfl)) $$ Hb1
  ihave Hb2 := (Entails.of_eq (show ((V d (cV L) (jV L)).loc (scr 2) ↦{fullShare} f2 : sProp 𝕄) = ((Memref.whole cc0_scratch2 : Memref sig .scVector .vmem _ .f32).view.loc (V d (cV L) (jV L)) ↦{fullShare} f2) from rfl)) $$ Hb2
  ihave Hb3 := (Entails.of_eq (show ((V d (cV L) (jV L)).loc (scr 3) ↦{fullShare} f3 : sProp 𝕄) = ((Memref.whole cc0_scratch3 : Memref sig .scVector .vmem _ .f32).view.loc (V d (cV L) (jV L)) ↦{fullShare} f3) from rfl)) $$ Hb3
  ihave Hb4 := (Entails.of_eq (show ((V d (cV L) (jV L)).loc (scr 4) ↦{fullShare} f4 : sProp 𝕄) = ((Memref.whole cc0_scratch4 : Memref sig .scVector .vmem _ .f32).view.loc (V d (cV L) (jV L)) ↦{fullShare} f4) from rfl)) $$ Hb4
  ihave Hb5 := (Entails.of_eq (show ((V d (cV L) (jV L)).loc (scr 5) ↦{fullShare} f5 : sProp 𝕄) = ((Memref.whole cc0_scratch5 : Memref sig .scVector .vmem _ .f32).view.loc (V d (cV L) (jV L)) ↦{fullShare} f5) from rfl)) $$ Hb5
  ihave Hb6 := (Entails.of_eq (show ((V d (cV L) (jV L)).loc (scr 6) ↦{fullShare} f6 : sProp 𝕄) = ((Memref.whole cc0_scratch6 : Memref sig .scVector .vmem _ .f32).view.loc (V d (cV L) (jV L)) ↦{fullShare} f6) from rfl)) $$ Hb6
  ihave Hb7 := (Entails.of_eq (show ((V d (cV L) (jV L)).loc (scr 7) ↦{fullShare} f7 : sProp 𝕄) = ((Memref.whole cc0_scratch7 : Memref sig .scVector .vmem _ .f32).view.loc (V d (cV L) (jV L)) ↦{fullShare} f7) from rfl)) $$ Hb7
  ihave Hb8 := (Entails.of_eq (show ((V d (cV L) (jV L)).loc (scr 8) ↦{fullShare} f8 : sProp 𝕄) = ((Memref.whole cc0_scratch8 : Memref sig .scVector .vmem _ .f32).view.loc (V d (cV L) (jV L)) ↦{fullShare} f8) from rfl)) $$ Hb8
  ihave Hb9 := (Entails.of_eq (show ((V d (cV L) (jV L)).loc (scr 9) ↦{fullShare} f9 : sProp 𝕄) = ((Memref.whole cc0_scratch9 : Memref sig .scVector .vmem _ .f32).view.loc (V d (cV L) (jV L)) ↦{fullShare} f9) from rfl)) $$ Hb9
  ihave Hb10 := (Entails.of_eq (show ((V d (cV L) (jV L)).loc (scr 10) ↦{fullShare} f10 : sProp 𝕄) = ((Memref.whole cc0_scratch10 : Memref sig .scVector .vmem _ .f32).view.loc (V d (cV L) (jV L)) ↦{fullShare} f10) from rfl)) $$ Hb10
  ihave Hs0 := (Entails.of_eq (show (semVal (cellOf d (cV L) (jV L) 0) 0 : sProp 𝕄) = semVal (V d (cV L) (jV L), SemLoc.dma cc0_scratch11.sem) 0 from rfl)) $$ Hs0
  ihave Hs1 := (Entails.of_eq (show (semVal (cellOf d (cV L) (jV L) 1) 0 : sProp 𝕄) = semVal (V d (cV L) (jV L), SemLoc.dma cc0_scratch12.sem) 0 from rfl)) $$ Hs1
  ihave Hs2 := (Entails.of_eq (show (semVal (cellOf d (cV L) (jV L) 2) 0 : sProp 𝕄) = semVal (V d (cV L) (jV L), SemLoc.dma cc0_scratch13.sem) 0 from rfl)) $$ Hs2
  ihave Hs3 := (Entails.of_eq (show (semVal (cellOf d (cV L) (jV L) 3) 0 : sProp 𝕄) = semVal (V d (cV L) (jV L), SemLoc.dma cc0_scoped0.sem) 0 from rfl)) $$ Hs3
  ihave Hs4 := (Entails.of_eq (show (semVal (cellOf d (cV L) (jV L) 4) 0 : sProp 𝕄) = semVal (V d (cV L) (jV L), SemLoc.dma cc0_scoped1.sem) 0 from rfl)) $$ Hs4
  ihave Hz := (Entails.of_eq (pts_z (F := F) d (cV L) (jV L) _ _).symm) $$ Hz
  -- nine copies may read z^T at once: the tile's share of it as nine read tokens and the remainder
  ihave Hz := (Transfers.pointsTo_toks_split (shareTokN fullShare (entryL L).val) 9) $$ Hz
  rw [bigSep_fin9]
  icases Hz with ⟨Hzr, Hz0, Hz1, Hz2, Hz3, Hz4, Hz5, Hz6, Hz7, Hz8⟩
  ihave Hr := (Entails.of_eq (pts_r (F := F) d (cV L) (jV L) _ _).symm) $$ Hr
  ihave Hp := (Entails.of_eq (pts_pRowK (F := F) d L _).symm) $$ Hp
  have hchk := chk1 L
  have hB0 : Transfers.BatchOf (V d (cV L) (jV L)) (SemLoc.dma cc0_scratch11.sem) 3 := trivial
  have hB1 : Transfers.BatchOf (V d (cV L) (jV L)) (SemLoc.dma cc0_scratch12.sem) 3 := trivial
  have hB2 : Transfers.BatchOf (V d (cV L) (jV L)) (SemLoc.dma cc0_scratch13.sem) 3 := trivial
  sl_exec_parts
  -- the gather of R's entry, sixteen-fold: a load of the whole scratch
  ihave Hb0 := (Entails.of_eq (show ((Memref.whole cc0_scratch0 : Memref sig .scVector .vmem S64 .f32).view.loc (V d (cV L) (jV L)) ↦{fullShare} _ : sProp 𝕄)
    = (((Memref.whole cc0_scratch0 : Memref sig .scVector .vmem S64 .f32).access (.whole S64)).loc (V d (cV L) (jV L)) ↦{fullShare} _) from rfl)) $$ Hb0
  iapply (SparseCore.wp_vectorLoadIdx 𝒱₀ (V d (cV L) (jV L)) none Set.univ (base := (Memref.whole cc0_scratch0 : Memref sig .scVector .vmem S64 .f32))
    (S := Finset.univ) (q := fullShare) (Finset.subset_univ _)) $$ Hb0
  iintro Hb0
  sl_exec_parts
  -- chunk 0 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc0 HI
  unfold slotInv
  icases HI with ⟨⟨%g0a, Hb1⟩, ⟨%g0b, Hb2⟩, ⟨%g0c, Hb3⟩⟩
  sl_exec_parts
  -- chunk 1 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc1 HI
  unfold slotInv
  icases HI with ⟨⟨%g1a, Hb4⟩, ⟨%g1b, Hb5⟩, ⟨%g1c, Hb6⟩⟩
  sl_exec_parts
  -- chunk 2 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc2 HI
  unfold slotInv
  icases HI with ⟨⟨%g2a, Hb7⟩, ⟨%g2b, Hb8⟩, ⟨%g2c, Hb9⟩⟩
  sl_exec_parts
  -- chunk 3 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc3 HI
  unfold slotInv
  icases HI with ⟨⟨%g3a, Hb1⟩, ⟨%g3b, Hb2⟩, ⟨%g3c, Hb3⟩⟩
  sl_exec_parts
  -- chunk 4 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc4 HI
  unfold slotInv
  icases HI with ⟨⟨%g4a, Hb4⟩, ⟨%g4b, Hb5⟩, ⟨%g4c, Hb6⟩⟩
  sl_exec_parts
  -- chunk 5 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc5 HI
  unfold slotInv
  icases HI with ⟨⟨%g5a, Hb7⟩, ⟨%g5b, Hb8⟩, ⟨%g5c, Hb9⟩⟩
  sl_exec_parts
  -- chunk 6 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc6 HI
  unfold slotInv
  icases HI with ⟨⟨%g6a, Hb1⟩, ⟨%g6b, Hb2⟩, ⟨%g6c, Hb3⟩⟩
  sl_exec_parts
  -- chunk 7 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc7 HI
  unfold slotInv
  icases HI with ⟨⟨%g7a, Hb4⟩, ⟨%g7b, Hb5⟩, ⟨%g7c, Hb6⟩⟩
  sl_exec_parts
  -- chunk 8 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc8 HI
  unfold slotInv
  icases HI with ⟨⟨%g8a, Hb7⟩, ⟨%g8b, Hb8⟩, ⟨%g8c, Hb9⟩⟩
  sl_exec_parts
  -- chunk 9 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc9 HI
  unfold slotInv
  icases HI with ⟨⟨%g9a, Hb1⟩, ⟨%g9b, Hb2⟩, ⟨%g9c, Hb3⟩⟩
  sl_exec_parts
  -- chunk 10 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc10 HI
  unfold slotInv
  icases HI with ⟨⟨%g10a, Hb4⟩, ⟨%g10b, Hb5⟩, ⟨%g10c, Hb6⟩⟩
  sl_exec_parts
  -- chunk 11 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc11 HI
  unfold slotInv
  icases HI with ⟨⟨%g11a, Hb7⟩, ⟨%g11b, Hb8⟩, ⟨%g11c, Hb9⟩⟩
  sl_exec_parts
  -- chunk 12 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc12 HI
  unfold slotInv
  icases HI with ⟨⟨%g12a, Hb1⟩, ⟨%g12b, Hb2⟩, ⟨%g12c, Hb3⟩⟩
  sl_exec_parts
  -- chunk 13 (slot 1): eight rows, eight column groups each; the slot's buffers are only read
  sl_for (slotInv d (cV L) (jV L) cc0_scratch4 cc0_scratch5 cc0_scratch6) $$ [Hb4 Hb5 Hb6]
  case region =>
    intro k acc
    unfold slotInv
    iintro ⟨⟨%fa, Ha⟩, ⟨%fb, Hb⟩, ⟨%fc, Hc⟩⟩
    sl_exec
    sl_for (slotInv d (cV L) (jV L) cc0_scratch4 cc0_scratch5 cc0_scratch6) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb4]; · iexists _; iexact Hb4
    isplitl [Hb5]; · iexists _; iexact Hb5
    iexists _; iexact Hb6
  iintro %acc13 HI
  unfold slotInv
  icases HI with ⟨⟨%g13a, Hb4⟩, ⟨%g13b, Hb5⟩, ⟨%g13c, Hb6⟩⟩
  sl_exec_parts
  -- chunk 14 (slot 2): eight rows, eight column groups each; the slot's buffers are only read
  sl_for (slotInv d (cV L) (jV L) cc0_scratch7 cc0_scratch8 cc0_scratch9) $$ [Hb7 Hb8 Hb9]
  case region =>
    intro k acc
    unfold slotInv
    iintro ⟨⟨%fa, Ha⟩, ⟨%fb, Hb⟩, ⟨%fc, Hc⟩⟩
    sl_exec
    sl_for (slotInv d (cV L) (jV L) cc0_scratch7 cc0_scratch8 cc0_scratch9) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb7]; · iexists _; iexact Hb7
    isplitl [Hb8]; · iexists _; iexact Hb8
    iexists _; iexact Hb9
  iintro %acc14 HI
  unfold slotInv
  icases HI with ⟨⟨%g14a, Hb7⟩, ⟨%g14b, Hb8⟩, ⟨%g14c, Hb9⟩⟩
  sl_exec_parts
  -- chunk 15 (slot 0): eight rows, eight column groups each; the slot's buffers are only read
  sl_for (slotInv d (cV L) (jV L) cc0_scratch1 cc0_scratch2 cc0_scratch3) $$ [Hb1 Hb2 Hb3]
  case region =>
    intro k acc
    unfold slotInv
    iintro ⟨⟨%fa, Ha⟩, ⟨%fb, Hb⟩, ⟨%fc, Hc⟩⟩
    sl_exec
    sl_for (slotInv d (cV L) (jV L) cc0_scratch1 cc0_scratch2 cc0_scratch3) $$ [Ha Hb Hc]
    case region =>
      intro k2 acc2
      unfold slotInv
      iintro ⟨⟨%ga, Ha⟩, ⟨%gb, Hb⟩, ⟨%gc, Hc⟩⟩
      sl_exec_parts
      sl_step
      isplitl [Ha]; · iexists _; iexact Ha
      isplitl [Hb]; · iexists _; iexact Hb
      iexists _; iexact Hc
    · unfold slotInv
      isplitl [Ha]; · iexists _; iexact Ha
      isplitl [Hb]; · iexists _; iexact Hb
      iexists _; iexact Hc
    iintro %acc' HI
    unfold slotInv
    icases HI with ⟨⟨%ga, Ha⟩, ⟨%gb, Hb⟩, ⟨%gc, Hc⟩⟩
    sl_exec
    sl_step
    isplitl [Ha]; · iexists _; iexact Ha
    isplitl [Hb]; · iexists _; iexact Hb
    iexists _; iexact Hc
  · unfold slotInv
    isplitl [Hb1]; · iexists _; iexact Hb1
    isplitl [Hb2]; · iexists _; iexact Hb2
    iexists _; iexact Hb3
  iintro %acc15 HI
  unfold slotInv
  icases HI with ⟨⟨%g15a, Hb1⟩, ⟨%g15b, Hb2⟩, ⟨%g15c, Hb3⟩⟩
  sl_exec_parts
  sl_step
  unfold tdRes
  isplitl [Hzr Hz0 Hz1 Hz2 Hz3 Hz4 Hz5 Hz6 Hz7 Hz8 Hr Hp]
  · isplitl [Hzr Hz0 Hz1 Hz2 Hz3 Hz4 Hz5 Hz6 Hz7 Hz8]
    · -- the nine read tokens and the remainder are the tile's share of z^T again
      iapply (Entails.of_eq (pts_z (F := F) d (cV L) (jV L) _ _))
      iapply (Transfers.pointsTo_toks_join (shareTokN fullShare (entryL L).val) 9)
      rw [bigSep_fin9]
      isplitl [Hzr]; · iexact Hzr
      isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      iexact Hz8
    isplitl [Hr]
    · iapply (Entails.of_eq (pts_r (F := F) d (cV L) (jV L) _ _)); iexact Hr
    · iexists _; iapply (Entails.of_eq (pts_pRowK (F := F) d L _)); iexact Hp
  isplitl [Hb0 Hb1 Hb2 Hb3 Hb4 Hb5 Hb6 Hb7 Hb8 Hb9 Hb10 Hbufs]
  · isplitl [Hb0 Hb1 Hb2 Hb3 Hb4 Hb5 Hb6 Hb7 Hb8 Hb9 Hb10]
    · isplitl [Hb0]; · iexists _; iexact Hb0
      isplitl [Hb1]; · iexists _; iexact Hb1
      isplitl [Hb2]; · iexists _; iexact Hb2
      isplitl [Hb3]; · iexists _; iexact Hb3
      isplitl [Hb4]; · iexists _; iexact Hb4
      isplitl [Hb5]; · iexists _; iexact Hb5
      isplitl [Hb6]; · iexists _; iexact Hb6
      isplitl [Hb7]; · iexists _; iexact Hb7
      isplitl [Hb8]; · iexists _; iexact Hb8
      isplitl [Hb9]; · iexists _; iexact Hb9
      iexists _; iexact Hb10
    · iexact Hbufs
  isplitl [Hs0 Hs1 Hs2 Hs3 Hs4 Hsems]
  · isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    · iexact Hsems
  iexists _
  isplitr
  swap
  · iexact HO
  · ipureintro
    repeat (first | exact wb_base W | apply wb_insert)

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_partials_kernel (coordsV c s)
          (Memref.whole main_v0_scv) (Memref.isWhole_whole _) (Memref.whole main_arg1_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          (Memref.whole cc0_scratch6) (Memref.isWhole_whole _) (Memref.whole cc0_scratch7) (Memref.isWhole_whole _)
          (Memref.whole cc0_scratch8) (Memref.isWhole_whole _) (Memref.whole cc0_scratch9) (Memref.isWhole_whole _)
          (Memref.whole cc0_scratch10) (Memref.isWhole_whole _) cc0_scratch11 cc0_scratch12 cc0_scratch13 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl [FloatOps F] (hF : (K (F := F)).Facts) : (K (F := F)).TileObl (D (F := F)) 𝒱 (P zt r p₀) v₀ 0 := by
  intro d c i O W hO _ _
  simp only [show (P zt r p₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body zt r p₀ d (coordsV ⟨_, hc.1⟩ ⟨_, hc.2⟩) hF O W hO).trans (wp_mono frame _ _ fun _ => obl_post)

end Cert.Kernel.Sc

end
-- ==== Proof.Bits.ScDeal.lean ====
/-
  How the call deals the three arrays to its thirty-two tiles and gathers them back. The coordinate planes and the
  radii are only read: each tile gets one read token of each and the call keeps the remainder. The partials array
  is written row by row: tile `b` gets row `b` whole, the rows are pairwise disjoint and cover the array, and the
  rows handed back at whatever the tiles wrote are the array at some contents. The grid's tile `(c, i)` is entry
  `2 i + c`, a bijection of the 2 × 16 grid with the thirty-two entries.
-/
import proofs.«217460_g7679401525743_retrytranche1_990_34_alg».proof.Proof.Bits.ScTile

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

local notation "𝕄" => MT nD τ sig (HIx 1) (Elt F) ℕ UU ℕ

/-! ## The rows of the partials array -/

theorem prowSet_eq (b : Fin 32) : prowSet b = (prow b).set := by
  show ((View.whole (main_v1_scv : Ref sig .scVector)).slice (prow b)).set = _
  rw [View.set_slice]; exact Finset.map_refl

theorem prows_disjoint : ∀ i ∈ (Finset.univ : Finset (Fin 32)), ∀ j ∈ (Finset.univ : Finset (Fin 32)), i ≠ j →
    Disjoint (prowSet i) (prowSet j) :=
  fun i _ j _ h => by rw [prowSet_eq, prowSet_eq]; exact Rect.part_disjoint hdiv h

theorem prows_cover : (Finset.univ : Finset (Fin 32)).biUnion prowSet = Finset.univ :=
  (Finset.biUnion_congr rfl fun i _ => prowSet_eq i).trans (Rect.biUnion_part hdiv)

/-- The whole partials array is its thirty-two rows. -/
theorem pPts_rows (d : Dev nD) (f : Buf (Elt F) (pLoc d)) :
    (pLoc d ↦{fullShare} f : sProp 𝕄) = bigSep Finset.univ fun b : Fin 32 => pLoc d ↦[prowSet b]{fullShare} f := by
  rw [← pointsTo_biUnion Finset.univ (ℓ := pLoc d) prowSet prows_disjoint, prows_cover]; try rfl

/-- The thirty-two rows, each at some contents, are the whole array at some contents. -/
theorem pRows_join [FloatOps F] (d : Dev nD) :
    (bigSep Finset.univ fun b : Fin 32 => iprop(∃ f, pLoc d ↦[prowSet b]{fullShare} f))
      ⊢ (iprop(∃ f, pLoc d ↦{fullShare} f) : sProp 𝕄) := by
  refine (bigSep_exists_pi Finset.univ (fun (b : Fin 32) (f : Buf (Elt F) (pLoc d)) => (pLoc d ↦[prowSet b]{fullShare} f : sProp 𝕄))).trans ?_
  iintro ⟨%fs, H⟩
  ihave H' := (pointsTo_biUnion_join Finset.univ prowSet fs (fs 0) prows_disjoint) $$ H
  icases H' with ⟨%g, -, Hg⟩
  rw [prows_cover]
  iexists g; iexact Hg

/-! ## The grid's tiles are the thirty-two entries -/

theorem entryFin_injective :
    Function.Injective fun ci : Fin ((K (F := F)).nCore 0) × Fin ((K (F := F)).nSub 0) => entryFin (F := F) ci.1 ci.2 := by
  rintro ⟨c, i⟩ ⟨c', i'⟩ h
  have hc : c.val < 2 := (Fin.cast nCore_zero c).isLt
  have hc' : c'.val < 2 := (Fin.cast nCore_zero c').isLt
  have hv : 2 * i.val + c.val = 2 * i'.val + c'.val := congrArg Fin.val h
  exact Prod.ext (Fin.ext (by show c.val = c'.val; omega)) (Fin.ext (by show i.val = i'.val; omega))

/-- A family over the thirty-two entries, taken tile by tile over the grid, is the family over the entries. -/
theorem bigSep_grid (Φ : Fin 32 → sProp 𝕄) :
    (bigSep Finset.univ fun c : Fin ((K (F := F)).nCore 0) => bigSep Finset.univ fun i : Fin ((K (F := F)).nSub 0) =>
        Φ (entryFin (F := F) c i))
      = bigSep Finset.univ Φ := by
  classical
  rw [← bigSep_univ_prod (fun ci : Fin ((K (F := F)).nCore 0) × Fin ((K (F := F)).nSub 0) => Φ (entryFin (F := F) ci.1 ci.2))]
  have hmap : (Finset.univ : Finset (Fin ((K (F := F)).nCore 0) × Fin ((K (F := F)).nSub 0))).map
      ⟨_, entryFin_injective (F := F)⟩ = (Finset.univ : Finset (Fin 32)) :=
    Finset.eq_univ_of_card _ (by
      rw [Finset.card_map, Finset.card_univ, Fintype.card_prod, Fintype.card_fin, Fintype.card_fin, Fintype.card_fin,
        nCore_zero, nSub_zero])
  rw [← hmap, bigSep_map]
  rfl

variable (zt : (d : Dev nD) → Buf (Elt F) (zLoc d)) (r : (d : Dev nD) → Buf (Elt F) (rLoc d)) (p₀ : (d : Dev nD) → Buf (Elt F) (pLoc d))

/-- What the two SparseCores are handed is what the thirty-two tiles are. -/
theorem st_all (d : Dev nD) :
    (bigSep Finset.univ fun c : Fin ((K (F := F)).nCore 0) => (P zt r p₀).st 0 d c)
      = bigSep Finset.univ fun b : Fin 32 => goRes zt r p₀ d b :=
  bigSep_grid (F := F) fun b => goRes zt r p₀ d b

/-- What they hand back is what the tiles do. -/
theorem dn_all (d : Dev nD) :
    (bigSep Finset.univ fun c : Fin ((K (F := F)).nCore 0) => (P zt r p₀).dn 0 d c)
      = bigSep Finset.univ fun b : Fin 32 => tdRes zt r d b :=
  bigSep_grid (F := F) fun b => tdRes zt r d b

/-! ## Dealing and gathering -/

/-- From the three arrays whole: the remainders of the two read arrays, and every SparseCore's operands. -/
theorem deal (d : Dev nD) :
    iprop((zLoc d ↦{fullShare} zt d) ∗ (rLoc d ↦{fullShare} r d) ∗ (pLoc d ↦{fullShare} p₀ d))
      ⊢ (iprop((zLoc d ↦{shareDrop fullShare 32} zt d) ∗ (rLoc d ↦{shareDrop fullShare 32} r d)
          ∗ bigSep Finset.univ fun c : Fin ((K (F := F)).nCore 0) => (P zt r p₀).st 0 d c) : sProp 𝕄) := by
  rw [st_all]
  unfold goRes
  rw [bigSep_sep', bigSep_sep', pPts_rows]
  iintro ⟨Hz, Hr, Hp⟩
  ihave Hz := (Transfers.pointsTo_toks_split fullShare 32) $$ Hz
  ihave Hr := (Transfers.pointsTo_toks_split fullShare 32) $$ Hr
  icases Hz with ⟨Hz0, Hzt⟩
  icases Hr with ⟨Hr0, Hrt⟩
  isplitl [Hz0]; · iexact Hz0
  isplitl [Hr0]; · iexact Hr0
  isplitl [Hzt]; · iexact Hzt
  isplitl [Hrt]; · iexact Hrt
  iexact Hp

/-- From the remainders and every SparseCore's results: the two read arrays whole again, and the partials array whole
    at some contents. -/
theorem gather [FloatOps F] (d : Dev nD) :
    iprop((zLoc d ↦{shareDrop fullShare 32} zt d) ∗ (rLoc d ↦{shareDrop fullShare 32} r d)
        ∗ bigSep Finset.univ fun c : Fin ((K (F := F)).nCore 0) => (P zt r p₀).dn 0 d c)
      ⊢ (iprop((zLoc d ↦{fullShare} zt d) ∗ (rLoc d ↦{fullShare} r d) ∗ ∃ f, pLoc d ↦{fullShare} f) : sProp 𝕄) := by
  rw [dn_all]
  unfold tdRes
  rw [bigSep_sep', bigSep_sep']
  iintro ⟨Hz0, Hr0, Hzt, Hrt, Hp⟩
  isplitl [Hz0 Hzt]
  · iapply (Transfers.pointsTo_toks_join fullShare 32)
    isplitl [Hz0]; · iexact Hz0
    iexact Hzt
  isplitl [Hr0 Hrt]
  · iapply (Transfers.pointsTo_toks_join fullShare 32)
    isplitl [Hr0]; · iexact Hr0
    iexact Hrt
  iapply (pRows_join d); iexact Hp

end Cert.Kernel.Sc

end
-- ==== Proof.Bits.TcEpilogue.lean ====
/-
  The epilogue pallas_call (pipeline 1 of @main) as a region of the TensorCore's program: the kernel body's triple on
  whole staging buffers, the pipeline's proof data at a valuation of the TensorCore's buffers, the body obligation, and
  the region record: entered holding the unscoped buffers at the valuation and owing nothing, the call runs to the
  eight arrays at what the write-backs make of them, the other buffers untouched.
-/
import proofs.«217460_g7679401525743_retrytranche1_990_34_alg».proof.Proof.Bits.TcGhost
import proofs.«217460_g7679401525743_retrytranche1_990_34_alg».proof.Proof.Gen.Kernel.Skeleton
import Idealize.ShloMosaic.Lib.Pipeline.FrameBody
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The epilogue kernel's body: what it reads and what it leaves -/

abbrev r2_0 : Rect S32x16 := Rect.unit (s := S32x16) ![0, 0] S32x16.size inb_S32x16_S32x16_0_0
abbrev r2_1 : Rect S32 := Rect.unit (s := S32) ![0] S32.size inb_S32_S32_0
abbrev r2_2 : Rect S64 := Rect.unit (s := S64) ![0] S64.size inb_S64_S64_0
abbrev r2_3 : Rect S1 := Rect.unit (s := S1) ![0] S1.size inb_S1_S1_0

/-- The scalar the body reads from the one-word SMEM operand. -/
def sc2_3 (x3 : Vec F S1 .f32) : Elt F .f32 := View.ld x3 r2_3 (Shape.Idx.first (by decide))

/-- Each result's staging buffer after the body, from the four operands' blocks: its one store as a piece. -/
def out2_4 (x0 : Vec F S32x16 .f32) (x1 : Vec F S32 .f32) : Vec F S64 .f32 :=
  View.canon [⟨r2_2, k2_pay2 (View.ld x0 r2_0) (View.ld x1 r2_1)⟩]
def out2_5 (x2 : Vec F S64 .f32) (x3 : Vec F S1 .f32) : Vec F S64 .f32 :=
  View.canon [⟨r2_2, k2_pay5 (View.ld x2 r2_2) (sc2_3 x3)⟩]
def out2_6 (x2 : Vec F S64 .f32) (x3 : Vec F S1 .f32) : Vec F S64 .f32 :=
  View.canon [⟨r2_2, k2_pay6 (View.ld x2 r2_2) (sc2_3 x3)⟩]
def out2_7 (x0 : Vec F S32x16 .f32) (x1 : Vec F S32 .f32) (x2 : Vec F S64 .f32) (x3 : Vec F S1 .f32) : Vec F S64 .f32 :=
  View.canon [⟨r2_2, k2_pay1 (k2_pay7 (View.ld x2 r2_2) (sc2_3 x3)) (k2_pay8 (View.ld x0 r2_0) (View.ld x1 r2_1) (View.ld x2 r2_2) (sc2_3 x3))⟩]

/-- The one store covers the buffer. -/
theorem cover2 (p0 : Vec F S64 .f32) (y : S64.Idx) :
    ∃ pc ∈ ([⟨r2_2, p0⟩] : List (View.Piece (Elt F) S64 .f32)), y ∈ pc.1.set :=
  View.cover_of_tiled [⟨r2_2, p0⟩] S64.size (by rfl) y

set_option maxHeartbeats 1000000 in
/-- The body on whole staging memrefs, the four operands' at read contents and the four results' at anything, runs
    to the continuation holding the operands' as they were and each result's at its `out2_W` of the operands'. -/
theorem sound_kernel2 [∀ e, Nonempty (Elt F e)] (c : Dev nD) (E : Set ℕ)
    (arg0 : Memref sig .tc .vmem S32x16 .f32) (harg0 : arg0.IsWhole) (arg1 : Memref sig .tc .vmem S32 .f32) (harg1 : arg1.IsWhole)
    (arg2 : Memref sig .tc .vmem S64 .f32) (harg2 : arg2.IsWhole) (arg3 : Memref sig .tc .smem S1 .f32) (harg3 : arg3.IsWhole)
    (arg4 : Memref sig .tc .vmem S64 .f32) (harg4 : arg4.IsWhole) (arg5 : Memref sig .tc .vmem S64 .f32) (harg5 : arg5.IsWhole)
    (arg6 : Memref sig .tc .vmem S64 .f32) (harg6 : arg6.IsWhole) (arg7 : Memref sig .tc .vmem S64 .f32) (harg7 : arg7.IsWhole)
    (x0 : Vec F S32x16 .f32) (x1 : Vec F S32 .f32) (x2 : Vec F S64 .f32) (x3 : Vec F S1 .f32) (Kc : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3
        ∗ (∃ y, owns (c : Thread nD τ) arg4 fullShare y) ∗ (∃ y, owns (c : Thread nD τ) arg5 fullShare y)
        ∗ (∃ y, owns (c : Thread nD τ) arg6 fullShare y) ∗ (∃ y, owns (c : Thread nD τ) arg7 fullShare y)
        ∗ (iprop(owns (c : Thread nD τ) arg0 fullShare x0 ∗ owns (c : Thread nD τ) arg1 fullShare x1 ∗ owns (c : Thread nD τ) arg2 fullShare x2
            ∗ owns (c : Thread nD τ) arg3 fullShare x3
            ∗ owns (c : Thread nD τ) arg4 fullShare (out2_4 x0 x1) ∗ owns (c : Thread nD τ) arg5 fullShare (out2_5 x2 x3)
            ∗ owns (c : Thread nD τ) arg6 fullShare (out2_6 x2 x3) ∗ owns (c : Thread nD τ) arg7 fullShare (out2_7 x0 x1 x2 x3)) -∗ Kc ⟨⟩))
      ⊢ wp frame (wpE (defs₀ (F := F)) Variants.none (c : Thread nD τ) none) E
          (cc2__tc_epilogue_kernel arg0 harg0 arg1 harg1 arg2 harg2 arg3 harg3 arg4 harg4 arg5 harg5 arg6 harg6 arg7 harg7) Kc := by
  simp only [cc2__tc_epilogue_kernel_eq_skeleton]; unfold cc2__tc_epilogue_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2 _)
  isplitl [H5]
  · iexists _; isplitr
    swap; · iexact H5
    ipureintro
    exact View.read_writes_eq_canon _ _ _ (cover2 _)
  isplitl [H6]
  · iexists _; isplitr
    swap; · iexact H6
    ipureintro
    exact View.read_writes_eq_canon _ _ _ (cover2 _)
  iexists _; isplitr
  swap; · iexact H7
  ipureintro
  exact View.read_writes_eq_canon _ _ _ (cover2 _)

/-! ## The epilogue pipeline's proof data -/

variable (W : Valuation τ sig (Elt F))

/-- The TensorCore's buffers on any device at the valuation. -/
abbrev VW (c : Dev nD) (b : Ref sig .tc) : Buf (Elt F) ((c : Thread nD τ).loc b) := W b

/-- Window `w`'s block at the one point, read off its array at the valuation. -/
def iblk2 (c : Dev nD) (w : Fin cfg2.W) (t : Fin cfg2.N) : ((cfg2.win w).xblock (cfg2.grid.coords t)).Idx → Elt F (cfg2.win w).elt :=
  ((cfg2.win w).blk t).view.read (Elt F) (VW W c (Pipeline.arrRef spec2 w))

/-- The recorded (cell, index) pairs the TensorCore may hold through a region after the SparseCore call: those at
    level at most 8. The staging cells' own waits are at index `none`, level 0. -/
def rec8 (c : Dev nD) : Set (SemLoc sig × HIx 1) := {p | (K (F := F)).lev ((c : Thread nD τ), p.1) p.2 ≤ 8}

/-- The proof data of the epilogue pipeline on device `c`: the arrays at the valuation; after the body each operand's
    buffer at its block and each result's at `out2_W` of the operands' blocks; the invariant the scoped buffers no
    window stages; nothing owed; full shares. -/
def dat2 (c : Dev nD) : Dat τ (Elt F) (HIx 1) ℕ UU ℕ cfg2 c where
  A w := VW W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => out2_4 (iblk2 W c 0 t) (iblk2 W c 1 t)
    | ⟨5, _⟩ => out2_5 (iblk2 W c 2 t) (iblk2 W c 3 t)
    | ⟨6, _⟩ => out2_6 (iblk2 W c 2 t) (iblk2 W c 3 t)
    | ⟨7, _⟩ => out2_7 (iblk2 W c 0 t) (iblk2 W c 1 t) (iblk2 W c 2 t) (iblk2 W c 3 t)
  Φ _ := Pipeline.scopedRest (Ix := HIx 1) (Name := ℕ) (U := UU) (Lvl := ℕ) (Val := Elt F) spec2 c
  q _ := fullShare
  owed _ := 0
  recorded _ := rec8 (F := F) c

theorem A2_eq (c : Dev nD) (w : Fin cfg2.W) : (dat2 W c).A w = VW W c (Pipeline.arrRef spec2 w) := by
  dsimp only [dat2]

theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = out2_4 (iblk2 W c 0 t) (iblk2 W c 1 t) := by dsimp only [dat2]
theorem after2_5 (c : Dev nD) (t : Fin cfg2.N) : (dat2 W c).after 5 t = out2_5 (iblk2 W c 2 t) (iblk2 W c 3 t) := by dsimp only [dat2]
theorem after2_6 (c : Dev nD) (t : Fin cfg2.N) : (dat2 W c).after 6 t = out2_6 (iblk2 W c 2 t) (iblk2 W c 3 t) := by dsimp only [dat2]
theorem after2_7 (c : Dev nD) (t : Fin cfg2.N) : (dat2 W c).after 7 t = out2_7 (iblk2 W c 0 t) (iblk2 W c 1 t) (iblk2 W c 2 t) (iblk2 W c 3 t) := by dsimp only [dat2]

/-- Each operand's staging buffer holds its block when the body runs: it was just fetched. -/
theorem before2_0 (c : Dev nD) (t : Fin cfg2.N) (d) : (dat2 W c).before 0 t d = iblk2 W c 0 t :=
  ((dat2 W c).before_fetched 0 t (fetch2_0 t) d).trans (by unfold Dat.fetched Dat.blockOf iblk2; rw [A2_eq]; rfl)
theorem before2_1 (c : Dev nD) (t : Fin cfg2.N) (d) : (dat2 W c).before 1 t d = iblk2 W c 1 t :=
  ((dat2 W c).before_fetched 1 t (fetch2_1 t) d).trans (by unfold Dat.fetched Dat.blockOf iblk2; rw [A2_eq]; rfl)
theorem before2_2 (c : Dev nD) (t : Fin cfg2.N) (d) : (dat2 W c).before 2 t d = iblk2 W c 2 t :=
  ((dat2 W c).before_fetched 2 t (fetch2_2 t) d).trans (by unfold Dat.fetched Dat.blockOf iblk2; rw [A2_eq]; rfl)
theorem before2_3 (c : Dev nD) (t : Fin cfg2.N) (d) : (dat2 W c).before 3 t d = iblk2 W c 3 t :=
  ((dat2 W c).before_fetched 3 t (fetch2_3 t) d).trans (by unfold Dat.fetched Dat.blockOf iblk2; rw [A2_eq]; rfl)

/-! ## The body obligation -/

def bodyPre2 (c : Dev nD) (t : Fin cfg2.N) : sProp 𝕄 :=
  iprop((dat2 W c).Φ t.castSucc ∗ (dat2 W c).owesAt none t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d))
    ∗ (∃ d, owns (c : Thread nD τ) (st2_5 t) fullShare ((dat2 W c).before 5 t d))
    ∗ (∃ d, owns (c : Thread nD τ) (st2_6 t) fullShare ((dat2 W c).before 6 t d))
    ∗ (∃ d, owns (c : Thread nD τ) (st2_7 t) fullShare ((dat2 W c).before 7 t d)))

def bodyPost2 (c : Dev nD) (t : Fin cfg2.N) : sProp 𝕄 :=
  iprop((dat2 W c).Φ t.succ ∗ (dat2 W c).owesAt none t.succ
    ∗ owns (c : Thread nD τ) (st2_0 t) fullShare ((dat2 W c).after 0 t)
    ∗ owns (c : Thread nD τ) (st2_1 t) fullShare ((dat2 W c).after 1 t)
    ∗ owns (c : Thread nD τ) (st2_2 t) fullShare ((dat2 W c).after 2 t)
    ∗ owns (c : Thread nD τ) (st2_3 t) fullShare ((dat2 W c).after 3 t)
    ∗ owns (c : Thread nD τ) (st2_4 t) fullShare ((dat2 W c).after 4 t)
    ∗ owns (c : Thread nD τ) (st2_5 t) fullShare ((dat2 W c).after 5 t)
    ∗ owns (c : Thread nD τ) (st2_6 t) fullShare ((dat2 W c).after 6 t)
    ∗ owns (c : Thread nD τ) (st2_7 t) fullShare ((dat2 W c).after 7 t))

theorem sound_body2 [∀ e, Nonempty (Elt F e)] (c : Dev nD) (t : Fin cfg2.N) :
    bodyPre2 W c t ⊢ wp frame (wpE (defs₀ (F := F)) Variants.none (c : Thread nD τ) none) Set.univ (bodyAt2 t) (fun _ => bodyPost2 W c t) := by
  unfold bodyPre2 bodyPost2 bodyAt2
  simp only [before2_0, before2_1, before2_2, before2_3]
  rw [show (dat2 W c).Φ t.succ = (dat2 W c).Φ t.castSucc from rfl,
    show (dat2 W c).owesAt none t.succ = (dat2 W c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ (iblk2 W c 0 t) (iblk2 W c 1 t) (iblk2 W c 2 t) (iblk2 W c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 [∀ e, Nonempty (Elt F e)] (c : Dev nD) : BodyObligation (dat2 (F := F) W c) (defs₀ (F := F)) Variants.none none Set.univ := fun t => by
  rw [bigSep_W2, bigSep_W2]
  exact sound_body2 W c t

/-! ## The epilogue region -/

theorem bigSep_F0 {M : Type} [URA M] (Φ : Fin 0 → sProp M) : bigSep Finset.univ Φ = (BI.emp : sProp M) :=
  bigSep_univ_eq_bigSepL [] (by decide) (by decide) Φ

theorem prefHeld2 (c : Dev nD) (q) (pf) :
    (Pipeline.prefHeld (Ix := HIx 1) (Name := ℕ) (U := UU) (Lvl := ℕ) (Val := Elt F) (pcfgs (F := F) 1).pre c q pf : sProp 𝕄) = BI.emp :=
  bigSep_F0 _

/-- The TensorCore owing nothing, its recorded pairs at level at most 8: its state between the SparseCore call's end
    and the program's. -/
abbrev owes8 (c : Dev nD) : sProp 𝕄 :=
  iprop(∃ Wt, ⌜(K (F := F)).WBelow (T c) Wt 8⌝ ∗ owes (T c) (0 : CellTallies nD τ sig (HIx 1)) Wt)

theorem owesAt2_intro (c : Dev nD) (t : Fin (cfg2.N + 1)) : (owes8 (F := F) c : sProp 𝕄) ⊢ (dat2 W c).owesAt none t := by
  unfold Dat.owesAt Pipeline.owesWithin Dat.bound
  iintro ⟨%Wt, %hW, HO⟩; iexists Wt; isplitr
  · ipureintro; exact fun p hp => Or.inl (hW p (Finset.mem_coe.mp hp))
  iexact HO

theorem owesAt2_elim (c : Dev nD) (t : Fin (cfg2.N + 1)) : ((dat2 W c).owesAt none t : sProp 𝕄) ⊢ owes8 (F := F) c := by
  unfold Dat.owesAt Pipeline.owesWithin
  iintro ⟨%Wt, %hW, HO⟩; iexists Wt; isplitr
  · ipureintro; intro p hp
    rcases hW (Finset.mem_coe.mpr hp) with h | ⟨w, s, rfl⟩
    · exact h
    · exact Nat.zero_le _
  iexact HO

/-- The reduce pipeline's proof data where the epilogue's region is stated: not consulted. -/
def dat1any [∀ e, Nonempty (Elt F e)] (c : Dev nD) : Dat τ (Elt F) (HIx 1) ℕ UU ℕ cfg1 c where
  A w := VW W c (Pipeline.arrRef spec1 w)
  after _ _ := fun _ => Classical.arbitrary _
  Φ _ := iprop(emp)
  q _ := fullShare
  owed _ := 0

/-- Both pipelines' proof data, for the epilogue's region. -/
def pdatsB [∀ e, Nonempty (Elt F e)] : (p : Fin 2) → (c : Dev nD) → Dat τ (Elt F) (HIx 1) ℕ UU ℕ (Pipeline.pin (pcfgs (F := F)) adm p) c
  | 0 => dat1any W
  | 1 => dat2 W

variable (lv : GSem nD τ sig → HIx 1 → ℕ)

/-- The epilogue region: entered holding the TensorCore's unscoped buffers at the valuation and owing nothing, it
    leaves the eight arrays at what the pipeline's write-backs make of them and the other unscoped buffers as they
    were. -/
def reg2 [∀ e, Nonempty (Elt F e)] : Pipeline.RegionSeg (pcfgs (F := F)) adm (pdatsB W) (none : HIx 1) defs₀ 𝒱₀ (K (F := F)).L lv 1 where
  win := winFacts2.to₀
  block_pos := block_pos2
  stage_whole := stage_whole2
  K := PEmpty
  osem k := k.elim
  ho := Pipeline.OwnSemFacts.none _
  hbody c := (body_obligation2 W c).loose
  hwaits := Pipeline.hwaits_of_owed_zero _ _ _ _ _ lv 1 fun _ _ => rfl
  pre c := iprop(unscopedBufs c (VW W c) ∗ owes8 (F := F) c)
  post c := iprop((dat2 W c).arrays ((dat2 W c).arrAt · cfg2.N) ∗ Pipeline.unscopedRest spec2 c (VW W c) ∗ owes8 (F := F) c)
  X _ := iprop(emp)
  Y _ := iprop(emp)
  Z c := Pipeline.unscopedRest spec2 c (VW W c)
  hentry c := by
    rw [Pipeline.ownSems0_none, prefHeld2]
    iintro ⟨⟨Hb, HO⟩, -, -⟩
    imodintro
    ihave H := (Pipeline.arrays_of_unscopedBufs (pcfgs (F := F)) adm (pdatsB W) (p := 1) winFacts2 arr_whole2 c
      ((dat2 W c).share_full fun _ => rfl) (VW W c) (fun w => A2_eq W c w)) $$ Hb
    icases H with ⟨Ha, Hr⟩
    isplitl [Ha]; · iexact Ha
    isplitr; · iempintro
    isplitl [HO]; · iapply (owesAt2_intro W c 0); iexact HO
    isplitr; · iempintro
    iexact Hr
  hin c := by
    rw [show (pdatsB W 1 c).Φ 0 = Pipeline.scopedRest (Ix := HIx 1) (Name := ℕ) (U := UU) (Lvl := ℕ) (Val := Elt F) spec2 c from rfl]
    iintro ⟨-, -, HR⟩; iexact HR
  hout c := by
    rw [show (pdatsB W 1 c).Φ (Fin.last _) = Pipeline.scopedRest (Ix := HIx 1) (Name := ℕ) (U := UU) (Lvl := ℕ) (Val := Elt F) spec2 c from rfl,
      Pipeline.ownSems0_none]
    iintro HR
    isplitr; · iempintro
    isplitr; · iempintro
    iexact HR
  hexit c := by
    iintro ⟨Ha, HO, -, HZ⟩
    imodintro
    isplitl [Ha]; · iexact Ha
    isplitl [HZ]; · iexact HZ
    iapply (owesAt2_elim W c _); iexact HO

/-- The epilogue's call under the pipelines' body table: from the region boundary, the region's entry state, the
    level facts and the epilogue pipeline's staging-cell ghost state, to the boundary and the region's exit state. -/
theorem wp_region2_D [∀ e, Nonempty (Elt F e)] (d : Dev nD) {α : Type}
    (k : PUnit → Prog (TpuEff nD τ sig (Elt F) (ΛP (F := F)) .tc) α) (Q : α → sProp 𝕄) :
    iprop((iprop(boundary (d.tc : Thread nD τ) ∗ (reg2 W lv).post d) -∗ wp frame (wpE (D (F := F)) 𝒱 (d.tc : Thread nD τ) none) Set.univ (k ⟨⟩) Q)
        ∗ boundary (d.tc : Thread nD τ) ∗ (reg2 W lv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) k) Q :=
  Pipeline.RegionSeg.wp (pcfgs (F := F)) adm (pdatsB W) none phinj EP defs₀ 𝒱₀ (K (F := F)).L lv (reg2 W lv) d none (fun _ h => by cases h) k Q

end Cert.Kernel.Sc

end
-- ==== Proof.Bits.TcRegions.lean ====
/-
  The two TensorCore pallas_calls of @main as the SparseCore program's TensorCore thread runs them: each call, spelt
  as @main spells it under the SparseCore program's body table, from the region boundary, the TensorCore's unscoped
  buffers held whole, the level facts and its pipeline's staging-cell ghost state, to the boundary and the buffers
  with the call's results at the kernel body's values.
-/
import proofs.«217460_g7679401525743_retrytranche1_990_34_alg».proof.Proof.Bits.TcEpilogue
import proofs.«217460_g7679401525743_retrytranche1_990_34_alg».proof.Proof.Gen.Kernel.Skeleton
import Idealize.ShloMosaic.Lib.Pipeline.FrameBody
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The arrays at the region's exit, named -/

variable (W : Valuation τ sig (Elt F))

theorem N2_succ : cfg2.N = (t2_0 : Fin cfg2.N).val + 1 := by decide

/-- Result 0's array after the one write-back: what the body left in its staging buffer. -/
theorem arrAt2_4 (c : Dev nD) : (dat2 W c).arrAt 4 cfg2.N = (out2_4 (iblk2 W c 0 t2_0) (iblk2 W c 1 t2_0) : Buf (Elt F) ((c : Thread nD τ).loc main_v4_0)) := by
  rw [N2_succ, Dat.arrAt_succ, if_pos (flush2_4 t2_0)]
  unfold Dat.flushed
  rw [after2_4]
  funext i
  have hy : ((cfg2.win 4).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 1's array after the one write-back: what the body left in its staging buffer. -/
theorem arrAt2_5 (c : Dev nD) : (dat2 W c).arrAt 5 cfg2.N = (out2_5 (iblk2 W c 2 t2_0) (iblk2 W c 3 t2_0) : Buf (Elt F) ((c : Thread nD τ).loc main_v4_1)) := by
  rw [N2_succ, Dat.arrAt_succ, if_pos (flush2_5 t2_0)]
  unfold Dat.flushed
  rw [after2_5]
  funext i
  have hy : ((cfg2.win 5).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 2's array after the one write-back: what the body left in its staging buffer. -/
theorem arrAt2_6 (c : Dev nD) : (dat2 W c).arrAt 6 cfg2.N = (out2_6 (iblk2 W c 2 t2_0) (iblk2 W c 3 t2_0) : Buf (Elt F) ((c : Thread nD τ).loc main_v4_2)) := by
  rw [N2_succ, Dat.arrAt_succ, if_pos (flush2_6 t2_0)]
  unfold Dat.flushed
  rw [after2_6]
  funext i
  have hy : ((cfg2.win 6).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Result 3's array after the one write-back: what the body left in its staging buffer. -/
theorem arrAt2_7 (c : Dev nD) : (dat2 W c).arrAt 7 cfg2.N = (out2_7 (iblk2 W c 0 t2_0) (iblk2 W c 1 t2_0) (iblk2 W c 2 t2_0) (iblk2 W c 3 t2_0) : Buf (Elt F) ((c : Thread nD τ).loc main_v4_3)) := by
  rw [N2_succ, Dat.arrAt_succ, if_pos (flush2_7 t2_0)]
  unfold Dat.flushed
  rw [after2_7]
  funext i
  have hy : ((cfg2.win 7).blk t2_0).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  conv_lhs => rw [← hy, View.write_emb_of_mem _ _ (Finset.mem_univ _)]
  rfl

/-- Operand 0's block is its whole array. -/
theorem iblk2_0 (c : Dev nD) (t : Fin cfg2.N) : iblk2 W c 0 t = (W main_v1 : Vec F S32x16 .f32) := by
  funext i
  have hy : ((cfg2.win 0).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 1's block is its whole array. -/
theorem iblk2_1 (c : Dev nD) (t : Fin cfg2.N) : iblk2 W c 1 t = (W main_v2 : Vec F S32 .f32) := by
  funext i
  have hy : ((cfg2.win 1).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 2's block is its whole array. -/
theorem iblk2_2 (c : Dev nD) (t : Fin cfg2.N) : iblk2 W c 2 t = (W main_arg1 : Vec F S64 .f32) := by
  funext i
  have hy : ((cfg2.win 2).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-- Operand 3's block is its whole array. -/
theorem iblk2_3 (c : Dev nD) (t : Fin cfg2.N) : iblk2 W c 3 t = (W main_v3 : Vec F S1 .f32) := by
  funext i
  have hy : ((cfg2.win 3).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show 0 * _ + 1 * (i a).val = (i a).val
    omega
  unfold iblk2
  rw [View.read_apply, hy]
  rfl

/-! ## The region's entry and exit states as whole points-to facts -/

variable (lv : GSem nD τ sig → HIx 1 → ℕ)

/-- A TensorCore buffer held whole. -/
abbrev pt (c : Dev nD) (b : Ref sig .tc) (f : Buf (Elt F) ((c : Thread nD τ).loc b)) : sProp 𝕄 := ((c : Thread nD τ).loc b) ↦{fullShare} f

/-- The four results, from the four operands. -/
abbrev res2_4 : Vec F S64 .f32 := out2_4 (W main_v1) (W main_v2)
abbrev res2_5 : Vec F S64 .f32 := out2_5 (W main_arg1) (W main_v3)
abbrev res2_6 : Vec F S64 .f32 := out2_6 (W main_arg1) (W main_v3)
abbrev res2_7 : Vec F S64 .f32 := out2_7 (W main_v1) (W main_v2) (W main_arg1) (W main_v3)

/-- The TensorCore's eleven unscoped buffers at a valuation, one by one: the epilogue's eight arrays, then the rest. -/
theorem unscopedBufs_eq (c : Dev nD) : (unscopedBufs c (VW W c) : sProp 𝕄)
    = iprop((pt c main_v1 (W main_v1) ∗ pt c main_v2 (W main_v2) ∗ pt c main_arg1 (W main_arg1) ∗ pt c main_v3 (W main_v3)
        ∗ pt c main_v4_0 (W main_v4_0) ∗ pt c main_v4_1 (W main_v4_1) ∗ pt c main_v4_2 (W main_v4_2) ∗ pt c main_v4_3 (W main_v4_3))
      ∗ (pt c main_arg0 (W main_arg0) ∗ pt c main_arg2 (W main_arg2) ∗ pt c main_v0 (W main_v0))) := by
  rw [Pipeline.unscopedBufs_split (Pipeline.pin (pcfgs (F := F)) adm) 1 winFacts2.arr_unscoped winFacts2.arr_inj c (VW W c), bigSep_W2]
  rw [show Pipeline.unscopedRest (Ix := HIx 1) (Name := ℕ) (U := UU) (Lvl := ℕ) (Pipeline.pin (pcfgs (F := F)) adm 1).spec c (VW W c)
    = Pipeline.unscopedRest (Ix := HIx 1) (Name := ℕ) (U := UU) (Lvl := ℕ) spec2 c (VW W c) from rfl, unscopedRest2_eq]
  rfl

/-- The region's entry state. -/
theorem pre2_eq [∀ e, Nonempty (Elt F e)] (c : Dev nD) : ((reg2 W lv).pre c : sProp 𝕄)
    = iprop(((pt c main_v1 (W main_v1) ∗ pt c main_v2 (W main_v2) ∗ pt c main_arg1 (W main_arg1) ∗ pt c main_v3 (W main_v3)
        ∗ pt c main_v4_0 (W main_v4_0) ∗ pt c main_v4_1 (W main_v4_1) ∗ pt c main_v4_2 (W main_v4_2) ∗ pt c main_v4_3 (W main_v4_3))
      ∗ (pt c main_arg0 (W main_arg0) ∗ pt c main_arg2 (W main_arg2) ∗ pt c main_v0 (W main_v0))) ∗ owes8 (F := F) c) := by
  show iprop(unscopedBufs c (VW W c) ∗ owes8 (F := F) c) = _
  rw [unscopedBufs_eq]

/-- The region's exit state: the operands as they were, the results at the body's values of the operands. -/
theorem post2_eq [∀ e, Nonempty (Elt F e)] (c : Dev nD) : ((reg2 W lv).post c : sProp 𝕄)
    = iprop((pt c main_v1 (W main_v1) ∗ pt c main_v2 (W main_v2) ∗ pt c main_arg1 (W main_arg1) ∗ pt c main_v3 (W main_v3)
        ∗ pt c main_v4_0 (res2_4 W) ∗ pt c main_v4_1 (res2_5 W) ∗ pt c main_v4_2 (res2_6 W) ∗ pt c main_v4_3 (res2_7 W))
      ∗ (pt c main_arg0 (W main_arg0) ∗ pt c main_arg2 (W main_arg2) ∗ pt c main_v0 (W main_v0)) ∗ owes8 (F := F) c) := by
  show iprop((pdatsB W 1 c).arrays ((dat2 W c).arrAt · cfg2.N) ∗ Pipeline.unscopedRest spec2 c (VW W c) ∗ owes8 (F := F) c) = _
  rw [Pipeline.arrays_eq (Pipeline.pin (pcfgs (F := F)) adm) (pdatsB W) 1 c arr_whole2 ((dat2 W c).share_full fun _ => rfl), bigSep_W2,
    unscopedRest2_eq]
  rw [(dat2 W c).arrAt_in 0 rfl, (dat2 W c).arrAt_in 1 rfl, (dat2 W c).arrAt_in 2 rfl, (dat2 W c).arrAt_in 3 rfl,
    arrAt2_4, arrAt2_5, arrAt2_6, arrAt2_7, iblk2_0, iblk2_1, iblk2_2, iblk2_3]
  rfl

/-! ## The call as @main spells it -/

theorem lift_entry (p : Fin 2) :
    (SparseCore.liftProg (Q := 1) (Prog.lift (.customCall (Pipeline.entry p) ()) : Prog (TpuEff nD τ sig (Elt F) (ΛP (F := F)) .tc) PUnit))
      = Prog.lift (.customCall (SparseCore.inner (Pipeline.entry p)) ()) := rfl

/-- The two pipelines' ghost state on a device, pipeline by pipeline. -/
theorem ghost2_split (d : Dev nD) : (ghost2 (F := F) d : sProp 𝕄)
    = iprop((Pipeline.cellsGhost (Pipeline.pin (pcfgs (F := F)) adm) EP 0 d ∗ Pipeline.toksInit (Pipeline.pin (pcfgs (F := F)) adm) EP 0 d)
      ∗ (Pipeline.cellsGhost (Pipeline.pin (pcfgs (F := F)) adm) EP 1 d ∗ Pipeline.toksInit (Pipeline.pin (pcfgs (F := F)) adm) EP 1 d)) := by
  rw [ghost2_eq]
  exact bigSep_univ_eq_bigSepL [(0 : Fin 2), (1 : Fin 2)] (by decide) (by decide) _

set_option backward.isDefEq.respectTransparency.types false in
set_option maxHeartbeats 2000000 in
/-- The epilogue's call under the SparseCore program's body table, between the region record's states. -/
theorem wp_region2 [∀ e, Nonempty (Elt F e)] (d : Dev nD) (Φ : PUnit → sProp 𝕄) :
    iprop((iprop(boundary (T d) ∗ (reg2 W lv).post d) -∗ Φ ⟨⟩)
        ∗ boundary (T d) ∗ (reg2 W lv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  rw [← lift_entry (F := F) 1]
  refine BIBase.Entails.trans ?_ ((K (F := F)).wp_liftProg (D (F := F)) 𝒱 (T d) Set.univ none _ Φ)
  refine BIBase.Entails.trans ?_ (wp_region2_D W lv d Prog.ret Φ)
  iintro ⟨Hk, Hrest⟩
  isplitl [Hk]
  · iintro H
    rw [wp_ret]
    imodintro
    iapply Hk; iexact H
  iexact Hrest

/-- What the epilogue's call is entered from: the TensorCore's eleven unscoped buffers whole at a valuation (the
    epilogue's four operands and four results first, then the three it does not touch), the core owing nothing. -/
abbrev Pre2 (d : Dev nD) : sProp 𝕄 :=
  iprop(((pt d main_v1 (W main_v1) ∗ pt d main_v2 (W main_v2) ∗ pt d main_arg1 (W main_arg1) ∗ pt d main_v3 (W main_v3)
        ∗ pt d main_v4_0 (W main_v4_0) ∗ pt d main_v4_1 (W main_v4_1) ∗ pt d main_v4_2 (W main_v4_2) ∗ pt d main_v4_3 (W main_v4_3))
      ∗ (pt d main_arg0 (W main_arg0) ∗ pt d main_arg2 (W main_arg2) ∗ pt d main_v0 (W main_v0))) ∗ owes8 (F := F) d)

/-- What it leaves: the operands as they were, the four results at the body's values of the operands. -/
abbrev Post2 (d : Dev nD) : sProp 𝕄 :=
  iprop((pt d main_v1 (W main_v1) ∗ pt d main_v2 (W main_v2) ∗ pt d main_arg1 (W main_arg1) ∗ pt d main_v3 (W main_v3)
        ∗ pt d main_v4_0 (res2_4 W) ∗ pt d main_v4_1 (res2_5 W) ∗ pt d main_v4_2 (res2_6 W) ∗ pt d main_v4_3 (res2_7 W))
      ∗ (pt d main_arg0 (W main_arg0) ∗ pt d main_arg2 (W main_arg2) ∗ pt d main_v0 (W main_v0)) ∗ owes8 (F := F) d)

/-- **The epilogue region inside @main.** From the region boundary, the buffers whole at the valuation `W`, the level
    facts and the epilogue pipeline's staging-cell ghost state, the call runs to the boundary and the buffers with the
    four results at `res2_4 W … res2_7 W`. -/
theorem wp_epilogue [∀ e, Nonempty (Elt F e)] (d : Dev nD) (Φ : PUnit → sProp 𝕄) :
    iprop((iprop(boundary (T d) ∗ Post2 W d) -∗ Φ ⟨⟩)
        ∗ boundary (T d) ∗ Pre2 W d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Φ := by
  have h := wp_region2 W lv d Φ
  rw [pre2_eq, post2_eq] at h
  exact h

end Cert.Kernel.Sc

end
-- ==== Proof.Bits.TcReduceData.lean ====
/-
  The reduce pallas_call (pipeline 0 of @main) as a region of the TensorCore's program: the kernel body's triple at a
  grid point, the pipeline's relational proof data at a valuation of the TensorCore's buffers — the result's staging
  buffer accumulates one word per point —, the body obligation, what the result's array holds after the last point's
  write-back (by induction over the points), and the region record.
-/
import proofs.«217460_g7679401525743_retrytranche1_990_34_alg».proof.Proof.Bits.TcRegions
import proofs.«217460_g7679401525743_retrytranche1_990_34_alg».proof.Proof.Gen.Kernel.Skeleton
import Idealize.ShloMosaic.Lib.Pipeline.FrameBody
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The reduce kernel's body: one point's word stored into the result's staging buffer -/

abbrev r1_a : Rect S1x3x128x1024 := Rect.unit (s := S1x3x128x1024) ![0, 0, 0, 0] S1x1x128x1024.size inb_S1x3x128x1024_S1x1x128x1024_0_0_0_0
abbrev r1_b : Rect S1x3x128x1024 := Rect.unit (s := S1x3x128x1024) ![0, 1, 0, 0] S1x1x128x1024.size inb_S1x3x128x1024_S1x1x128x1024_0_1_0_0
abbrev r1_c : Rect S1x3x128x1024 := Rect.unit (s := S1x3x128x1024) ![0, 2, 0, 0] S1x1x128x1024.size inb_S1x3x128x1024_S1x1x128x1024_0_2_0_0
/-- The word of the second operand the point reads, -/
abbrev r1_R (i : grid1.Coords) : Rect S64 := Rect.unit (s := S64) (k1_off1 i) S1.size (k1_off1_inb i)
/-- and the word of the result it stores. -/
abbrev r1_o (i : grid1.Coords) : Rect S32 := Rect.unit (s := S32) (k1_off2 i) S1.size (k1_off2_inb i)

/-- The point's value, from its block of the first operand and the second operand. -/
def val1 (i : grid1.Coords) (x1 : Vec F S1x3x128x1024 .f32) (x2 : Vec F S64 .f32) : Elt F .f32 :=
  k1_pay1 (View.ld x1 r1_a) (View.ld x1 r1_b) (View.ld x1 r1_c) (View.ld x2 (r1_R i) (Shape.Idx.first (show 0 < S1.numel by decide)))

/-- The result's staging buffer with the point's word set to `v`. -/
def upd1 (i : grid1.Coords) (y3 : Vec F S32 .f32) (v : Elt F .f32) : Vec F S32 .f32 :=
  fun y => if y ∈ (r1_o i).set then v else y3 y

set_option maxHeartbeats 2000000 in
/-- The body at grid coordinates `i`, on whole staging memrefs: the operands' as they were, the result's with the
    point's word at the point's value. -/
theorem sound_kernel1 [∀ e, Nonempty (Elt F e)] (c : Dev nD) (E : Set ℕ) (i : grid1.Coords)
    (arg1 : Memref sig .tc .vmem S1x3x128x1024 .f32) (harg1 : arg1.IsWhole) (arg2 : Memref sig .tc .smem S64 .f32) (harg2 : arg2.IsWhole)
    (arg3 : Memref sig .tc .smem S32 .f32) (harg3 : arg3.IsWhole)
    (x1 : Vec F S1x3x128x1024 .f32) (x2 : Vec F S64 .f32) (y3 : Vec F S32 .f32) (Kc : PUnit → sProp 𝕄) :
    iprop(owns (c : Thread nD τ) arg1 fullShare x1 ∗ owns (c : Thread nD τ) arg2 fullShare x2 ∗ owns (c : Thread nD τ) arg3 fullShare y3
        ∗ (iprop(owns (c : Thread nD τ) arg1 fullShare x1 ∗ owns (c : Thread nD τ) arg2 fullShare x2
            ∗ owns (c : Thread nD τ) arg3 fullShare (upd1 i y3 (val1 i x1 x2))) -∗ Kc ⟨⟩))
      ⊢ wp frame (wpE (defs₀ (F := F)) Variants.none (c : Thread nD τ) none) E
          (cc1__tc_reduce_kernel i arg1 harg1 arg2 harg2 arg3 harg3) Kc := by
  simp only [cc1__tc_reduce_kernel_eq_skeleton]; unfold cc1__tc_reduce_kernel_skel
  unfold owns
  iintro ⟨⟨%f1, %hf1, H1⟩, ⟨%f2, %hf2, H2⟩, ⟨%f3, %hf3, H3⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  funext y
  unfold upd1
  split
  · next hy =>
    obtain ⟨x, rfl⟩ := (r1_o i).exists_idx_of_mem hy
    exact View.read_writes_cons_emb arg3.view f3 (r1_o i) _ [] x
  · next hy =>
    rw [View.read_writes_apply_of_forall_not_mem _ _ y _ (fun p hp => by rw [List.mem_singleton] at hp; subst hp; exact hy)]

/-! ## The reduce pipeline's relational proof data -/

variable (W : Valuation τ sig (Elt F))

/-- Window `w`'s block at point `t`, read off its array at the valuation. -/
def iblk1 (w : Fin cfg1.W) (t : Fin cfg1.N) : ((cfg1.win w).xblock (cfg1.grid.coords t)).Idx → Elt F (cfg1.win w).elt :=
  ((cfg1.win w).blk t).view.read (Elt F) (W (Pipeline.arrRef spec1 w))

/-- The proof data of the reduce pipeline on device `c`: the arrays at the valuation; the body leaves the two operands'
    buffers as it found them and sets, in the result's buffer, the point's word to the point's value of its block
    of the first operand and of the second operand; the invariant the scoped buffers no window stages; nothing owed. -/
def rdat1 (c : Dev nD) : Pipeline.RDat τ (Elt F) (HIx 1) ℕ UU ℕ cfg1 c where
  A w := VW W c (Pipeline.arrRef spec1 w)
  after w t := match w with
    | ⟨0, _⟩ => fun Y X => X = Y
    | ⟨1, _⟩ => fun Y X => X = Y
    | ⟨2, _⟩ => fun Y X => X = upd1 (grid1.coords t) Y (val1 (grid1.coords t) (iblk1 W 0 t) (W main_arg1))
  Φ _ := Pipeline.scopedRest (Ix := HIx 1) (Name := ℕ) (U := UU) (Lvl := ℕ) (Val := Elt F) spec1 c
  q _ := fullShare
  owed _ := 0
  recorded _ := rec8 (F := F) c

theorem after1_0 (c : Dev nD) (t : Fin cfg1.N) (Y X) : (rdat1 W c).after 0 t Y X ↔ X = Y := by dsimp only [rdat1]; exact Iff.rfl
theorem after1_1 (c : Dev nD) (t : Fin cfg1.N) (Y X) : (rdat1 W c).after 1 t Y X ↔ X = Y := by dsimp only [rdat1]; exact Iff.rfl
theorem after1_2 (c : Dev nD) (t : Fin cfg1.N) (Y X) :
    (rdat1 W c).after 2 t Y X ↔ X = upd1 (grid1.coords t) Y (val1 (grid1.coords t) (iblk1 W 0 t) (W main_arg1)) := by dsimp only [rdat1]; exact Iff.rfl

/-- The first operand's buffer holds the point's block when the body runs: it was just fetched. -/
theorem finds1_0 (c : Dev nD) (t : Fin cfg1.N) (Y) (h : (rdat1 W c).Finds 0 t Y) : Y = iblk1 W 0 t := by
  obtain ⟨d, rfl⟩ := ((rdat1 W c).finds_of_fetch (fetch1_0 t) Y).mp h
  rfl

/-- The second operand's index map is constant. -/
theorem tr1_eq : ∀ i : grid1.Coords, cc1_transform_1 i = ![0] := by decide +kernel

/-- The second operand's block is its whole array, at every point. -/
theorem blockOf1_1 (c : Dev nD) (t : Fin cfg1.N) : (rdat1 W c).blockOf 1 t = (W main_arg1 : Vec F S64 .f32) := by
  funext i
  have hy : ((cfg1.win 1).blk t).view.emb i = (fun a => ⟨(i a).val, (i a).isLt⟩) := by
    funext a; apply Fin.ext
    simp only [Memref.view_slice, View.emb_slice, Function.Embedding.trans_apply, Memref.view_whole, View.emb_whole, Function.Embedding.refl_apply]
    rw [Rect.emb_apply]
    show (cc1_transform_1 (grid1.coords t)) a * _ + 1 * (i a).val = (i a).val
    rw [tr1_eq]
    simp
  unfold Pipeline.RDat.blockOf
  rw [View.read_apply, hy]
  rfl

/-- The second operand's buffer holds the whole second operand at every point: fetched at the first, left as found since. -/
theorem finds1_1 (c : Dev nD) : ∀ (t : Fin cfg1.N) (Y), (rdat1 W c).Finds 1 t Y → Y = (W main_arg1 : Vec F S64 .f32) := by
  intro t
  induction hn : t.val using Nat.strong_induction_on generalizing t with
  | _ n ih =>
    subst hn; intro Y h
    by_cases hf : (cfg1.win 1).fetch t = true
    · obtain ⟨d, rfl⟩ := ((rdat1 W c).finds_of_fetch hf Y).mp h
      exact (show (rdat1 W c).fetched 1 t d = (rdat1 W c).blockOf 1 t from rfl).trans (blockOf1_1 W c t)
    · have hf' : (cfg1.win 1).fetch t = false := by simpa using hf
      have ht : t.val ≠ 0 := fun h0 => hf ((fetch1_1 t).mpr (by omega))
      rcases ((rdat1 W c).finds_of_pos hf' ht Y).mp h with hfl | ⟨Y', hY', hXY⟩
      · exact absurd hfl (by rw [(cfg1.win 1).flush_in rfl]; exact Bool.false_ne_true)
      · have := ih (t.val - 1) (by omega) ⟨t.val - 1, Nat.lt_of_le_of_lt (Nat.sub_le _ _) t.isLt⟩ rfl Y' hY'
        rw [(after1_1 W c _ Y' Y).mp hXY]; exact this

/-! ## The body obligation -/

theorem body_obligation1 [∀ e, Nonempty (Elt F e)] (c : Dev nD) :
    (rdat1 (F := F) W c).BodyObligation (defs₀ (F := F)) Variants.none none Set.univ := fun t Y hY => by
  rw [bigSep_W1, bigSep_W1]
  have h0 := finds1_0 W c t (Y 0) (hY 0)
  have h1 := finds1_1 W c t (Y 1) (hY 1)
  show _ ⊢ wp frame _ Set.univ (bodyAt1 t) _
  rw [show (rdat1 W c).Φ t.succ = (rdat1 W c).Φ t.castSucc from rfl,
    show (rdat1 W c).owesAt none t.succ = (rdat1 W c).owesAt none t.castSucc from rfl]
  iintro ⟨HΦ, Ho, H0, H1, H2⟩
  iapply (sound_kernel1 c Set.univ (grid1.coords t) _ _ _ _ _ _ (Y 0) (Y 1) (Y 2) _)
  isplitl [H0]; · iexact H0
  isplitl [H1]; · iexact H1
  isplitl [H2]; · iexact H2
  iintro ⟨H0, H1, H2⟩
  isplitl [HΦ]; · iexact HΦ
  isplitl [Ho]; · iexact Ho
  isplitl [H0]
  · iexists (Y 0); isplitr; · ipureintro; exact (after1_0 W c t _ _).mpr rfl
    iexact H0
  isplitl [H1]
  · iexists (Y 1); isplitr; · ipureintro; exact (after1_1 W c t _ _).mpr rfl
    iexact H1
  iexists _; isplitr
  swap; · iexact H2
  ipureintro
  rw [after1_2, ← h0, ← h1]

/-! ## The result's array at the region's exit -/

theorem N1_eq : cfg1.N = 32 := N_1

/-- The point that stores word `y` of the result. -/
def tOf (y : S32.Idx) : Fin cfg1.N := ⟨(y 0).val, by rw [N1_eq]; exact (y 0).isLt⟩

/-- What the reduce region leaves in the result: word `y` at the value of the point that stores it. -/
def res1 : Vec F S32 .f32 := fun y => val1 (grid1.coords (tOf y)) (iblk1 W 0 (tOf y)) (W main_arg1)

/-- A point stores exactly its own word. -/
theorem mem_o : ∀ (t : Fin grid1.N) (y : S32.Idx), y ∈ (r1_o (grid1.coords t)).set ↔ (y 0).val = t.val := by decide +kernel

/-- After point `t` the result's staging buffer holds the values of the points up to `t`. -/
theorem leaves1_2 (c : Dev nD) : ∀ (t : Fin cfg1.N) (X), (rdat1 W c).Leaves 2 t X → ∀ y : S32.Idx, (y 0).val ≤ t.val → X y = res1 W y := by
  intro t
  induction hn : t.val using Nat.strong_induction_on generalizing t with
  | _ n ih =>
    subst hn; intro X ⟨Y, hY, hXY⟩ y hy
    rw [(after1_2 W c t Y X).mp hXY]
    unfold upd1
    by_cases hm : y ∈ (r1_o (grid1.coords t)).set
    · rw [if_pos hm]
      have e : tOf y = t := Fin.ext ((mem_o t y).mp hm)
      unfold res1; rw [e]
    · rw [if_neg hm]
      have hne : (y 0).val ≠ t.val := fun h => hm ((mem_o t y).mpr h)
      have ht : t.val ≠ 0 := by omega
      have hf : (cfg1.win 2).fetch t = false := (cfg1.win 2).fetch_out rfl t
      rcases ((rdat1 W c).finds_of_pos hf ht Y).mp hY with hfl | hL
      · exact absurd ((flush1_2 _).mp hfl) (by have := lt_of_lt_of_eq t.isLt N1_eq; show ¬ (t.val - 1) % 32 = 31; omega)
      · exact ih (t.val - 1) (by omega) ⟨t.val - 1, Nat.lt_of_le_of_lt (Nat.sub_le _ _) t.isLt⟩ rfl Y hL y (by show (y 0).val ≤ t.val - 1; omega)

/-- The result's index map is constant. -/
theorem tr2_eq : ∀ i : grid1.Coords, cc1_transform_2 i = ![0] := by decide +kernel

/-- No point before the last writes the result back. -/
theorem arrAt1_2_below (c : Dev nD) : ∀ n, n ≤ 31 → (rdat1 W c).ArrAt 2 n = fun G => G = (rdat1 W c).A 2
  | 0, _ => rfl
  | n + 1, h => by
    have hn : n < cfg1.N := by rw [N1_eq]; omega
    rw [show n + 1 = (⟨n, hn⟩ : Fin cfg1.N).val + 1 from rfl, Pipeline.RDat.ArrAt_succ,
      if_neg (fun hfl => by have := (flush1_2 _).mp hfl; change n % 32 = 31 at this; omega)]
    exact arrAt1_2_below c n (by omega)

/-- The result's array after the last point's write-back: the 32 values. -/
theorem arrAt1_2 (c : Dev nD) (G) (h : (rdat1 W c).ArrAt 2 cfg1.N G) : G = (res1 W : Buf (Elt F) ((c : Thread nD τ).loc main_v2)) := by
  have h31 : 31 < cfg1.N := by rw [N1_eq]; omega
  rw [show cfg1.N = (⟨31, h31⟩ : Fin cfg1.N).val + 1 from N1_eq, Pipeline.RDat.ArrAt_succ,
    if_pos ((flush1_2 _).mpr rfl), arrAt1_2_below W c 31 le_rfl] at h
  obtain ⟨G₀, X, rfl, hL, rfl⟩ := h
  have hX : X = res1 W := funext fun y => leaves1_2 W c ⟨31, h31⟩ X hL y (by have h32 : (y 0).val < 32 := (y 0).isLt; show (y 0).val ≤ 31; omega)
  subst hX
  funext i
  have hy : ((cfg1.win 2).blk ⟨31, h31⟩).view.emb (fun a => ⟨(i a).val, (i a).isLt⟩) = i := by
    funext a; apply Fin.ext
    simp only [Memref.view_slice, View.emb_slice, Function.Embedding.trans_apply, Memref.view_whole, View.emb_whole, Function.Embedding.refl_apply]
    rw [Rect.emb_apply]
    show (cc1_transform_2 (grid1.coords ⟨31, h31⟩)) a * _ + 1 * (i a).val = (i a).val
    rw [tr2_eq]
    simp
  conv_lhs => rw [← hy, View.write_emb_of_mem _ _ (Finset.mem_univ _)]
  rfl

/-! ## The reduce region -/

theorem prefHeld1 (c : Dev nD) (q) (pf) :
    (Pipeline.prefHeld (Ix := HIx 1) (Name := ℕ) (U := UU) (Lvl := ℕ) (Val := Elt F) (pcfgs (F := F) 0).pre c q pf : sProp 𝕄) = BI.emp :=
  bigSep_F0 _

theorem owesAt1_intro (c : Dev nD) (t : Fin (cfg1.N + 1)) : (owes8 (F := F) c : sProp 𝕄) ⊢ (rdat1 W c).owesAt none t := by
  unfold Pipeline.RDat.owesAt Pipeline.owesWithin Pipeline.RDat.bound
  iintro ⟨%Wt, %hW, HO⟩; iexists Wt; isplitr
  · ipureintro; exact fun p hp => Or.inl (hW p (Finset.mem_coe.mp hp))
  iexact HO

theorem owesAt1_elim (c : Dev nD) (t : Fin (cfg1.N + 1)) : ((rdat1 W c).owesAt none t : sProp 𝕄) ⊢ owes8 (F := F) c := by
  unfold Pipeline.RDat.owesAt Pipeline.owesWithin
  iintro ⟨%Wt, %hW, HO⟩; iexists Wt; isplitr
  · ipureintro; intro p hp
    rcases hW (Finset.mem_coe.mpr hp) with h | ⟨w, s, rfl⟩
    · exact h
    · exact Nat.zero_le _
  iexact HO

/-- The epilogue pipeline's proof data where the reduce region is stated: not consulted. -/
def rdat2any (c : Dev nD) : Pipeline.RDat τ (Elt F) (HIx 1) ℕ UU ℕ cfg2 c where
  A w := VW W c (Pipeline.arrRef spec2 w)
  after _ _ _ _ := True
  Φ _ := iprop(emp)
  q _ := fullShare
  owed _ := 0

/-- Both pipelines' proof data, for the reduce region. -/
def rdatsA : (p : Fin 2) → (c : Dev nD) → Pipeline.RDat τ (Elt F) (HIx 1) ℕ UU ℕ (Pipeline.pin (pcfgs (F := F)) adm p) c
  | 0 => rdat1 W
  | 1 => rdat2any W

variable (lv : GSem nD τ sig → HIx 1 → ℕ)

/-- The reduce region: entered holding the TensorCore's unscoped buffers at the valuation and owing nothing, it
    leaves its three arrays at what they may hold after the write-backs and the other unscoped buffers as they were. -/
def reg1 [∀ e, Nonempty (Elt F e)] : Pipeline.RDat.RegionSeg (pcfgs (F := F)) adm (rdatsA W) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := body_obligation1 W c
  hwaits := Pipeline.RDat.hwaits_of_owed_zero _ _ _ _ _ lv 0 fun _ _ => rfl
  pre c := iprop(unscopedBufs c (VW W c) ∗ owes8 (F := F) c)
  post c := iprop((rdat1 W c).arraysAt cfg1.N ∗ Pipeline.unscopedRest spec1 c (VW W c) ∗ owes8 (F := F) c)
  X _ := iprop(emp)
  Y _ := iprop(emp)
  Z c := Pipeline.unscopedRest spec1 c (VW W c)
  hentry c := by
    rw [Pipeline.ownSems0_none, prefHeld1]
    iintro ⟨⟨Hb, HO⟩, -, -⟩
    imodintro
    ihave H := (Pipeline.RDat.arrays_of_unscopedBufs (pcfgs (F := F)) adm (rdatsA W) (p := 0) winFacts1 arr_whole1 c
      ((rdat1 W c).share_full fun _ => rfl) (VW W c) (fun w => rfl)) $$ Hb
    icases H with ⟨Ha, Hr⟩
    isplitl [Ha]; · iexact Ha
    isplitr; · iempintro
    isplitl [HO]; · iapply (owesAt1_intro W c 0); iexact HO
    isplitr; · iempintro
    iexact Hr
  hin c := by
    rw [show (rdatsA W 0 c).Φ 0 = Pipeline.scopedRest (Ix := HIx 1) (Name := ℕ) (U := UU) (Lvl := ℕ) (Val := Elt F) spec1 c from rfl]
    iintro ⟨-, -, HR⟩; iexact HR
  hout c := by
    rw [show (rdatsA W 0 c).Φ (Fin.last _) = Pipeline.scopedRest (Ix := HIx 1) (Name := ℕ) (U := UU) (Lvl := ℕ) (Val := Elt F) spec1 c from rfl,
      Pipeline.ownSems0_none]
    iintro HR
    isplitr; · iempintro
    isplitr; · iempintro
    iexact HR
  hexit c := by
    iintro ⟨Ha, HO, -, HZ⟩
    imodintro
    isplitl [Ha]; · iexact Ha
    isplitl [HZ]; · iexact HZ
    iapply (owesAt1_elim W c _); iexact HO

/-- The reduce call under the pipelines' body table. -/
theorem wp_region1_D [∀ e, Nonempty (Elt F e)] (d : Dev nD) {α : Type}
    (k : PUnit → Prog (TpuEff nD τ sig (Elt F) (ΛP (F := F)) .tc) α) (Q : α → sProp 𝕄) :
    iprop((iprop(boundary (d.tc : Thread nD τ) ∗ (reg1 W lv).post d) -∗ wp frame (wpE (D (F := F)) 𝒱 (d.tc : Thread nD τ) none) Set.univ (k ⟨⟩) Q)
        ∗ boundary (d.tc : Thread nD τ) ∗ (reg1 W lv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) k) Q :=
  Pipeline.RDat.RegionSeg.wp (pcfgs (F := F)) adm (rdatsA W) none phinj EP defs₀ 𝒱₀ (K (F := F)).L lv (reg1 W lv) d none (fun _ h => by cases h) k Q

end Cert.Kernel.Sc

end
-- ==== Proof.Bits.TcReduce.lean ====
/-
  The reduce pallas_call as @main spells it, under the SparseCore program's body table: from the region boundary, the
  TensorCore's eleven unscoped buffers held whole at a valuation, the level facts and the reduce pipeline's staging-cell
  ghost state, to the boundary and the buffers with the call's result at the 32 values, every other buffer as it was.
-/
import proofs.«217460_g7679401525743_retrytranche1_990_34_alg».proof.Proof.Bits.TcReduceData
import proofs.«217460_g7679401525743_retrytranche1_990_34_alg».proof.Proof.Gen.Kernel.Skeleton
import Idealize.ShloMosaic.Lib.Pipeline.FrameBody
import Idealize.ShloMosaic.Lib.Tactic

set_option maxRecDepth 16384

noncomputable section

namespace Cert.Kernel.Sc

open Cert.Kernel Cert.Kernel.Gen
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (W : Valuation τ sig (Elt F)) (lv : GSem nD τ sig → HIx 1 → ℕ)

/-! ## The reduce region's entry and exit states as whole points-to facts -/

/-- What the reduce call is entered from: the same eleven whole buffers as the epilogue's, the core owing nothing. -/
abbrev Pre1 (d : Dev nD) : sProp 𝕄 := Pre2 W d

/-- What it leaves: the result `main_v2` at the 32 values, every other buffer as it was. -/
abbrev Post1 (d : Dev nD) : sProp 𝕄 :=
  iprop((pt d main_v1 (W main_v1) ∗ pt d main_v2 (res1 W) ∗ pt d main_arg1 (W main_arg1) ∗ pt d main_v3 (W main_v3)
        ∗ pt d main_v4_0 (W main_v4_0) ∗ pt d main_v4_1 (W main_v4_1) ∗ pt d main_v4_2 (W main_v4_2) ∗ pt d main_v4_3 (W main_v4_3))
      ∗ (pt d main_arg0 (W main_arg0) ∗ pt d main_arg2 (W main_arg2) ∗ pt d main_v0 (W main_v0)) ∗ owes8 (F := F) d)

theorem pre1_eq [∀ e, Nonempty (Elt F e)] (c : Dev nD) : ((reg1 W lv).pre c : sProp 𝕄) = Pre1 W c := by
  show iprop(unscopedBufs c (VW W c) ∗ owes8 (F := F) c) = _
  rw [unscopedBufs_eq]

/-- The valuation after the region: the result at the 32 values. -/
def W1 : Valuation τ sig (Elt F) := Function.update W (Proc.devRef .tc main_v2) (res1 W)

theorem W1_v2 : W1 W (Proc.devRef .tc main_v2) = res1 W := Function.update_self ..
theorem W1_ne (b : DevRef τ sig) (h : b ≠ Proc.devRef .tc main_v2) : W1 W b = W b := Function.update_of_ne h ..

/-- The region's exit state is the unscoped buffers at the valuation after the region. -/
theorem post1_bufs [∀ e, Nonempty (Elt F e)] (c : Dev nD) :
    ((reg1 W lv).post c : sProp 𝕄) ⊢ iprop(unscopedBufs c (VW (W1 W) c) ∗ owes8 (F := F) c) := by
  show iprop((rdat1 W c).arraysAt cfg1.N ∗ Pipeline.unscopedRest spec1 c (VW W c) ∗ owes8 (F := F) c) ⊢ _
  rw [Pipeline.unscopedBufs_split (Pipeline.pin (pcfgs (F := F)) adm) 0 winFacts1.arr_unscoped winFacts1.arr_inj c (VW (W1 W) c),
    ← Pipeline.RDat.arrays_eq (pcfgs (F := F)) adm (rdatsA W) 0 c arr_whole1 ((rdat1 W c).share_full fun _ => rfl)
      (fun w => VW (W1 W) c (Pipeline.arrRef (Pipeline.pin (pcfgs (F := F)) adm 0).spec w))]
  rw [show Pipeline.unscopedRest (Ix := HIx 1) (Name := ℕ) (U := UU) (Lvl := ℕ) (Pipeline.pin (pcfgs (F := F)) adm 0).spec c (VW (W1 W) c)
    = Pipeline.unscopedRest (Ix := HIx 1) (Name := ℕ) (U := UU) (Lvl := ℕ) spec1 c (VW (W1 W) c) from rfl, unscopedRest1_eq, unscopedRest1_eq]
  show iprop((rdat1 W c).arraysAt cfg1.N ∗ _ ∗ _) ⊢ iprop(((rdat1 W c).arrays _ ∗ _) ∗ _)
  unfold Pipeline.RDat.arraysAt Pipeline.RDat.arrays
  rw [bigSep_W1, bigSep_W1]
  iintro ⟨⟨⟨%G0, %h0, H0⟩, ⟨%G1, %h1, H1⟩, ⟨%G2, %h2, H2⟩⟩, ⟨Ha0, Ha2, Hv1, Hv3, H40, H41, H42, H43⟩, HO⟩
  rw [Pipeline.RDat.ArrAt_in _ 0 rfl] at h0
  rw [Pipeline.RDat.ArrAt_in _ 1 rfl] at h1
  have e2 := arrAt1_2 W c G2 h2
  have e0 : G0 = VW (W1 W) c (Pipeline.arrRef spec1 0) := h0.trans (W1_ne W _ (by decide)).symm
  have e1 : G1 = VW (W1 W) c (Pipeline.arrRef spec1 1) := h1.trans (W1_ne W _ (by decide)).symm
  have e2' : G2 = VW (W1 W) c (Pipeline.arrRef spec1 2) := e2.trans (W1_v2 W).symm
  subst e0; subst e1; subst e2'
  simp only [VW, W1_ne W (Proc.devRef .tc main_arg0) (by decide), W1_ne W (Proc.devRef .tc main_arg2) (by decide),
    W1_ne W (Proc.devRef .tc main_v1) (by decide), W1_ne W (Proc.devRef .tc main_v3) (by decide),
    W1_ne W (Proc.devRef .tc main_v4_0) (by decide), W1_ne W (Proc.devRef .tc main_v4_1) (by decide),
    W1_ne W (Proc.devRef .tc main_v4_2) (by decide), W1_ne W (Proc.devRef .tc main_v4_3) (by decide)]
  isplitl [H0 H1 H2 Ha0 Ha2 Hv1 Hv3 H40 H41 H42 H43]
  · isplitl [H0 H1 H2]
    · isplitl [H0]; · iexact H0
      isplitl [H1]; · iexact H1
      iexact H2
    isplitl [Ha0]; · iexact Ha0
    isplitl [Ha2]; · iexact Ha2
    isplitl [Hv1]; · iexact Hv1
    isplitl [Hv3]; · iexact Hv3
    isplitl [H40]; · iexact H40
    isplitl [H41]; · iexact H41
    isplitl [H42]; · iexact H42
    iexact H43
  iexact HO

theorem post1_ent [∀ e, Nonempty (Elt F e)] (c : Dev nD) : ((reg1 W lv).post c : sProp 𝕄) ⊢ Post1 W c := by
  refine BIBase.Entails.trans (post1_bufs W lv c) ?_
  rw [unscopedBufs_eq (W1 W) c]
  simp only [W1_v2, W1_ne W (Proc.devRef .tc main_arg0) (by decide), W1_ne W (Proc.devRef .tc main_arg2) (by decide),
    W1_ne W (Proc.devRef .tc main_v0) (by decide), W1_ne W (Proc.devRef .tc main_arg1) (by decide),
    W1_ne W (Proc.devRef .tc main_v1) (by decide), W1_ne W (Proc.devRef .tc main_v3) (by decide),
    W1_ne W (Proc.devRef .tc main_v4_0) (by decide), W1_ne W (Proc.devRef .tc main_v4_1) (by decide),
    W1_ne W (Proc.devRef .tc main_v4_2) (by decide), W1_ne W (Proc.devRef .tc main_v4_3) (by decide)]
  iintro ⟨⟨H8, H3⟩, HO⟩
  isplitl [H8]; · iexact H8
  isplitl [H3]; · iexact H3
  iexact HO

/-! ## The call as @main spells it -/

set_option backward.isDefEq.respectTransparency.types false in
set_option maxHeartbeats 2000000 in
/-- The reduce call under the SparseCore program's body table, between the region record's states. -/
theorem wp_region1 [∀ e, Nonempty (Elt F e)] (d : Dev nD) (Φ : PUnit → sProp 𝕄) :
    iprop((iprop(boundary (T d) ∗ (reg1 W lv).post d) -∗ Φ ⟨⟩)
        ∗ boundary (T d) ∗ (reg1 W lv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  rw [← lift_entry (F := F) 0]
  refine BIBase.Entails.trans ?_ ((K (F := F)).wp_liftProg (D (F := F)) 𝒱 (T d) Set.univ none _ Φ)
  refine BIBase.Entails.trans ?_ (wp_region1_D W lv d Prog.ret Φ)
  iintro ⟨Hk, Hrest⟩
  isplitl [Hk]
  · iintro H
    rw [wp_ret]
    imodintro
    iapply Hk; iexact H
  iexact Hrest

/-- **The reduce region inside @main.** From the region boundary, the buffers whole at the valuation `W`, the level
    facts and the reduce pipeline's staging-cell ghost state, the call runs to the boundary and the buffers with
    `main_v2` at `res1 W`. -/
theorem wp_reduce [∀ e, Nonempty (Elt F e)] (d : Dev nD) (Φ : PUnit → sProp 𝕄) :
    iprop((iprop(boundary (T d) ∗ Post1 W d) -∗ Φ ⟨⟩)
        ∗ boundary (T d) ∗ Pre1 W d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Φ := by
  refine BIBase.Entails.trans ?_ (wp_region1 W lv d Φ)
  rw [pre1_eq]
  iintro ⟨Hk, Hrest⟩
  isplitl [Hk]
  · iintro ⟨Hb, Hp⟩
    iapply Hk
    isplitl [Hb]; · iexact Hb
    iapply (post1_ent W lv d); iexact Hp
  iexact Hrest

end Cert.Kernel.Sc

end
-- ==== Proof.Bits.ScMain.lean ====
/-
  @main on the TensorCore and the launch. @main transposes z, starts the SparseCore call and waits for it (the 32 tiles
  each leave their row of the partials), runs the reduce region over the other 32 batch entries, reshapes the
  observation count, and runs the epilogue region. The launch element funds the handshakes' rounds and both pipelines'
  staging cells; the kernel's own protocol needs nothing of it. What the run leaves: the three arguments unchanged.
-/
import proofs.«217460_g7679401525743_retrytranche1_990_34_alg».proof.Proof.Bits.ScTile
import proofs.«217460_g7679401525743_retrytranche1_990_34_alg».proof.Proof.Bits.ScDeal
import proofs.«217460_g7679401525743_retrytranche1_990_34_alg».proof.Proof.Bits.TcReduce

noncomputable section

namespace Cert.Kernel.Sc

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## The arrays' contents along @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev o0' : DevRef τ sig := Proc.devRef .tc (main_v4_0 : Ref sig .tc)
abbrev o1' : DevRef τ sig := Proc.devRef .tc (main_v4_1 : Ref sig .tc)
abbrev o2' : DevRef τ sig := Proc.devRef .tc (main_v4_2 : Ref sig .tc)
abbrev o3' : DevRef τ sig := Proc.devRef .tc (main_v4_3 : Ref sig .tc)

/-- The transposition z ↦ z^T and the reshape of the observation count, as @main's host operations. -/
abbrev opT : HloOp τ sig (Elt F) :=
  StableHlo.unary main_arg0 main_v0 ((transpose S64x3x128x1024 [0, 3, 1, 2] · transposes_S64x128x1024x3_S64x3x128x1024_0_3_1_2) : (⟨S64x128x1024x3, .f32⟩ : BufTy).Contents (Elt F) → (⟨S64x3x128x1024, .f32⟩ : BufTy).Contents (Elt F))
abbrev opR : HloOp τ sig (Elt F) := StableHlo.reshape main_arg2 main_v3 rfl shapeCasts_S_S1

/-- The launch valuation; after the transposition. -/
def V0 (d : Dev nD) : Valuation τ sig (Elt F) := fun b => m (d, b)
def V1 (d : Dev nD) : Valuation τ sig (Elt F) := (opT (F := F)).result (V0 m d)

/-- z^T, R and the partials' launch contents, as the SparseCore call is handed them. -/
abbrev ztOf (d : Dev nD) : Buf (Elt F) (zLoc d) := V1 m d v0'
abbrev rOf (d : Dev nD) : Buf (Elt F) (rLoc d) := m (d, a1')
abbrev pOf (d : Dev nD) : Buf (Elt F) (pLoc d) := m (d, v1')

abbrev PP : (K (F := F)).Pay (nD := nD) (Val := Elt F) (Name := ℕ) (U := UU) := P (ztOf m) (rOf m) (pOf m)

/-- After the SparseCore call (the partials at what the tiles left), after the reduce region, after the reshape. -/
def V2 (d : Dev nD) (fp : Buf (Elt F) (pLoc d)) : Valuation τ sig (Elt F) := Function.update (V1 m d) v1' fp
def V3 (d : Dev nD) (fp : Buf (Elt F) (pLoc d)) : Valuation τ sig (Elt F) := Function.update (V2 m d fp) v2' (res1 (F := F) (V2 m d fp))
def V4 (d : Dev nD) (fp : Buf (Elt F) (pLoc d)) : Valuation τ sig (Elt F) := (opR (F := F)).result (V3 m d fp)

theorem V1_a0 (d : Dev nD) : V1 m d a0' = m (d, a0') := (opT (F := F)).result_of_not_mem (V0 m d) (b := a0') (show a0' ∉ ({v0'} : Finset (DevRef τ sig)) by decide)
theorem V1_a1 (d : Dev nD) : V1 m d a1' = m (d, a1') := (opT (F := F)).result_of_not_mem (V0 m d) (b := a1') (show a1' ∉ ({v0'} : Finset (DevRef τ sig)) by decide)
theorem V1_a2 (d : Dev nD) : V1 m d a2' = m (d, a2') := (opT (F := F)).result_of_not_mem (V0 m d) (b := a2') (show a2' ∉ ({v0'} : Finset (DevRef τ sig)) by decide)
theorem V1_v1 (d : Dev nD) : V1 m d v1' = m (d, v1') := (opT (F := F)).result_of_not_mem (V0 m d) (b := v1') (show v1' ∉ ({v0'} : Finset (DevRef τ sig)) by decide)
theorem V1_v2 (d : Dev nD) : V1 m d v2' = m (d, v2') := (opT (F := F)).result_of_not_mem (V0 m d) (b := v2') (show v2' ∉ ({v0'} : Finset (DevRef τ sig)) by decide)
theorem V1_v3 (d : Dev nD) : V1 m d v3' = m (d, v3') := (opT (F := F)).result_of_not_mem (V0 m d) (b := v3') (show v3' ∉ ({v0'} : Finset (DevRef τ sig)) by decide)
theorem V1_o0 (d : Dev nD) : V1 m d o0' = m (d, o0') := (opT (F := F)).result_of_not_mem (V0 m d) (b := o0') (show o0' ∉ ({v0'} : Finset (DevRef τ sig)) by decide)
theorem V1_o1 (d : Dev nD) : V1 m d o1' = m (d, o1') := (opT (F := F)).result_of_not_mem (V0 m d) (b := o1') (show o1' ∉ ({v0'} : Finset (DevRef τ sig)) by decide)
theorem V1_o2 (d : Dev nD) : V1 m d o2' = m (d, o2') := (opT (F := F)).result_of_not_mem (V0 m d) (b := o2') (show o2' ∉ ({v0'} : Finset (DevRef τ sig)) by decide)
theorem V1_o3 (d : Dev nD) : V1 m d o3' = m (d, o3') := (opT (F := F)).result_of_not_mem (V0 m d) (b := o3') (show o3' ∉ ({v0'} : Finset (DevRef τ sig)) by decide)
theorem V2_a0 (d : Dev nD) (fp : Buf (Elt F) (pLoc d)) : V2 m d fp a0' = m (d, a0') := (Function.update_of_ne (show a0' ≠ v1' by decide) _ _).trans (V1_a0 m d)
theorem V2_a1 (d : Dev nD) (fp : Buf (Elt F) (pLoc d)) : V2 m d fp a1' = m (d, a1') := (Function.update_of_ne (show a1' ≠ v1' by decide) _ _).trans (V1_a1 m d)
theorem V2_a2 (d : Dev nD) (fp : Buf (Elt F) (pLoc d)) : V2 m d fp a2' = m (d, a2') := (Function.update_of_ne (show a2' ≠ v1' by decide) _ _).trans (V1_a2 m d)
theorem V2_v0 (d : Dev nD) (fp : Buf (Elt F) (pLoc d)) : V2 m d fp v0' = V1 m d v0' := Function.update_of_ne (show v0' ≠ v1' by decide) _ _
theorem V2_v1 (d : Dev nD) (fp : Buf (Elt F) (pLoc d)) : V2 m d fp v1' = fp := Function.update_self _ _ _
theorem V2_v2 (d : Dev nD) (fp : Buf (Elt F) (pLoc d)) : V2 m d fp v2' = m (d, v2') := (Function.update_of_ne (show v2' ≠ v1' by decide) _ _).trans (V1_v2 m d)
theorem V2_v3 (d : Dev nD) (fp : Buf (Elt F) (pLoc d)) : V2 m d fp v3' = m (d, v3') := (Function.update_of_ne (show v3' ≠ v1' by decide) _ _).trans (V1_v3 m d)
theorem V2_o0 (d : Dev nD) (fp : Buf (Elt F) (pLoc d)) : V2 m d fp o0' = m (d, o0') := (Function.update_of_ne (show o0' ≠ v1' by decide) _ _).trans (V1_o0 m d)
theorem V2_o1 (d : Dev nD) (fp : Buf (Elt F) (pLoc d)) : V2 m d fp o1' = m (d, o1') := (Function.update_of_ne (show o1' ≠ v1' by decide) _ _).trans (V1_o1 m d)
theorem V2_o2 (d : Dev nD) (fp : Buf (Elt F) (pLoc d)) : V2 m d fp o2' = m (d, o2') := (Function.update_of_ne (show o2' ≠ v1' by decide) _ _).trans (V1_o2 m d)
theorem V2_o3 (d : Dev nD) (fp : Buf (Elt F) (pLoc d)) : V2 m d fp o3' = m (d, o3') := (Function.update_of_ne (show o3' ≠ v1' by decide) _ _).trans (V1_o3 m d)
theorem V3_a0 (d : Dev nD) (fp : Buf (Elt F) (pLoc d)) : V3 m d fp a0' = m (d, a0') := (Function.update_of_ne (show a0' ≠ v2' by decide) _ _).trans (V2_a0 m d fp)
theorem V3_a1 (d : Dev nD) (fp : Buf (Elt F) (pLoc d)) : V3 m d fp a1' = m (d, a1') := (Function.update_of_ne (show a1' ≠ v2' by decide) _ _).trans (V2_a1 m d fp)
theorem V3_a2 (d : Dev nD) (fp : Buf (Elt F) (pLoc d)) : V3 m d fp a2' = m (d, a2') := (Function.update_of_ne (show a2' ≠ v2' by decide) _ _).trans (V2_a2 m d fp)
theorem V3_v0 (d : Dev nD) (fp : Buf (Elt F) (pLoc d)) : V3 m d fp v0' = V1 m d v0' := (Function.update_of_ne (show v0' ≠ v2' by decide) _ _).trans (V2_v0 m d fp)
theorem V3_v1 (d : Dev nD) (fp : Buf (Elt F) (pLoc d)) : V3 m d fp v1' = fp := (Function.update_of_ne (show v1' ≠ v2' by decide) _ _).trans (V2_v1 m d fp)
theorem V3_v2 (d : Dev nD) (fp : Buf (Elt F) (pLoc d)) : V3 m d fp v2' = res1 (F := F) (V2 m d fp) := Function.update_self _ _ _
theorem V3_v3 (d : Dev nD) (fp : Buf (Elt F) (pLoc d)) : V3 m d fp v3' = m (d, v3') := (Function.update_of_ne (show v3' ≠ v2' by decide) _ _).trans (V2_v3 m d fp)
theorem V3_o0 (d : Dev nD) (fp : Buf (Elt F) (pLoc d)) : V3 m d fp o0' = m (d, o0') := (Function.update_of_ne (show o0' ≠ v2' by decide) _ _).trans (V2_o0 m d fp)
theorem V3_o1 (d : Dev nD) (fp : Buf (Elt F) (pLoc d)) : V3 m d fp o1' = m (d, o1') := (Function.update_of_ne (show o1' ≠ v2' by decide) _ _).trans (V2_o1 m d fp)
theorem V3_o2 (d : Dev nD) (fp : Buf (Elt F) (pLoc d)) : V3 m d fp o2' = m (d, o2') := (Function.update_of_ne (show o2' ≠ v2' by decide) _ _).trans (V2_o2 m d fp)
theorem V3_o3 (d : Dev nD) (fp : Buf (Elt F) (pLoc d)) : V3 m d fp o3' = m (d, o3') := (Function.update_of_ne (show o3' ≠ v2' by decide) _ _).trans (V2_o3 m d fp)
theorem V4_a0 (d : Dev nD) (fp : Buf (Elt F) (pLoc d)) : V4 m d fp a0' = m (d, a0') := ((opR (F := F)).result_of_not_mem (V3 m d fp) (b := a0') (show a0' ∉ ({v3'} : Finset (DevRef τ sig)) by decide)).trans (V3_a0 m d fp)
theorem V4_a1 (d : Dev nD) (fp : Buf (Elt F) (pLoc d)) : V4 m d fp a1' = m (d, a1') := ((opR (F := F)).result_of_not_mem (V3 m d fp) (b := a1') (show a1' ∉ ({v3'} : Finset (DevRef τ sig)) by decide)).trans (V3_a1 m d fp)
theorem V4_a2 (d : Dev nD) (fp : Buf (Elt F) (pLoc d)) : V4 m d fp a2' = m (d, a2') := ((opR (F := F)).result_of_not_mem (V3 m d fp) (b := a2') (show a2' ∉ ({v3'} : Finset (DevRef τ sig)) by decide)).trans (V3_a2 m d fp)
theorem V4_v0 (d : Dev nD) (fp : Buf (Elt F) (pLoc d)) : V4 m d fp v0' = V1 m d v0' := ((opR (F := F)).result_of_not_mem (V3 m d fp) (b := v0') (show v0' ∉ ({v3'} : Finset (DevRef τ sig)) by decide)).trans (V3_v0 m d fp)
theorem V4_v1 (d : Dev nD) (fp : Buf (Elt F) (pLoc d)) : V4 m d fp v1' = fp := ((opR (F := F)).result_of_not_mem (V3 m d fp) (b := v1') (show v1' ∉ ({v3'} : Finset (DevRef τ sig)) by decide)).trans (V3_v1 m d fp)
theorem V4_v2 (d : Dev nD) (fp : Buf (Elt F) (pLoc d)) : V4 m d fp v2' = res1 (F := F) (V2 m d fp) := ((opR (F := F)).result_of_not_mem (V3 m d fp) (b := v2') (show v2' ∉ ({v3'} : Finset (DevRef τ sig)) by decide)).trans (V3_v2 m d fp)
theorem V4_o0 (d : Dev nD) (fp : Buf (Elt F) (pLoc d)) : V4 m d fp o0' = m (d, o0') := ((opR (F := F)).result_of_not_mem (V3 m d fp) (b := o0') (show o0' ∉ ({v3'} : Finset (DevRef τ sig)) by decide)).trans (V3_o0 m d fp)
theorem V4_o1 (d : Dev nD) (fp : Buf (Elt F) (pLoc d)) : V4 m d fp o1' = m (d, o1') := ((opR (F := F)).result_of_not_mem (V3 m d fp) (b := o1') (show o1' ∉ ({v3'} : Finset (DevRef τ sig)) by decide)).trans (V3_o1 m d fp)
theorem V4_o2 (d : Dev nD) (fp : Buf (Elt F) (pLoc d)) : V4 m d fp o2' = m (d, o2') := ((opR (F := F)).result_of_not_mem (V3 m d fp) (b := o2') (show o2' ∉ ({v3'} : Finset (DevRef τ sig)) by decide)).trans (V3_o2 m d fp)
theorem V4_o3 (d : Dev nD) (fp : Buf (Elt F) (pLoc d)) : V4 m d fp o3' = m (d, o3') := ((opR (F := F)).result_of_not_mem (V3 m d fp) (b := o3') (show o3' ∉ ({v3'} : Finset (DevRef τ sig)) by decide)).trans (V3_o3 m d fp)

omit [FloatOps F] in
theorem held2 (d : Dev nD) (x y : DevRef τ sig) (h : x ≠ y) (W : Valuation τ sig (Elt F)) :
    (held (T d) {x, y} W : sProp 𝕄) = iprop(((d, x) ↦{fullShare} W x) ∗ ((d, y) ↦{fullShare} W y)) := by
  unfold held
  rw [SparseCore.bigSep_insert' (by simpa using h), bigSep_singleton]

/-! ## The launch element -/

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghost2 (F := F) d)
        ∗ bigSep Finset.univ fun thr : Thread nD τ => bigSep Finset.univ fun q : Fin 1 => (PP m).x q thr) := by
  iintro Hu
  ihave H := (ownU_split (F := F)) $$ Hu
  icases H with ⟨HH, HP⟩
  imod (fundP (F := F)) $$ HP with Hg
  imodintro
  isplitl [HH]; · iexact HH
  isplitl [Hg]; · iexact Hg
  unfold PP P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

/-- What @main leaves the claim: the three arguments at their launch contents. -/
abbrev FIN (d : Dev nD) : sProp 𝕄 :=
  iprop(pt d main_arg0 (m ((SparseCore.T d).loc main_arg0)) ∗ pt d main_arg1 (m ((SparseCore.T d).loc main_arg1)) ∗ pt d main_arg2 (m ((SparseCore.T d).loc main_arg2)))

omit [FloatOps F] in
/-- A whole points-to fact at equal contents. -/
theorem pt_congr (d : Dev nD) (b : Ref sig .tc) {f g : Buf (Elt F) ((d : Thread nD τ).loc b)} (h : f = g) : (pt d b f : sProp 𝕄) ⊢ pt d b g := Entails.of_eq (h ▸ rfl)

omit [FloatOps F] in
/-- After the call the TensorCore owes nothing: its handshake state is that fact and a remainder. -/
theorem tcSt_owes (d : Dev nD) : ∃ R : sProp 𝕄, ((K (F := F)).tcSt EH d 1 : sProp 𝕄) = iprop(owes8 (F := F) d ∗ R) :=
  ⟨_, by unfold SparseCore.Cfg.tcSt; rw [(K (F := F)).Otc_end d le_rfl]⟩

theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ ghost2 (F := F) d)
      ⊢ wp frame (wpE ((K (F := F)).defs (D (F := F))) 𝒱 (SparseCore.T d) none) Set.univ (main d)
          fun _ => iprop((K (F := F)).tcSt EH d 1 ∗ FIN m d) := by
  have hlv : ((K (F := F)).ctx EH (PP m) κ : sProp 𝕄) ⊢ levAts (K (F := F)).L (K (F := F)).lev := by
    unfold SparseCore.Cfg.ctx; exact sep_elim_left
  obtain ⟨R, hR⟩ := tcSt_owes (F := F) d
  unfold SparseCore.Cfg.tcRes
  rw [show (unscopedBufs d (fun b => m ((SparseCore.T d).loc b)) : sProp 𝕄) = unscopedBufs d (VW (V0 m d) d) from rfl,
    unscopedBufs_eq (V0 m d) d, ghost2_split]
  simp only [main, wp_bind, wp_pure]
  iintro ⟨#Hctx, Hst, ⟨Hb, ⟨⟨Hv1, Hv2, Ha1, Hv3, Ho0, Ho1, Ho2, Ho3⟩, Ha0, Ha2, Hv0⟩, -, -⟩, ⟨Hc0, Ht0⟩, ⟨Hc1, Ht1⟩⟩
  ihave #Hlv := hlv $$ Hctx
  -- the transposition
  iapply (wp_hlo_within 𝒱 (SparseCore.T d) none Set.univ (op := opT (F := F)) (S := {a0', v0'}) (show ({a0', v0'} : Finset (DevRef τ sig)) ⊆ {a0', v0'} from Finset.Subset.refl _) (V := V0 m d)) $$ [Hb Ha0 Hv0]
  · isplitl [Hb]; · iexact Hb
    rw [held2 d a0' v0' (by decide)]
    isplitl [Ha0]; · iexact Ha0
    iexact Hv0
  iintro ⟨Hb, Hheld⟩
  ihave Hh := (Entails.of_eq (held2 (F := F) d a0' v0' (by decide) _)) $$ Hheld
  icases Hh with ⟨Ha0, Hv0⟩
  rw [wp_ret]; imodintro
  -- the SparseCore call: z^T, R and the partials dealt to the 32 tiles and gathered back
  ihave Hd := (deal (ztOf m) (rOf m) (pOf m) d) $$ [Hv0 Ha1 Hv1]
  · isplitl [Hv0]; · iexact Hv0
    isplitl [Ha1]; · iexact Ha1
    iexact Hv1
  icases Hd with ⟨Hzr, Hrr, Hst0⟩
  iapply ((K (F := F)).wp_run (D (F := F)) 𝒱 (EH := EH) (P := PP m) κ d 0) $$ [Hst Hst0 Hb Hzr Hrr Ha0 Ha2 Hv2 Hv3 Ho0 Ho1 Ho2 Ho3 Hc0 Ht0 Hc1 Ht1]
  isplitr; · iexact Hctx
  isplitl [Hst]; · iexact Hst
  isplitl [Hst0]; · iexact Hst0
  iintro ⟨Hst, Hdn⟩
  ihave Hg := (gather (ztOf m) (rOf m) (pOf m) d) $$ [Hzr Hrr Hdn]
  · isplitl [Hzr]; · iexact Hzr
    isplitl [Hrr]; · iexact Hrr
    iexact Hdn
  icases Hg with ⟨Hv0, Ha1, %fp, Hv1⟩
  ihave Hst := (Entails.of_eq (show ((K (F := F)).tcSt EH d ((0 : Fin 1).val + 1) : sProp 𝕄) = (K (F := F)).tcSt EH d 1 from rfl)) $$ Hst
  ihave Hst' := (Entails.of_eq hR) $$ Hst
  icases Hst' with ⟨HO8, HR⟩
  -- the reduce region, at the contents after the call
  iapply (wp_reduce (V2 m d fp) (K (F := F)).lev d _) $$ [Hb Hv1 Hv2 Ha1 Hv3 Ho0 Ho1 Ho2 Ho3 Ha0 Ha2 Hv0 HO8 Hc0 Ht0 HR Hc1 Ht1]
  isplitr [Hb Hv1 Hv2 Ha1 Hv3 Ho0 Ho1 Ho2 Ho3 Ha0 Ha2 Hv0 HO8 Hc0 Ht0]
  swap
  · isplitl [Hb]; · iexact Hb
    isplitl [Hv1 Hv2 Ha1 Hv3 Ho0 Ho1 Ho2 Ho3 Ha0 Ha2 Hv0 HO8]
    · unfold Pre1 Pre2
      rw [V2_v1, V2_v2, V2_a1, V2_v3, V2_o0, V2_o1, V2_o2, V2_o3, V2_a0, V2_a2, V2_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc0]; · iexact Hc0
    iexact Ht0
  iintro ⟨Hb, H1⟩
  icases H1 with ⟨⟨Hv1, Hv2, Ha1, Hv3, Ho0, Ho1, Ho2, Ho3⟩, ⟨Ha0, Ha2, Hv0⟩, HO8⟩
  ihave Ha0 := (pt_congr d main_arg0 (V2_a0 m d fp)) $$ Ha0
  ihave Ha1 := (pt_congr d main_arg1 (V2_a1 m d fp)) $$ Ha1
  ihave Ha2 := (pt_congr d main_arg2 (V2_a2 m d fp)) $$ Ha2
  ihave Hv0 := (pt_congr d main_v0 (V2_v0 m d fp)) $$ Hv0
  ihave Hv1 := (pt_congr d main_v1 (V2_v1 m d fp)) $$ Hv1
  ihave Hv3 := (pt_congr d main_v3 (V2_v3 m d fp)) $$ Hv3
  ihave Ho0 := (pt_congr d main_v4_0 (V2_o0 m d fp)) $$ Ho0
  ihave Ho1 := (pt_congr d main_v4_1 (V2_o1 m d fp)) $$ Ho1
  ihave Ho2 := (pt_congr d main_v4_2 (V2_o2 m d fp)) $$ Ho2
  ihave Ho3 := (pt_congr d main_v4_3 (V2_o3 m d fp)) $$ Ho3
  -- the reshape of the observation count
  iapply (wp_hlo_within 𝒱 (SparseCore.T d) none Set.univ (op := opR (F := F)) (S := {a2', v3'}) (show ({a2', v3'} : Finset (DevRef τ sig)) ⊆ {a2', v3'} from Finset.Subset.refl _) (V := V3 m d fp)) $$ [Hb Ha2 Hv3]
  · isplitl [Hb]; · iexact Hb
    rw [held2 d a2' v3' (by decide), V3_a2, V3_v3]
    isplitl [Ha2]; · iexact Ha2
    iexact Hv3
  iintro ⟨Hb, Hheld⟩
  ihave Hh := (Entails.of_eq (held2 (F := F) d a2' v3' (by decide) _)) $$ Hheld
  icases Hh with ⟨Ha2, Hv3⟩
  ihave Ha2 := (Entails.of_eq (show ((((d, a2') : Loc nD τ sig) ↦{fullShare} (opR (F := F)).result (V3 m d fp) a2') : sProp 𝕄) = pt d main_arg2 (V4 m d fp a2') from rfl)) $$ Ha2
  ihave Ha2 := (pt_congr d main_arg2 (V4_a2 m d fp)) $$ Ha2
  rw [wp_ret]; imodintro
  -- the epilogue region, at the contents after the reshape
  iapply (wp_epilogue (V4 m d fp) (K (F := F)).lev d _) $$ [Hb Hv1 Hv2 Ha1 Hv3 Ho0 Ho1 Ho2 Ho3 Ha0 Ha2 Hv0 HO8 Hc1 Ht1 HR]
  isplitr [Hb Hv1 Hv2 Ha1 Hv3 Ho0 Ho1 Ho2 Ho3 Ha0 Ha2 Hv0 HO8 Hc1 Ht1]
  swap
  · isplitl [Hb]; · iexact Hb
    isplitl [Hv1 Hv2 Ha1 Hv3 Ho0 Ho1 Ho2 Ho3 Ha0 Ha2 Hv0 HO8]
    · unfold Pre2
      rw [V4_v1, V4_v2, V4_a1, V4_o0, V4_o1, V4_o2, V4_o3, V4_a0, V4_a2, V4_v0]
      isplitl [Hv1 Hv2 Ha1 Hv3 Ho0 Ho1 Ho2 Ho3 Ha0 Ha2 Hv0]
      · isplitl [Hv1 Hv2 Ha1 Hv3 Ho0 Ho1 Ho2 Ho3]
        · isplitl [Hv1]; · iexact Hv1
          isplitl [Hv2]; · iexact Hv2
          isplitl [Ha1]; · iexact Ha1
          isplitl [Hv3]; · iexact Hv3
          isplitl [Ho0]; · iexact Ho0
          isplitl [Ho1]; · iexact Ho1
          isplitl [Ho2]; · iexact Ho2
          iexact Ho3
        · isplitl [Ha0]; · iexact Ha0
          isplitl [Ha2]; · iexact Ha2
          iexact Hv0
      · iexact HO8
    isplitr; · iexact Hlv
    isplitl [Hc1]; · iexact Hc1
    iexact Ht1
  iintro ⟨Hb, H2⟩
  icases H2 with ⟨⟨Hv1, Hv2, Ha1, Hv3, Ho0, Ho1, Ho2, Ho3⟩, ⟨Ha0, Ha2, Hv0⟩, HO8⟩
  ihave Ha0 := (pt_congr d main_arg0 (V4_a0 m d fp)) $$ Ha0
  ihave Ha1 := (pt_congr d main_arg1 (V4_a1 m d fp)) $$ Ha1
  ihave Ha2 := (pt_congr d main_arg2 (V4_a2 m d fp)) $$ Ha2
  imodintro
  isplitl [HO8 HR]
  · iapply (Entails.of_eq hR.symm)
    isplitl [HO8]; · iexact HO8
    iexact HR
  isplitl [Ha0]; · iexact Ha0
  isplitl [Ha1]; · iexact Ha1
  iexact Ha2

def fq (d : Dev nD) (s' : Phys nD τ sig (Elt F)) : Prop :=
  s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)

theorem hfin (d : Dev nD) (s' : Phys nD τ sig (Elt F)) : iprop(FIN m d ∗ SI s') ⊢ (⌜fq m d s'⌝ : sProp 𝕄) := by
  iintro ⟨⟨H0, H1, H2⟩, HSI⟩
  icombine HSI H0 gives %h0
  icombine HSI H1 gives %h1
  icombine HSI H2 gives %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => tileObl (ztOf m) (rOf m) (pOf m) facts)
    (fun q _ => match q with | 0 => SparseCore.Cfg.VecSplit.of_plain (vecSplit (ztOf m) (rOf m) (pOf m)))
    m ρ main (fun d => ghost2 (F := F) d) (FIN m) (u₀ (F := F)) (sep_elim_left.trans (hu₀ m)) (hmain m ρ) (fq m) (hfin m) (QC m) (fun _ h => h)

end Cert.Kernel.Sc

end
-- ==== Proof.lean ====
/-
  The five claims of the certificate. The kernel computes, for 64 batch entries, the raw score
    raw_b = Σ_{p,q} [ |z_bpq|² < T ] · exp(−|z_bpq|² / (2 R_b²))
  — entries 0..31 on the vector subcores (each tile adds its entry's weights lane by lane; the epilogue adds the sixteen
  lanes), entries 32..63 in a TensorCore reduction — and from it, with λ_b = T / (2 R_b²), the mean n·(1 − e^{−λ})/λ, the
  variance n·((1 − e^{−2λ})/(2λ) − ((1 − e^{−λ})/λ)²) and the objective raw − mean − 1 + √variance. Over the extended
  reals the reference computes the same four functions of (z, R, n): sums may be regrouped freely (addition of extended
  reals is commutative and associative), −½/(R²) is −½·(1/R²) also at R = 0, the kernel's constant T/2 is exactly half
  the reference's T, and 0 − λ is −λ. No law used needs the inputs finite.
  The frames: both programs run to the end with their arguments unchanged, the kernel's through the SparseCore launch
  (the tiles' task, @main's two TensorCore regions), the reference's by its straight-line run.
-/
import proofs.«217460_g7679401525743_retrytranche1_990_34_alg».proof.Defs
import proofs.«217460_g7679401525743_retrytranche1_990_34_alg».proof.Proof.Gen.Kernel
import proofs.«217460_g7679401525743_retrytranche1_990_34_alg».proof.Proof.Gen.KernelIdeal
import proofs.«217460_g7679401525743_retrytranche1_990_34_alg».proof.Proof.Gen.ReferenceIdeal
import proofs.«217460_g7679401525743_retrytranche1_990_34_alg».proof.Proof.Gen.Pre_finite_inputs
import proofs.«217460_g7679401525743_retrytranche1_990_34_alg».proof.Proof.RefScore
import proofs.«217460_g7679401525743_retrytranche1_990_34_alg».proof.Proof.ScMainV
import proofs.«217460_g7679401525743_retrytranche1_990_34_alg».proof.Proof.Bits.ScMain

noncomputable section

namespace Cert.Proof

open Idealize.ShloMosaic Idealize.SL.Sem

/-- The kernel as printed runs to the end, its arguments unchanged. -/
theorem frame_k : Cert.frame_Kernel := fun m ρ _ =>
  (θ_run Cert.Kernel.defs _ _).mono (fun _ h c => h c) (Cert.Kernel.Sc.run_main (F := Bits) m ρ)

/-- The idealized kernel runs to the end, its arguments unchanged: its run with the results named, the results dropped. -/
theorem frame_ki : Cert.frame_KernelIdeal := fun m ρ _ =>
  (θ_run Cert.KernelIdeal.defs _ _).mono (fun _ h c => ⟨(h c).2.2.2.2.1, (h c).2.2.2.2.2.1, (h c).2.2.2.2.2.2⟩)
    (Cert.KernelIdeal.Sc.run_mainV m ρ)

/-- The reference runs to the end, its arguments unchanged: its run with the results dropped. -/
theorem frame_r : Cert.frame_ReferenceIdeal := fun m ρ _ =>
  (θ_run Cert.ReferenceIdeal.defs _ _).mono (fun _ h c => (h c).2.2.2.2) (Cert.RefScore.run m ρ)

/-- The ideal pass rewrote nothing. -/
theorem preserves : Cert.preserves_Kernel_KernelIdeal := trivial

/-- Both idealized programs end with the specification's four functions of the arguments in their four results. -/
theorem algebraic : Cert.algebraic_KernelIdeal_ReferenceIdeal := by
  intro m ρ m' ρ' _ hagree
  refine ⟨fun c => Cert.Score.raw (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.Score.mu (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Score.sigma2 (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Score.obj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Sc.run_mainV m ρ, ?_⟩
  refine (θ_run Cert.ReferenceIdeal.defs _ _).mono (fun _ h c => ?_) (Cert.RefScore.run m' ρ')
  obtain ⟨h0, h1, h2, h3, h4, h5, h6⟩ := h c
  rw [(hagree c).1, (hagree c).2.1] at h0
  rw [(hagree c).2.1, (hagree c).2.2] at h1 h2
  rw [(hagree c).1, (hagree c).2.1, (hagree c).2.2] at h3
  exact ⟨h0, h1, h2, h3, h4, h5, h6⟩

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
